-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part7 {F : FTy → Type} [FloatOps F] (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  main_v123

def fn_part6 {F : FTy → Type} [FloatOps F] (main_arg21 : FVec F S1024x4096 .f32) (main_arg22 : FVec F S1024 .f32) (main_arg23 : FVec F S1024 .f32) (main_arg24 : FVec F S1024 .f32) (main_v98 : IVec S_ 1) (main_v101 : IVec S1024x4096 1) (main_c_39 : IVec S_ 1) : IVec S_ 1 :=
  let main_v102 : IVec S_ 1 := (fun x v => Host.reduce IntOp.andi x v reducesTo_S1024x4096_S_d0_1 h_S_) main_v101 main_c_39
  let main_v103 : IVec S_ 1 := andi main_v98 main_v102
  let main_v104 : FVec F S1024x4096 .f32 := Host.absf main_arg21
  let main_cst_40 : FVec F S_ .f32 := constant S_ .f32 0x7F800000#32
  let main_v105 : FVec F S1024x4096 .f32 := broadcastInDim S1024x4096 ![] bcast_S_S1024x4096 main_cst_40
  let main_v106 : IVec S1024x4096 1 := cmpf .olt main_v104 main_v105
  let main_c_41 : IVec S_ 1 := constantI S_ 1 1#1
  let main_v107 : IVec S_ 1 := (fun x v => Host.reduce IntOp.andi x v reducesTo_S1024x4096_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024 .f32 := Host.absf main_arg24
  fn_part7 (F := F) main_v118 main_v119

def fn_part5 {F : FTy → Type} [FloatOps F] (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  let main_v94 : FVec F S1024x4096 .f32 := Host.absf main_arg19
  let main_cst_36 : FVec F S_ .f32 := constant S_ .f32 0x7F800000#32
  let main_v95 : FVec F S1024x4096 .f32 := broadcastInDim S1024x4096 ![] bcast_S_S1024x4096 main_cst_36
  let main_v96 : IVec S1024x4096 1 := cmpf .olt main_v94 main_v95
  let main_c_37 : IVec S_ 1 := constantI S_ 1 1#1
  let main_v97 : IVec S_ 1 := (fun x v => Host.reduce IntOp.andi x v reducesTo_S1024x4096_S_d0_1 h_S_) main_v96 main_c_37
  let main_v98 : IVec S_ 1 := andi main_v93 main_v97
  let main_v99 : FVec F S1024x4096 .f32 := Host.absf main_arg20
  let main_cst_38 : FVec F S_ .f32 := constant S_ .f32 0x7F800000#32
  let main_v100 : FVec F S1024x4096 .f32 := broadcastInDim S1024x4096 ![] bcast_S_S1024x4096 main_cst_38
  let main_v101 : IVec S1024x4096 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S4096x4096 .f32) (main_arg15 : FVec F S4096x4096 .f32) (main_arg16 : FVec F S4096 .f32) (main_arg17 : FVec F S4096 .f32) (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) (main_v63 : IVec S_ 1) (main_v67 : IVec S_ 1) : IVec S_ 1 :=
  let main_v68 : IVec S_ 1 := andi main_v63 main_v67
  let main_v69 : FVec F S4096x4096 .f32 := Host.absf main_arg14
  let main_cst_26 : FVec F S_ .f32 := constant S_ .f32 0x7F800000#32
  let main_v70 : FVec F S4096x4096 .f32 := broadcastInDim S4096x4096 ![] bcast_S_S4096x4096 main_cst_26
  let main_v71 : IVec S4096x4096 1 := cmpf .olt main_v69 main_v70
  let main_c_27 : IVec S_ 1 := constantI S_ 1 1#1
  let main_v72 : IVec S_ 1 := (fun x v => Host.reduce IntOp.andi x v reducesTo_S4096x4096_S_d0_1 h_S_) main_v71 main_c_27
  let main_v73 : IVec S_ 1 := andi main_v68 main_v72
  let main_v74 : FVec F S4096x4096 .f32 := Host.absf main_arg15
  let main_cst_28 : FVec F S_ .f32 := constant S_ .f32 0x7F800000#32
  let main_v75 : FVec F S4096x4096 .f32 := broadcastInDim S4096x4096 ![] bcast_S_S4096x4096 main_cst_28
  let main_v76 : IVec S4096x4096 1 := cmpf .olt main_v74 main_v75
  let main_c_29 : IVec S_ 1 := constantI S_ 1 1#1
  let main_v77 : IVec S_ 1 := (fun x v => Host.reduce IntOp.andi x v reducesTo_S4096x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S4096 .f32) (main_arg12 : FVec F S4096 .f32) (main_arg13 : FVec F S4096x4096 .f32) (main_arg14 : FVec F S4096x4096 .f32) (main_arg15 : FVec F S4096x4096 .f32) (main_arg16 : FVec F S4096 .f32) (main_arg17 : FVec F S4096 .f32) (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S4096x4096 .f32) (main_arg14 : FVec F S4096x4096 .f32) (main_arg15 : FVec F S4096x4096 .f32) (main_arg16 : FVec F S4096 .f32) (main_arg17 : FVec F S4096 .f32) (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S4096x4096 .f32) (main_arg14 : FVec F S4096x4096 .f32) (main_arg15 : FVec F S4096x4096 .f32) (main_arg16 : FVec F S4096 .f32) (main_arg17 : FVec F S4096 .f32) (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x1024 .f32) (main_arg1 : FVec F S4096x1024 .f32) (main_arg2 : FVec F S4096x1024 .f32) (main_arg3 : FVec F S4096x1024 .f32) (main_arg4 : FVec F S4096 .f32) (main_arg5 : FVec F S4096 .f32) (main_arg6 : FVec F S4096 .f32) (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S4096x4096 .f32) (main_arg14 : FVec F S4096x4096 .f32) (main_arg15 : FVec F S4096x4096 .f32) (main_arg16 : FVec F S4096 .f32) (main_arg17 : FVec F S4096 .f32) (main_arg18 : FVec F S4096 .f32) (main_arg19 : FVec F S1024x4096 .f32) (main_arg20 : FVec F S1024x4096 .f32) (main_arg21 : FVec F S1024x4096 .f32) (main_arg22 : FVec F S1024 .f32) (main_arg23 : FVec F S1024 .f32) (main_arg24 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S256x1024 : Shape := ⟨2, ![256, 1024]⟩
abbrev S1x4096 : Shape := ⟨2, ![1, 4096]⟩
abbrev S8192x4096 : Shape := ⟨2, ![8192, 4096]⟩
abbrev S2048x1024 : Shape := ⟨2, ![2048, 1024]⟩
abbrev S1024x1024 : Shape := ⟨2, ![1024, 1024]⟩
abbrev S1x1024 : Shape := ⟨2, ![1, 1024]⟩
abbrev S256x4096 : Shape := ⟨2, ![256, 4096]⟩

abbrev nBuf : Space → Nat
  | .hbm => 46
  | .vmem => 81
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S8192x1024, .bf16⟩
  | .hbm, ⟨26, _⟩ => ⟨S4096x1024, .bf16⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S8192x4096, .bf16⟩
  | .hbm, ⟨31, _⟩ => ⟨S4096x4096, .bf16⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S8192x4096, .bf16⟩
  | .hbm, ⟨36, _⟩ => ⟨S4096x4096, .bf16⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S8192x4096, .bf16⟩
  | .hbm, ⟨41, _⟩ => ⟨S1024x4096, .bf16⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S2048x1024, .bf16⟩
  | .local _ .vmem, ⟨19, _⟩ => ⟨S2048x1024, .bf16⟩
  | .local _ .vmem, ⟨20, _⟩ => ⟨S2048x1024, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S256x4096, .f32⟩
  | .local _ .vmem, ⟨25, _⟩ => ⟨S256x4096, .f32⟩
  | .local _ .vmem, ⟨26, _⟩ => ⟨S256x4096, .f32⟩
  | .local _ .vmem, ⟨27, _⟩ => ⟨S256x4096, .bf16⟩
  | .local _ .vmem, ⟨28, _⟩ => ⟨S256x4096, .bf16⟩
  | .local _ .vmem, ⟨29, _⟩ => ⟨S2048x1024, .bf16⟩
  | .local _ .vmem, ⟨30, _⟩ => ⟨S2048x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S2048x1024, .bf16⟩
  | .local _ .vmem, ⟨40, _⟩ => ⟨S2048x1024, .bf16⟩
  | .local _ .vmem, ⟨41, _⟩ => ⟨S2048x1024, .f32⟩
  | .local _ .vmem, ⟨42, _⟩ => ⟨S256x4096, .f32⟩
  | .local _ .vmem, ⟨43, _⟩ => ⟨S256x4096, .f32⟩
  | .local _ .vmem, ⟨44, _⟩ => ⟨S256x4096, .f32⟩
  | .local _ .vmem, ⟨45, _⟩ => ⟨S256x4096, .f32⟩
  | .local _ .vmem, ⟨46, _⟩ => ⟨S256x4096, .f32⟩
  | .local _ .vmem, ⟨47, _⟩ => ⟨S256x4096, .f32⟩
  | .local _ .vmem, ⟨48, _⟩ => ⟨S256x4096, .bf16⟩
  | .local _ .vmem, ⟨49, _⟩ => ⟨S256x4096, .bf16⟩
  | .local _ .vmem, ⟨50, _⟩ => ⟨S2048x1024, .bf16⟩
  | .local _ .vmem, ⟨51, _⟩ => ⟨S2048x1024, .bf16⟩
  | .local _ .vmem, ⟨52, _⟩ => ⟨S1024x1024, .bf16⟩
  | .local _ .vmem, ⟨53, _⟩ => ⟨S1024x1024, .bf16⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S2048x1024, .bf16⟩
  | .local _ .vmem, ⟨61, _⟩ => ⟨S2048x1024, .bf16⟩
  | .local _ .vmem, ⟨62, _⟩ => ⟨S2048x1024, .f32⟩
  | .local _ .vmem, ⟨63, _⟩ => ⟨S256x4096, .f32⟩
  | .local _ .vmem, ⟨64, _⟩ => ⟨S256x4096, .f32⟩
  | .local _ .vmem, ⟨65, _⟩ => ⟨S256x4096, .f32⟩
  | .local _ .vmem, ⟨66, _⟩ => ⟨S256x4096, .f32⟩
  | .local _ .vmem, ⟨67, _⟩ => ⟨S256x4096, .f32⟩
  | .local _ .vmem, ⟨68, _⟩ => ⟨S256x4096, .f32⟩
  | .local _ .vmem, ⟨69, _⟩ => ⟨S256x4096, .bf16⟩
  | .local _ .vmem, ⟨70, _⟩ => ⟨S256x4096, .bf16⟩
  | .local _ .vmem, ⟨71, _⟩ => ⟨S2048x1024, .bf16⟩
  | .local _ .vmem, ⟨72, _⟩ => ⟨S2048x1024, .bf16⟩
  | .local _ .vmem, ⟨73, _⟩ => ⟨S1024x1024, .bf16⟩
  | .local _ .vmem, ⟨74, _⟩ => ⟨S1024x1024, .bf16⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S2048x1024, .f32⟩
  | .local _ .vmem, ⟨79, _⟩ => ⟨S2048x1024, .f32⟩
  | .local _ .vmem, ⟨80, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc5_scratch0 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg2_1 : Ref sig .tc := ⟨.vmem, 68, rfl⟩
abbrev cc6_stg3_0 : Ref sig .tc := ⟨.vmem, 69, rfl⟩
abbrev cc6_stg3_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc7_scratch0 : Ref sig .tc := ⟨.vmem, 80, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true, false]

abbrev stage3_5 : Fin 2 → Memref sig .tc .vmem S2048x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![4, 4, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_5 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S1x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true, false]

abbrev stage5_5 : Fin 2 → Memref sig .tc .vmem S2048x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x4096 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨3, ![4, 1, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_5 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, false]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true, false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, true, false]

abbrev stage7_5 : Fin 2 → Memref sig .tc .vmem S2048x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S1024_S1x1024 : S1024.ShapeCasts S1x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .bf16 = 32 ∨ (Rect.block (s := S4096x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S8192x4096.size a
  hwx1_5 : ∀ i : grid1.Coords, EltTy.bits .bf16 = 32 ∨ (Rect.block (s := S8192x4096) S2048x1024.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .f32 = 32 ∨ (Rect.block (s := S4096x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S4096x4096.size a
  hwx2_2 : ∀ i : grid2.Coords, EltTy.bits .f32 = 32 ∨ (Rect.block (s := S4096x4096) S256x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .bf16 = 32 ∨ (Rect.block (s := S4096x4096) S256x4096.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x4096.size a
  hwx3_0 : ∀ i : grid3.Coords, EltTy.bits .bf16 = 32 ∨ (Rect.block (s := S8192x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x4096.size a
  hwx3_4 : ∀ i : grid3.Coords, EltTy.bits .f32 = 32 ∨ (Rect.block (s := S1x4096) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1024.size a ≤ S8192x4096.size a
  hwx3_5 : ∀ i : grid3.Coords, EltTy.bits .bf16 = 32 ∨ (Rect.block (s := S8192x4096) S2048x1024.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x4096.size a ≤ S4096x4096.size a
  hwx4_0 : ∀ i : grid4.Coords, EltTy.bits .f32 = 32 ∨ (Rect.block (s := S4096x4096) S256x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x4096.size a ≤ S4096x4096.size a
  hwx4_1 : ∀ i : grid4.Coords, EltTy.bits .f32 = 32 ∨ (Rect.block (s := S4096x4096) S256x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x4096.size a ≤ S4096x4096.size a
  hwx4_2 : ∀ i : grid4.Coords, EltTy.bits .f32 = 32 ∨ (Rect.block (s := S4096x4096) S256x4096.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x4096.size a ≤ S4096x4096.size a
  hwx4_3 : ∀ i : grid4.Coords, EltTy.bits .bf16 = 32 ∨ (Rect.block (s := S4096x4096) S256x4096.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S8192x4096.size a
  hwx5_0 : ∀ i : grid5.Coords, EltTy.bits .bf16 = 32 ∨ (Rect.block (s := S8192x4096) S2048x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x4096.size a
  hwx5_1 : ∀ i : grid5.Coords, EltTy.bits .bf16 = 32 ∨ (Rect.block (s := S4096x4096) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x4096.size a
  hwx5_3 : ∀ i : grid5.Coords, EltTy.bits .f32 = 32 ∨ (Rect.block (s := S1x4096) S1x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x4096.size a
  hwx5_4 : ∀ i : grid5.Coords, EltTy.bits .f32 = 32 ∨ (Rect.block (s := S1x4096) S1x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x1024.size a ≤ S8192x4096.size a
  hwx5_5 : ∀ i : grid5.Coords, EltTy.bits .bf16 = 32 ∨ (Rect.block (s := S8192x4096) S2048x1024.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x4096.size a ≤ S1024x4096.size a
  hwx6_0 : ∀ i : grid6.Coords, EltTy.bits .f32 = 32 ∨ (Rect.block (s := S1024x4096) S256x4096.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x4096.size a ≤ S1024x4096.size a
  hwx6_1 : ∀ i : grid6.Coords, EltTy.bits .f32 = 32 ∨ (Rect.block (s := S1024x4096) S256x4096.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x4096.size a ≤ S1024x4096.size a
  hwx6_2 : ∀ i : grid6.Coords, EltTy.bits .f32 = 32 ∨ (Rect.block (s := S1024x4096) S256x4096.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x4096.size a ≤ S1024x4096.size a
  hwx6_3 : ∀ i : grid6.Coords, EltTy.bits .bf16 = 32 ∨ (Rect.block (s := S1024x4096) S256x4096.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x1024.size a ≤ S8192x4096.size a
  hwx7_0 : ∀ i : grid7.Coords, EltTy.bits .bf16 = 32 ∨ (Rect.block (s := S8192x4096) S2048x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S1024x4096.size a
  hwx7_1 : ∀ i : grid7.Coords, EltTy.bits .bf16 = 32 ∨ (Rect.block (s := S1024x4096) S1024x1024.size (cc7_transform_1 i) (hinb7_1 i)).WholeWords (EltTy.packing .bf16)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1x1024.size a ≤ S1x1024.size a
  hwx7_2 : ∀ i : grid7.Coords, EltTy.bits .f32 = 32 ∨ (Rect.block (s := S1x1024) S1x1024.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x1024.size a
  hwx7_3 : ∀ i : grid7.Coords, EltTy.bits .f32 = 32 ∨ (Rect.block (s := S1x1024) S1x1024.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x1024.size a
  hwx7_4 : ∀ i : grid7.Coords, EltTy.bits .f32 = 32 ∨ (Rect.block (s := S1x1024) S1x1024.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2048x1024.size a ≤ S8192x1024.size a
  hwx7_5 : ∀ i : grid7.Coords, EltTy.bits .f32 = 32 ∨ (Rect.block (s := S8192x1024) S2048x1024.size (cc7_transform_5 i) (hinb7_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg7) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v10) S2048x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_arg13) S256x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S256x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S256x4096.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v10) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v13) S1x1024.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v14) S1x1024.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v15) S2048x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_arg19) S256x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg20) S256x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg21) S256x4096.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v16) S256x4096.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v15) S2048x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S1024x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v17) S1x1024.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v18) S1x1024.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_v19) S1x1024.size cc7_transform_4 reads7_4 false false 1 stage7_4 sem7_4
    hrank7 hreads7_4 hinb7_4 nbuf7_4 (Memref.isWhole_whole _) hwx7_4 hstage7_4

abbrev win7_5 : Pipeline.Window sig grid7 :=
  Pipeline.Window.ofSpec (Memref.whole main_v20) S2048x1024.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S4096x1024, .f32⟩
  | 2 => ⟨S4096x1024, .f32⟩
  | 3 => ⟨S4096x1024, .f32⟩
  | 4 => ⟨S4096, .f32⟩
  | 5 => ⟨S4096, .f32⟩
  | 6 => ⟨S4096, .f32⟩
  | 7 => ⟨S4096x4096, .f32⟩
  | 8 => ⟨S4096x4096, .f32⟩
  | 9 => ⟨S4096x4096, .f32⟩
  | 10 => ⟨S4096, .f32⟩
  | 11 => ⟨S4096, .f32⟩
  | 12 => ⟨S4096, .f32⟩
  | 13 => ⟨S4096x4096, .f32⟩
  | 14 => ⟨S4096x4096, .f32⟩
  | 15 => ⟨S4096x4096, .f32⟩
  | 16 => ⟨S4096, .f32⟩
  | 17 => ⟨S4096, .f32⟩
  | 18 => ⟨S4096, .f32⟩
  | 19 => ⟨S1024x4096, .f32⟩
  | 20 => ⟨S1024x4096, .f32⟩
  | 21 => ⟨S1024x4096, .f32⟩
  | 22 => ⟨S1024, .f32⟩
  | 23 => ⟨S1024, .f32⟩
  | 24 => ⟨S1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S4096x1024, .i1⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096, .f32⟩
  | 43 => ⟨S4096, .f32⟩
  | 44 => ⟨S4096, .f32⟩
  | 45 => ⟨S4096, .f32⟩
  | 46 => ⟨S4096, .i1⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S1024x4096, .f32⟩
  | 58 => ⟨S8192x4096, .f32⟩
  | 59 => ⟨S1x4096, .f32⟩
  | 60 => ⟨S8192x4096, .f32⟩
  | 61 => ⟨S8192x4096, .f32⟩
  | 62 => ⟨S8192x4096, .f32⟩
  | 63 => ⟨S_, .f32⟩
  | 64 => ⟨S4096x4096, .f32⟩
  | 65 => ⟨S4096x4096, .f32⟩
  | 66 => ⟨S4096x4096, .f32⟩
  | 67 => ⟨S4096x4096, .f32⟩
  | 68 => ⟨S4096x4096, .i1⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S_, .f32⟩
  | 80 => ⟨S4096, .f32⟩
  | 81 => ⟨S4096, .f32⟩
  | 82 => ⟨S4096, .f32⟩
  | 83 => ⟨S4096, .f32⟩
  | 84 => ⟨S4096, .i1⟩
  | 85 => ⟨S4096, .f32⟩
  | 86 => ⟨S4096, .f32⟩
  | 87 => ⟨S4096, .f32⟩
  | 88 => ⟨S4096, .f32⟩
  | 89 => ⟨S4096, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096x4096, .f32⟩
  | 96 => ⟨S8192x4096, .f32⟩
  | 97 => ⟨S1x4096, .f32⟩
  | 98 => ⟨S8192x4096, .f32⟩
  | 99 => ⟨S8192x4096, .f32⟩
  | 100 => ⟨S8192x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S4096x4096, .i1⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S4096x4096, .f32⟩
  | 114 => ⟨S4096x4096, .f32⟩
  | 115 => ⟨S4096x4096, .f32⟩
  | 116 => ⟨S4096x4096, .f32⟩
  | 117 => ⟨S_, .f32⟩
  | 118 => ⟨S4096, .f32⟩
  | 119 => ⟨S4096, .f32⟩
  | 120 => ⟨S4096, .f32⟩
  | 121 => ⟨S4096, .f32⟩
  | 122 => ⟨S4096, .i1⟩
  | 123 => ⟨S4096, .f32⟩
  | 124 => ⟨S4096, .f32⟩
  | 125 => ⟨S4096, .f32⟩
  | 126 => ⟨S4096, .f32⟩
  | 127 => ⟨S4096, .f32⟩
  | _ => ⟨S8192x1024, .f32⟩

abbrev hbmTy0_1 (i : Nat) : BufTy := match i % 128 with
  | 0 => ⟨S4096, .f32⟩
  | 1 => ⟨S4096, .f32⟩
  | 2 => ⟨S4096, .f32⟩
  | 3 => ⟨S4096, .f32⟩
  | 4 => ⟨S4096, .f32⟩
  | 5 => ⟨S4096x4096, .f32⟩
  | 6 => ⟨S8192x4096, .f32⟩
  | 7 => ⟨S1x4096, .f32⟩
  | 8 => ⟨S8192x4096, .f32⟩
  | 9 => ⟨S8192x4096, .f32⟩
  | 10 => ⟨S8192x4096, .f32⟩
  | 11 => ⟨S_, .f32⟩
  | 12 => ⟨S1024x4096, .f32⟩
  | 13 => ⟨S1024x4096, .f32⟩
  | 14 => ⟨S1024x4096, .f32⟩
  | 15 => ⟨S1024x4096, .f32⟩
  | 16 => ⟨S1024x4096, .i1⟩
  | 17 => ⟨S1024x4096, .f32⟩
  | 18 => ⟨S1024x4096, .f32⟩
  | 19 => ⟨S1024x4096, .f32⟩
  | 20 => ⟨S1024x4096, .f32⟩
  | 21 => ⟨S1024x4096, .f32⟩
  | 22 => ⟨S1024x4096, .f32⟩
  | 23 => ⟨S1024x4096, .f32⟩
  | 24 => ⟨S1024x4096, .f32⟩
  | 25 => ⟨S1024x4096, .f32⟩
  | 26 => ⟨S1024x4096, .f32⟩
  | 27 => ⟨S_, .f32⟩
  | 28 => ⟨S1024, .f32⟩
  | 29 => ⟨S1024, .f32⟩
  | 30 => ⟨S1024, .f32⟩
  | 31 => ⟨S1024, .f32⟩
  | 32 => ⟨S1024, .i1⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S4096x1024, .f32⟩
  | 44 => ⟨S8192x1024, .f32⟩
  | 45 => ⟨S1x1024, .f32⟩
  | 46 => ⟨S8192x1024, .f32⟩
  | 47 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_call4_cst : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_call5_cst : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_call6_v5 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_call7_cst : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_v5 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S4096 : S_.BroadcastsInDim S4096 (![] : Fin 0 → Fin S4096.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S1024x4096 : S_.BroadcastsInDim S1024x4096 (![] : Fin 0 → Fin S1024x4096.rank)
  bcast_S_S1024 : S_.BroadcastsInDim S1024 (![] : Fin 0 → Fin S1024.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KSample0.lean ====
/-
  The weight-sampling region 0: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0 : Rect S256x1024 := Rect.unit (s := S256x1024) ![0, 0] S256x1024.size inb_S256x1024_S256x1024_0_0

/-- The sampled-weight block the body leaves in the output window's buffer, from the three input blocks. -/
def out0_3 (x0 x1 x2 : Vec F S256x1024 .f32) : Vec F S256x1024 .bf16 :=
  View.canon [⟨r0, k0_pay1 (View.ld x0 r0) (View.ld x1 r0) (View.ld x2 r0)⟩]

/-- The one store covers the buffer. -/
theorem cover0_3 (p0 : Vec F S256x1024 .bf16) (y : S256x1024.Idx) :
    ∃ pc ∈ ([⟨r0, p0⟩] : List (View.Piece (Elt F) S256x1024 .bf16)), y ∈ pc.1.set :=
  View.cover_of_tiled [⟨r0, p0⟩] S256x1024.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .bf16) (harg4 : arg4.IsWhole)
    (x0 x1 x2 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__reparam_kernel i arg1 harg1 arg2 harg2 arg3 harg3 arg4 harg4) K := by
  simp only [cc0__reparam_kernel_eq_skeleton]; unfold cc0__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at the sampled block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.KSample2.lean ====
/-
  The weight-sampling region 2: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole block. -/
abbrev r2 : Rect S256x4096 := Rect.unit (s := S256x4096) ![0, 0] S256x4096.size inb_S256x4096_S256x4096_0_0

/-- The sampled-weight block the body leaves in the output window's buffer, from the three input blocks. -/
def out2_3 (x0 x1 x2 : Vec F S256x4096 .f32) : Vec F S256x4096 .bf16 :=
  View.canon [⟨r2, k2_pay1 (View.ld x0 r2) (View.ld x1 r2) (View.ld x2 r2)⟩]

/-- The one store covers the buffer. -/
theorem cover2_3 (p0 : Vec F S256x4096 .bf16) (y : S256x4096.Idx) :
    ∃ pc ∈ ([⟨r2, p0⟩] : List (View.Piece (Elt F) S256x4096 .bf16)), y ∈ pc.1.set :=
  View.cover_of_tiled [⟨r2, p0⟩] S256x4096.size (by rfl) y

set_option maxHeartbeats 1000000 in
/-- The body on whole staging memrefs, the inputs' at read contents and the output's at anything, runs to the
    continuation holding the inputs' as they were and the output's at `out2_3` of the inputs'. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__reparam_kernel i arg1 harg1 arg2 harg2 arg3 harg3 arg4 harg4) K := by
  simp only [cc2__reparam_kernel_eq_skeleton]; unfold cc2__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at the sampled block; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regs

end
-- ==== Proof.KSample4.lean ====
/-
  The weight-sampling region 4: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes: the whole block. -/
abbrev r4 : Rect S256x4096 := Rect.unit (s := S256x4096) ![0, 0] S256x4096.size inb_S256x4096_S256x4096_0_0

/-- The sampled-weight block the body leaves in the output window's buffer, from the three input blocks. -/
def out4_3 (x0 x1 x2 : Vec F S256x4096 .f32) : Vec F S256x4096 .bf16 :=
  View.canon [⟨r4, k4_pay1 (View.ld x0 r4) (View.ld x1 r4) (View.ld x2 r4)⟩]

/-- The one store covers the buffer. -/
theorem cover4_3 (p0 : Vec F S256x4096 .bf16) (y : S256x4096.Idx) :
    ∃ pc ∈ ([⟨r4, p0⟩] : List (View.Piece (Elt F) S256x4096 .bf16)), y ∈ pc.1.set :=
  View.cover_of_tiled [⟨r4, p0⟩] S256x4096.size (by rfl) y

set_option maxHeartbeats 1000000 in
/-- The body on whole staging memrefs, the inputs' at read contents and the output's at anything, runs to the
    continuation holding the inputs' as they were and the output's at `out4_3` of the inputs'. -/
theorem sound_kernel4 (c : Dev nD) (E : Set ℕ) (i : grid4.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__reparam_kernel i arg1 harg1 arg2 harg2 arg3 harg3 arg4 harg4) K := by
  simp only [cc4__reparam_kernel_eq_skeleton]; unfold cc4__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t`
    each input's buffer at its block and the output's at the sampled block; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Regs

end
-- ==== Proof.KSample6.lean ====
/-
  The weight-sampling region 6: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The one rectangle the body reads and writes: the whole block. -/
abbrev r6 : Rect S256x4096 := Rect.unit (s := S256x4096) ![0, 0] S256x4096.size inb_S256x4096_S256x4096_0_0

/-- The sampled-weight block the body leaves in the output window's buffer, from the three input blocks. -/
def out6_3 (x0 x1 x2 : Vec F S256x4096 .f32) : Vec F S256x4096 .bf16 :=
  View.canon [⟨r6, k6_pay1 (View.ld x0 r6) (View.ld x1 r6) (View.ld x2 r6)⟩]

/-- The one store covers the buffer. -/
theorem cover6_3 (p0 : Vec F S256x4096 .bf16) (y : S256x4096.Idx) :
    ∃ pc ∈ ([⟨r6, p0⟩] : List (View.Piece (Elt F) S256x4096 .bf16)), y ∈ pc.1.set :=
  View.cover_of_tiled [⟨r6, p0⟩] S256x4096.size (by rfl) y

set_option maxHeartbeats 1000000 in
/-- The body on whole staging memrefs, the inputs' at read contents and the output's at anything, runs to the
    continuation holding the inputs' as they were and the output's at `out6_3` of the inputs'. -/
theorem sound_kernel6 (c : Dev nD) (E : Set ℕ) (i : grid6.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__reparam_kernel i arg1 harg1 arg2 harg2 arg3 harg3 arg4 harg4) K := by
  simp only [cc6__reparam_kernel_eq_skeleton]; unfold cc6__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t`
    each input's buffer at its block and the output's at the sampled block; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Regs

end
-- ==== Proof.KDot1Runs.lean ====
/-
  The layer product region 1: a batch-block by output-block product whose contracted axis is ONE block: at
  every grid point the scratch accumulator is cleared, loaded with the product, and joined with the sampled bias row (and the activation) into the output block. This
  module: the windows' blocks, where the body's two conditionals hold over the grid, where the output window is
  idle, and the body run once per case of the conditionals on any staging memrefs.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator where the contracted block is the first, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) :=
  (by decide +kernel : ∀ t : Fin grid1.N, cond1_0 (grid1.coords t))

/-- and writes the output block where it is the last. -/
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-- One staging buffer of the output window, through which its contents are stated. -/
abbrev VO1 : View sig .tc .vmem S2048x1024 .bf16 := (Memref.whole cc1_stg5_0 : Memref sig .tc .vmem S2048x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .bf16 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S2048x1024 .f32 := Memref.whole cc1_scratch0
abbrev VS1 : View sig .tc .vmem S2048x1024 .f32 := scM1.view

/-- What the launch hands the region, with the accumulator as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

set_option maxHeartbeats 1000000 in
/-- The one case (the contracted block is the first and the last): the accumulator, at anything, is cleared and
    loaded with the product, and the output block is stored from it and the three bias rows. -/
noncomputable def kernelRun1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.Kernel.Regs

end
-- ==== Proof.KDot1.lean ====
/-
  The layer product region 1, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.KDot1Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the one case leaves -/

theorem cover1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) (y : S2048x1024.Idx) :
    ∃ pc ∈ (kernelRun1_D c i arg3 harg3 arg4 harg4 arg5 harg5 arg6 harg6 arg7 harg7 arg8 harg8 arg9 harg9 hc0 hc1 x0 x1 b0 b1 b2).1, y ∈ pc.1.set :=
  View.cover_of_tiledL (kernelRun1_D c i arg3 harg3 arg4 harg4 arg5 harg5 arg6 harg6 arg7 harg7 arg8 harg8 arg9 harg9 hc0 hc1 x0 x1 b0 b1 b2).1 S2048x1024.size (by sl_kernel_rfl) y

/-- The output block. -/
def out1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) : Vec F S2048x1024 .bf16 :=
  VO1.read (Elt F) (VO1.writes (Elt F) VO1.junk (kernelRun1_D c i arg3 harg3 arg4 harg4 arg5 harg5 arg6 harg6 arg7 harg7 arg8 harg8 arg9 harg9 hc0 hc1 x0 x1 b0 b1 b2).1)

theorem scover1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) (y : S2048x1024.Idx) :
    ∃ pc ∈ (kernelRun1_D c i arg3 harg3 arg4 harg4 arg5 harg5 arg6 harg6 arg7 harg7 arg8 harg8 arg9 harg9 hc0 hc1 x0 x1 b0 b1 b2).2.1, y ∈ pc.1.set :=
  View.cover_of_tiledL (kernelRun1_D c i arg3 harg3 arg4 harg4 arg5 harg5 arg6 harg6 arg7 harg7 arg8 harg8 arg9 harg9 hc0 hc1 x0 x1 b0 b1 b2).2.1 S2048x1024.size (by sl_kernel_rfl) y

/-- The accumulator after the point. -/
def sout1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) : Vec F S2048x1024 .f32 :=
  VS1.read (Elt F) (VS1.writes (Elt F) VS1.junk (kernelRun1_D c i arg3 harg3 arg4 harg4 arg5 harg5 arg6 harg6 arg7 harg7 arg8 harg8 arg9 harg9 hc0 hc1 x0 x1 b0 b1 b2).2.1)

/-! ## What the accumulator and the output block hold after each point -/

def accAt1 (c : Dev nD) (n : ℕ) (hn : n < cfg1.N) : Vec F S2048x1024 .f32 :=
  sout1_D c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1 (Memref.isWhole_whole _) (hcond1_0 ⟨n, hn⟩) (hcond1_1 ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩)

def outAt1 (c : Dev nD) (t : Fin cfg1.N) : Vec F S2048x1024 .bf16 :=
  out1_D c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (hcond1_1 t) (iblk1 V c 0 t) (iblk1 V c 1 t) (iblk1 V c 2 t) (iblk1 V c 3 t) (iblk1 V c 4 t)

/-! ## The invariant that carries the accumulator -/

def PhiS1 (c : Dev nD) : (n : ℕ) → n ≤ cfg1.N → sProp 𝕄
  | 0, _ => Pipeline.ΦA spec1 c
  | n + 1, hn => iprop(iprop(iprop(owns (c : Thread nD τ) scM1 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the accumulator, whatever it held, is cleared and
    ends at the product; the output block is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold accAt1 outAt1 out1_D sout1_D; (try dsimp only)
  by_cases hz : t.val = 0
  · rw [PhiS1_castSucc V c t, PhiS1_zero V c _ _ hz, PhiA1_eq]
    iintro ⟨⟨⟨HS, Hb⟩, Hg⟩, Ho, ⟨%d0, H0⟩, ⟨%d1, H1⟩, ⟨%d2, H2⟩, ⟨%d3, H3⟩, ⟨%d4, H4⟩, ⟨%d5, H5⟩⟩
    iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hb Hg]
    · isplitl [HS Hb]
      · isplitl [HS]
        · unfold owns; iexists _; isplitr
          swap; · iexact HS
          ipureintro; exact View.read_writes_of_cover _ _ _ _ _ (scover1_D c _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_D c _ _ _ _ _ _ _ _ _ _ _ _ _ _ _ _ _ _ _ _ _ _)
  · rw [PhiS1_castSucc V c t, PhiS1_pos V c _ _ hz]
    iintro ⟨⟨⟨HS, Hb⟩, Hg⟩, Ho, ⟨%d0, H0⟩, ⟨%d1, H1⟩, ⟨%d2, H2⟩, ⟨%d3, H3⟩, ⟨%d4, H4⟩, ⟨%d5, H5⟩⟩
    iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, ⟨%e5, H5⟩, ⟨%es, HS⟩⟩
    isplitl [HS Hb Hg]
    · isplitl [HS Hb]
      · isplitl [HS]
        · unfold owns; iexists _; isplitr
          swap; · iexact HS
          ipureintro; exact View.read_writes_of_cover _ _ _ _ _ (scover1_D c _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_D c _ _ _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, Hb⟩, Hg⟩
  isplitl [HS Hb]
  · isplitl [HS]
    · iexists _; iexact HS
    iexact Hb
  iexact Hg

end Cert.Kernel.Regs

end
-- ==== Proof.KDot3Runs.lean ====
/-
  The layer product region 3: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The body clears the accumulator where the contracted block is the first, -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- and writes the output block where it is the last. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Where the output block is not written the output window is idle and not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-- One staging buffer of the output window, through which its contents are stated. -/
abbrev VO3 : View sig .tc .vmem S2048x1024 .bf16 := (Memref.whole cc3_stg5_0 : Memref sig .tc .vmem S2048x1024 .bf16).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1024 .bf16 := win3_5.stage (cfg3.slots t 5)
abbrev hs3_5 (t : Fin cfg3.N) : (ms3_5 t).IsWhole := hstage3_5 ((cfg3.slots t 5).cast nbuf3_5)
/-- The accumulator: a whole scoped buffer of the kernel's own. -/
abbrev scM3 : Memref sig .tc .vmem S2048x1024 .f32 := Memref.whole cc3_scratch0
abbrev VS3 : View sig .tc .vmem S2048x1024 .f32 := scM3.view

/-- What the launch hands the region, with the accumulator as a memref owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

set_option maxHeartbeats 1000000 in
/-- FIRST contracted block, not the last: the accumulator, at anything, is cleared and then holds the first partial
    product; the pieces the run finds are its witness. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.Kernel.Regs

end
-- ==== Proof.KDot3.lean ====
/-
  The layer product region 3, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.KDot3Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) (y : S2048x1024.Idx) :
    ∃ pc ∈ (kernelRun3_A c i arg3 harg3 arg4 harg4 arg5 harg5 arg6 harg6 arg7 harg7 arg8 harg8 arg9 harg9 hc0 hc1 x0 x1).1, y ∈ pc.1.set :=
  View.cover_of_tiledL (kernelRun3_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) : Vec F S2048x1024 .f32 :=
  VS3.read (Elt F) (VS3.writes (Elt F) VS3.junk (kernelRun3_A c i arg3 harg3 arg4 harg4 arg5 harg5 arg6 harg6 arg7 harg7 arg8 harg8 arg9 harg9 hc0 hc1 x0 x1).1)

theorem scover3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) (y : S2048x1024.Idx) :
    ∃ pc ∈ (kernelRun3_B c i arg3 harg3 arg4 harg4 arg5 harg5 arg6 harg6 arg7 harg7 arg8 harg8 arg9 harg9 hc0 hc1 x0 x1 xs).1, y ∈ pc.1.set :=
  View.cover_of_tiledL (kernelRun3_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) : Vec F S2048x1024 .f32 :=
  VS3.read (Elt F) (VS3.writes (Elt F) VS3.junk (kernelRun3_B c i arg3 harg3 arg4 harg4 arg5 harg5 arg6 harg6 arg7 harg7 arg8 harg8 arg9 harg9 hc0 hc1 x0 x1 xs).1)

theorem cover3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun3_C c i arg3 harg3 arg4 harg4 arg5 harg5 arg6 harg6 arg7 harg7 arg8 harg8 arg9 harg9 hc0 hc1 x0 x1 b0 b1 b2 xs).1, y ∈ pc.1.set :=
  View.cover_of_tiledL (kernelRun3_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) : Vec F S2048x1024 .bf16 :=
  VO3.read (Elt F) (VO3.writes (Elt F) VO3.junk (kernelRun3_C c i arg3 harg3 arg4 harg4 arg5 harg5 arg6 harg6 arg7 harg7 arg8 harg8 arg9 harg9 hc0 hc1 x0 x1 b0 b1 b2 xs).1)

theorem scover3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun3_C c i arg3 harg3 arg4 harg4 arg5 harg5 arg6 harg6 arg7 harg7 arg8 harg8 arg9 harg9 hc0 hc1 x0 x1 b0 b1 b2 xs).2.1, y ∈ pc.1.set :=
  View.cover_of_tiledL (kernelRun3_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) : Vec F S2048x1024 .f32 :=
  VS3.read (Elt F) (VS3.writes (Elt F) VS3.junk (kernelRun3_C c i arg3 harg3 arg4 harg4 arg5 harg5 arg6 harg6 arg7 harg7 arg8 harg8 arg9 harg9 hc0 hc1 x0 x1 b0 b1 b2 xs).2.1)

/-! ## The accumulation over the grid -/

theorem notLast3_of_first (t : Fin cfg3.N) (h0 : t.val % 4 = 0) : ¬cond3_1 (grid3.coords t) :=
  fun h => by have := (hcond3_1 t).mp h; omega
theorem notFirst3_of (t : Fin cfg3.N) (h0 : ¬t.val % 4 = 0) : ¬cond3_0 (grid3.coords t) :=
  fun h => h0 ((hcond3_0 t).mp h)
theorem notLast3_of (t : Fin cfg3.N) (h1 : ¬t.val % 4 = 3) : ¬cond3_1 (grid3.coords t) :=
  fun h => h1 ((hcond3_1 t).mp h)

/-- THE ACCUMULATION. What the accumulator holds after the body at position `n`: cleared and loaded with the first
    partial product where the contracted block is the first, otherwise what the point before left plus this block's
    partial product. -/
def accAt3 (c : Dev nD) : (n : ℕ) → n < cfg3.N → Vec F S2048x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (notLast3_of_first ⟨0, hn⟩ (Nat.zero_mod _)) (iblk3 V c 0 ⟨0, hn⟩) (iblk3 V c 1 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (notLast3_of_first ⟨n + 1, hn⟩ h0) (iblk3 V c 0 ⟨n + 1, hn⟩) (iblk3 V c 1 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (notFirst3_of ⟨n + 1, hn⟩ h0) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (notFirst3_of ⟨n + 1, hn⟩ h0) (notLast3_of ⟨n + 1, hn⟩ h1) (iblk3 V c 0 ⟨n + 1, hn⟩) (iblk3 V c 1 ⟨n + 1, hn⟩) (accAt3 c n (Nat.lt_of_succ_lt hn))

/-- What the point before `t` left in the accumulator (at the first point: what point 0 leaves, never consulted). -/
abbrev prev3 (c : Dev nD) (t : Fin cfg3.N) : Vec F S2048x1024 .f32 :=
  accAt3 V c (t.val - 1) (Nat.lt_of_le_of_lt (Nat.sub_le _ _) t.isLt)

theorem accAt3_A (c : Dev nD) (t : Fin cfg3.N) (h0 : t.val % 4 = 0) :
    accAt3 V c t.val t.isLt = sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (notLast3_of_first t h0) (iblk3 V c 0 t) (iblk3 V c 1 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) (notLast3_of t h1) (iblk3 V c 0 t) (iblk3 V c 1 t) (prev3 V c t) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) ((hcond3_1 t).mpr h1) (iblk3 V c 0 t) (iblk3 V c 1 t) (iblk3 V c 2 t) (iblk3 V c 3 t) (iblk3 V c 4 t) (prev3 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt3 (c : Dev nD) (t : Fin cfg3.N) : Vec F S2048x1024 .bf16 :=
  if h1 : t.val % 4 = 3 then
    out3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t (by omega)) ((hcond3_1 t).mpr h1) (iblk3 V c 0 t) (iblk3 V c 1 t) (iblk3 V c 2 t) (iblk3 V c 3 t) (iblk3 V c 4 t) (prev3 V c t)
  else VO3.read (Elt F) VO3.junk

theorem outAt3_C (c : Dev nD) (t : Fin cfg3.N) (h0 : ¬t.val % 4 = 0) (h1 : t.val % 4 = 3) :
    outAt3 V c t = out3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) ((hcond3_1 t).mpr h1) (iblk3 V c 0 t) (iblk3 V c 1 t) (iblk3 V c 2 t) (iblk3 V c 3 t) (iblk3 V c 4 t) (prev3 V c t) :=
  dif_pos h1

/-! ## The invariant that carries the accumulator -/

/-- Before position `n`: at the first point what the launch hands the region (the accumulator at anything); afterwards
    the accumulator at what the point before left, the other scoped buffers and the generator register untouched. -/
def PhiS3 (c : Dev nD) : (n : ℕ) → n ≤ cfg3.N → sProp 𝕄
  | 0, _ => Pipeline.ΦA spec3 c
  | n + 1, hn => iprop(iprop(iprop(owns (c : Thread nD τ) scM3 fullShare (accAt3 V c n hn))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3 fullShare (accAt3 V c n hn))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3 fullShare (accAt3 V c (n - 1) (by omega)))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · have hc1 : ¬cond3_1 (grid3.coords t) := notLast3_of_first t h0
    rw [Dat.leavesExact_idle (dat3 V c) 5 t (idleAt3_5 t hc1) (noFlush3_5 t hc1)]
    rw [accAt3_A V c t h0]
    unfold sout3_A; (try dsimp only)
    by_cases hz : t.val = 0
    · rw [PhiS3_castSucc V c t, PhiS3_zero V c _ _ hz, PhiA3_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hc1 (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hc1 (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat3 V c).leavesExact 5 t = owns (c : Thread nD τ) (ms3_5 t) fullShare ((dat3 V c).after 5 t) from by
        unfold Dat.leavesExact; rw [liveAt3_5 t ((hcond3_1 t).mpr h1)], after3_5]
      rw [accAt3_C V c t h0 h1, outAt3_C V c t h0 h1]
      unfold out3_C sout3_C; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (notFirst3_of t h0) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover3_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C c _ _ _ _ _ _ _ _ _ _ _ _ _ _ _ _ _ _ _ _ _ _ _)
    · have hc1 : ¬cond3_1 (grid3.coords t) := notLast3_of t h1
      rw [Dat.leavesExact_idle (dat3 V c) 5 t (idleAt3_5 t hc1) (noFlush3_5 t hc1)]
      rw [accAt3_B V c t h0 h1]
      unfold sout3_B; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (notFirst3_of t h0) hc1 (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hb⟩, Hg⟩
  isplitl [HS Hb]
  · isplitl [HS]
    · iexists _; iexact HS
    iexact Hb
  iexact Hg

end Cert.Kernel.Regs

end
-- ==== Proof.KDot5Runs.lean ====
/-
  The layer product region 5: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The body clears the accumulator where the contracted block is the first, -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- and writes the output block where it is the last. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
/-- Where the output block is not written the output window is idle and not written back. -/
theorem idleAt5_5 : ∀ t : Fin cfg5.N, ¬cond5_1 (grid5.coords t) → cfg5.idle 5 (grid5.coords t) = true := by decide +kernel
theorem noFlush5_5 : ∀ t : Fin cfg5.N, ¬cond5_1 (grid5.coords t) → (cfg5.win 5).flush t = false := by decide +kernel
theorem liveAt5_5 : ∀ t : Fin cfg5.N, cond5_1 (grid5.coords t) → cfg5.idle 5 (grid5.coords t) = false := by decide +kernel

/-- One staging buffer of the output window, through which its contents are stated. -/
abbrev VO5 : View sig .tc .vmem S2048x1024 .bf16 := (Memref.whole cc5_stg5_0 : Memref sig .tc .vmem S2048x1024 .bf16).view
abbrev ms5_0 (t : Fin cfg5.N) : Memref sig .tc .vmem S2048x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1024 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x1024 .bf16 := win5_5.stage (cfg5.slots t 5)
abbrev hs5_5 (t : Fin cfg5.N) : (ms5_5 t).IsWhole := hstage5_5 ((cfg5.slots t 5).cast nbuf5_5)
/-- The accumulator: a whole scoped buffer of the kernel's own. -/
abbrev scM5 : Memref sig .tc .vmem S2048x1024 .f32 := Memref.whole cc5_scratch0
abbrev VS5 : View sig .tc .vmem S2048x1024 .f32 := scM5.view

/-- What the launch hands the region, with the accumulator as a memref owned at some contents. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 1000000 in
/-- FIRST contracted block, not the last: the accumulator, at anything, is cleared and then holds the first partial
    product; the pieces the run finds are its witness. -/
noncomputable def kernelRun5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, fun E K => ?run⟩
  case run =>
    simp only [cc5__matmul_kernel_eq_skeleton]; unfold cc5__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, fun E K => ?run⟩
  case run =>
    simp only [cc5__matmul_kernel_eq_skeleton]; unfold cc5__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.Kernel.Regs

end
-- ==== Proof.KDot5.lean ====
/-
  The layer product region 5, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.KDot5Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) (y : S2048x1024.Idx) :
    ∃ pc ∈ (kernelRun5_A c i arg3 harg3 arg4 harg4 arg5 harg5 arg6 harg6 arg7 harg7 arg8 harg8 arg9 harg9 hc0 hc1 x0 x1).1, y ∈ pc.1.set :=
  View.cover_of_tiledL (kernelRun5_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) : Vec F S2048x1024 .f32 :=
  VS5.read (Elt F) (VS5.writes (Elt F) VS5.junk (kernelRun5_A c i arg3 harg3 arg4 harg4 arg5 harg5 arg6 harg6 arg7 harg7 arg8 harg8 arg9 harg9 hc0 hc1 x0 x1).1)

theorem scover5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) (y : S2048x1024.Idx) :
    ∃ pc ∈ (kernelRun5_B c i arg3 harg3 arg4 harg4 arg5 harg5 arg6 harg6 arg7 harg7 arg8 harg8 arg9 harg9 hc0 hc1 x0 x1 xs).1, y ∈ pc.1.set :=
  View.cover_of_tiledL (kernelRun5_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) : Vec F S2048x1024 .f32 :=
  VS5.read (Elt F) (VS5.writes (Elt F) VS5.junk (kernelRun5_B c i arg3 harg3 arg4 harg4 arg5 harg5 arg6 harg6 arg7 harg7 arg8 harg8 arg9 harg9 hc0 hc1 x0 x1 xs).1)

theorem cover5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun5_C c i arg3 harg3 arg4 harg4 arg5 harg5 arg6 harg6 arg7 harg7 arg8 harg8 arg9 harg9 hc0 hc1 x0 x1 b0 b1 b2 xs).1, y ∈ pc.1.set :=
  View.cover_of_tiledL (kernelRun5_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) : Vec F S2048x1024 .bf16 :=
  VO5.read (Elt F) (VO5.writes (Elt F) VO5.junk (kernelRun5_C c i arg3 harg3 arg4 harg4 arg5 harg5 arg6 harg6 arg7 harg7 arg8 harg8 arg9 harg9 hc0 hc1 x0 x1 b0 b1 b2 xs).1)

theorem scover5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun5_C c i arg3 harg3 arg4 harg4 arg5 harg5 arg6 harg6 arg7 harg7 arg8 harg8 arg9 harg9 hc0 hc1 x0 x1 b0 b1 b2 xs).2.1, y ∈ pc.1.set :=
  View.cover_of_tiledL (kernelRun5_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) : Vec F S2048x1024 .f32 :=
  VS5.read (Elt F) (VS5.writes (Elt F) VS5.junk (kernelRun5_C c i arg3 harg3 arg4 harg4 arg5 harg5 arg6 harg6 arg7 harg7 arg8 harg8 arg9 harg9 hc0 hc1 x0 x1 b0 b1 b2 xs).2.1)

/-! ## The accumulation over the grid -/

theorem notLast5_of_first (t : Fin cfg5.N) (h0 : t.val % 4 = 0) : ¬cond5_1 (grid5.coords t) :=
  fun h => by have := (hcond5_1 t).mp h; omega
theorem notFirst5_of (t : Fin cfg5.N) (h0 : ¬t.val % 4 = 0) : ¬cond5_0 (grid5.coords t) :=
  fun h => h0 ((hcond5_0 t).mp h)
theorem notLast5_of (t : Fin cfg5.N) (h1 : ¬t.val % 4 = 3) : ¬cond5_1 (grid5.coords t) :=
  fun h => h1 ((hcond5_1 t).mp h)

/-- THE ACCUMULATION. What the accumulator holds after the body at position `n`: cleared and loaded with the first
    partial product where the contracted block is the first, otherwise what the point before left plus this block's
    partial product. -/
def accAt5 (c : Dev nD) : (n : ℕ) → n < cfg5.N → Vec F S2048x1024 .f32
  | 0, hn => sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5 (Memref.isWhole_whole _) ((hcond5_0 ⟨0, hn⟩).mpr (Nat.zero_mod _)) (notLast5_of_first ⟨0, hn⟩ (Nat.zero_mod _)) (iblk5 V c 0 ⟨0, hn⟩) (iblk5 V c 1 ⟨0, hn⟩)
  | n + 1, hn =>
    if h0 : (n + 1) % 4 = 0 then
      sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) ((hcond5_0 ⟨n + 1, hn⟩).mpr h0) (notLast5_of_first ⟨n + 1, hn⟩ h0) (iblk5 V c 0 ⟨n + 1, hn⟩) (iblk5 V c 1 ⟨n + 1, hn⟩)
    else if h1 : (n + 1) % 4 = 3 then
      sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (notFirst5_of ⟨n + 1, hn⟩ h0) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn))
    else
      sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (notFirst5_of ⟨n + 1, hn⟩ h0) (notLast5_of ⟨n + 1, hn⟩ h1) (iblk5 V c 0 ⟨n + 1, hn⟩) (iblk5 V c 1 ⟨n + 1, hn⟩) (accAt5 c n (Nat.lt_of_succ_lt hn))

/-- What the point before `t` left in the accumulator (at the first point: what point 0 leaves, never consulted). -/
abbrev prev5 (c : Dev nD) (t : Fin cfg5.N) : Vec F S2048x1024 .f32 :=
  accAt5 V c (t.val - 1) (Nat.lt_of_le_of_lt (Nat.sub_le _ _) t.isLt)

theorem accAt5_A (c : Dev nD) (t : Fin cfg5.N) (h0 : t.val % 4 = 0) :
    accAt5 V c t.val t.isLt = sout5_A c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond5_0 t).mpr h0) (notLast5_of_first t h0) (iblk5 V c 0 t) (iblk5 V c 1 t) := by
  obtain ⟨n, hn⟩ := t
  cases n with
  | zero => exact rfl
  | succ n => exact (dif_pos h0).trans rfl

theorem accAt5_B (c : Dev nD) (t : Fin cfg5.N) (h0 : ¬t.val % 4 = 0) (h1 : ¬t.val % 4 = 3) :
    accAt5 V c t.val t.isLt = sout5_B c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) (notLast5_of t h1) (iblk5 V c 0 t) (iblk5 V c 1 t) (prev5 V c t) := by
  obtain ⟨n, hn⟩ := t
  cases n with
  | zero => exact absurd (Nat.zero_mod _) h0
  | succ n => exact (dif_neg h0).trans ((dif_neg h1).trans rfl)

theorem accAt5_C (c : Dev nD) (t : Fin cfg5.N) (h0 : ¬t.val % 4 = 0) (h1 : t.val % 4 = 3) :
    accAt5 V c t.val t.isLt = sout5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) ((hcond5_1 t).mpr h1) (iblk5 V c 0 t) (iblk5 V c 1 t) (iblk5 V c 2 t) (iblk5 V c 3 t) (iblk5 V c 4 t) (prev5 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt5 (c : Dev nD) (t : Fin cfg5.N) : Vec F S2048x1024 .bf16 :=
  if h1 : t.val % 4 = 3 then
    out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t (by omega)) ((hcond5_1 t).mpr h1) (iblk5 V c 0 t) (iblk5 V c 1 t) (iblk5 V c 2 t) (iblk5 V c 3 t) (iblk5 V c 4 t) (prev5 V c t)
  else VO5.read (Elt F) VO5.junk

theorem outAt5_C (c : Dev nD) (t : Fin cfg5.N) (h0 : ¬t.val % 4 = 0) (h1 : t.val % 4 = 3) :
    outAt5 V c t = out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) ((hcond5_1 t).mpr h1) (iblk5 V c 0 t) (iblk5 V c 1 t) (iblk5 V c 2 t) (iblk5 V c 3 t) (iblk5 V c 4 t) (prev5 V c t) :=
  dif_pos h1

/-! ## The invariant that carries the accumulator -/

/-- Before position `n`: at the first point what the launch hands the region (the accumulator at anything); afterwards
    the accumulator at what the point before left, the other scoped buffers and the generator register untouched. -/
def PhiS5 (c : Dev nD) : (n : ℕ) → n ≤ cfg5.N → sProp 𝕄
  | 0, _ => Pipeline.ΦA spec5 c
  | n + 1, hn => iprop(iprop(iprop(owns (c : Thread nD τ) scM5 fullShare (accAt5 V c n hn))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5 fullShare (accAt5 V c n hn))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5 fullShare (accAt5 V c (n - 1) (by omega)))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = outAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  by_cases h0 : t.val % 4 = 0
  · have hc1 : ¬cond5_1 (grid5.coords t) := notLast5_of_first t h0
    rw [Dat.leavesExact_idle (dat5 V c) 5 t (idleAt5_5 t hc1) (noFlush5_5 t hc1)]
    rw [accAt5_A V c t h0]
    unfold sout5_A; (try dsimp only)
    by_cases hz : t.val = 0
    · rw [PhiS5_castSucc V c t, PhiS5_zero V c _ _ hz, PhiA5_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) hc1 (iblk5 V c 0 t) (iblk5 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) hc1 (iblk5 V c 0 t) (iblk5 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat5 V c).leavesExact 5 t = owns (c : Thread nD τ) (ms5_5 t) fullShare ((dat5 V c).after 5 t) from by
        unfold Dat.leavesExact; rw [liveAt5_5 t ((hcond5_1 t).mpr h1)], after5_5]
      rw [accAt5_C V c t h0 h1, outAt5_C V c t h0 h1]
      unfold out5_C sout5_C; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (notFirst5_of t h0) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover5_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C c _ _ _ _ _ _ _ _ _ _ _ _ _ _ _ _ _ _ _ _ _ _ _)
    · have hc1 : ¬cond5_1 (grid5.coords t) := notLast5_of t h1
      rw [Dat.leavesExact_idle (dat5 V c) 5 t (idleAt5_5 t hc1) (noFlush5_5 t hc1)]
      rw [accAt5_B V c t h0 h1]
      unfold sout5_B; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (notFirst5_of t h0) hc1 (iblk5 V c 0 t) (iblk5 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives it back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS, Hb⟩, Hg⟩
  isplitl [HS Hb]
  · isplitl [HS]
    · iexists _; iexact HS
    iexact Hb
  iexact Hg

end Cert.Kernel.Regs

end
-- ==== Proof.KDot7Runs.lean ====
/-
  The layer product region 7: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.Kernel.Launch
import proofs.«102610_j70265664962762_2_alg».proof.Proof.Gen.Kernel.Skeleton
import proofs.«102610_j70265664962762_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The body clears the accumulator where the contracted block is the first, -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- and writes the output block where it is the last. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
/-- Where the output block is not written the output window is idle and not written back. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel

/-- One staging buffer of the output window, through which its contents are stated. -/
abbrev VO7 : View sig .tc .vmem S2048x1024 .f32 := (Memref.whole cc7_stg5_0 : Memref sig .tc .vmem S2048x1024 .f32).view
abbrev ms7_0 (t : Fin cfg7.N) : Memref sig .tc .vmem S2048x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x1024 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S2048x1024 .f32 := win7_5.stage (cfg7.slots t 5)
abbrev hs7_5 (t : Fin cfg7.N) : (ms7_5 t).IsWhole := hstage7_5 ((cfg7.slots t 5).cast nbuf7_5)
/-- The accumulator: a whole scoped buffer of the kernel's own. -/
abbrev scM7 : Memref sig .tc .vmem S2048x1024 .f32 := Memref.whole cc7_scratch0
abbrev VS7 : View sig .tc .vmem S2048x1024 .f32 := scM7.view

/-- What the launch hands the region, with the accumulator as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

set_option maxHeartbeats 1000000 in
/-- FIRST contracted block, not the last: the accumulator, at anything, is cleared and then holds the first partial
    product; the pieces the run finds are its witness. -/
noncomputable def kernelRun7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.Kernel.Regs

end
-- ==== Proof.KDot7.lean ====
/-
  The layer product region 7, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.KDot7Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) (y : S2048x1024.Idx) :
    ∃ pc ∈ (kernelRun7_A c i arg3 harg3 arg4 harg4 arg5 harg5 arg6 harg6 arg7 harg7 arg8 harg8 arg9 harg9 hc0 hc1 x0 x1).1, y ∈ pc.1.set :=
  View.cover_of_tiledL (kernelRun7_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) : Vec F S2048x1024 .f32 :=
  VS7.read (Elt F) (VS7.writes (Elt F) VS7.junk (kernelRun7_A c i arg3 harg3 arg4 harg4 arg5 harg5 arg6 harg6 arg7 harg7 arg8 harg8 arg9 harg9 hc0 hc1 x0 x1).1)

theorem scover7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) (y : S2048x1024.Idx) :
    ∃ pc ∈ (kernelRun7_B c i arg3 harg3 arg4 harg4 arg5 harg5 arg6 harg6 arg7 harg7 arg8 harg8 arg9 harg9 hc0 hc1 x0 x1 xs).1, y ∈ pc.1.set :=
  View.cover_of_tiledL (kernelRun7_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) : Vec F S2048x1024 .f32 :=
  VS7.read (Elt F) (VS7.writes (Elt F) VS7.junk (kernelRun7_B c i arg3 harg3 arg4 harg4 arg5 harg5 arg6 harg6 arg7 harg7 arg8 harg8 arg9 harg9 hc0 hc1 x0 x1 xs).1)

theorem cover7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun7_C c i arg3 harg3 arg4 harg4 arg5 harg5 arg6 harg6 arg7 harg7 arg8 harg8 arg9 harg9 hc0 hc1 x0 x1 b0 b1 b2 xs).1, y ∈ pc.1.set :=
  View.cover_of_tiledL (kernelRun7_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) : Vec F S2048x1024 .f32 :=
  VO7.read (Elt F) (VO7.writes (Elt F) VO7.junk (kernelRun7_C c i arg3 harg3 arg4 harg4 arg5 harg5 arg6 harg6 arg7 harg7 arg8 harg8 arg9 harg9 hc0 hc1 x0 x1 b0 b1 b2 xs).1)

theorem scover7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun7_C c i arg3 harg3 arg4 harg4 arg5 harg5 arg6 harg6 arg7 harg7 arg8 harg8 arg9 harg9 hc0 hc1 x0 x1 b0 b1 b2 xs).2.1, y ∈ pc.1.set :=
  View.cover_of_tiledL (kernelRun7_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) : Vec F S2048x1024 .f32 :=
  VS7.read (Elt F) (VS7.writes (Elt F) VS7.junk (kernelRun7_C c i arg3 harg3 arg4 harg4 arg5 harg5 arg6 harg6 arg7 harg7 arg8 harg8 arg9 harg9 hc0 hc1 x0 x1 b0 b1 b2 xs).2.1)

/-! ## The accumulation over the grid -/

theorem notLast7_of_first (t : Fin cfg7.N) (h0 : t.val % 4 = 0) : ¬cond7_1 (grid7.coords t) :=
  fun h => by have := (hcond7_1 t).mp h; omega
theorem notFirst7_of (t : Fin cfg7.N) (h0 : ¬t.val % 4 = 0) : ¬cond7_0 (grid7.coords t) :=
  fun h => h0 ((hcond7_0 t).mp h)
theorem notLast7_of (t : Fin cfg7.N) (h1 : ¬t.val % 4 = 3) : ¬cond7_1 (grid7.coords t) :=
  fun h => h1 ((hcond7_1 t).mp h)

/-- THE ACCUMULATION. What the accumulator holds after the body at position `n`: cleared and loaded with the first
    partial product where the contracted block is the first, otherwise what the point before left plus this block's
    partial product. -/
def accAt7 (c : Dev nD) : (n : ℕ) → n < cfg7.N → Vec F S2048x1024 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr (Nat.zero_mod _)) (notLast7_of_first ⟨0, hn⟩ (Nat.zero_mod _)) (iblk7 V c 0 ⟨0, hn⟩) (iblk7 V c 1 ⟨0, hn⟩)
  | n + 1, hn =>
    if h0 : (n + 1) % 4 = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) ((hcond7_0 ⟨n + 1, hn⟩).mpr h0) (notLast7_of_first ⟨n + 1, hn⟩ h0) (iblk7 V c 0 ⟨n + 1, hn⟩) (iblk7 V c 1 ⟨n + 1, hn⟩)
    else if h1 : (n + 1) % 4 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (notFirst7_of ⟨n + 1, hn⟩ h0) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (notFirst7_of ⟨n + 1, hn⟩ h0) (notLast7_of ⟨n + 1, hn⟩ h1) (iblk7 V c 0 ⟨n + 1, hn⟩) (iblk7 V c 1 ⟨n + 1, hn⟩) (accAt7 c n (Nat.lt_of_succ_lt hn))

/-- What the point before `t` left in the accumulator (at the first point: what point 0 leaves, never consulted). -/
abbrev prev7 (c : Dev nD) (t : Fin cfg7.N) : Vec F S2048x1024 .f32 :=
  accAt7 V c (t.val - 1) (Nat.lt_of_le_of_lt (Nat.sub_le _ _) t.isLt)

theorem accAt7_A (c : Dev nD) (t : Fin cfg7.N) (h0 : t.val % 4 = 0) :
    accAt7 V c t.val t.isLt = sout7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) ((hcond7_0 t).mpr h0) (notLast7_of_first t h0) (iblk7 V c 0 t) (iblk7 V c 1 t) := by
  obtain ⟨n, hn⟩ := t
  cases n with
  | zero => exact rfl
  | succ n => exact (dif_pos h0).trans rfl

theorem accAt7_B (c : Dev nD) (t : Fin cfg7.N) (h0 : ¬t.val % 4 = 0) (h1 : ¬t.val % 4 = 3) :
    accAt7 V c t.val t.isLt = sout7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) (notLast7_of t h1) (iblk7 V c 0 t) (iblk7 V c 1 t) (prev7 V c t) := by
  obtain ⟨n, hn⟩ := t
  cases n with
  | zero => exact absurd (Nat.zero_mod _) h0
  | succ n => exact (dif_neg h0).trans ((dif_neg h1).trans rfl)

theorem accAt7_C (c : Dev nD) (t : Fin cfg7.N) (h0 : ¬t.val % 4 = 0) (h1 : t.val % 4 = 3) :
    accAt7 V c t.val t.isLt = sout7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) ((hcond7_1 t).mpr h1) (iblk7 V c 0 t) (iblk7 V c 1 t) (iblk7 V c 2 t) (iblk7 V c 3 t) (iblk7 V c 4 t) (prev7 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt7 (c : Dev nD) (t : Fin cfg7.N) : Vec F S2048x1024 .f32 :=
  if h1 : t.val % 4 = 3 then
    out7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t (by omega)) ((hcond7_1 t).mpr h1) (iblk7 V c 0 t) (iblk7 V c 1 t) (iblk7 V c 2 t) (iblk7 V c 3 t) (iblk7 V c 4 t) (prev7 V c t)
  else VO7.read (Elt F) VO7.junk

theorem outAt7_C (c : Dev nD) (t : Fin cfg7.N) (h0 : ¬t.val % 4 = 0) (h1 : t.val % 4 = 3) :
    outAt7 V c t = out7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) ((hcond7_1 t).mpr h1) (iblk7 V c 0 t) (iblk7 V c 1 t) (iblk7 V c 2 t) (iblk7 V c 3 t) (iblk7 V c 4 t) (prev7 V c t) :=
  dif_pos h1

/-! ## The invariant that carries the accumulator -/

/-- Before position `n`: at the first point what the launch hands the region (the accumulator at anything); afterwards
    the accumulator at what the point before left, the other scoped buffers and the generator register untouched. -/
def PhiS7 (c : Dev nD) : (n : ℕ) → n ≤ cfg7.N → sProp 𝕄
  | 0, _ => Pipeline.ΦA spec7 c
  | n + 1, hn => iprop(iprop(iprop(owns (c : Thread nD τ) scM7 fullShare (accAt7 V c n hn))
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7 fullShare (accAt7 V c n hn))
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(iprop(owns (c : Thread nD τ) scM7 fullShare (accAt7 V c (n - 1) (by omega)))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => outAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = outAt7 V c t := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  by_cases h0 : t.val % 4 = 0
  · have hc1 : ¬cond7_1 (grid7.coords t) := notLast7_of_first t h0
    rw [Dat.leavesExact_idle (dat7 V c) 5 t (idleAt7_5 t hc1) (noFlush7_5 t hc1)]
    rw [accAt7_A V c t h0]
    unfold sout7_A; (try dsimp only)
    by_cases hz : t.val = 0
    · rw [PhiS7_castSucc V c t, PhiS7_zero V c _ _ hz, PhiA7_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_A c (grid7.coords t) _ _ _ _ _ _ _ _ _ _ _ _ _ _ ((hcond7_0 t).mpr h0) hc1 (iblk7 V c 0 t) (iblk7 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_A c (grid7.coords t) _ _ _ _ _ _ _ _ _ _ _ _ _ _ ((hcond7_0 t).mpr h0) hc1 (iblk7 V c 0 t) (iblk7 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat7 V c).leavesExact 5 t = owns (c : Thread nD τ) (ms7_5 t) fullShare ((dat7 V c).after 5 t) from by
        unfold Dat.leavesExact; rw [liveAt7_5 t ((hcond7_1 t).mpr h1)], after7_5]
      rw [accAt7_C V c t h0 h1, outAt7_C V c t h0 h1]
      unfold out7_C sout7_C; (try dsimp only)
      rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ (notFirst7_of t h0) ((hcond7_1 t).mpr h1) (iblk7 V c 0 t) (iblk7 V c 1 t) (iblk7 V c 2 t) (iblk7 V c 3 t) (iblk7 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover7_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_C c _ _ _ _ _ _ _ _ _ _ _ _ _ _ _ _ _ _ _ _ _ _ _)
    · have hc1 : ¬cond7_1 (grid7.coords t) := notLast7_of t h1
      rw [Dat.leavesExact_idle (dat7 V c) 5 t (idleAt7_5 t hc1) (noFlush7_5 t hc1)]
      rw [accAt7_B V c t h0 h1]
      unfold sout7_B; (try dsimp only)
      rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ (notFirst7_of t h0) hc1 (iblk7 V c 0 t) (iblk7 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives it back: the accumulator's contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hb⟩, Hg⟩
  isplitl [HS Hb]
  · isplitl [HS]
    · iexists _; iexact HS
    iexact Hb
  iexact Hg

end Cert.Kernel.Regs

end
-- ==== Proof.KBounds.lean ====
/-
  The contents of the unscoped buffers between the items of the program: the launch contents, after each stretch of host
  operations what the operations compute, after each kernel region the region's output array at what its write-backs
  leave and every other buffer as the region found it. Each region's proof data is taken at the contents the region is
  entered from.
-/
import proofs.«102610_j70265664962762_2_alg».proof.Proof.Gen.Kernel.Regions
import proofs.«102610_j70265664962762_2_alg».proof.Proof.KSample0
import proofs.«102610_j70265664962762_2_alg».proof.Proof.KSample2
import proofs.«102610_j70265664962762_2_alg».proof.Proof.KSample4
import proofs.«102610_j70265664962762_2_alg».proof.Proof.KSample6
import proofs.«102610_j70265664962762_2_alg».proof.Proof.KDot1
import proofs.«102610_j70265664962762_2_alg».proof.Proof.KDot3
import proofs.«102610_j70265664962762_2_alg».proof.Proof.KDot5
import proofs.«102610_j70265664962762_2_alg».proof.Proof.KDot7

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev U0 (c : Dev nD) : Valuation τ sig (Elt F) := fun b => m (c, b)
/-- The same read at the TensorCore's references. -/
abbrev UV0 : (c : Dev nD) → (b : Ref sig .tc) → Buf (Elt F) ((c : Thread nD τ).loc b) := fun c b => U0 m c b
/-- After the host stretch `hostOps0`. -/
abbrev U1 (c : Dev nD) : Valuation τ sig (Elt F) := StableHlo.after hostOps0 (U0 m c)
abbrev UV1 : (c : Dev nD) → (b : Ref sig .tc) → Buf (Elt F) ((c : Thread nD τ).loc b) := fun c b => U1 m c b
/-- What region 0 leaves in its output array `main_v1`: its blocks' write-backs folded. -/
def o0 (c : Dev nD) : Buf (Elt F) ((c : Thread nD τ).loc main_v1) := (dat0 (UV1 m) c).arrAt 3 cfg0.N
/-- After region 0. -/
abbrev U2 (c : Dev nD) : Valuation τ sig (Elt F) := Function.update (U1 m c) main_v1 (o0 m c)
abbrev UV2 : (c : Dev nD) → (b : Ref sig .tc) → Buf (Elt F) ((c : Thread nD τ).loc b) := fun c b => U2 m c b
/-- After the host stretch `hostOps1`. -/
abbrev U3 (c : Dev nD) : Valuation τ sig (Elt F) := StableHlo.after hostOps1 (U2 m c)
abbrev UV3 : (c : Dev nD) → (b : Ref sig .tc) → Buf (Elt F) ((c : Thread nD τ).loc b) := fun c b => U3 m c b
/-- What region 1 leaves in its output array `main_v5`: its blocks' write-backs folded. -/
def o1 (c : Dev nD) : Buf (Elt F) ((c : Thread nD τ).loc main_v5) := (dat1 (UV3 m) c).arrAt 5 cfg1.N
/-- After region 1. -/
abbrev U4 (c : Dev nD) : Valuation τ sig (Elt F) := Function.update (U3 m c) main_v5 (o1 m c)
abbrev UV4 : (c : Dev nD) → (b : Ref sig .tc) → Buf (Elt F) ((c : Thread nD τ).loc b) := fun c b => U4 m c b
/-- What region 2 leaves in its output array `main_v6`: its blocks' write-backs folded. -/
def o2 (c : Dev nD) : Buf (Elt F) ((c : Thread nD τ).loc main_v6) := (dat2 (UV4 m) c).arrAt 3 cfg2.N
/-- After region 2. -/
abbrev U5 (c : Dev nD) : Valuation τ sig (Elt F) := Function.update (U4 m c) main_v6 (o2 m c)
abbrev UV5 : (c : Dev nD) → (b : Ref sig .tc) → Buf (Elt F) ((c : Thread nD τ).loc b) := fun c b => U5 m c b
/-- After the host stretch `hostOps3`. -/
abbrev U6 (c : Dev nD) : Valuation τ sig (Elt F) := StableHlo.after hostOps3 (U5 m c)
abbrev UV6 : (c : Dev nD) → (b : Ref sig .tc) → Buf (Elt F) ((c : Thread nD τ).loc b) := fun c b => U6 m c b
/-- What region 3 leaves in its output array `main_v10`: its blocks' write-backs folded. -/
def o3 (c : Dev nD) : Buf (Elt F) ((c : Thread nD τ).loc main_v10) := (dat3 (UV6 m) c).arrAt 5 cfg3.N
/-- After region 3. -/
abbrev U7 (c : Dev nD) : Valuation τ sig (Elt F) := Function.update (U6 m c) main_v10 (o3 m c)
abbrev UV7 : (c : Dev nD) → (b : Ref sig .tc) → Buf (Elt F) ((c : Thread nD τ).loc b) := fun c b => U7 m c b
/-- What region 4 leaves in its output array `main_v11`: its blocks' write-backs folded. -/
def o4 (c : Dev nD) : Buf (Elt F) ((c : Thread nD τ).loc main_v11) := (dat4 (UV7 m) c).arrAt 3 cfg4.N
/-- After region 4. -/
abbrev U8 (c : Dev nD) : Valuation τ sig (Elt F) := Function.update (U7 m c) main_v11 (o4 m c)
abbrev UV8 : (c : Dev nD) → (b : Ref sig .tc) → Buf (Elt F) ((c : Thread nD τ).loc b) := fun c b => U8 m c b
/-- After the host stretch `hostOps5`. -/
abbrev U9 (c : Dev nD) : Valuation τ sig (Elt F) := StableHlo.after hostOps5 (U8 m c)
abbrev UV9 : (c : Dev nD) → (b : Ref sig .tc) → Buf (Elt F) ((c : Thread nD τ).loc b) := fun c b => U9 m c b
/-- What region 5 leaves in its output array `main_v15`: its blocks' write-backs folded. -/
def o5 (c : Dev nD) : Buf (Elt F) ((c : Thread nD τ).loc main_v15) := (dat5 (UV9 m) c).arrAt 5 cfg5.N
/-- After region 5. -/
abbrev U10 (c : Dev nD) : Valuation τ sig (Elt F) := Function.update (U9 m c) main_v15 (o5 m c)
abbrev UV10 : (c : Dev nD) → (b : Ref sig .tc) → Buf (Elt F) ((c : Thread nD τ).loc b) := fun c b => U10 m c b
/-- What region 6 leaves in its output array `main_v16`: its blocks' write-backs folded. -/
def o6 (c : Dev nD) : Buf (Elt F) ((c : Thread nD τ).loc main_v16) := (dat6 (UV10 m) c).arrAt 3 cfg6.N
/-- After region 6. -/
abbrev U11 (c : Dev nD) : Valuation τ sig (Elt F) := Function.update (U10 m c) main_v16 (o6 m c)
abbrev UV11 : (c : Dev nD) → (b : Ref sig .tc) → Buf (Elt F) ((c : Thread nD τ).loc b) := fun c b => U11 m c b
/-- After the host stretch `hostOps7`. -/
abbrev U12 (c : Dev nD) : Valuation τ sig (Elt F) := StableHlo.after hostOps7 (U11 m c)
abbrev UV12 : (c : Dev nD) → (b : Ref sig .tc) → Buf (Elt F) ((c : Thread nD τ).loc b) := fun c b => U12 m c b
/-- What region 7 leaves in its output array `main_v20`: its blocks' write-backs folded. -/
def o7 (c : Dev nD) : Buf (Elt F) ((c : Thread nD τ).loc main_v20) := (dat7 (UV12 m) c).arrAt 5 cfg7.N
/-- After region 7. -/
abbrev U13 (c : Dev nD) : Valuation τ sig (Elt F) := Function.update (U12 m c) main_v20 (o7 m c)
abbrev UV13 : (c : Dev nD) → (b : Ref sig .tc) → Buf (Elt F) ((c : Thread nD τ).loc b) := fun c b => U13 m c b

/-- The regions' outputs as the conditional frame's unknowns: at each region's exit the contents after it. -/
def outs : Outs (F := F) := fun J r c =>
  match J with
  | 2 => U2 m c r
  | 4 => U4 m c r
  | 5 => U5 m c r
  | 7 => U7 m c r
  | 8 => U8 m c r
  | 10 => U10 m c r
  | 11 => U11 m c r
  | 13 => U13 m c r
  | _ => U0 m c r

theorem V1_eq (c : Dev nD) : V1 m c = U1 m c := rfl
theorem V2_eq (c : Dev nD) : V2 m (outs m) c = U2 m c := by
  rw [show V2 m (outs m) c = Function.update (V1 m c) main_v1 (outs m 2 main_v1 c) from rfl, show V1 m c = U1 m c from rfl,
    show outs m 2 main_v1 c = o0 m c from (show U2 m c main_v1 = o0 m c from Function.update_self _ _ _)]
theorem V3_eq (c : Dev nD) : V3 m (outs m) c = U3 m c := by
  rw [show V3 m (outs m) c = StableHlo.after hostOps1 (V2 m (outs m) c) from rfl, V2_eq]
theorem V4_eq (c : Dev nD) : V4 m (outs m) c = U4 m c := by
  rw [show V4 m (outs m) c = Function.update (V3 m (outs m) c) main_v5 (outs m 4 main_v5 c) from rfl, V3_eq,
    show outs m 4 main_v5 c = o1 m c from (show U4 m c main_v5 = o1 m c from Function.update_self _ _ _)]
theorem V5_eq (c : Dev nD) : V5 m (outs m) c = U5 m c := by
  rw [show V5 m (outs m) c = Function.update (V4 m (outs m) c) main_v6 (outs m 5 main_v6 c) from rfl, V4_eq,
    show outs m 5 main_v6 c = o2 m c from (show U5 m c main_v6 = o2 m c from Function.update_self _ _ _)]
theorem V6_eq (c : Dev nD) : V6 m (outs m) c = U6 m c := by
  rw [show V6 m (outs m) c = StableHlo.after hostOps3 (V5 m (outs m) c) from rfl, V5_eq]
theorem V7_eq (c : Dev nD) : V7 m (outs m) c = U7 m c := by
  rw [show V7 m (outs m) c = Function.update (V6 m (outs m) c) main_v10 (outs m 7 main_v10 c) from rfl, V6_eq,
    show outs m 7 main_v10 c = o3 m c from (show U7 m c main_v10 = o3 m c from Function.update_self _ _ _)]
theorem V8_eq (c : Dev nD) : V8 m (outs m) c = U8 m c := by
  rw [show V8 m (outs m) c = Function.update (V7 m (outs m) c) main_v11 (outs m 8 main_v11 c) from rfl, V7_eq,
    show outs m 8 main_v11 c = o4 m c from (show U8 m c main_v11 = o4 m c from Function.update_self _ _ _)]
theorem V9_eq (c : Dev nD) : V9 m (outs m) c = U9 m c := by
  rw [show V9 m (outs m) c = StableHlo.after hostOps5 (V8 m (outs m) c) from rfl, V8_eq]
theorem V10_eq (c : Dev nD) : V10 m (outs m) c = U10 m c := by
  rw [show V10 m (outs m) c = Function.update (V9 m (outs m) c) main_v15 (outs m 10 main_v15 c) from rfl, V9_eq,
    show outs m 10 main_v15 c = o5 m c from (show U10 m c main_v15 = o5 m c from Function.update_self _ _ _)]
theorem V11_eq (c : Dev nD) : V11 m (outs m) c = U11 m c := by
  rw [show V11 m (outs m) c = Function.update (V10 m (outs m) c) main_v16 (outs m 11 main_v16 c) from rfl, V10_eq,
    show outs m 11 main_v16 c = o6 m c from (show U11 m c main_v16 = o6 m c from Function.update_self _ _ _)]
theorem V12_eq (c : Dev nD) : V12 m (outs m) c = U12 m c := by
  rw [show V12 m (outs m) c = StableHlo.after hostOps7 (V11 m (outs m) c) from rfl, V11_eq]
theorem V13_eq (c : Dev nD) : V13 m (outs m) c = U13 m c := by
  rw [show V13 m (outs m) c = Function.update (V12 m (outs m) c) main_v20 (outs m 13 main_v20 c) from rfl, V12_eq,
    show outs m 13 main_v20 c = o7 m c from (show U13 m c main_v20 = o7 m c from Function.update_self _ _ _)]

/-- Every pipeline's proof data, each at its region's entry contents. -/
def pdats : (p : Fin 8) → (c : Dev nD) → Dat τ (Elt F) Unit ℕ (UR sig nD τ) ℕ (cfgs p) c
  | ⟨0, _⟩ => fun c => dat0 (UV1 m) c
  | ⟨1, _⟩ => fun c => dat1 (UV3 m) c
  | ⟨2, _⟩ => fun c => dat2 (UV4 m) c
  | ⟨3, _⟩ => fun c => dat3 (UV6 m) c
  | ⟨4, _⟩ => fun c => dat4 (UV7 m) c
  | ⟨5, _⟩ => fun c => dat5 (UV9 m) c
  | ⟨6, _⟩ => fun c => dat6 (UV10 m) c
  | ⟨7, _⟩ => fun c => dat7 (UV12 m) c

end Cert.Kernel.Regs

end
-- ==== Proof.KSegs.lean ====
/-
  The program as the segments of the library's several-regions launch theorem, and its run. Each kernel region is entered from the thread state
  "every unscoped buffer at the boundary's contents, the generator register at some state, nothing owed" and left at the
  same at the next boundary: its arrays are split out of the unscoped buffers at entry and put back at their final
  contents at exit; the generator register and the scoped buffers go into the region's invariant and come back (for a
  layer product region through the invariant that carries the accumulator). The run: every weakly fair execution of the
  program terminates, nothing faulting, and the final memory holds every unscoped buffer at the last boundary's contents.
-/
import proofs.«102610_j70265664962762_2_alg».proof.Proof.KBounds

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)

/-! ## Region 0 -/

set_option maxHeartbeats 1600000 in
/-- At region 0's exit each of its arrays holds what the pipeline leaves: an input as entered, the output its write-backs. -/
theorem hF0 (c : Dev nD) : ∀ w : Fin cfg0.W, (dat0 (UV1 m) c).arrAt w cfg0.N = UV2 m c (Pipeline.arrRef spec0 w)
  | ⟨0, _⟩ => (((dat0 (UV1 m) c).arrAt_in 0 rfl _).trans (A_eq0 (UV1 m) c 0)).trans
      (Function.update_of_ne (StableHlo.devRef_ne_of_ne (by decide)) _ _).symm
  | ⟨1, _⟩ => (((dat0 (UV1 m) c).arrAt_in 1 rfl _).trans (A_eq0 (UV1 m) c 1)).trans
      (Function.update_of_ne (StableHlo.devRef_ne_of_ne (by decide)) _ _).symm
  | ⟨2, _⟩ => (((dat0 (UV1 m) c).arrAt_in 2 rfl _).trans (A_eq0 (UV1 m) c 2)).trans
      (Function.update_of_ne (StableHlo.devRef_ne_of_ne (by decide)) _ _).symm
  | ⟨3, _⟩ => show o0 m c = Function.update (U1 m c) (Proc.devRef .tc main_v1) (o0 m c) (Proc.devRef .tc main_v1) from
      (Function.update_self (Proc.devRef .tc main_v1) (o0 m c) (U1 m c)).symm

/-- and every other buffer what it held at entry. -/
theorem hrest0 (c : Dev nD) : ∀ b, b ∉ Finset.univ.image (Pipeline.arrRef spec0) → UV2 m c b = UV1 m c b :=
  fun b hb => Function.update_of_ne (StableHlo.devRef_ne_of_ne fun e => hb (Finset.mem_image.mpr ⟨3, Finset.mem_univ _, e.symm⟩)) _ _

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (UV1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (UV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (UV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (UV1 m c) (UV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 1600000 in
/-- At region 1's exit each of its arrays holds what the pipeline leaves: an input as entered, the output its write-backs. -/
theorem hF1 (c : Dev nD) : ∀ w : Fin cfg1.W, (dat1 (UV3 m) c).arrAt w cfg1.N = UV4 m c (Pipeline.arrRef spec1 w)
  | ⟨0, _⟩ => (((dat1 (UV3 m) c).arrAt_in 0 rfl _).trans (A_eq1 (UV3 m) c 0)).trans
      (Function.update_of_ne (StableHlo.devRef_ne_of_ne (by decide)) _ _).symm
  | ⟨1, _⟩ => (((dat1 (UV3 m) c).arrAt_in 1 rfl _).trans (A_eq1 (UV3 m) c 1)).trans
      (Function.update_of_ne (StableHlo.devRef_ne_of_ne (by decide)) _ _).symm
  | ⟨2, _⟩ => (((dat1 (UV3 m) c).arrAt_in 2 rfl _).trans (A_eq1 (UV3 m) c 2)).trans
      (Function.update_of_ne (StableHlo.devRef_ne_of_ne (by decide)) _ _).symm
  | ⟨3, _⟩ => (((dat1 (UV3 m) c).arrAt_in 3 rfl _).trans (A_eq1 (UV3 m) c 3)).trans
      (Function.update_of_ne (StableHlo.devRef_ne_of_ne (by decide)) _ _).symm
  | ⟨4, _⟩ => (((dat1 (UV3 m) c).arrAt_in 4 rfl _).trans (A_eq1 (UV3 m) c 4)).trans
      (Function.update_of_ne (StableHlo.devRef_ne_of_ne (by decide)) _ _).symm
  | ⟨5, _⟩ => show o1 m c = Function.update (U3 m c) (Proc.devRef .tc main_v5) (o1 m c) (Proc.devRef .tc main_v5) from
      (Function.update_self (Proc.devRef .tc main_v5) (o1 m c) (U3 m c)).symm

/-- and every other buffer what it held at entry. -/
theorem hrest1 (c : Dev nD) : ∀ b, b ∉ Finset.univ.image (Pipeline.arrRef spec1) → UV4 m c b = UV3 m c b :=
  fun b hb => Function.update_of_ne (StableHlo.devRef_ne_of_ne fun e => hb (Finset.mem_image.mpr ⟨5, Finset.mem_univ _, e.symm⟩)) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (UV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (UV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (UV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (UV3 m) c)
    unfold Pipeline.ΦA
    iintro ⟨Hp, -, Hr⟩
    isplitl [Hr]; · iexact Hr
    iexact Hp
  hout c := by
    rw [Pipeline.ownSems0_none]
    refine (hout1 (UV3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (UV3 m c) (UV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 1600000 in
/-- At region 2's exit each of its arrays holds what the pipeline leaves: an input as entered, the output its write-backs. -/
theorem hF2 (c : Dev nD) : ∀ w : Fin cfg2.W, (dat2 (UV4 m) c).arrAt w cfg2.N = UV5 m c (Pipeline.arrRef spec2 w)
  | ⟨0, _⟩ => (((dat2 (UV4 m) c).arrAt_in 0 rfl _).trans (A_eq2 (UV4 m) c 0)).trans
      (Function.update_of_ne (StableHlo.devRef_ne_of_ne (by decide)) _ _).symm
  | ⟨1, _⟩ => (((dat2 (UV4 m) c).arrAt_in 1 rfl _).trans (A_eq2 (UV4 m) c 1)).trans
      (Function.update_of_ne (StableHlo.devRef_ne_of_ne (by decide)) _ _).symm
  | ⟨2, _⟩ => (((dat2 (UV4 m) c).arrAt_in 2 rfl _).trans (A_eq2 (UV4 m) c 2)).trans
      (Function.update_of_ne (StableHlo.devRef_ne_of_ne (by decide)) _ _).symm
  | ⟨3, _⟩ => show o2 m c = Function.update (U4 m c) (Proc.devRef .tc main_v6) (o2 m c) (Proc.devRef .tc main_v6) from
      (Function.update_self (Proc.devRef .tc main_v6) (o2 m c) (U4 m c)).symm

/-- and every other buffer what it held at entry. -/
theorem hrest2 (c : Dev nD) : ∀ b, b ∉ Finset.univ.image (Pipeline.arrRef spec2) → UV5 m c b = UV4 m c b :=
  fun b hb => Function.update_of_ne (StableHlo.devRef_ne_of_ne fun e => hb (Finset.mem_image.mpr ⟨3, Finset.mem_univ _, e.symm⟩)) _ _

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (UV4 m) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (UV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (UV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (UV4 m c) (UV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

set_option maxHeartbeats 1600000 in
/-- At region 3's exit each of its arrays holds what the pipeline leaves: an input as entered, the output its write-backs. -/
theorem hF3 (c : Dev nD) : ∀ w : Fin cfg3.W, (dat3 (UV6 m) c).arrAt w cfg3.N = UV7 m c (Pipeline.arrRef spec3 w)
  | ⟨0, _⟩ => (((dat3 (UV6 m) c).arrAt_in 0 rfl _).trans (A_eq3 (UV6 m) c 0)).trans
      (Function.update_of_ne (StableHlo.devRef_ne_of_ne (by decide)) _ _).symm
  | ⟨1, _⟩ => (((dat3 (UV6 m) c).arrAt_in 1 rfl _).trans (A_eq3 (UV6 m) c 1)).trans
      (Function.update_of_ne (StableHlo.devRef_ne_of_ne (by decide)) _ _).symm
  | ⟨2, _⟩ => (((dat3 (UV6 m) c).arrAt_in 2 rfl _).trans (A_eq3 (UV6 m) c 2)).trans
      (Function.update_of_ne (StableHlo.devRef_ne_of_ne (by decide)) _ _).symm
  | ⟨3, _⟩ => (((dat3 (UV6 m) c).arrAt_in 3 rfl _).trans (A_eq3 (UV6 m) c 3)).trans
      (Function.update_of_ne (StableHlo.devRef_ne_of_ne (by decide)) _ _).symm
  | ⟨4, _⟩ => (((dat3 (UV6 m) c).arrAt_in 4 rfl _).trans (A_eq3 (UV6 m) c 4)).trans
      (Function.update_of_ne (StableHlo.devRef_ne_of_ne (by decide)) _ _).symm
  | ⟨5, _⟩ => show o3 m c = Function.update (U6 m c) (Proc.devRef .tc main_v10) (o3 m c) (Proc.devRef .tc main_v10) from
      (Function.update_self (Proc.devRef .tc main_v10) (o3 m c) (U6 m c)).symm

/-- and every other buffer what it held at entry. -/
theorem hrest3 (c : Dev nD) : ∀ b, b ∉ Finset.univ.image (Pipeline.arrRef spec3) → UV7 m c b = UV6 m c b :=
  fun b hb => Function.update_of_ne (StableHlo.devRef_ne_of_ne fun e => hb (Finset.mem_image.mpr ⟨5, Finset.mem_univ _, e.symm⟩)) _ _

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (UV6 m) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (UV6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (UV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (UV6 m) c)
    unfold Pipeline.ΦA
    iintro ⟨Hp, -, Hr⟩
    isplitl [Hr]; · iexact Hr
    iexact Hp
  hout c := by
    rw [Pipeline.ownSems0_none]
    refine (hout3 (UV6 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (UV6 m c) (UV7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

set_option maxHeartbeats 1600000 in
/-- At region 4's exit each of its arrays holds what the pipeline leaves: an input as entered, the output its write-backs. -/
theorem hF4 (c : Dev nD) : ∀ w : Fin cfg4.W, (dat4 (UV7 m) c).arrAt w cfg4.N = UV8 m c (Pipeline.arrRef spec4 w)
  | ⟨0, _⟩ => (((dat4 (UV7 m) c).arrAt_in 0 rfl _).trans (A_eq4 (UV7 m) c 0)).trans
      (Function.update_of_ne (StableHlo.devRef_ne_of_ne (by decide)) _ _).symm
  | ⟨1, _⟩ => (((dat4 (UV7 m) c).arrAt_in 1 rfl _).trans (A_eq4 (UV7 m) c 1)).trans
      (Function.update_of_ne (StableHlo.devRef_ne_of_ne (by decide)) _ _).symm
  | ⟨2, _⟩ => (((dat4 (UV7 m) c).arrAt_in 2 rfl _).trans (A_eq4 (UV7 m) c 2)).trans
      (Function.update_of_ne (StableHlo.devRef_ne_of_ne (by decide)) _ _).symm
  | ⟨3, _⟩ => show o4 m c = Function.update (U7 m c) (Proc.devRef .tc main_v11) (o4 m c) (Proc.devRef .tc main_v11) from
      (Function.update_self (Proc.devRef .tc main_v11) (o4 m c) (U7 m c)).symm

/-- and every other buffer what it held at entry. -/
theorem hrest4 (c : Dev nD) : ∀ b, b ∉ Finset.univ.image (Pipeline.arrRef spec4) → UV8 m c b = UV7 m c b :=
  fun b hb => Function.update_of_ne (StableHlo.devRef_ne_of_ne fun e => hb (Finset.mem_image.mpr ⟨3, Finset.mem_univ _, e.symm⟩)) _ _

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (UV7 m) c).loose
  hwaits := Pipeline.hwaits_of_owed_zero _ _ _ _ L lv 4 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec4 c (UV7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (UV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (UV7 m c) (UV8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

set_option maxHeartbeats 1600000 in
/-- At region 5's exit each of its arrays holds what the pipeline leaves: an input as entered, the output its write-backs. -/
theorem hF5 (c : Dev nD) : ∀ w : Fin cfg5.W, (dat5 (UV9 m) c).arrAt w cfg5.N = UV10 m c (Pipeline.arrRef spec5 w)
  | ⟨0, _⟩ => (((dat5 (UV9 m) c).arrAt_in 0 rfl _).trans (A_eq5 (UV9 m) c 0)).trans
      (Function.update_of_ne (StableHlo.devRef_ne_of_ne (by decide)) _ _).symm
  | ⟨1, _⟩ => (((dat5 (UV9 m) c).arrAt_in 1 rfl _).trans (A_eq5 (UV9 m) c 1)).trans
      (Function.update_of_ne (StableHlo.devRef_ne_of_ne (by decide)) _ _).symm
  | ⟨2, _⟩ => (((dat5 (UV9 m) c).arrAt_in 2 rfl _).trans (A_eq5 (UV9 m) c 2)).trans
      (Function.update_of_ne (StableHlo.devRef_ne_of_ne (by decide)) _ _).symm
  | ⟨3, _⟩ => (((dat5 (UV9 m) c).arrAt_in 3 rfl _).trans (A_eq5 (UV9 m) c 3)).trans
      (Function.update_of_ne (StableHlo.devRef_ne_of_ne (by decide)) _ _).symm
  | ⟨4, _⟩ => (((dat5 (UV9 m) c).arrAt_in 4 rfl _).trans (A_eq5 (UV9 m) c 4)).trans
      (Function.update_of_ne (StableHlo.devRef_ne_of_ne (by decide)) _ _).symm
  | ⟨5, _⟩ => show o5 m c = Function.update (U9 m c) (Proc.devRef .tc main_v15) (o5 m c) (Proc.devRef .tc main_v15) from
      (Function.update_self (Proc.devRef .tc main_v15) (o5 m c) (U9 m c)).symm

/-- and every other buffer what it held at entry. -/
theorem hrest5 (c : Dev nD) : ∀ b, b ∉ Finset.univ.image (Pipeline.arrRef spec5) → UV10 m c b = UV9 m c b :=
  fun b hb => Function.update_of_ne (StableHlo.devRef_ne_of_ne fun e => hb (Finset.mem_image.mpr ⟨5, Finset.mem_univ _, e.symm⟩)) _ _

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (UV9 m) c).loose
  hwaits := Pipeline.hwaits_of_owed_zero _ _ _ _ L lv 5 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec5 c (UV9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (UV9 m) c)
    unfold Pipeline.ΦA
    iintro ⟨Hp, -, Hr⟩
    isplitl [Hr]; · iexact Hr
    iexact Hp
  hout c := by
    rw [Pipeline.ownSems0_none]
    refine (hout5 (UV9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (UV9 m c) (UV10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

set_option maxHeartbeats 1600000 in
/-- At region 6's exit each of its arrays holds what the pipeline leaves: an input as entered, the output its write-backs. -/
theorem hF6 (c : Dev nD) : ∀ w : Fin cfg6.W, (dat6 (UV10 m) c).arrAt w cfg6.N = UV11 m c (Pipeline.arrRef spec6 w)
  | ⟨0, _⟩ => (((dat6 (UV10 m) c).arrAt_in 0 rfl _).trans (A_eq6 (UV10 m) c 0)).trans
      (Function.update_of_ne (StableHlo.devRef_ne_of_ne (by decide)) _ _).symm
  | ⟨1, _⟩ => (((dat6 (UV10 m) c).arrAt_in 1 rfl _).trans (A_eq6 (UV10 m) c 1)).trans
      (Function.update_of_ne (StableHlo.devRef_ne_of_ne (by decide)) _ _).symm
  | ⟨2, _⟩ => (((dat6 (UV10 m) c).arrAt_in 2 rfl _).trans (A_eq6 (UV10 m) c 2)).trans
      (Function.update_of_ne (StableHlo.devRef_ne_of_ne (by decide)) _ _).symm
  | ⟨3, _⟩ => show o6 m c = Function.update (U10 m c) (Proc.devRef .tc main_v16) (o6 m c) (Proc.devRef .tc main_v16) from
      (Function.update_self (Proc.devRef .tc main_v16) (o6 m c) (U10 m c)).symm

/-- and every other buffer what it held at entry. -/
theorem hrest6 (c : Dev nD) : ∀ b, b ∉ Finset.univ.image (Pipeline.arrRef spec6) → UV11 m c b = UV10 m c b :=
  fun b hb => Function.update_of_ne (StableHlo.devRef_ne_of_ne fun e => hb (Finset.mem_image.mpr ⟨3, Finset.mem_univ _, e.symm⟩)) _ _

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (UV10 m) c).loose
  hwaits := Pipeline.hwaits_of_owed_zero _ _ _ _ L lv 6 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec6 c (UV10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (UV10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (UV10 m c) (UV11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

set_option maxHeartbeats 1600000 in
/-- At region 7's exit each of its arrays holds what the pipeline leaves: an input as entered, the output its write-backs. -/
theorem hF7 (c : Dev nD) : ∀ w : Fin cfg7.W, (dat7 (UV12 m) c).arrAt w cfg7.N = UV13 m c (Pipeline.arrRef spec7 w)
  | ⟨0, _⟩ => (((dat7 (UV12 m) c).arrAt_in 0 rfl _).trans (A_eq7 (UV12 m) c 0)).trans
      (Function.update_of_ne (StableHlo.devRef_ne_of_ne (by decide)) _ _).symm
  | ⟨1, _⟩ => (((dat7 (UV12 m) c).arrAt_in 1 rfl _).trans (A_eq7 (UV12 m) c 1)).trans
      (Function.update_of_ne (StableHlo.devRef_ne_of_ne (by decide)) _ _).symm
  | ⟨2, _⟩ => (((dat7 (UV12 m) c).arrAt_in 2 rfl _).trans (A_eq7 (UV12 m) c 2)).trans
      (Function.update_of_ne (StableHlo.devRef_ne_of_ne (by decide)) _ _).symm
  | ⟨3, _⟩ => (((dat7 (UV12 m) c).arrAt_in 3 rfl _).trans (A_eq7 (UV12 m) c 3)).trans
      (Function.update_of_ne (StableHlo.devRef_ne_of_ne (by decide)) _ _).symm
  | ⟨4, _⟩ => (((dat7 (UV12 m) c).arrAt_in 4 rfl _).trans (A_eq7 (UV12 m) c 4)).trans
      (Function.update_of_ne (StableHlo.devRef_ne_of_ne (by decide)) _ _).symm
  | ⟨5, _⟩ => show o7 m c = Function.update (U12 m c) (Proc.devRef .tc main_v20) (o7 m c) (Proc.devRef .tc main_v20) from
      (Function.update_self (Proc.devRef .tc main_v20) (o7 m c) (U12 m c)).symm

/-- and every other buffer what it held at entry. -/
theorem hrest7 (c : Dev nD) : ∀ b, b ∉ Finset.univ.image (Pipeline.arrRef spec7) → UV13 m c b = UV12 m c b :=
  fun b hb => Function.update_of_ne (StableHlo.devRef_ne_of_ne fun e => hb (Finset.mem_image.mpr ⟨5, Finset.mem_univ _, e.symm⟩)) _ _

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (UV12 m) c).loose
  hwaits := Pipeline.hwaits_of_owed_zero _ _ _ _ L lv 7 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec7 c (UV12 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (UV12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec7 c from ?_).trans (hin7 (UV12 m) c)
    unfold Pipeline.ΦA
    iintro ⟨Hp, -, Hr⟩
    isplitl [Hr]; · iexact Hr
    iexact Hp
  hout c := by
    rw [Pipeline.ownSems0_none]
    refine (hout7 (UV12 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (UV12 m c) (UV13 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regs

end
-- ==== Proof.KRun.lean ====
/-
  The program's run: the conditional run at this certificate's segment records, the level-free launch, and the
  thread rest "generator register at some state, nothing owed" at every boundary. Every weakly fair execution
  terminates, nothing faulting, with every unscoped buffer at the last boundary's contents; the frame claim reads the
  argument arrays off it, the value claim the result array.
-/
import proofs.«102610_j70265664962762_2_alg».proof.Proof.KSegs
import proofs.«102610_j70265664962762_2_alg».proof.Proof.KRunCond

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1600000 in
/-- THE RUN: every weakly fair execution of the program from memory `m` with zero counters terminates, nothing
    faulting, and the final memory holds every unscoped buffer at the last boundary's contents. -/
theorem run_V : θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := reg0 m)
    (hpre0 := fun c => by rw [V1_eq m c]; exact .rfl)
    (hpost0 := fun c => by rw [V2_eq m c]; exact .rfl)
    (R1 := reg1 m)
    (hpre1 := fun c => by rw [V3_eq m c]; exact .rfl)
    (hpost1 := fun c => by rw [V4_eq m c]; exact .rfl)
    (R2 := reg2 m)
    (hpre2 := fun c => by rw [V4_eq m c]; exact .rfl)
    (hpost2 := fun c => by rw [V5_eq m c]; exact .rfl)
    (R3 := reg3 m)
    (hpre3 := fun c => by rw [V6_eq m c]; exact .rfl)
    (hpost3 := fun c => by rw [V7_eq m c]; exact .rfl)
    (R4 := reg4 m)
    (hpre4 := fun c => by rw [V7_eq m c]; exact .rfl)
    (hpost4 := fun c => by rw [V8_eq m c]; exact .rfl)
    (R5 := reg5 m)
    (hpre5 := fun c => by rw [V9_eq m c]; exact .rfl)
    (hpost5 := fun c => by rw [V10_eq m c]; exact .rfl)
    (R6 := reg6 m)
    (hpre6 := fun c => by rw [V10_eq m c]; exact .rfl)
    (hpost6 := fun c => by rw [V11_eq m c]; exact .rfl)
    (R7 := reg7 m)
    (hpre7 := fun c => by rw [V12_eq m c]; exact .rfl)
    (hpost7 := fun c => by rw [V13_eq m c]; exact .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r hr c => ⟨(hr c _ (mem_uc main_arg0 (by decide))).trans (V13_main_arg0 m (outs m) c),
      (hr c _ (mem_uc main_arg1 (by decide))).trans (V13_main_arg1 m (outs m) c),
      (hr c _ (mem_uc main_arg2 (by decide))).trans (V13_main_arg2 m (outs m) c),
      (hr c _ (mem_uc main_arg3 (by decide))).trans (V13_main_arg3 m (outs m) c),
      (hr c _ (mem_uc main_arg4 (by decide))).trans (V13_main_arg4 m (outs m) c),
      (hr c _ (mem_uc main_arg5 (by decide))).trans (V13_main_arg5 m (outs m) c),
      (hr c _ (mem_uc main_arg6 (by decide))).trans (V13_main_arg6 m (outs m) c),
      (hr c _ (mem_uc main_arg7 (by decide))).trans (V13_main_arg7 m (outs m) c),
      (hr c _ (mem_uc main_arg8 (by decide))).trans (V13_main_arg8 m (outs m) c),
      (hr c _ (mem_uc main_arg9 (by decide))).trans (V13_main_arg9 m (outs m) c),
      (hr c _ (mem_uc main_arg10 (by decide))).trans (V13_main_arg10 m (outs m) c),
      (hr c _ (mem_uc main_arg11 (by decide))).trans (V13_main_arg11 m (outs m) c),
      (hr c _ (mem_uc main_arg12 (by decide))).trans (V13_main_arg12 m (outs m) c),
      (hr c _ (mem_uc main_arg13 (by decide))).trans (V13_main_arg13 m (outs m) c),
      (hr c _ (mem_uc main_arg14 (by decide))).trans (V13_main_arg14 m (outs m) c),
      (hr c _ (mem_uc main_arg15 (by decide))).trans (V13_main_arg15 m (outs m) c),
      (hr c _ (mem_uc main_arg16 (by decide))).trans (V13_main_arg16 m (outs m) c),
      (hr c _ (mem_uc main_arg17 (by decide))).trans (V13_main_arg17 m (outs m) c),
      (hr c _ (mem_uc main_arg18 (by decide))).trans (V13_main_arg18 m (outs m) c),
      (hr c _ (mem_uc main_arg19 (by decide))).trans (V13_main_arg19 m (outs m) c),
      (hr c _ (mem_uc main_arg20 (by decide))).trans (V13_main_arg20 m (outs m) c),
      (hr c _ (mem_uc main_arg21 (by decide))).trans (V13_main_arg21 m (outs m) c),
      (hr c _ (mem_uc main_arg22 (by decide))).trans (V13_main_arg22 m (outs m) c),
      (hr c _ (mem_uc main_arg23 (by decide))).trans (V13_main_arg23 m (outs m) c),
      (hr c _ (mem_uc main_arg24 (by decide))).trans (V13_main_arg24 m (outs m) c)⟩) (run_V m ρ)

/-- THE RESULT: the result array ends at what the last region's write-backs leave. -/
theorem result : θ_run defs (onTc (τ := τ) (main (F := F))) ⟨m, fun _ => 0, ρ⟩ (fun r => ∀ c : Dev nD,
      r.2.mem ((c.tc : Thread nD τ).loc main_v20) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r hr c => ⟨(hr c _ (mem_uc main_v20 (by decide))).trans ((congrFun (V13_eq m c) _).trans (Function.update_self _ _ _)),
      (hr c _ (mem_uc main_arg0 (by decide))).trans (V13_main_arg0 m (outs m) c),
      (hr c _ (mem_uc main_arg1 (by decide))).trans (V13_main_arg1 m (outs m) c),
      (hr c _ (mem_uc main_arg2 (by decide))).trans (V13_main_arg2 m (outs m) c),
      (hr c _ (mem_uc main_arg3 (by decide))).trans (V13_main_arg3 m (outs m) c),
      (hr c _ (mem_uc main_arg4 (by decide))).trans (V13_main_arg4 m (outs m) c),
      (hr c _ (mem_uc main_arg5 (by decide))).trans (V13_main_arg5 m (outs m) c),
      (hr c _ (mem_uc main_arg6 (by decide))).trans (V13_main_arg6 m (outs m) c),
      (hr c _ (mem_uc main_arg7 (by decide))).trans (V13_main_arg7 m (outs m) c),
      (hr c _ (mem_uc main_arg8 (by decide))).trans (V13_main_arg8 m (outs m) c),
      (hr c _ (mem_uc main_arg9 (by decide))).trans (V13_main_arg9 m (outs m) c),
      (hr c _ (mem_uc main_arg10 (by decide))).trans (V13_main_arg10 m (outs m) c),
      (hr c _ (mem_uc main_arg11 (by decide))).trans (V13_main_arg11 m (outs m) c),
      (hr c _ (mem_uc main_arg12 (by decide))).trans (V13_main_arg12 m (outs m) c),
      (hr c _ (mem_uc main_arg13 (by decide))).trans (V13_main_arg13 m (outs m) c),
      (hr c _ (mem_uc main_arg14 (by decide))).trans (V13_main_arg14 m (outs m) c),
      (hr c _ (mem_uc main_arg15 (by decide))).trans (V13_main_arg15 m (outs m) c),
      (hr c _ (mem_uc main_arg16 (by decide))).trans (V13_main_arg16 m (outs m) c),
      (hr c _ (mem_uc main_arg17 (by decide))).trans (V13_main_arg17 m (outs m) c),
      (hr c _ (mem_uc main_arg18 (by decide))).trans (V13_main_arg18 m (outs m) c),
      (hr c _ (mem_uc main_arg19 (by decide))).trans (V13_main_arg19 m (outs m) c),
      (hr c _ (mem_uc main_arg20 (by decide))).trans (V13_main_arg20 m (outs m) c),
      (hr c _ (mem_uc main_arg21 (by decide))).trans (V13_main_arg21 m (outs m) c),
      (hr c _ (mem_uc main_arg22 (by decide))).trans (V13_main_arg22 m (outs m) c),
      (hr c _ (mem_uc main_arg23 (by decide))).trans (V13_main_arg23 m (outs m) c),
      (hr c _ (mem_uc main_arg24 (by decide))).trans (V13_main_arg24 m (outs m) c)⟩) (run_V m ρ)

end Cert.Kernel.Regs

end
-- ==== Proof.Sample0.lean ====
/-
  The weight-sampling region 0: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0 : Rect S256x1024 := Rect.unit (s := S256x1024) ![0, 0] S256x1024.size inb_S256x1024_S256x1024_0_0

/-- The sampled-weight block the body leaves in the output window's buffer, from the three input blocks. -/
def out0_3 (x0 x1 x2 : Vec F S256x1024 .f32) : Vec F S256x1024 .bf16 :=
  View.canon [⟨r0, k0_pay1 (View.ld x0 r0) (View.ld x1 r0) (View.ld x2 r0)⟩]

/-- The one store covers the buffer. -/
theorem cover0_3 (p0 : Vec F S256x1024 .bf16) (y : S256x1024.Idx) :
    ∃ pc ∈ ([⟨r0, p0⟩] : List (View.Piece (Elt F) S256x1024 .bf16)), y ∈ pc.1.set :=
  View.cover_of_tiled [⟨r0, p0⟩] S256x1024.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .bf16) (harg4 : arg4.IsWhole)
    (x0 x1 x2 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__reparam_kernel i arg1 harg1 arg2 harg2 arg3 harg3 arg4 harg4) K := by
  simp only [cc0__reparam_kernel_eq_skeleton]; unfold cc0__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at the sampled block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.Sample2.lean ====
/-
  The weight-sampling region 2: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole block. -/
abbrev r2 : Rect S256x4096 := Rect.unit (s := S256x4096) ![0, 0] S256x4096.size inb_S256x4096_S256x4096_0_0

/-- The sampled-weight block the body leaves in the output window's buffer, from the three input blocks. -/
def out2_3 (x0 x1 x2 : Vec F S256x4096 .f32) : Vec F S256x4096 .bf16 :=
  View.canon [⟨r2, k2_pay1 (View.ld x0 r2) (View.ld x1 r2) (View.ld x2 r2)⟩]

/-- The one store covers the buffer. -/
theorem cover2_3 (p0 : Vec F S256x4096 .bf16) (y : S256x4096.Idx) :
    ∃ pc ∈ ([⟨r2, p0⟩] : List (View.Piece (Elt F) S256x4096 .bf16)), y ∈ pc.1.set :=
  View.cover_of_tiled [⟨r2, p0⟩] S256x4096.size (by rfl) y

set_option maxHeartbeats 1000000 in
/-- The body on whole staging memrefs, the inputs' at read contents and the output's at anything, runs to the
    continuation holding the inputs' as they were and the output's at `out2_3` of the inputs'. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__reparam_kernel i arg1 harg1 arg2 harg2 arg3 harg3 arg4 harg4) K := by
  simp only [cc2__reparam_kernel_eq_skeleton]; unfold cc2__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at the sampled block; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regs

end
-- ==== Proof.Sample4.lean ====
/-
  The weight-sampling region 4: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes: the whole block. -/
abbrev r4 : Rect S256x4096 := Rect.unit (s := S256x4096) ![0, 0] S256x4096.size inb_S256x4096_S256x4096_0_0

/-- The sampled-weight block the body leaves in the output window's buffer, from the three input blocks. -/
def out4_3 (x0 x1 x2 : Vec F S256x4096 .f32) : Vec F S256x4096 .bf16 :=
  View.canon [⟨r4, k4_pay1 (View.ld x0 r4) (View.ld x1 r4) (View.ld x2 r4)⟩]

/-- The one store covers the buffer. -/
theorem cover4_3 (p0 : Vec F S256x4096 .bf16) (y : S256x4096.Idx) :
    ∃ pc ∈ ([⟨r4, p0⟩] : List (View.Piece (Elt F) S256x4096 .bf16)), y ∈ pc.1.set :=
  View.cover_of_tiled [⟨r4, p0⟩] S256x4096.size (by rfl) y

set_option maxHeartbeats 1000000 in
/-- The body on whole staging memrefs, the inputs' at read contents and the output's at anything, runs to the
    continuation holding the inputs' as they were and the output's at `out4_3` of the inputs'. -/
theorem sound_kernel4 (c : Dev nD) (E : Set ℕ) (i : grid4.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__reparam_kernel i arg1 harg1 arg2 harg2 arg3 harg3 arg4 harg4) K := by
  simp only [cc4__reparam_kernel_eq_skeleton]; unfold cc4__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t`
    each input's buffer at its block and the output's at the sampled block; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Regs

end
-- ==== Proof.Sample6.lean ====
/-
  The weight-sampling region 6: at every grid point the body reads one block of rows of the three weight arrays
  (mean, spread, noise), forms mean + softplus(spread) · noise entry by entry and stores the block of the sampled
  weight. What each window's staging buffer holds after the body, the body's triple, and the per-point obligation
  of the pipeline, at any contents `V` of the buffers when the region is entered.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The one rectangle the body reads and writes: the whole block. -/
abbrev r6 : Rect S256x4096 := Rect.unit (s := S256x4096) ![0, 0] S256x4096.size inb_S256x4096_S256x4096_0_0

/-- The sampled-weight block the body leaves in the output window's buffer, from the three input blocks. -/
def out6_3 (x0 x1 x2 : Vec F S256x4096 .f32) : Vec F S256x4096 .bf16 :=
  View.canon [⟨r6, k6_pay1 (View.ld x0 r6) (View.ld x1 r6) (View.ld x2 r6)⟩]

/-- The one store covers the buffer. -/
theorem cover6_3 (p0 : Vec F S256x4096 .bf16) (y : S256x4096.Idx) :
    ∃ pc ∈ ([⟨r6, p0⟩] : List (View.Piece (Elt F) S256x4096 .bf16)), y ∈ pc.1.set :=
  View.cover_of_tiled [⟨r6, p0⟩] S256x4096.size (by rfl) y

set_option maxHeartbeats 1000000 in
/-- The body on whole staging memrefs, the inputs' at read contents and the output's at anything, runs to the
    continuation holding the inputs' as they were and the output's at `out6_3` of the inputs'. -/
theorem sound_kernel6 (c : Dev nD) (E : Set ℕ) (i : grid6.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .bf16) (harg4 : arg4.IsWhole)
    (x0 x1 x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__reparam_kernel i arg1 harg1 arg2 harg2 arg3 harg3 arg4 harg4) K := by
  simp only [cc6__reparam_kernel_eq_skeleton]; unfold cc6__reparam_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t`
    each input's buffer at its block and the output's at the sampled block; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Regs

end
-- ==== Proof.Dot1Runs.lean ====
/-
  The layer product region 1: a batch-block by output-block product whose contracted axis is ONE block: at
  every grid point the scratch accumulator is cleared, loaded with the product, and joined with the sampled bias row (and the activation) into the output block. This
  module: the windows' blocks, where the body's two conditionals hold over the grid, where the output window is
  idle, and the body run once per case of the conditionals on any staging memrefs.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator where the contracted block is the first, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) :=
  (by decide +kernel : ∀ t : Fin grid1.N, cond1_0 (grid1.coords t))

/-- and writes the output block where it is the last. -/
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-- One staging buffer of the output window, through which its contents are stated. -/
abbrev VO1 : View sig .tc .vmem S2048x1024 .bf16 := (Memref.whole cc1_stg5_0 : Memref sig .tc .vmem S2048x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .bf16 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S2048x1024 .f32 := Memref.whole cc1_scratch0
abbrev VS1 : View sig .tc .vmem S2048x1024 .f32 := scM1.view

/-- What the launch hands the region, with the accumulator as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

set_option maxHeartbeats 1000000 in
/-- The one case (the contracted block is the first and the last): the accumulator, at anything, is cleared and
    loaded with the product, and the output block is stored from it and the three bias rows. -/
noncomputable def kernelRun1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.KernelIdeal.Regs

end
-- ==== Proof.Dot1.lean ====
/-
  The layer product region 1, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.Dot1Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the one case leaves -/

theorem cover1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) (y : S2048x1024.Idx) :
    ∃ pc ∈ (kernelRun1_D c i arg3 harg3 arg4 harg4 arg5 harg5 arg6 harg6 arg7 harg7 arg8 harg8 arg9 harg9 hc0 hc1 x0 x1 b0 b1 b2).1, y ∈ pc.1.set :=
  View.cover_of_tiledL (kernelRun1_D c i arg3 harg3 arg4 harg4 arg5 harg5 arg6 harg6 arg7 harg7 arg8 harg8 arg9 harg9 hc0 hc1 x0 x1 b0 b1 b2).1 S2048x1024.size (by sl_kernel_rfl) y

/-- The output block. -/
def out1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) : Vec F S2048x1024 .bf16 :=
  VO1.read (Elt F) (VO1.writes (Elt F) VO1.junk (kernelRun1_D c i arg3 harg3 arg4 harg4 arg5 harg5 arg6 harg6 arg7 harg7 arg8 harg8 arg9 harg9 hc0 hc1 x0 x1 b0 b1 b2).1)

theorem scover1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) (y : S2048x1024.Idx) :
    ∃ pc ∈ (kernelRun1_D c i arg3 harg3 arg4 harg4 arg5 harg5 arg6 harg6 arg7 harg7 arg8 harg8 arg9 harg9 hc0 hc1 x0 x1 b0 b1 b2).2.1, y ∈ pc.1.set :=
  View.cover_of_tiledL (kernelRun1_D c i arg3 harg3 arg4 harg4 arg5 harg5 arg6 harg6 arg7 harg7 arg8 harg8 arg9 harg9 hc0 hc1 x0 x1 b0 b1 b2).2.1 S2048x1024.size (by sl_kernel_rfl) y

/-- The accumulator after the point. -/
def sout1_D (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) : Vec F S2048x1024 .f32 :=
  VS1.read (Elt F) (VS1.writes (Elt F) VS1.junk (kernelRun1_D c i arg3 harg3 arg4 harg4 arg5 harg5 arg6 harg6 arg7 harg7 arg8 harg8 arg9 harg9 hc0 hc1 x0 x1 b0 b1 b2).2.1)

/-! ## What the accumulator and the output block hold after each point -/

def accAt1 (c : Dev nD) (n : ℕ) (hn : n < cfg1.N) : Vec F S2048x1024 .f32 :=
  sout1_D c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1 (Memref.isWhole_whole _) (hcond1_0 ⟨n, hn⟩) (hcond1_1 ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩)

def outAt1 (c : Dev nD) (t : Fin cfg1.N) : Vec F S2048x1024 .bf16 :=
  out1_D c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (hcond1_1 t) (iblk1 V c 0 t) (iblk1 V c 1 t) (iblk1 V c 2 t) (iblk1 V c 3 t) (iblk1 V c 4 t)

/-! ## The invariant that carries the accumulator -/

def PhiS1 (c : Dev nD) : (n : ℕ) → n ≤ cfg1.N → sProp 𝕄
  | 0, _ => Pipeline.ΦA spec1 c
  | n + 1, hn => iprop(iprop(iprop(owns (c : Thread nD τ) scM1 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the accumulator, whatever it held, is cleared and
    ends at the product; the output block is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold accAt1 outAt1 out1_D sout1_D; (try dsimp only)
  by_cases hz : t.val = 0
  · rw [PhiS1_castSucc V c t, PhiS1_zero V c _ _ hz, PhiA1_eq]
    iintro ⟨⟨⟨HS, Hb⟩, Hg⟩, Ho, ⟨%d0, H0⟩, ⟨%d1, H1⟩, ⟨%d2, H2⟩, ⟨%d3, H3⟩, ⟨%d4, H4⟩, ⟨%d5, H5⟩⟩
    iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hb Hg]
    · isplitl [HS Hb]
      · isplitl [HS]
        · unfold owns; iexists _; isplitr
          swap; · iexact HS
          ipureintro; exact View.read_writes_of_cover _ _ _ _ _ (scover1_D c _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_D c _ _ _ _ _ _ _ _ _ _ _ _ _ _ _ _ _ _ _ _ _ _)
  · rw [PhiS1_castSucc V c t, PhiS1_pos V c _ _ hz]
    iintro ⟨⟨⟨HS, Hb⟩, Hg⟩, Ho, ⟨%d0, H0⟩, ⟨%d1, H1⟩, ⟨%d2, H2⟩, ⟨%d3, H3⟩, ⟨%d4, H4⟩, ⟨%d5, H5⟩⟩
    iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, ⟨%e5, H5⟩, ⟨%es, HS⟩⟩
    isplitl [HS Hb Hg]
    · isplitl [HS Hb]
      · isplitl [HS]
        · unfold owns; iexists _; isplitr
          swap; · iexact HS
          ipureintro; exact View.read_writes_of_cover _ _ _ _ _ (scover1_D c _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_D c _ _ _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, Hb⟩, Hg⟩
  isplitl [HS Hb]
  · isplitl [HS]
    · iexists _; iexact HS
    iexact Hb
  iexact Hg

end Cert.KernelIdeal.Regs

end
-- ==== Proof.Dot3Runs.lean ====
/-
  The layer product region 3: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The body clears the accumulator where the contracted block is the first, -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- and writes the output block where it is the last. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Where the output block is not written the output window is idle and not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-- One staging buffer of the output window, through which its contents are stated. -/
abbrev VO3 : View sig .tc .vmem S2048x1024 .bf16 := (Memref.whole cc3_stg5_0 : Memref sig .tc .vmem S2048x1024 .bf16).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1024 .bf16 := win3_5.stage (cfg3.slots t 5)
abbrev hs3_5 (t : Fin cfg3.N) : (ms3_5 t).IsWhole := hstage3_5 ((cfg3.slots t 5).cast nbuf3_5)
/-- The accumulator: a whole scoped buffer of the kernel's own. -/
abbrev scM3 : Memref sig .tc .vmem S2048x1024 .f32 := Memref.whole cc3_scratch0
abbrev VS3 : View sig .tc .vmem S2048x1024 .f32 := scM3.view

/-- What the launch hands the region, with the accumulator as a memref owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

set_option maxHeartbeats 1000000 in
/-- FIRST contracted block, not the last: the accumulator, at anything, is cleared and then holds the first partial
    product; the pieces the run finds are its witness. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc3__matmul_kernel i arg3 harg3 arg4 harg4 arg5 harg5 arg6 harg6 arg7 harg7 arg8 harg8 arg9 harg9) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.KernelIdeal.Regs

end
-- ==== Proof.Dot3.lean ====
/-
  The layer product region 3, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.Dot3Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) (y : S2048x1024.Idx) :
    ∃ pc ∈ (kernelRun3_A c i arg3 harg3 arg4 harg4 arg5 harg5 arg6 harg6 arg7 harg7 arg8 harg8 arg9 harg9 hc0 hc1 x0 x1).1, y ∈ pc.1.set :=
  View.cover_of_tiledL (kernelRun3_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) : Vec F S2048x1024 .f32 :=
  VS3.read (Elt F) (VS3.writes (Elt F) VS3.junk (kernelRun3_A c i arg3 harg3 arg4 harg4 arg5 harg5 arg6 harg6 arg7 harg7 arg8 harg8 arg9 harg9 hc0 hc1 x0 x1).1)

theorem scover3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) (y : S2048x1024.Idx) :
    ∃ pc ∈ (kernelRun3_B c i arg3 harg3 arg4 harg4 arg5 harg5 arg6 harg6 arg7 harg7 arg8 harg8 arg9 harg9 hc0 hc1 x0 x1 xs).1, y ∈ pc.1.set :=
  View.cover_of_tiledL (kernelRun3_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) : Vec F S2048x1024 .f32 :=
  VS3.read (Elt F) (VS3.writes (Elt F) VS3.junk (kernelRun3_B c i arg3 harg3 arg4 harg4 arg5 harg5 arg6 harg6 arg7 harg7 arg8 harg8 arg9 harg9 hc0 hc1 x0 x1 xs).1)

theorem cover3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun3_C c i arg3 harg3 arg4 harg4 arg5 harg5 arg6 harg6 arg7 harg7 arg8 harg8 arg9 harg9 hc0 hc1 x0 x1 b0 b1 b2 xs).1, y ∈ pc.1.set :=
  View.cover_of_tiledL (kernelRun3_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) : Vec F S2048x1024 .bf16 :=
  VO3.read (Elt F) (VO3.writes (Elt F) VO3.junk (kernelRun3_C c i arg3 harg3 arg4 harg4 arg5 harg5 arg6 harg6 arg7 harg7 arg8 harg8 arg9 harg9 hc0 hc1 x0 x1 b0 b1 b2 xs).1)

theorem scover3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun3_C c i arg3 harg3 arg4 harg4 arg5 harg5 arg6 harg6 arg7 harg7 arg8 harg8 arg9 harg9 hc0 hc1 x0 x1 b0 b1 b2 xs).2.1, y ∈ pc.1.set :=
  View.cover_of_tiledL (kernelRun3_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) : Vec F S2048x1024 .f32 :=
  VS3.read (Elt F) (VS3.writes (Elt F) VS3.junk (kernelRun3_C c i arg3 harg3 arg4 harg4 arg5 harg5 arg6 harg6 arg7 harg7 arg8 harg8 arg9 harg9 hc0 hc1 x0 x1 b0 b1 b2 xs).2.1)

/-! ## The accumulation over the grid -/

theorem notLast3_of_first (t : Fin cfg3.N) (h0 : t.val % 4 = 0) : ¬cond3_1 (grid3.coords t) :=
  fun h => by have := (hcond3_1 t).mp h; omega
theorem notFirst3_of (t : Fin cfg3.N) (h0 : ¬t.val % 4 = 0) : ¬cond3_0 (grid3.coords t) :=
  fun h => h0 ((hcond3_0 t).mp h)
theorem notLast3_of (t : Fin cfg3.N) (h1 : ¬t.val % 4 = 3) : ¬cond3_1 (grid3.coords t) :=
  fun h => h1 ((hcond3_1 t).mp h)

/-- THE ACCUMULATION. What the accumulator holds after the body at position `n`: cleared and loaded with the first
    partial product where the contracted block is the first, otherwise what the point before left plus this block's
    partial product. -/
def accAt3 (c : Dev nD) : (n : ℕ) → n < cfg3.N → Vec F S2048x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (notLast3_of_first ⟨0, hn⟩ (Nat.zero_mod _)) (iblk3 V c 0 ⟨0, hn⟩) (iblk3 V c 1 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (notLast3_of_first ⟨n + 1, hn⟩ h0) (iblk3 V c 0 ⟨n + 1, hn⟩) (iblk3 V c 1 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (notFirst3_of ⟨n + 1, hn⟩ h0) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (notFirst3_of ⟨n + 1, hn⟩ h0) (notLast3_of ⟨n + 1, hn⟩ h1) (iblk3 V c 0 ⟨n + 1, hn⟩) (iblk3 V c 1 ⟨n + 1, hn⟩) (accAt3 c n (Nat.lt_of_succ_lt hn))

/-- What the point before `t` left in the accumulator (at the first point: what point 0 leaves, never consulted). -/
abbrev prev3 (c : Dev nD) (t : Fin cfg3.N) : Vec F S2048x1024 .f32 :=
  accAt3 V c (t.val - 1) (Nat.lt_of_le_of_lt (Nat.sub_le _ _) t.isLt)

theorem accAt3_A (c : Dev nD) (t : Fin cfg3.N) (h0 : t.val % 4 = 0) :
    accAt3 V c t.val t.isLt = sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (notLast3_of_first t h0) (iblk3 V c 0 t) (iblk3 V c 1 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) (notLast3_of t h1) (iblk3 V c 0 t) (iblk3 V c 1 t) (prev3 V c t) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) ((hcond3_1 t).mpr h1) (iblk3 V c 0 t) (iblk3 V c 1 t) (iblk3 V c 2 t) (iblk3 V c 3 t) (iblk3 V c 4 t) (prev3 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt3 (c : Dev nD) (t : Fin cfg3.N) : Vec F S2048x1024 .bf16 :=
  if h1 : t.val % 4 = 3 then
    out3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t (by omega)) ((hcond3_1 t).mpr h1) (iblk3 V c 0 t) (iblk3 V c 1 t) (iblk3 V c 2 t) (iblk3 V c 3 t) (iblk3 V c 4 t) (prev3 V c t)
  else VO3.read (Elt F) VO3.junk

theorem outAt3_C (c : Dev nD) (t : Fin cfg3.N) (h0 : ¬t.val % 4 = 0) (h1 : t.val % 4 = 3) :
    outAt3 V c t = out3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (notFirst3_of t h0) ((hcond3_1 t).mpr h1) (iblk3 V c 0 t) (iblk3 V c 1 t) (iblk3 V c 2 t) (iblk3 V c 3 t) (iblk3 V c 4 t) (prev3 V c t) :=
  dif_pos h1

/-! ## The invariant that carries the accumulator -/

/-- Before position `n`: at the first point what the launch hands the region (the accumulator at anything); afterwards
    the accumulator at what the point before left, the other scoped buffers and the generator register untouched. -/
def PhiS3 (c : Dev nD) : (n : ℕ) → n ≤ cfg3.N → sProp 𝕄
  | 0, _ => Pipeline.ΦA spec3 c
  | n + 1, hn => iprop(iprop(iprop(owns (c : Thread nD τ) scM3 fullShare (accAt3 V c n hn))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3 fullShare (accAt3 V c n hn))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3 fullShare (accAt3 V c (n - 1) (by omega)))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · have hc1 : ¬cond3_1 (grid3.coords t) := notLast3_of_first t h0
    rw [Dat.leavesExact_idle (dat3 V c) 5 t (idleAt3_5 t hc1) (noFlush3_5 t hc1)]
    rw [accAt3_A V c t h0]
    unfold sout3_A; (try dsimp only)
    by_cases hz : t.val = 0
    · rw [PhiS3_castSucc V c t, PhiS3_zero V c _ _ hz, PhiA3_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hc1 (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) hc1 (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat3 V c).leavesExact 5 t = owns (c : Thread nD τ) (ms3_5 t) fullShare ((dat3 V c).after 5 t) from by
        unfold Dat.leavesExact; rw [liveAt3_5 t ((hcond3_1 t).mpr h1)], after3_5]
      rw [accAt3_C V c t h0 h1, outAt3_C V c t h0 h1]
      unfold out3_C sout3_C; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (notFirst3_of t h0) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover3_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C c _ _ _ _ _ _ _ _ _ _ _ _ _ _ _ _ _ _ _ _ _ _ _)
    · have hc1 : ¬cond3_1 (grid3.coords t) := notLast3_of t h1
      rw [Dat.leavesExact_idle (dat3 V c) 5 t (idleAt3_5 t hc1) (noFlush3_5 t hc1)]
      rw [accAt3_B V c t h0 h1]
      unfold sout3_B; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (notFirst3_of t h0) hc1 (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover3_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hb⟩, Hg⟩
  isplitl [HS Hb]
  · isplitl [HS]
    · iexists _; iexact HS
    iexact Hb
  iexact Hg

end Cert.KernelIdeal.Regs

end
-- ==== Proof.Dot5Runs.lean ====
/-
  The layer product region 5: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The body clears the accumulator where the contracted block is the first, -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- and writes the output block where it is the last. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
/-- Where the output block is not written the output window is idle and not written back. -/
theorem idleAt5_5 : ∀ t : Fin cfg5.N, ¬cond5_1 (grid5.coords t) → cfg5.idle 5 (grid5.coords t) = true := by decide +kernel
theorem noFlush5_5 : ∀ t : Fin cfg5.N, ¬cond5_1 (grid5.coords t) → (cfg5.win 5).flush t = false := by decide +kernel
theorem liveAt5_5 : ∀ t : Fin cfg5.N, cond5_1 (grid5.coords t) → cfg5.idle 5 (grid5.coords t) = false := by decide +kernel

/-- One staging buffer of the output window, through which its contents are stated. -/
abbrev VO5 : View sig .tc .vmem S2048x1024 .bf16 := (Memref.whole cc5_stg5_0 : Memref sig .tc .vmem S2048x1024 .bf16).view
abbrev ms5_0 (t : Fin cfg5.N) : Memref sig .tc .vmem S2048x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1024 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x1024 .bf16 := win5_5.stage (cfg5.slots t 5)
abbrev hs5_5 (t : Fin cfg5.N) : (ms5_5 t).IsWhole := hstage5_5 ((cfg5.slots t 5).cast nbuf5_5)
/-- The accumulator: a whole scoped buffer of the kernel's own. -/
abbrev scM5 : Memref sig .tc .vmem S2048x1024 .f32 := Memref.whole cc5_scratch0
abbrev VS5 : View sig .tc .vmem S2048x1024 .f32 := scM5.view

/-- What the launch hands the region, with the accumulator as a memref owned at some contents. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 1000000 in
/-- FIRST contracted block, not the last: the accumulator, at anything, is cleared and then holds the first partial
    product; the pieces the run finds are its witness. -/
noncomputable def kernelRun5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, fun E K => ?run⟩
  case run =>
    simp only [cc5__matmul_kernel_eq_skeleton]; unfold cc5__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, fun E K => ?run⟩
  case run =>
    simp only [cc5__matmul_kernel_eq_skeleton]; unfold cc5__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc5__matmul_kernel i arg3 harg3 arg4 harg4 arg5 harg5 arg6 harg6 arg7 harg7 arg8 harg8 arg9 harg9) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.KernelIdeal.Regs

end
-- ==== Proof.Dot5.lean ====
/-
  The layer product region 5, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.Dot5Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) (y : S2048x1024.Idx) :
    ∃ pc ∈ (kernelRun5_A c i arg3 harg3 arg4 harg4 arg5 harg5 arg6 harg6 arg7 harg7 arg8 harg8 arg9 harg9 hc0 hc1 x0 x1).1, y ∈ pc.1.set :=
  View.cover_of_tiledL (kernelRun5_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) : Vec F S2048x1024 .f32 :=
  VS5.read (Elt F) (VS5.writes (Elt F) VS5.junk (kernelRun5_A c i arg3 harg3 arg4 harg4 arg5 harg5 arg6 harg6 arg7 harg7 arg8 harg8 arg9 harg9 hc0 hc1 x0 x1).1)

theorem scover5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) (y : S2048x1024.Idx) :
    ∃ pc ∈ (kernelRun5_B c i arg3 harg3 arg4 harg4 arg5 harg5 arg6 harg6 arg7 harg7 arg8 harg8 arg9 harg9 hc0 hc1 x0 x1 xs).1, y ∈ pc.1.set :=
  View.cover_of_tiledL (kernelRun5_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) : Vec F S2048x1024 .f32 :=
  VS5.read (Elt F) (VS5.writes (Elt F) VS5.junk (kernelRun5_B c i arg3 harg3 arg4 harg4 arg5 harg5 arg6 harg6 arg7 harg7 arg8 harg8 arg9 harg9 hc0 hc1 x0 x1 xs).1)

theorem cover5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun5_C c i arg3 harg3 arg4 harg4 arg5 harg5 arg6 harg6 arg7 harg7 arg8 harg8 arg9 harg9 hc0 hc1 x0 x1 b0 b1 b2 xs).1, y ∈ pc.1.set :=
  View.cover_of_tiledL (kernelRun5_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) : Vec F S2048x1024 .bf16 :=
  VO5.read (Elt F) (VO5.writes (Elt F) VO5.junk (kernelRun5_C c i arg3 harg3 arg4 harg4 arg5 harg5 arg6 harg6 arg7 harg7 arg8 harg8 arg9 harg9 hc0 hc1 x0 x1 b0 b1 b2 xs).1)

theorem scover5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun5_C c i arg3 harg3 arg4 harg4 arg5 harg5 arg6 harg6 arg7 harg7 arg8 harg8 arg9 harg9 hc0 hc1 x0 x1 b0 b1 b2 xs).2.1, y ∈ pc.1.set :=
  View.cover_of_tiledL (kernelRun5_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) : Vec F S2048x1024 .f32 :=
  VS5.read (Elt F) (VS5.writes (Elt F) VS5.junk (kernelRun5_C c i arg3 harg3 arg4 harg4 arg5 harg5 arg6 harg6 arg7 harg7 arg8 harg8 arg9 harg9 hc0 hc1 x0 x1 b0 b1 b2 xs).2.1)

/-! ## The accumulation over the grid -/

theorem notLast5_of_first (t : Fin cfg5.N) (h0 : t.val % 4 = 0) : ¬cond5_1 (grid5.coords t) :=
  fun h => by have := (hcond5_1 t).mp h; omega
theorem notFirst5_of (t : Fin cfg5.N) (h0 : ¬t.val % 4 = 0) : ¬cond5_0 (grid5.coords t) :=
  fun h => h0 ((hcond5_0 t).mp h)
theorem notLast5_of (t : Fin cfg5.N) (h1 : ¬t.val % 4 = 3) : ¬cond5_1 (grid5.coords t) :=
  fun h => h1 ((hcond5_1 t).mp h)

/-- THE ACCUMULATION. What the accumulator holds after the body at position `n`: cleared and loaded with the first
    partial product where the contracted block is the first, otherwise what the point before left plus this block's
    partial product. -/
def accAt5 (c : Dev nD) : (n : ℕ) → n < cfg5.N → Vec F S2048x1024 .f32
  | 0, hn => sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5 (Memref.isWhole_whole _) ((hcond5_0 ⟨0, hn⟩).mpr (Nat.zero_mod _)) (notLast5_of_first ⟨0, hn⟩ (Nat.zero_mod _)) (iblk5 V c 0 ⟨0, hn⟩) (iblk5 V c 1 ⟨0, hn⟩)
  | n + 1, hn =>
    if h0 : (n + 1) % 4 = 0 then
      sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) ((hcond5_0 ⟨n + 1, hn⟩).mpr h0) (notLast5_of_first ⟨n + 1, hn⟩ h0) (iblk5 V c 0 ⟨n + 1, hn⟩) (iblk5 V c 1 ⟨n + 1, hn⟩)
    else if h1 : (n + 1) % 4 = 3 then
      sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (notFirst5_of ⟨n + 1, hn⟩ h0) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn))
    else
      sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (notFirst5_of ⟨n + 1, hn⟩ h0) (notLast5_of ⟨n + 1, hn⟩ h1) (iblk5 V c 0 ⟨n + 1, hn⟩) (iblk5 V c 1 ⟨n + 1, hn⟩) (accAt5 c n (Nat.lt_of_succ_lt hn))

/-- What the point before `t` left in the accumulator (at the first point: what point 0 leaves, never consulted). -/
abbrev prev5 (c : Dev nD) (t : Fin cfg5.N) : Vec F S2048x1024 .f32 :=
  accAt5 V c (t.val - 1) (Nat.lt_of_le_of_lt (Nat.sub_le _ _) t.isLt)

theorem accAt5_A (c : Dev nD) (t : Fin cfg5.N) (h0 : t.val % 4 = 0) :
    accAt5 V c t.val t.isLt = sout5_A c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond5_0 t).mpr h0) (notLast5_of_first t h0) (iblk5 V c 0 t) (iblk5 V c 1 t) := by
  obtain ⟨n, hn⟩ := t
  cases n with
  | zero => exact rfl
  | succ n => exact (dif_pos h0).trans rfl

theorem accAt5_B (c : Dev nD) (t : Fin cfg5.N) (h0 : ¬t.val % 4 = 0) (h1 : ¬t.val % 4 = 3) :
    accAt5 V c t.val t.isLt = sout5_B c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) (notLast5_of t h1) (iblk5 V c 0 t) (iblk5 V c 1 t) (prev5 V c t) := by
  obtain ⟨n, hn⟩ := t
  cases n with
  | zero => exact absurd (Nat.zero_mod _) h0
  | succ n => exact (dif_neg h0).trans ((dif_neg h1).trans rfl)

theorem accAt5_C (c : Dev nD) (t : Fin cfg5.N) (h0 : ¬t.val % 4 = 0) (h1 : t.val % 4 = 3) :
    accAt5 V c t.val t.isLt = sout5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) ((hcond5_1 t).mpr h1) (iblk5 V c 0 t) (iblk5 V c 1 t) (iblk5 V c 2 t) (iblk5 V c 3 t) (iblk5 V c 4 t) (prev5 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt5 (c : Dev nD) (t : Fin cfg5.N) : Vec F S2048x1024 .bf16 :=
  if h1 : t.val % 4 = 3 then
    out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t (by omega)) ((hcond5_1 t).mpr h1) (iblk5 V c 0 t) (iblk5 V c 1 t) (iblk5 V c 2 t) (iblk5 V c 3 t) (iblk5 V c 4 t) (prev5 V c t)
  else VO5.read (Elt F) VO5.junk

theorem outAt5_C (c : Dev nD) (t : Fin cfg5.N) (h0 : ¬t.val % 4 = 0) (h1 : t.val % 4 = 3) :
    outAt5 V c t = out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (notFirst5_of t h0) ((hcond5_1 t).mpr h1) (iblk5 V c 0 t) (iblk5 V c 1 t) (iblk5 V c 2 t) (iblk5 V c 3 t) (iblk5 V c 4 t) (prev5 V c t) :=
  dif_pos h1

/-! ## The invariant that carries the accumulator -/

/-- Before position `n`: at the first point what the launch hands the region (the accumulator at anything); afterwards
    the accumulator at what the point before left, the other scoped buffers and the generator register untouched. -/
def PhiS5 (c : Dev nD) : (n : ℕ) → n ≤ cfg5.N → sProp 𝕄
  | 0, _ => Pipeline.ΦA spec5 c
  | n + 1, hn => iprop(iprop(iprop(owns (c : Thread nD τ) scM5 fullShare (accAt5 V c n hn))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5 fullShare (accAt5 V c n hn))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5 fullShare (accAt5 V c (n - 1) (by omega)))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = outAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  by_cases h0 : t.val % 4 = 0
  · have hc1 : ¬cond5_1 (grid5.coords t) := notLast5_of_first t h0
    rw [Dat.leavesExact_idle (dat5 V c) 5 t (idleAt5_5 t hc1) (noFlush5_5 t hc1)]
    rw [accAt5_A V c t h0]
    unfold sout5_A; (try dsimp only)
    by_cases hz : t.val = 0
    · rw [PhiS5_castSucc V c t, PhiS5_zero V c _ _ hz, PhiA5_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) hc1 (iblk5 V c 0 t) (iblk5 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) hc1 (iblk5 V c 0 t) (iblk5 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat5 V c).leavesExact 5 t = owns (c : Thread nD τ) (ms5_5 t) fullShare ((dat5 V c).after 5 t) from by
        unfold Dat.leavesExact; rw [liveAt5_5 t ((hcond5_1 t).mpr h1)], after5_5]
      rw [accAt5_C V c t h0 h1, outAt5_C V c t h0 h1]
      unfold out5_C sout5_C; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (notFirst5_of t h0) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover5_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C c _ _ _ _ _ _ _ _ _ _ _ _ _ _ _ _ _ _ _ _ _ _ _)
    · have hc1 : ¬cond5_1 (grid5.coords t) := notLast5_of t h1
      rw [Dat.leavesExact_idle (dat5 V c) 5 t (idleAt5_5 t hc1) (noFlush5_5 t hc1)]
      rw [accAt5_B V c t h0 h1]
      unfold sout5_B; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (notFirst5_of t h0) hc1 (iblk5 V c 0 t) (iblk5 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover5_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives it back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS, Hb⟩, Hg⟩
  isplitl [HS Hb]
  · isplitl [HS]
    · iexists _; iexact HS
    iexact Hb
  iexact Hg

end Cert.KernelIdeal.Regs

end
-- ==== Proof.Dot7Runs.lean ====
/-
  The layer product region 7: a batch-block by output-block product accumulated over the blocks of the contracted axis in
  a scratch accumulator the body keeps between grid points — cleared at the first contracted block, added to at every
  block, and at the last block joined with the sampled bias row (and the activation) into the output block. This
  module: the windows' blocks, where the body's two conditionals hold over the grid, where the output window is
  idle, and the body run once per case of the conditionals on any staging memrefs.
-/
import proofs.«102610_j70265664962762_2_alg».proof.Proof.Gen.KernelIdeal.Launch
import proofs.«102610_j70265664962762_2_alg».proof.Proof.Gen.KernelIdeal.Skeleton
import proofs.«102610_j70265664962762_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The body clears the accumulator where the contracted block is the first, -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- and writes the output block where it is the last. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
/-- Where the output block is not written the output window is idle and not written back. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel

/-- One staging buffer of the output window, through which its contents are stated. -/
abbrev VO7 : View sig .tc .vmem S2048x1024 .f32 := (Memref.whole cc7_stg5_0 : Memref sig .tc .vmem S2048x1024 .f32).view
abbrev ms7_0 (t : Fin cfg7.N) : Memref sig .tc .vmem S2048x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x1024 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S2048x1024 .f32 := win7_5.stage (cfg7.slots t 5)
abbrev hs7_5 (t : Fin cfg7.N) : (ms7_5 t).IsWhole := hstage7_5 ((cfg7.slots t 5).cast nbuf7_5)
/-- The accumulator: a whole scoped buffer of the kernel's own. -/
abbrev scM7 : Memref sig .tc .vmem S2048x1024 .f32 := Memref.whole cc7_scratch0
abbrev VS7 : View sig .tc .vmem S2048x1024 .f32 := scM7.view

/-- What the launch hands the region, with the accumulator as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

set_option maxHeartbeats 1000000 in
/-- FIRST contracted block, not the last: the accumulator, at anything, is cleared and then holds the first partial
    product; the pieces the run finds are its witness. -/
noncomputable def kernelRun7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A MIDDLE contracted block: the accumulator, at what the point before left, gains this block's partial product. -/
noncomputable def kernelRun7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) :
    { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- The LAST contracted block, not the first: the accumulator gains the last partial product, and the output block is
    stored from it and the three bias rows. -/
noncomputable def kernelRun7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare b0 ∗ owns (c : Thread nD τ) arg6 fullShare b1 ∗ owns (c : Thread nD τ) arg7 fullShare b2
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
                ∗ owns (c : Thread nD τ) arg5 fullShare b0 ∗ owns (c : Thread nD τ) arg6 fullShare b1 ∗ owns (c : Thread nD τ) arg7 fullShare b2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc7__matmul_kernel i arg3 harg3 arg4 harg4 arg5 harg5 arg6 harg6 arg7 harg7 arg8 harg8 arg9 harg9) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.KernelIdeal.Regs

end
-- ==== Proof.Dot7.lean ====
/-
  The layer product region 7, continued: what the accumulator and the output block hold after every grid point (the
  accumulation over the contracted blocks, by recursion on the point), the invariant that carries the accumulator from
  point to point, the pipeline's proof data and its per-point obligation, and the invariant's two ends.
-/
import proofs.«102610_j70265664962762_2_alg».proof.Proof.Dot7Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) (y : S2048x1024.Idx) :
    ∃ pc ∈ (kernelRun7_A c i arg3 harg3 arg4 harg4 arg5 harg5 arg6 harg6 arg7 harg7 arg8 harg8 arg9 harg9 hc0 hc1 x0 x1).1, y ∈ pc.1.set :=
  View.cover_of_tiledL (kernelRun7_A c i arg3 harg3 arg4 harg4 arg5 harg5 arg6 harg6 arg7 harg7 arg8 harg8 arg9 harg9 hc0 hc1 x0 x1).1 S2048x1024.size (by sl_kernel_rfl) y

/-- The accumulator after a first contracted block: its pieces read back. -/
def sout7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) : Vec F S2048x1024 .f32 :=
  VS7.read (Elt F) (VS7.writes (Elt F) VS7.junk (kernelRun7_A c i arg3 harg3 arg4 harg4 arg5 harg5 arg6 harg6 arg7 harg7 arg8 harg8 arg9 harg9 hc0 hc1 x0 x1).1)

theorem scover7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) (y : S2048x1024.Idx) :
    ∃ pc ∈ (kernelRun7_B c i arg3 harg3 arg4 harg4 arg5 harg5 arg6 harg6 arg7 harg7 arg8 harg8 arg9 harg9 hc0 hc1 x0 x1 xs).1, y ∈ pc.1.set :=
  View.cover_of_tiledL (kernelRun7_B c i arg3 harg3 arg4 harg4 arg5 harg5 arg6 harg6 arg7 harg7 arg8 harg8 arg9 harg9 hc0 hc1 x0 x1 xs).1 S2048x1024.size (by sl_kernel_rfl) y

/-- The accumulator after a middle contracted block. -/
def sout7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) : Vec F S2048x1024 .f32 :=
  VS7.read (Elt F) (VS7.writes (Elt F) VS7.junk (kernelRun7_B c i arg3 harg3 arg4 harg4 arg5 harg5 arg6 harg6 arg7 harg7 arg8 harg8 arg9 harg9 hc0 hc1 x0 x1 xs).1)

theorem cover7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun7_C c i arg3 harg3 arg4 harg4 arg5 harg5 arg6 harg6 arg7 harg7 arg8 harg8 arg9 harg9 hc0 hc1 x0 x1 b0 b1 b2 xs).1, y ∈ pc.1.set :=
  View.cover_of_tiledL (kernelRun7_C c i arg3 harg3 arg4 harg4 arg5 harg5 arg6 harg6 arg7 harg7 arg8 harg8 arg9 harg9 hc0 hc1 x0 x1 b0 b1 b2 xs).1 S2048x1024.size (by sl_kernel_rfl) y

/-- The output block after the last contracted block. -/
def out7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) : Vec F S2048x1024 .f32 :=
  VO7.read (Elt F) (VO7.writes (Elt F) VO7.junk (kernelRun7_C c i arg3 harg3 arg4 harg4 arg5 harg5 arg6 harg6 arg7 harg7 arg8 harg8 arg9 harg9 hc0 hc1 x0 x1 b0 b1 b2 xs).1)

theorem scover7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) (y : S2048x1024.Idx) :
    ∃ pc ∈ (kernelRun7_C c i arg3 harg3 arg4 harg4 arg5 harg5 arg6 harg6 arg7 harg7 arg8 harg8 arg9 harg9 hc0 hc1 x0 x1 b0 b1 b2 xs).2.1, y ∈ pc.1.set :=
  View.cover_of_tiledL (kernelRun7_C c i arg3 harg3 arg4 harg4 arg5 harg5 arg6 harg6 arg7 harg7 arg8 harg8 arg9 harg9 hc0 hc1 x0 x1 b0 b1 b2 xs).2.1 S2048x1024.size (by sl_kernel_rfl) y

/-- The accumulator after the last contracted block. -/
def sout7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) : Vec F S2048x1024 .f32 :=
  VS7.read (Elt F) (VS7.writes (Elt F) VS7.junk (kernelRun7_C c i arg3 harg3 arg4 harg4 arg5 harg5 arg6 harg6 arg7 harg7 arg8 harg8 arg9 harg9 hc0 hc1 x0 x1 b0 b1 b2 xs).2.1)

/-! ## The accumulation over the grid -/

theorem notLast7_of_first (t : Fin cfg7.N) (h0 : t.val % 4 = 0) : ¬cond7_1 (grid7.coords t) :=
  fun h => by have := (hcond7_1 t).mp h; omega
theorem notFirst7_of (t : Fin cfg7.N) (h0 : ¬t.val % 4 = 0) : ¬cond7_0 (grid7.coords t) :=
  fun h => h0 ((hcond7_0 t).mp h)
theorem notLast7_of (t : Fin cfg7.N) (h1 : ¬t.val % 4 = 3) : ¬cond7_1 (grid7.coords t) :=
  fun h => h1 ((hcond7_1 t).mp h)

/-- THE ACCUMULATION. What the accumulator holds after the body at position `n`: cleared and loaded with the first
    partial product where the contracted block is the first, otherwise what the point before left plus this block's
    partial product. -/
def accAt7 (c : Dev nD) : (n : ℕ) → n < cfg7.N → Vec F S2048x1024 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr (Nat.zero_mod _)) (notLast7_of_first ⟨0, hn⟩ (Nat.zero_mod _)) (iblk7 V c 0 ⟨0, hn⟩) (iblk7 V c 1 ⟨0, hn⟩)
  | n + 1, hn =>
    if h0 : (n + 1) % 4 = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) ((hcond7_0 ⟨n + 1, hn⟩).mpr h0) (notLast7_of_first ⟨n + 1, hn⟩ h0) (iblk7 V c 0 ⟨n + 1, hn⟩) (iblk7 V c 1 ⟨n + 1, hn⟩)
    else if h1 : (n + 1) % 4 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (notFirst7_of ⟨n + 1, hn⟩ h0) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (notFirst7_of ⟨n + 1, hn⟩ h0) (notLast7_of ⟨n + 1, hn⟩ h1) (iblk7 V c 0 ⟨n + 1, hn⟩) (iblk7 V c 1 ⟨n + 1, hn⟩) (accAt7 c n (Nat.lt_of_succ_lt hn))

/-- What the point before `t` left in the accumulator (at the first point: what point 0 leaves, never consulted). -/
abbrev prev7 (c : Dev nD) (t : Fin cfg7.N) : Vec F S2048x1024 .f32 :=
  accAt7 V c (t.val - 1) (Nat.lt_of_le_of_lt (Nat.sub_le _ _) t.isLt)

theorem accAt7_A (c : Dev nD) (t : Fin cfg7.N) (h0 : t.val % 4 = 0) :
    accAt7 V c t.val t.isLt = sout7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) ((hcond7_0 t).mpr h0) (notLast7_of_first t h0) (iblk7 V c 0 t) (iblk7 V c 1 t) := by
  obtain ⟨n, hn⟩ := t
  cases n with
  | zero => exact rfl
  | succ n => exact (dif_pos h0).trans rfl

theorem accAt7_B (c : Dev nD) (t : Fin cfg7.N) (h0 : ¬t.val % 4 = 0) (h1 : ¬t.val % 4 = 3) :
    accAt7 V c t.val t.isLt = sout7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) (notLast7_of t h1) (iblk7 V c 0 t) (iblk7 V c 1 t) (prev7 V c t) := by
  obtain ⟨n, hn⟩ := t
  cases n with
  | zero => exact absurd (Nat.zero_mod _) h0
  | succ n => exact (dif_neg h0).trans ((dif_neg h1).trans rfl)

theorem accAt7_C (c : Dev nD) (t : Fin cfg7.N) (h0 : ¬t.val % 4 = 0) (h1 : t.val % 4 = 3) :
    accAt7 V c t.val t.isLt = sout7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) ((hcond7_1 t).mpr h1) (iblk7 V c 0 t) (iblk7 V c 1 t) (iblk7 V c 2 t) (iblk7 V c 3 t) (iblk7 V c 4 t) (prev7 V c t) := by
  obtain ⟨n, hn⟩ := t
  cases n with
  | zero => exact absurd (Nat.zero_mod _) h0
  | succ n => exact (dif_neg h0).trans ((dif_pos h1).trans rfl)

/-- What the body leaves in the output window's buffer at point `t`: at a last contracted block the output block; elsewhere
    the window is idle and this value is consulted by nothing. -/
def outAt7 (c : Dev nD) (t : Fin cfg7.N) : Vec F S2048x1024 .f32 :=
  if h1 : t.val % 4 = 3 then
    out7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t (by omega)) ((hcond7_1 t).mpr h1) (iblk7 V c 0 t) (iblk7 V c 1 t) (iblk7 V c 2 t) (iblk7 V c 3 t) (iblk7 V c 4 t) (prev7 V c t)
  else VO7.read (Elt F) VO7.junk

theorem outAt7_C (c : Dev nD) (t : Fin cfg7.N) (h0 : ¬t.val % 4 = 0) (h1 : t.val % 4 = 3) :
    outAt7 V c t = out7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (notFirst7_of t h0) ((hcond7_1 t).mpr h1) (iblk7 V c 0 t) (iblk7 V c 1 t) (iblk7 V c 2 t) (iblk7 V c 3 t) (iblk7 V c 4 t) (prev7 V c t) :=
  dif_pos h1

/-! ## The invariant that carries the accumulator -/

/-- Before position `n`: at the first point what the launch hands the region (the accumulator at anything); afterwards
    the accumulator at what the point before left, the other scoped buffers and the generator register untouched. -/
def PhiS7 (c : Dev nD) : (n : ℕ) → n ≤ cfg7.N → sProp 𝕄
  | 0, _ => Pipeline.ΦA spec7 c
  | n + 1, hn => iprop(iprop(iprop(owns (c : Thread nD τ) scM7 fullShare (accAt7 V c n hn))
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7 fullShare (accAt7 V c n hn))
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(iprop(owns (c : Thread nD τ) scM7 fullShare (accAt7 V c (n - 1) (by omega)))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => outAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = outAt7 V c t := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point: the inputs' memrefs hold their blocks; the closed forms of the conditions say which case the
    point is in; the invariant hands the body the accumulator at what the point before left (at anything before the
    first point) and takes it back at this point's contents; where the output block is not written its window's buffer
    is handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  by_cases h0 : t.val % 4 = 0
  · have hc1 : ¬cond7_1 (grid7.coords t) := notLast7_of_first t h0
    rw [Dat.leavesExact_idle (dat7 V c) 5 t (idleAt7_5 t hc1) (noFlush7_5 t hc1)]
    rw [accAt7_A V c t h0]
    unfold sout7_A; (try dsimp only)
    by_cases hz : t.val = 0
    · rw [PhiS7_castSucc V c t, PhiS7_zero V c _ _ hz, PhiA7_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_A c (grid7.coords t) _ _ _ _ _ _ _ _ _ _ _ _ _ _ ((hcond7_0 t).mpr h0) hc1 (iblk7 V c 0 t) (iblk7 V c 1 t)).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_A c (grid7.coords t) _ _ _ _ _ _ _ _ _ _ _ _ _ _ ((hcond7_0 t).mpr h0) hc1 (iblk7 V c 0 t) (iblk7 V c 1 t)).2 Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_A c _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat7 V c).leavesExact 5 t = owns (c : Thread nD τ) (ms7_5 t) fullShare ((dat7 V c).after 5 t) from by
        unfold Dat.leavesExact; rw [liveAt7_5 t ((hcond7_1 t).mpr h1)], after7_5]
      rw [accAt7_C V c t h0 h1, outAt7_C V c t h0 h1]
      unfold out7_C sout7_C; (try dsimp only)
      rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ (notFirst7_of t h0) ((hcond7_1 t).mpr h1) (iblk7 V c 0 t) (iblk7 V c 1 t) (iblk7 V c 2 t) (iblk7 V c 3 t) (iblk7 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover7_C c _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_C c _ _ _ _ _ _ _ _ _ _ _ _ _ _ _ _ _ _ _ _ _ _ _)
    · have hc1 : ¬cond7_1 (grid7.coords t) := notLast7_of t h1
      rw [Dat.leavesExact_idle (dat7 V c) 5 t (idleAt7_5 t hc1) (noFlush7_5 t hc1)]
      rw [accAt7_B V c t h0 h1]
      unfold sout7_B; (try dsimp only)
      rw [PhiS7_castSucc V c t, PhiS7_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ (notFirst7_of t h0) hc1 (iblk7 V c 0 t) (iblk7 V c 1 t) _).2 Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (scover7_B c _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives it back: the accumulator's contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hb⟩, Hg⟩
  isplitl [HS Hb]
  · isplitl [HS]
    · iexists _; iexact HS
    iexact Hb
  iexact Hg

end Cert.KernelIdeal.Regs

end
-- ==== Proof.Bounds.lean ====
/-
  The contents of the unscoped buffers between the items of the program: the launch contents, after each stretch of host
  operations what the operations compute, after each kernel region the region's output array at what its write-backs
  leave and every other buffer as the region found it. Each region's proof data is taken at the contents the region is
  entered from.
-/
import proofs.«102610_j70265664962762_2_alg».proof.Proof.Gen.KernelIdeal.Regions
import proofs.«102610_j70265664962762_2_alg».proof.Proof.Sample0
import proofs.«102610_j70265664962762_2_alg».proof.Proof.Sample2
import proofs.«102610_j70265664962762_2_alg».proof.Proof.Sample4
import proofs.«102610_j70265664962762_2_alg».proof.Proof.Sample6
import proofs.«102610_j70265664962762_2_alg».proof.Proof.Dot1
import proofs.«102610_j70265664962762_2_alg».proof.Proof.Dot3
import proofs.«102610_j70265664962762_2_alg».proof.Proof.Dot5
import proofs.«102610_j70265664962762_2_alg».proof.Proof.Dot7

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev U0 (c : Dev nD) : Valuation τ sig (Elt F) := fun b => m (c, b)
/-- The same read at the TensorCore's references. -/
abbrev UV0 : (c : Dev nD) → (b : Ref sig .tc) → Buf (Elt F) ((c : Thread nD τ).loc b) := fun c b => U0 m c b
/-- After the host stretch `hostOps0`. -/
abbrev U1 (c : Dev nD) : Valuation τ sig (Elt F) := StableHlo.after hostOps0 (U0 m c)
abbrev UV1 : (c : Dev nD) → (b : Ref sig .tc) → Buf (Elt F) ((c : Thread nD τ).loc b) := fun c b => U1 m c b
/-- What region 0 leaves in its output array `main_v1`: its blocks' write-backs folded. -/
def o0 (c : Dev nD) : Buf (Elt F) ((c : Thread nD τ).loc main_v1) := (dat0 (UV1 m) c).arrAt 3 cfg0.N
/-- After region 0. -/
abbrev U2 (c : Dev nD) : Valuation τ sig (Elt F) := Function.update (U1 m c) main_v1 (o0 m c)
abbrev UV2 : (c : Dev nD) → (b : Ref sig .tc) → Buf (Elt F) ((c : Thread nD τ).loc b) := fun c b => U2 m c b
/-- After the host stretch `hostOps1`. -/
abbrev U3 (c : Dev nD) : Valuation τ sig (Elt F) := StableHlo.after hostOps1 (U2 m c)
abbrev UV3 : (c : Dev nD) → (b : Ref sig .tc) → Buf (Elt F) ((c : Thread nD τ).loc b) := fun c b => U3 m c b
/-- What region 1 leaves in its output array `main_v5`: its blocks' write-backs folded. -/
def o1 (c : Dev nD) : Buf (Elt F) ((c : Thread nD τ).loc main_v5) := (dat1 (UV3 m) c).arrAt 5 cfg1.N
/-- After region 1. -/
abbrev U4 (c : Dev nD) : Valuation τ sig (Elt F) := Function.update (U3 m c) main_v5 (o1 m c)
abbrev UV4 : (c : Dev nD) → (b : Ref sig .tc) → Buf (Elt F) ((c : Thread nD τ).loc b) := fun c b => U4 m c b
/-- What region 2 leaves in its output array `main_v6`: its blocks' write-backs folded. -/
def o2 (c : Dev nD) : Buf (Elt F) ((c : Thread nD τ).loc main_v6) := (dat2 (UV4 m) c).arrAt 3 cfg2.N
/-- After region 2. -/
abbrev U5 (c : Dev nD) : Valuation τ sig (Elt F) := Function.update (U4 m c) main_v6 (o2 m c)
abbrev UV5 : (c : Dev nD) → (b : Ref sig .tc) → Buf (Elt F) ((c : Thread nD τ).loc b) := fun c b => U5 m c b
/-- After the host stretch `hostOps3`. -/
abbrev U6 (c : Dev nD) : Valuation τ sig (Elt F) := StableHlo.after hostOps3 (U5 m c)
abbrev UV6 : (c : Dev nD) → (b : Ref sig .tc) → Buf (Elt F) ((c : Thread nD τ).loc b) := fun c b => U6 m c b
/-- What region 3 leaves in its output array `main_v10`: its blocks' write-backs folded. -/
def o3 (c : Dev nD) : Buf (Elt F) ((c : Thread nD τ).loc main_v10) := (dat3 (UV6 m) c).arrAt 5 cfg3.N
/-- After region 3. -/
abbrev U7 (c : Dev nD) : Valuation τ sig (Elt F) := Function.update (U6 m c) main_v10 (o3 m c)
abbrev UV7 : (c : Dev nD) → (b : Ref sig .tc) → Buf (Elt F) ((c : Thread nD τ).loc b) := fun c b => U7 m c b
/-- What region 4 leaves in its output array `main_v11`: its blocks' write-backs folded. -/
def o4 (c : Dev nD) : Buf (Elt F) ((c : Thread nD τ).loc main_v11) := (dat4 (UV7 m) c).arrAt 3 cfg4.N
/-- After region 4. -/
abbrev U8 (c : Dev nD) : Valuation τ sig (Elt F) := Function.update (U7 m c) main_v11 (o4 m c)
abbrev UV8 : (c : Dev nD) → (b : Ref sig .tc) → Buf (Elt F) ((c : Thread nD τ).loc b) := fun c b => U8 m c b
/-- After the host stretch `hostOps5`. -/
abbrev U9 (c : Dev nD) : Valuation τ sig (Elt F) := StableHlo.after hostOps5 (U8 m c)
abbrev UV9 : (c : Dev nD) → (b : Ref sig .tc) → Buf (Elt F) ((c : Thread nD τ).loc b) := fun c b => U9 m c b
/-- What region 5 leaves in its output array `main_v15`: its blocks' write-backs folded. -/
def o5 (c : Dev nD) : Buf (Elt F) ((c : Thread nD τ).loc main_v15) := (dat5 (UV9 m) c).arrAt 5 cfg5.N
/-- After region 5. -/
abbrev U10 (c : Dev nD) : Valuation τ sig (Elt F) := Function.update (U9 m c) main_v15 (o5 m c)
abbrev UV10 : (c : Dev nD) → (b : Ref sig .tc) → Buf (Elt F) ((c : Thread nD τ).loc b) := fun c b => U10 m c b
/-- What region 6 leaves in its output array `main_v16`: its blocks' write-backs folded. -/
def o6 (c : Dev nD) : Buf (Elt F) ((c : Thread nD τ).loc main_v16) := (dat6 (UV10 m) c).arrAt 3 cfg6.N
/-- After region 6. -/
abbrev U11 (c : Dev nD) : Valuation τ sig (Elt F) := Function.update (U10 m c) main_v16 (o6 m c)
abbrev UV11 : (c : Dev nD) → (b : Ref sig .tc) → Buf (Elt F) ((c : Thread nD τ).loc b) := fun c b => U11 m c b
/-- After the host stretch `hostOps7`. -/
abbrev U12 (c : Dev nD) : Valuation τ sig (Elt F) := StableHlo.after hostOps7 (U11 m c)
abbrev UV12 : (c : Dev nD) → (b : Ref sig .tc) → Buf (Elt F) ((c : Thread nD τ).loc b) := fun c b => U12 m c b
/-- What region 7 leaves in its output array `main_v20`: its blocks' write-backs folded. -/
def o7 (c : Dev nD) : Buf (Elt F) ((c : Thread nD τ).loc main_v20) := (dat7 (UV12 m) c).arrAt 5 cfg7.N
/-- After region 7. -/
abbrev U13 (c : Dev nD) : Valuation τ sig (Elt F) := Function.update (U12 m c) main_v20 (o7 m c)
abbrev UV13 : (c : Dev nD) → (b : Ref sig .tc) → Buf (Elt F) ((c : Thread nD τ).loc b) := fun c b => U13 m c b

/-- The regions' outputs as the conditional frame's unknowns: at each region's exit the contents after it. -/
def outs : Outs (F := F) := fun J r c =>
  match J with
  | 2 => U2 m c r
  | 4 => U4 m c r
  | 5 => U5 m c r
  | 7 => U7 m c r
  | 8 => U8 m c r
  | 10 => U10 m c r
  | 11 => U11 m c r
  | 13 => U13 m c r
  | _ => U0 m c r

theorem V1_eq (c : Dev nD) : V1 m c = U1 m c := rfl
theorem V2_eq (c : Dev nD) : V2 m (outs m) c = U2 m c := by
  rw [show V2 m (outs m) c = Function.update (V1 m c) main_v1 (outs m 2 main_v1 c) from rfl, show V1 m c = U1 m c from rfl,
    show outs m 2 main_v1 c = o0 m c from (show U2 m c main_v1 = o0 m c from Function.update_self _ _ _)]
theorem V3_eq (c : Dev nD) : V3 m (outs m) c = U3 m c := by
  rw [show V3 m (outs m) c = StableHlo.after hostOps1 (V2 m (outs m) c) from rfl, V2_eq]
theorem V4_eq (c : Dev nD) : V4 m (outs m) c = U4 m c := by
  rw [show V4 m (outs m) c = Function.update (V3 m (outs m) c) main_v5 (outs m 4 main_v5 c) from rfl, V3_eq,
    show outs m 4 main_v5 c = o1 m c from (show U4 m c main_v5 = o1 m c from Function.update_self _ _ _)]
theorem V5_eq (c : Dev nD) : V5 m (outs m) c = U5 m c := by
  rw [show V5 m (outs m) c = Function.update (V4 m (outs m) c) main_v6 (outs m 5 main_v6 c) from rfl, V4_eq,
    show outs m 5 main_v6 c = o2 m c from (show U5 m c main_v6 = o2 m c from Function.update_self _ _ _)]
theorem V6_eq (c : Dev nD) : V6 m (outs m) c = U6 m c := by
  rw [show V6 m (outs m) c = StableHlo.after hostOps3 (V5 m (outs m) c) from rfl, V5_eq]
theorem V7_eq (c : Dev nD) : V7 m (outs m) c = U7 m c := by
  rw [show V7 m (outs m) c = Function.update (V6 m (outs m) c) main_v10 (outs m 7 main_v10 c) from rfl, V6_eq,
    show outs m 7 main_v10 c = o3 m c from (show U7 m c main_v10 = o3 m c from Function.update_self _ _ _)]
theorem V8_eq (c : Dev nD) : V8 m (outs m) c = U8 m c := by
  rw [show V8 m (outs m) c = Function.update (V7 m (outs m) c) main_v11 (outs m 8 main_v11 c) from rfl, V7_eq,
    show outs m 8 main_v11 c = o4 m c from (show U8 m c main_v11 = o4 m c from Function.update_self _ _ _)]
theorem V9_eq (c : Dev nD) : V9 m (outs m) c = U9 m c := by
  rw [show V9 m (outs m) c = StableHlo.after hostOps5 (V8 m (outs m) c) from rfl, V8_eq]
theorem V10_eq (c : Dev nD) : V10 m (outs m) c = U10 m c := by
  rw [show V10 m (outs m) c = Function.update (V9 m (outs m) c) main_v15 (outs m 10 main_v15 c) from rfl, V9_eq,
    show outs m 10 main_v15 c = o5 m c from (show U10 m c main_v15 = o5 m c from Function.update_self _ _ _)]
theorem V11_eq (c : Dev nD) : V11 m (outs m) c = U11 m c := by
  rw [show V11 m (outs m) c = Function.update (V10 m (outs m) c) main_v16 (outs m 11 main_v16 c) from rfl, V10_eq,
    show outs m 11 main_v16 c = o6 m c from (show U11 m c main_v16 = o6 m c from Function.update_self _ _ _)]
theorem V12_eq (c : Dev nD) : V12 m (outs m) c = U12 m c := by
  rw [show V12 m (outs m) c = StableHlo.after hostOps7 (V11 m (outs m) c) from rfl, V11_eq]
theorem V13_eq (c : Dev nD) : V13 m (outs m) c = U13 m c := by
  rw [show V13 m (outs m) c = Function.update (V12 m (outs m) c) main_v20 (outs m 13 main_v20 c) from rfl, V12_eq,
    show outs m 13 main_v20 c = o7 m c from (show U13 m c main_v20 = o7 m c from Function.update_self _ _ _)]

/-- Every pipeline's proof data, each at its region's entry contents. -/
def pdats : (p : Fin 8) → (c : Dev nD) → Dat τ (Elt F) Unit ℕ (UR sig nD τ) ℕ (cfgs p) c
  | ⟨0, _⟩ => fun c => dat0 (UV1 m) c
  | ⟨1, _⟩ => fun c => dat1 (UV3 m) c
  | ⟨2, _⟩ => fun c => dat2 (UV4 m) c
  | ⟨3, _⟩ => fun c => dat3 (UV6 m) c
  | ⟨4, _⟩ => fun c => dat4 (UV7 m) c
  | ⟨5, _⟩ => fun c => dat5 (UV9 m) c
  | ⟨6, _⟩ => fun c => dat6 (UV10 m) c
  | ⟨7, _⟩ => fun c => dat7 (UV12 m) c

end Cert.KernelIdeal.Regs

end
-- ==== Proof.Segs.lean ====
/-
  The program as the segments of the library's several-regions launch theorem, and its run. Each kernel region is entered from the thread state
  "every unscoped buffer at the boundary's contents, the generator register at some state, nothing owed" and left at the
  same at the next boundary: its arrays are split out of the unscoped buffers at entry and put back at their final
  contents at exit; the generator register and the scoped buffers go into the region's invariant and come back (for a
  layer product region through the invariant that carries the accumulator). The run: every weakly fair execution of the
  program terminates, nothing faulting, and the final memory holds every unscoped buffer at the last boundary's contents.
-/
import proofs.«102610_j70265664962762_2_alg».proof.Proof.Bounds

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)

/-! ## Region 0 -/

set_option maxHeartbeats 1600000 in
/-- At region 0's exit each of its arrays holds what the pipeline leaves: an input as entered, the output its write-backs. -/
theorem hF0 (c : Dev nD) : ∀ w : Fin cfg0.W, (dat0 (UV1 m) c).arrAt w cfg0.N = UV2 m c (Pipeline.arrRef spec0 w)
  | ⟨0, _⟩ => (((dat0 (UV1 m) c).arrAt_in 0 rfl _).trans (A_eq0 (UV1 m) c 0)).trans
      (Function.update_of_ne (StableHlo.devRef_ne_of_ne (by decide)) _ _).symm
  | ⟨1, _⟩ => (((dat0 (UV1 m) c).arrAt_in 1 rfl _).trans (A_eq0 (UV1 m) c 1)).trans
      (Function.update_of_ne (StableHlo.devRef_ne_of_ne (by decide)) _ _).symm
  | ⟨2, _⟩ => (((dat0 (UV1 m) c).arrAt_in 2 rfl _).trans (A_eq0 (UV1 m) c 2)).trans
      (Function.update_of_ne (StableHlo.devRef_ne_of_ne (by decide)) _ _).symm
  | ⟨3, _⟩ => show o0 m c = Function.update (U1 m c) (Proc.devRef .tc main_v1) (o0 m c) (Proc.devRef .tc main_v1) from
      (Function.update_self (Proc.devRef .tc main_v1) (o0 m c) (U1 m c)).symm

/-- and every other buffer what it held at entry. -/
theorem hrest0 (c : Dev nD) : ∀ b, b ∉ Finset.univ.image (Pipeline.arrRef spec0) → UV2 m c b = UV1 m c b :=
  fun b hb => Function.update_of_ne (StableHlo.devRef_ne_of_ne fun e => hb (Finset.mem_image.mpr ⟨3, Finset.mem_univ _, e.symm⟩)) _ _

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (UV1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (UV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (UV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (UV1 m c) (UV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 1600000 in
/-- At region 1's exit each of its arrays holds what the pipeline leaves: an input as entered, the output its write-backs. -/
theorem hF1 (c : Dev nD) : ∀ w : Fin cfg1.W, (dat1 (UV3 m) c).arrAt w cfg1.N = UV4 m c (Pipeline.arrRef spec1 w)
  | ⟨0, _⟩ => (((dat1 (UV3 m) c).arrAt_in 0 rfl _).trans (A_eq1 (UV3 m) c 0)).trans
      (Function.update_of_ne (StableHlo.devRef_ne_of_ne (by decide)) _ _).symm
  | ⟨1, _⟩ => (((dat1 (UV3 m) c).arrAt_in 1 rfl _).trans (A_eq1 (UV3 m) c 1)).trans
      (Function.update_of_ne (StableHlo.devRef_ne_of_ne (by decide)) _ _).symm
  | ⟨2, _⟩ => (((dat1 (UV3 m) c).arrAt_in 2 rfl _).trans (A_eq1 (UV3 m) c 2)).trans
      (Function.update_of_ne (StableHlo.devRef_ne_of_ne (by decide)) _ _).symm
  | ⟨3, _⟩ => (((dat1 (UV3 m) c).arrAt_in 3 rfl _).trans (A_eq1 (UV3 m) c 3)).trans
      (Function.update_of_ne (StableHlo.devRef_ne_of_ne (by decide)) _ _).symm
  | ⟨4, _⟩ => (((dat1 (UV3 m) c).arrAt_in 4 rfl _).trans (A_eq1 (UV3 m) c 4)).trans
      (Function.update_of_ne (StableHlo.devRef_ne_of_ne (by decide)) _ _).symm
  | ⟨5, _⟩ => show o1 m c = Function.update (U3 m c) (Proc.devRef .tc main_v5) (o1 m c) (Proc.devRef .tc main_v5) from
      (Function.update_self (Proc.devRef .tc main_v5) (o1 m c) (U3 m c)).symm

/-- and every other buffer what it held at entry. -/
theorem hrest1 (c : Dev nD) : ∀ b, b ∉ Finset.univ.image (Pipeline.arrRef spec1) → UV4 m c b = UV3 m c b :=
  fun b hb => Function.update_of_ne (StableHlo.devRef_ne_of_ne fun e => hb (Finset.mem_image.mpr ⟨5, Finset.mem_univ _, e.symm⟩)) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (UV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (UV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (UV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (UV3 m) c)
    unfold Pipeline.ΦA
    iintro ⟨Hp, -, Hr⟩
    isplitl [Hr]; · iexact Hr
    iexact Hp
  hout c := by
    rw [Pipeline.ownSems0_none]
    refine (hout1 (UV3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (UV3 m c) (UV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 1600000 in
/-- At region 2's exit each of its arrays holds what the pipeline leaves: an input as entered, the output its write-backs. -/
theorem hF2 (c : Dev nD) : ∀ w : Fin cfg2.W, (dat2 (UV4 m) c).arrAt w cfg2.N = UV5 m c (Pipeline.arrRef spec2 w)
  | ⟨0, _⟩ => (((dat2 (UV4 m) c).arrAt_in 0 rfl _).trans (A_eq2 (UV4 m) c 0)).trans
      (Function.update_of_ne (StableHlo.devRef_ne_of_ne (by decide)) _ _).symm
  | ⟨1, _⟩ => (((dat2 (UV4 m) c).arrAt_in 1 rfl _).trans (A_eq2 (UV4 m) c 1)).trans
      (Function.update_of_ne (StableHlo.devRef_ne_of_ne (by decide)) _ _).symm
  | ⟨2, _⟩ => (((dat2 (UV4 m) c).arrAt_in 2 rfl _).trans (A_eq2 (UV4 m) c 2)).trans
      (Function.update_of_ne (StableHlo.devRef_ne_of_ne (by decide)) _ _).symm
  | ⟨3, _⟩ => show o2 m c = Function.update (U4 m c) (Proc.devRef .tc main_v6) (o2 m c) (Proc.devRef .tc main_v6) from
      (Function.update_self (Proc.devRef .tc main_v6) (o2 m c) (U4 m c)).symm

/-- and every other buffer what it held at entry. -/
theorem hrest2 (c : Dev nD) : ∀ b, b ∉ Finset.univ.image (Pipeline.arrRef spec2) → UV5 m c b = UV4 m c b :=
  fun b hb => Function.update_of_ne (StableHlo.devRef_ne_of_ne fun e => hb (Finset.mem_image.mpr ⟨3, Finset.mem_univ _, e.symm⟩)) _ _

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (UV4 m) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (UV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (UV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (UV4 m c) (UV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

set_option maxHeartbeats 1600000 in
/-- At region 3's exit each of its arrays holds what the pipeline leaves: an input as entered, the output its write-backs. -/
theorem hF3 (c : Dev nD) : ∀ w : Fin cfg3.W, (dat3 (UV6 m) c).arrAt w cfg3.N = UV7 m c (Pipeline.arrRef spec3 w)
  | ⟨0, _⟩ => (((dat3 (UV6 m) c).arrAt_in 0 rfl _).trans (A_eq3 (UV6 m) c 0)).trans
      (Function.update_of_ne (StableHlo.devRef_ne_of_ne (by decide)) _ _).symm
  | ⟨1, _⟩ => (((dat3 (UV6 m) c).arrAt_in 1 rfl _).trans (A_eq3 (UV6 m) c 1)).trans
      (Function.update_of_ne (StableHlo.devRef_ne_of_ne (by decide)) _ _).symm
  | ⟨2, _⟩ => (((dat3 (UV6 m) c).arrAt_in 2 rfl _).trans (A_eq3 (UV6 m) c 2)).trans
      (Function.update_of_ne (StableHlo.devRef_ne_of_ne (by decide)) _ _).symm
  | ⟨3, _⟩ => (((dat3 (UV6 m) c).arrAt_in 3 rfl _).trans (A_eq3 (UV6 m) c 3)).trans
      (Function.update_of_ne (StableHlo.devRef_ne_of_ne (by decide)) _ _).symm
  | ⟨4, _⟩ => (((dat3 (UV6 m) c).arrAt_in 4 rfl _).trans (A_eq3 (UV6 m) c 4)).trans
      (Function.update_of_ne (StableHlo.devRef_ne_of_ne (by decide)) _ _).symm
  | ⟨5, _⟩ => show o3 m c = Function.update (U6 m c) (Proc.devRef .tc main_v10) (o3 m c) (Proc.devRef .tc main_v10) from
      (Function.update_self (Proc.devRef .tc main_v10) (o3 m c) (U6 m c)).symm

/-- and every other buffer what it held at entry. -/
theorem hrest3 (c : Dev nD) : ∀ b, b ∉ Finset.univ.image (Pipeline.arrRef spec3) → UV7 m c b = UV6 m c b :=
  fun b hb => Function.update_of_ne (StableHlo.devRef_ne_of_ne fun e => hb (Finset.mem_image.mpr ⟨5, Finset.mem_univ _, e.symm⟩)) _ _

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (UV6 m) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (UV6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (UV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (UV6 m) c)
    unfold Pipeline.ΦA
    iintro ⟨Hp, -, Hr⟩
    isplitl [Hr]; · iexact Hr
    iexact Hp
  hout c := by
    rw [Pipeline.ownSems0_none]
    refine (hout3 (UV6 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (UV6 m c) (UV7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

set_option maxHeartbeats 1600000 in
/-- At region 4's exit each of its arrays holds what the pipeline leaves: an input as entered, the output its write-backs. -/
theorem hF4 (c : Dev nD) : ∀ w : Fin cfg4.W, (dat4 (UV7 m) c).arrAt w cfg4.N = UV8 m c (Pipeline.arrRef spec4 w)
  | ⟨0, _⟩ => (((dat4 (UV7 m) c).arrAt_in 0 rfl _).trans (A_eq4 (UV7 m) c 0)).trans
      (Function.update_of_ne (StableHlo.devRef_ne_of_ne (by decide)) _ _).symm
  | ⟨1, _⟩ => (((dat4 (UV7 m) c).arrAt_in 1 rfl _).trans (A_eq4 (UV7 m) c 1)).trans
      (Function.update_of_ne (StableHlo.devRef_ne_of_ne (by decide)) _ _).symm
  | ⟨2, _⟩ => (((dat4 (UV7 m) c).arrAt_in 2 rfl _).trans (A_eq4 (UV7 m) c 2)).trans
      (Function.update_of_ne (StableHlo.devRef_ne_of_ne (by decide)) _ _).symm
  | ⟨3, _⟩ => show o4 m c = Function.update (U7 m c) (Proc.devRef .tc main_v11) (o4 m c) (Proc.devRef .tc main_v11) from
      (Function.update_self (Proc.devRef .tc main_v11) (o4 m c) (U7 m c)).symm

/-- and every other buffer what it held at entry. -/
theorem hrest4 (c : Dev nD) : ∀ b, b ∉ Finset.univ.image (Pipeline.arrRef spec4) → UV8 m c b = UV7 m c b :=
  fun b hb => Function.update_of_ne (StableHlo.devRef_ne_of_ne fun e => hb (Finset.mem_image.mpr ⟨3, Finset.mem_univ _, e.symm⟩)) _ _

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (UV7 m) c).loose
  hwaits := Pipeline.hwaits_of_owed_zero _ _ _ _ L lv 4 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec4 c (UV7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (UV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (UV7 m c) (UV8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

set_option maxHeartbeats 1600000 in
/-- At region 5's exit each of its arrays holds what the pipeline leaves: an input as entered, the output its write-backs. -/
theorem hF5 (c : Dev nD) : ∀ w : Fin cfg5.W, (dat5 (UV9 m) c).arrAt w cfg5.N = UV10 m c (Pipeline.arrRef spec5 w)
  | ⟨0, _⟩ => (((dat5 (UV9 m) c).arrAt_in 0 rfl _).trans (A_eq5 (UV9 m) c 0)).trans
      (Function.update_of_ne (StableHlo.devRef_ne_of_ne (by decide)) _ _).symm
  | ⟨1, _⟩ => (((dat5 (UV9 m) c).arrAt_in 1 rfl _).trans (A_eq5 (UV9 m) c 1)).trans
      (Function.update_of_ne (StableHlo.devRef_ne_of_ne (by decide)) _ _).symm
  | ⟨2, _⟩ => (((dat5 (UV9 m) c).arrAt_in 2 rfl _).trans (A_eq5 (UV9 m) c 2)).trans
      (Function.update_of_ne (StableHlo.devRef_ne_of_ne (by decide)) _ _).symm
  | ⟨3, _⟩ => (((dat5 (UV9 m) c).arrAt_in 3 rfl _).trans (A_eq5 (UV9 m) c 3)).trans
      (Function.update_of_ne (StableHlo.devRef_ne_of_ne (by decide)) _ _).symm
  | ⟨4, _⟩ => (((dat5 (UV9 m) c).arrAt_in 4 rfl _).trans (A_eq5 (UV9 m) c 4)).trans
      (Function.update_of_ne (StableHlo.devRef_ne_of_ne (by decide)) _ _).symm
  | ⟨5, _⟩ => show o5 m c = Function.update (U9 m c) (Proc.devRef .tc main_v15) (o5 m c) (Proc.devRef .tc main_v15) from
      (Function.update_self (Proc.devRef .tc main_v15) (o5 m c) (U9 m c)).symm

/-- and every other buffer what it held at entry. -/
theorem hrest5 (c : Dev nD) : ∀ b, b ∉ Finset.univ.image (Pipeline.arrRef spec5) → UV10 m c b = UV9 m c b :=
  fun b hb => Function.update_of_ne (StableHlo.devRef_ne_of_ne fun e => hb (Finset.mem_image.mpr ⟨5, Finset.mem_univ _, e.symm⟩)) _ _

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (UV9 m) c).loose
  hwaits := Pipeline.hwaits_of_owed_zero _ _ _ _ L lv 5 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec5 c (UV9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (UV9 m) c)
    unfold Pipeline.ΦA
    iintro ⟨Hp, -, Hr⟩
    isplitl [Hr]; · iexact Hr
    iexact Hp
  hout c := by
    rw [Pipeline.ownSems0_none]
    refine (hout5 (UV9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (UV9 m c) (UV10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

set_option maxHeartbeats 1600000 in
/-- At region 6's exit each of its arrays holds what the pipeline leaves: an input as entered, the output its write-backs. -/
theorem hF6 (c : Dev nD) : ∀ w : Fin cfg6.W, (dat6 (UV10 m) c).arrAt w cfg6.N = UV11 m c (Pipeline.arrRef spec6 w)
  | ⟨0, _⟩ => (((dat6 (UV10 m) c).arrAt_in 0 rfl _).trans (A_eq6 (UV10 m) c 0)).trans
      (Function.update_of_ne (StableHlo.devRef_ne_of_ne (by decide)) _ _).symm
  | ⟨1, _⟩ => (((dat6 (UV10 m) c).arrAt_in 1 rfl _).trans (A_eq6 (UV10 m) c 1)).trans
      (Function.update_of_ne (StableHlo.devRef_ne_of_ne (by decide)) _ _).symm
  | ⟨2, _⟩ => (((dat6 (UV10 m) c).arrAt_in 2 rfl _).trans (A_eq6 (UV10 m) c 2)).trans
      (Function.update_of_ne (StableHlo.devRef_ne_of_ne (by decide)) _ _).symm
  | ⟨3, _⟩ => show o6 m c = Function.update (U10 m c) (Proc.devRef .tc main_v16) (o6 m c) (Proc.devRef .tc main_v16) from
      (Function.update_self (Proc.devRef .tc main_v16) (o6 m c) (U10 m c)).symm

/-- and every other buffer what it held at entry. -/
theorem hrest6 (c : Dev nD) : ∀ b, b ∉ Finset.univ.image (Pipeline.arrRef spec6) → UV11 m c b = UV10 m c b :=
  fun b hb => Function.update_of_ne (StableHlo.devRef_ne_of_ne fun e => hb (Finset.mem_image.mpr ⟨3, Finset.mem_univ _, e.symm⟩)) _ _

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (UV10 m) c).loose
  hwaits := Pipeline.hwaits_of_owed_zero _ _ _ _ L lv 6 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec6 c (UV10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (UV10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (UV10 m c) (UV11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

set_option maxHeartbeats 1600000 in
/-- At region 7's exit each of its arrays holds what the pipeline leaves: an input as entered, the output its write-backs. -/
theorem hF7 (c : Dev nD) : ∀ w : Fin cfg7.W, (dat7 (UV12 m) c).arrAt w cfg7.N = UV13 m c (Pipeline.arrRef spec7 w)
  | ⟨0, _⟩ => (((dat7 (UV12 m) c).arrAt_in 0 rfl _).trans (A_eq7 (UV12 m) c 0)).trans
      (Function.update_of_ne (StableHlo.devRef_ne_of_ne (by decide)) _ _).symm
  | ⟨1, _⟩ => (((dat7 (UV12 m) c).arrAt_in 1 rfl _).trans (A_eq7 (UV12 m) c 1)).trans
      (Function.update_of_ne (StableHlo.devRef_ne_of_ne (by decide)) _ _).symm
  | ⟨2, _⟩ => (((dat7 (UV12 m) c).arrAt_in 2 rfl _).trans (A_eq7 (UV12 m) c 2)).trans
      (Function.update_of_ne (StableHlo.devRef_ne_of_ne (by decide)) _ _).symm
  | ⟨3, _⟩ => (((dat7 (UV12 m) c).arrAt_in 3 rfl _).trans (A_eq7 (UV12 m) c 3)).trans
      (Function.update_of_ne (StableHlo.devRef_ne_of_ne (by decide)) _ _).symm
  | ⟨4, _⟩ => (((dat7 (UV12 m) c).arrAt_in 4 rfl _).trans (A_eq7 (UV12 m) c 4)).trans
      (Function.update_of_ne (StableHlo.devRef_ne_of_ne (by decide)) _ _).symm
  | ⟨5, _⟩ => show o7 m c = Function.update (U12 m c) (Proc.devRef .tc main_v20) (o7 m c) (Proc.devRef .tc main_v20) from
      (Function.update_self (Proc.devRef .tc main_v20) (o7 m c) (U12 m c)).symm

/-- and every other buffer what it held at entry. -/
theorem hrest7 (c : Dev nD) : ∀ b, b ∉ Finset.univ.image (Pipeline.arrRef spec7) → UV13 m c b = UV12 m c b :=
  fun b hb => Function.update_of_ne (StableHlo.devRef_ne_of_ne fun e => hb (Finset.mem_image.mpr ⟨5, Finset.mem_univ _, e.symm⟩)) _ _

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (UV12 m) c).loose
  hwaits := Pipeline.hwaits_of_owed_zero _ _ _ _ L lv 7 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec7 c (UV12 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (UV12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec7 c from ?_).trans (hin7 (UV12 m) c)
    unfold Pipeline.ΦA
    iintro ⟨Hp, -, Hr⟩
    isplitl [Hr]; · iexact Hr
    iexact Hp
  hout c := by
    rw [Pipeline.ownSems0_none]
    refine (hout7 (UV12 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (UV12 m c) (UV13 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regs

end
-- ==== Proof.Run.lean ====
/-
  The program's run: the conditional run at this certificate's segment records, the level-free launch, and the
  thread rest "generator register at some state, nothing owed" at every boundary. Every weakly fair execution
  terminates, nothing faulting, with every unscoped buffer at the last boundary's contents; the frame claim reads the
  argument arrays off it, the value claim the result array.
-/
import proofs.«102610_j70265664962762_2_alg».proof.Proof.Segs
import proofs.«102610_j70265664962762_2_alg».proof.Proof.RunCond

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1600000 in
/-- THE RUN: every weakly fair execution of the program from memory `m` with zero counters terminates, nothing
    faulting, and the final memory holds every unscoped buffer at the last boundary's contents. -/
theorem run_V : θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := reg0 m)
    (hpre0 := fun c => by rw [V1_eq m c]; exact .rfl)
    (hpost0 := fun c => by rw [V2_eq m c]; exact .rfl)
    (R1 := reg1 m)
    (hpre1 := fun c => by rw [V3_eq m c]; exact .rfl)
    (hpost1 := fun c => by rw [V4_eq m c]; exact .rfl)
    (R2 := reg2 m)
    (hpre2 := fun c => by rw [V4_eq m c]; exact .rfl)
    (hpost2 := fun c => by rw [V5_eq m c]; exact .rfl)
    (R3 := reg3 m)
    (hpre3 := fun c => by rw [V6_eq m c]; exact .rfl)
    (hpost3 := fun c => by rw [V7_eq m c]; exact .rfl)
    (R4 := reg4 m)
    (hpre4 := fun c => by rw [V7_eq m c]; exact .rfl)
    (hpost4 := fun c => by rw [V8_eq m c]; exact .rfl)
    (R5 := reg5 m)
    (hpre5 := fun c => by rw [V9_eq m c]; exact .rfl)
    (hpost5 := fun c => by rw [V10_eq m c]; exact .rfl)
    (R6 := reg6 m)
    (hpre6 := fun c => by rw [V10_eq m c]; exact .rfl)
    (hpost6 := fun c => by rw [V11_eq m c]; exact .rfl)
    (R7 := reg7 m)
    (hpre7 := fun c => by rw [V12_eq m c]; exact .rfl)
    (hpost7 := fun c => by rw [V13_eq m c]; exact .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r hr c => ⟨(hr c _ (mem_uc main_arg0 (by decide))).trans (V13_main_arg0 m (outs m) c),
      (hr c _ (mem_uc main_arg1 (by decide))).trans (V13_main_arg1 m (outs m) c),
      (hr c _ (mem_uc main_arg2 (by decide))).trans (V13_main_arg2 m (outs m) c),
      (hr c _ (mem_uc main_arg3 (by decide))).trans (V13_main_arg3 m (outs m) c),
      (hr c _ (mem_uc main_arg4 (by decide))).trans (V13_main_arg4 m (outs m) c),
      (hr c _ (mem_uc main_arg5 (by decide))).trans (V13_main_arg5 m (outs m) c),
      (hr c _ (mem_uc main_arg6 (by decide))).trans (V13_main_arg6 m (outs m) c),
      (hr c _ (mem_uc main_arg7 (by decide))).trans (V13_main_arg7 m (outs m) c),
      (hr c _ (mem_uc main_arg8 (by decide))).trans (V13_main_arg8 m (outs m) c),
      (hr c _ (mem_uc main_arg9 (by decide))).trans (V13_main_arg9 m (outs m) c),
      (hr c _ (mem_uc main_arg10 (by decide))).trans (V13_main_arg10 m (outs m) c),
      (hr c _ (mem_uc main_arg11 (by decide))).trans (V13_main_arg11 m (outs m) c),
      (hr c _ (mem_uc main_arg12 (by decide))).trans (V13_main_arg12 m (outs m) c),
      (hr c _ (mem_uc main_arg13 (by decide))).trans (V13_main_arg13 m (outs m) c),
      (hr c _ (mem_uc main_arg14 (by decide))).trans (V13_main_arg14 m (outs m) c),
      (hr c _ (mem_uc main_arg15 (by decide))).trans (V13_main_arg15 m (outs m) c),
      (hr c _ (mem_uc main_arg16 (by decide))).trans (V13_main_arg16 m (outs m) c),
      (hr c _ (mem_uc main_arg17 (by decide))).trans (V13_main_arg17 m (outs m) c),
      (hr c _ (mem_uc main_arg18 (by decide))).trans (V13_main_arg18 m (outs m) c),
      (hr c _ (mem_uc main_arg19 (by decide))).trans (V13_main_arg19 m (outs m) c),
      (hr c _ (mem_uc main_arg20 (by decide))).trans (V13_main_arg20 m (outs m) c),
      (hr c _ (mem_uc main_arg21 (by decide))).trans (V13_main_arg21 m (outs m) c),
      (hr c _ (mem_uc main_arg22 (by decide))).trans (V13_main_arg22 m (outs m) c),
      (hr c _ (mem_uc main_arg23 (by decide))).trans (V13_main_arg23 m (outs m) c),
      (hr c _ (mem_uc main_arg24 (by decide))).trans (V13_main_arg24 m (outs m) c)⟩) (run_V m ρ)

/-- THE RESULT: the result array ends at what the last region's write-backs leave. -/
theorem result : θ_run defs (onTc (τ := τ) (main (F := F))) ⟨m, fun _ => 0, ρ⟩ (fun r => ∀ c : Dev nD,
      r.2.mem ((c.tc : Thread nD τ).loc main_v20) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r hr c => ⟨(hr c _ (mem_uc main_v20 (by decide))).trans ((congrFun (V13_eq m c) _).trans (Function.update_self _ _ _)),
      (hr c _ (mem_uc main_arg0 (by decide))).trans (V13_main_arg0 m (outs m) c),
      (hr c _ (mem_uc main_arg1 (by decide))).trans (V13_main_arg1 m (outs m) c),
      (hr c _ (mem_uc main_arg2 (by decide))).trans (V13_main_arg2 m (outs m) c),
      (hr c _ (mem_uc main_arg3 (by decide))).trans (V13_main_arg3 m (outs m) c),
      (hr c _ (mem_uc main_arg4 (by decide))).trans (V13_main_arg4 m (outs m) c),
      (hr c _ (mem_uc main_arg5 (by decide))).trans (V13_main_arg5 m (outs m) c),
      (hr c _ (mem_uc main_arg6 (by decide))).trans (V13_main_arg6 m (outs m) c),
      (hr c _ (mem_uc main_arg7 (by decide))).trans (V13_main_arg7 m (outs m) c),
      (hr c _ (mem_uc main_arg8 (by decide))).trans (V13_main_arg8 m (outs m) c),
      (hr c _ (mem_uc main_arg9 (by decide))).trans (V13_main_arg9 m (outs m) c),
      (hr c _ (mem_uc main_arg10 (by decide))).trans (V13_main_arg10 m (outs m) c),
      (hr c _ (mem_uc main_arg11 (by decide))).trans (V13_main_arg11 m (outs m) c),
      (hr c _ (mem_uc main_arg12 (by decide))).trans (V13_main_arg12 m (outs m) c),
      (hr c _ (mem_uc main_arg13 (by decide))).trans (V13_main_arg13 m (outs m) c),
      (hr c _ (mem_uc main_arg14 (by decide))).trans (V13_main_arg14 m (outs m) c),
      (hr c _ (mem_uc main_arg15 (by decide))).trans (V13_main_arg15 m (outs m) c),
      (hr c _ (mem_uc main_arg16 (by decide))).trans (V13_main_arg16 m (outs m) c),
      (hr c _ (mem_uc main_arg17 (by decide))).trans (V13_main_arg17 m (outs m) c),
      (hr c _ (mem_uc main_arg18 (by decide))).trans (V13_main_arg18 m (outs m) c),
      (hr c _ (mem_uc main_arg19 (by decide))).trans (V13_main_arg19 m (outs m) c),
      (hr c _ (mem_uc main_arg20 (by decide))).trans (V13_main_arg20 m (outs m) c),
      (hr c _ (mem_uc main_arg21 (by decide))).trans (V13_main_arg21 m (outs m) c),
      (hr c _ (mem_uc main_arg22 (by decide))).trans (V13_main_arg22 m (outs m) c),
      (hr c _ (mem_uc main_arg23 (by decide))).trans (V13_main_arg23 m (outs m) c),
      (hr c _ (mem_uc main_arg24 (by decide))).trans (V13_main_arg24 m (outs m) c)⟩) (run_V m ρ)

end Cert.KernelIdeal.Regs

end
-- ==== Proof.Spec.lean ====
/-
  The function both programs compute, on the extended reals: a four-layer perceptron whose weights and biases are
  sampled by the reparameterisation  W = μ + softplus(σ) · ζ.

  For a layer with input `h : [B, K]`, weight parameters `μw σw ζw : [N, K]` and bias parameters `μb σb ζb : [N]`,
      W(o, i) = μw(o, i) + sp(σw(o, i)) · ζw(o, i),     b(o) = μb(o) + sp(σb(o)) · ζb(o),
      out(r, o) = (∑ i < K, h(r, i) · W(o, i)) + b(o),
  followed by `tanh` after each of the first three layers. `sp` is the softplus in the overflow-free form
  `max x 0 + log(1 + exp(-|x|))`, with `|x| = max x (-x)`; `exp`, `log1p` and `tanh` are the extended reals'
  (their values at the infinities are the ideal instance's conventions).

  Every definition is index by index over literal shapes. The small facts the softplus needs are here too: the
  zero word of `f32` is the extended real `0`; `0 - a = -a`, `a - 0 = a` and `a + 0 = a` on the extended reals; and
  the test `a ≠ a` is false on the extended reals, which have no NaN.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals of extents `n0 × n1` (what a float buffer of that shape holds at the ideal
    instance). -/
abbrev Arr2 (n0 n1 : Nat) : Type := (⟨2, ![n0, n1]⟩ : Shape).Idx → EReal
/-- A rank-1 array of extended reals of extent `n`. -/
abbrev Arr1 (n : Nat) : Type := (⟨1, ![n]⟩ : Shape).Idx → EReal

/-! ## The softplus -/

/-- The softplus on the extended reals, in the overflow-free form `max x 0 + log(1 + exp(-|x|))`, with
    `|x| = max x (-x)`. -/
def sp (x : EReal) : EReal := max x 0 + Ideal.log1p (Ideal.exp (-(max x (-x))))

/-- The zero word of `f32` is the extended real `0`. -/
theorem zero_word : Ideal.ofBits .f32 0x00000000#32 = (0 : EReal) := Ideal.ofBits_zero_f32

/-- On the extended reals `a - 0 = a`. -/
theorem sub_zero' (a : EReal) : a - 0 = a := sub_zero a
/-- On the extended reals `a + 0 = a`. -/
theorem add_zero' (a : EReal) : a + 0 = a := add_zero a
/-- On the extended reals `0 - a = -a`. -/
theorem zero_sub' (a : EReal) : 0 - a = -a := zero_sub a

/-- No extended real differs from itself: the comparison `a ≠ a` (unordered form) is the bit `0`. -/
theorem cmp_une_self (a : EReal) : Ideal.cmp .une a a = 0#1 := by
  simp [Ideal.cmp]
/-- No extended real differs from itself: the comparison `a ≠ a` (ordered form) is the bit `0`. -/
theorem cmp_one_self (a : EReal) : Ideal.cmp .one a a = 0#1 := by
  simp [Ideal.cmp]

/-- A select on the bit `a ≠ a` (unordered form) takes its second branch. -/
theorem select_une_self {α : Type} (a : EReal) (u v : α) : Scalar.select (Ideal.cmp .une a a) u v = v := by
  rw [cmp_une_self]; exact select_zero u v
/-- A select on the bit `a ≠ a` (ordered form) takes its second branch. -/
theorem select_one_self {α : Type} (a : EReal) (u v : α) : Scalar.select (Ideal.cmp .one a a) u v = v := by
  rw [cmp_one_self]; exact select_zero u v

/-- The softplus as a host program spells it, with its guard on `x - 0 ≠ x - 0` (never taken), the zero written
    as the zero word, and `-|x - 0|` a negation: it is `sp x`. -/
theorem sp_host (x : Ideal .f32) :
    Scalar.select
      (FloatOps.cmpf .une (FloatOps.subf x (FloatOps.ofBits (F := Ideal) .f32 0x00000000#32))
        (FloatOps.subf x (FloatOps.ofBits (F := Ideal) .f32 0x00000000#32)))
      (FloatOps.addf x (FloatOps.ofBits (F := Ideal) .f32 0x00000000#32))
      (FloatOps.addf (FloatOps.maximumf x (FloatOps.ofBits (F := Ideal) .f32 0x00000000#32))
        (FloatOps.hostUnary .log1p (FloatOps.hostUnary .exp (FloatOps.hostNegf (FloatOps.hostAbsf
          (FloatOps.subf x (FloatOps.ofBits (F := Ideal) .f32 0x00000000#32)))))))
    = sp x := by
  show Scalar.select (Ideal.cmp .une (x - Ideal.ofBits .f32 0x00000000#32) (x - Ideal.ofBits .f32 0x00000000#32)) _ _ = _
  rw [select_une_self]
  show max x (Ideal.ofBits .f32 0x00000000#32) + Ideal.log1p (Ideal.exp (-(max (x - Ideal.ofBits .f32 0x00000000#32)
    (-(x - Ideal.ofBits .f32 0x00000000#32))))) = _
  rw [zero_word, sub_zero']
  rfl

/-- The softplus as a vector unit spells it, with its guard on `x - 0 ≠ x - 0` (never taken), the zero written as
    the zero word, and `-|x - 0|` the difference `0 - |x - 0|`: it is `sp x`. -/
theorem sp_vector (x : Ideal .f32) :
    Scalar.select
      (FloatOps.cmpf .one (FloatOps.subf x (FloatOps.ofBits (F := Ideal) .f32 0x00000000#32))
        (FloatOps.subf x (FloatOps.ofBits (F := Ideal) .f32 0x00000000#32)))
      (FloatOps.addf x (FloatOps.ofBits (F := Ideal) .f32 0x00000000#32))
      (FloatOps.addf (FloatOps.maximumf x (FloatOps.ofBits (F := Ideal) .f32 0x00000000#32))
        (FloatOps.log1p (FloatOps.exp (FloatOps.subf (FloatOps.ofBits (F := Ideal) .f32 0x00000000#32)
          (FloatOps.absf (FloatOps.subf x (FloatOps.ofBits (F := Ideal) .f32 0x00000000#32)))))))
    = sp x := by
  show Scalar.select (Ideal.cmp .one (x - Ideal.ofBits .f32 0x00000000#32) (x - Ideal.ofBits .f32 0x00000000#32)) _ _ = _
  rw [select_one_self]
  show max x (Ideal.ofBits .f32 0x00000000#32) + Ideal.log1p (Ideal.exp (Ideal.ofBits .f32 0x00000000#32 -
    (max (x - Ideal.ofBits .f32 0x00000000#32) (-(x - Ideal.ofBits .f32 0x00000000#32))))) = _
  rw [zero_word, sub_zero', zero_sub']
  rfl

/-! ## One layer -/

/-- The sampled weight `W(o, i) = μ(o, i) + sp(σ(o, i)) · ζ(o, i)`. -/
def wt {N K : Nat} (mw sw zw : Arr2 N K) : Arr2 N K := fun j => mw j + sp (sw j) * zw j

/-- The sampled bias `b(o) = μ(o) + sp(σ(o)) · ζ(o)`. -/
def bias {N : Nat} (mb sb zb : Arr1 N) : Arr1 N := fun j => mb j + sp (sb j) * zb j

/-- One output of a linear layer: `(∑ i < K, h(r, i) · W(o, i)) + b(o)`. -/
def layer {B K N : Nat} (h : Arr2 B K) (W : Arr2 N K) (b : Arr1 N) (r : Fin B) (o : Fin N) : EReal :=
  (∑ i : Fin K, h (ix2 r i) * W (ix2 o i)) + b (ix1 o)

/-- A linear layer as an array: `out(r, o) = (∑ i < K, h(r, i) · W(o, i)) + b(o)`. -/
def dense {B K N : Nat} (h : Arr2 B K) (W : Arr2 N K) (b : Arr1 N) : Arr2 B N :=
  fun j => layer h W b ⟨(j 0).val, idx2_lt0 j⟩ ⟨(j 1).val, idx2_lt1 j⟩

/-- A linear layer followed by `tanh`. -/
def denseTanh {B K N : Nat} (h : Arr2 B K) (W : Arr2 N K) (b : Arr1 N) : Arr2 B N :=
  fun j => Ideal.tanh (dense h W b j)

theorem wt_apply {N K : Nat} (mw sw zw : Arr2 N K) (j : (⟨2, ![N, K]⟩ : Shape).Idx) :
    wt mw sw zw j = mw j + sp (sw j) * zw j := rfl

theorem bias_apply {N : Nat} (mb sb zb : Arr1 N) (j : (⟨1, ![N]⟩ : Shape).Idx) :
    bias mb sb zb j = mb j + sp (sb j) * zb j := rfl

/-- A linear layer at the index of coordinates `(r, o)`. -/
theorem dense_apply {B K N : Nat} (h : Arr2 B K) (W : Arr2 N K) (b : Arr1 N) (r : Fin B) (o : Fin N) :
    dense h W b (ix2 r o) = (∑ i : Fin K, h (ix2 r i) * W (ix2 o i)) + b (ix1 o) := rfl

/-- A linear layer followed by `tanh`, at the index of coordinates `(r, o)`. -/
theorem denseTanh_apply {B K N : Nat} (h : Arr2 B K) (W : Arr2 N K) (b : Arr1 N) (r : Fin B) (o : Fin N) :
    denseTanh h W b (ix2 r o) = Ideal.tanh ((∑ i : Fin K, h (ix2 r i) * W (ix2 o i)) + b (ix1 o)) := rfl

/-! ## The network -/

/-- The four layers `1024 → 4096 → 4096 → 4096 → 1024` on a batch of `8192` rows, `tanh` after the first three:
    the result array as one function of the twenty-five argument arrays (the input, then per layer the weight's
    `μ σ ζ` and the bias's `μ σ ζ`). -/
def mlp (x : Arr2 8192 1024)
    (mw0 sw0 zw0 : Arr2 4096 1024) (mb0 sb0 zb0 : Arr1 4096)
    (mw1 sw1 zw1 : Arr2 4096 4096) (mb1 sb1 zb1 : Arr1 4096)
    (mw2 sw2 zw2 : Arr2 4096 4096) (mb2 sb2 zb2 : Arr1 4096)
    (mw3 sw3 zw3 : Arr2 1024 4096) (mb3 sb3 zb3 : Arr1 1024) : Arr2 8192 1024 :=
  dense
    (denseTanh
      (denseTanh
        (denseTanh x (wt mw0 sw0 zw0) (bias mb0 sb0 zb0))
        (wt mw1 sw1 zw1) (bias mb1 sb1 zb1))
      (wt mw2 sw2 zw2) (bias mb2 sb2 zb2))
    (wt mw3 sw3 zw3) (bias mb3 sb3 zb3)

end Cert.Spec

end
-- ==== Proof.PayValSample.lean ====
/-
  The weight-sampling kernels' stored value read at an index, on the extended reals.

  Each of the four sampling kernels stores the block `W = μ + softplus(σ) · ζ` of the three blocks it loads, with the
  softplus in the overflow-free form `max σ 0 + log(1 + exp(0 - |σ - 0|))` behind a guard on `σ - 0 ≠ σ - 0`, and
  changes the format to bf16. On the extended reals the guard is never taken, the zero word is `0`, and the change of
  format is the identity, so at the position `(p, q)` the stored value is
      μ(p, q) + sp(σ(p, q)) · ζ(p, q).
-/
import proofs.«102610_j70265664962762_2_alg».proof.Proof.Gen.KernelIdeal.Skeleton
import proofs.«102610_j70265664962762_2_alg».proof.Proof.Spec
import Idealize.ShloMosaic.Lib.ValueLayout
import Idealize.ShloMosaic.PureOps.Ideal.Laws

set_option maxRecDepth 16384

noncomputable section

open scoped BigOperators

namespace Cert.KernelIdeal.PayVal

open Idealize.ShloMosaic Idealize.ShloMosaic.ValueIdx
open Cert.KernelIdeal Cert.KernelIdeal.Gen
open Cert.Spec (sp)

/-- The sampled weight block of sampling kernel 0: `μ + sp(σ) · ζ`, position by position. -/
theorem k0_pay1_apply (v0 v1 v16 : Vec Ideal S256x1024 .f32) (p : Fin 256) (q : Fin 1024) :
    k0_pay1 (F := Ideal) v0 v1 v16 (ix2 p q) = v0 (ix2 p q) + sp (v1 (ix2 p q)) * v16 (ix2 p q) := by
  unfold k0_pay1
  exact congrArg (fun t => v0 (ix2 p q) + t * v16 (ix2 p q)) (Cert.Spec.sp_vector (v1 (ix2 p q)))

/-- The sampled weight block of sampling kernel 2: `μ + sp(σ) · ζ`, position by position. -/
theorem k2_pay1_apply (v0 v1 v16 : Vec Ideal S256x4096 .f32) (p : Fin 256) (q : Fin 4096) :
    k2_pay1 (F := Ideal) v0 v1 v16 (ix2 p q) = v0 (ix2 p q) + sp (v1 (ix2 p q)) * v16 (ix2 p q) := by
  unfold k2_pay1
  exact congrArg (fun t => v0 (ix2 p q) + t * v16 (ix2 p q)) (Cert.Spec.sp_vector (v1 (ix2 p q)))

/-- The sampled weight block of sampling kernel 4: `μ + sp(σ) · ζ`, position by position. -/
theorem k4_pay1_apply (v0 v1 v16 : Vec Ideal S256x4096 .f32) (p : Fin 256) (q : Fin 4096) :
    k4_pay1 (F := Ideal) v0 v1 v16 (ix2 p q) = v0 (ix2 p q) + sp (v1 (ix2 p q)) * v16 (ix2 p q) := by
  unfold k4_pay1
  exact congrArg (fun t => v0 (ix2 p q) + t * v16 (ix2 p q)) (Cert.Spec.sp_vector (v1 (ix2 p q)))

/-- The sampled weight block of sampling kernel 6: `μ + sp(σ) · ζ`, position by position. -/
theorem k6_pay1_apply (v0 v1 v16 : Vec Ideal S256x4096 .f32) (p : Fin 256) (q : Fin 4096) :
    k6_pay1 (F := Ideal) v0 v1 v16 (ix2 p q) = v0 (ix2 p q) + sp (v1 (ix2 p q)) * v16 (ix2 p q) := by
  unfold k6_pay1
  exact congrArg (fun t => v0 (ix2 p q) + t * v16 (ix2 p q)) (Cert.Spec.sp_vector (v1 (ix2 p q)))

end Cert.KernelIdeal.PayVal

end
-- ==== Proof.ValA0.lean ====
/-
  The sampled weight of region 0 as one function of the three weight arrays: every block the region writes back is the
  block of mean + softplus(spread) · noise, entry by entry, and the blocks tile the array; so the array the region leaves
  is that function of the arrays it was entered with.
-/
import proofs.«102610_j70265664962762_2_alg».proof.Proof.Sample0
import proofs.«102610_j70265664962762_2_alg».proof.Proof.Spec
import proofs.«102610_j70265664962762_2_alg».proof.Proof.PayValSample
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs

variable (V : (c : Dev nD) → (b : Ref sig .tc) → Buf (Elt Ideal) ((c : Thread nD τ).loc b))

theorem hz0 : (![0, 0] : Fin 2 → Nat) = fun _ => 0 := funext fun a => by fin_cases a <;> rfl

/-- The sampled weight, entry by entry. -/
abbrev G0 (a0 a1 a2 : S4096x1024.Idx → EReal) : S4096x1024.Idx → EReal := fun i => a0 i + Cert.Spec.sp (a1 i) * a2 i

/-- The four windows move together: block `t` of each is rows 256·t … 256·t + 255, all columns. -/
theorem idx_facts0 : ∀ t : Fin cfg0.N, win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 15 ∧ win0_3.index t (1 : Fin 2) = 0 :=
  (by decide +kernel : ∀ t : Fin grid0.N, _)

/-- Every block of rows is some point's. -/
theorem idx_onto0 : ∀ q0 : Fin 16, ∃ t : Fin cfg0.N, win0_3.index t = ![q0.val, 0] :=
  (by decide +kernel : ∀ q0 : Fin 16, ∃ t : Fin grid0.N, win0_3.index t = ![q0.val, 0])

/-- What point `t` writes back is block `t` of the sampled weight of the arrays as the region finds them. -/
theorem flushed0_eq (c : Dev nD) (t : Fin cfg0.N) :
    (dat0 V c).flushed 3 t = ((cfg0.win 3).blk t).view.read (Elt Ideal) (G0 (V c main_arg1) (V c main_arg2) (V c main_arg3)) := by
  show (cfg0.win 3).cut (grid0.coords t) ((dat0 V c).after 3 t) = _
  rw [after0_3]
  unfold out0_3
  rw [View.canon_unit_zero hz0]
  simp only [View.ld_unit_zero (S := S256x1024) hz0]
  obtain ⟨e0, e1, e2, e3, e4, e5, e6, e7⟩ := idx_facts0 t
  funext j
  obtain ⟨p, q, rfl⟩ : ∃ (p : Fin 256) (q : Fin 1024), j = ix2 p q := ⟨j 0, j 1, eq_ix2 j⟩
  refine (Cert.KernelIdeal.PayVal.k0_pay1_apply _ _ _ p q).trans ?_
  have h0 : ((cfg0.win 0).blk t).view.emb (ix2 p q) = ((cfg0.win 3).blk t).view.emb (ix2 p q) := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 1024 + 1 * q.val = win0_3.index t (1 : Fin 2) * 1024 + 1 * q.val; omega
  have h1 : ((cfg0.win 1).blk t).view.emb (ix2 p q) = ((cfg0.win 3).blk t).view.emb (ix2 p q) := by
    funext a; apply Fin.ext
    match a with
    | ⟨0, _⟩ => show win0_1.index t (0 : Fin 2) * 256 + 1 * p.val = win0_3.index t (0 : Fin 2) * 256 + 1 * p.val; omega
    | ⟨1, _⟩ => show win0_1.index t (1 : Fin 2) * 1024 + 1 * q.val = win0_3.index t (1 : Fin 2) * 1024 + 1 * q.val; omega
  have h2 : ((cfg0.win 2).blk t).view.emb (ix2 p q) = ((cfg0.win 3).blk t).view.emb (ix2 p q) := by
    funext a; apply Fin.ext
    match a with
    | ⟨0, _⟩ => show win0_2.index t (0 : Fin 2) * 256 + 1 * p.val = win0_3.index t (0 : Fin 2) * 256 + 1 * p.val; omega
    | ⟨1, _⟩ => show win0_2.index t (1 : Fin 2) * 1024 + 1 * q.val = win0_3.index t (1 : Fin 2) * 1024 + 1 * q.val; omega
  have e0 : iblk0 V c 0 t (ix2 p q) = V c main_arg1 (((cfg0.win 3).blk t).view.emb (ix2 p q)) := congrArg (V c main_arg1) h0
  have e1 : iblk0 V c 1 t (ix2 p q) = V c main_arg2 (((cfg0.win 3).blk t).view.emb (ix2 p q)) := congrArg (V c main_arg2) h1
  have e2 : iblk0 V c 2 t (ix2 p q) = V c main_arg3 (((cfg0.win 3).blk t).view.emb (ix2 p q)) := congrArg (V c main_arg3) h2
  rw [e0, e1, e2]
  rfl

/-- An index of the array is in point `t`'s block iff each coordinate is in the block's range on its axis. -/
theorem mem_blk0 (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1).slice (win0_3.rect t)).set ↔ _
  rw [View.set_slice_whole, Rect.mem_set_unit]
  exact Iff.rfl

/-- The blocks tile the array: the point that covers row `r` is the one of block `r / 256`. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- THE ARRAY the region leaves: the sampled weight of the arrays it was entered with. -/
theorem final0 (c : Dev nD) : (dat0 V c).arrAt 3 cfg0.N = G0 (V c main_arg1) (V c main_arg2) (V c main_arg3) :=
  (dat0 V c).arrAt_eq_of_cover 3 _ (fun t _ => flushed0_eq V c t) (cover0)

end Cert.KernelIdeal.Val

end
-- ==== Proof.ValA2.lean ====
/-
  The sampled weight of region 2 as one function of the three weight arrays: every block the region writes back is the
  block of mean + softplus(spread) · noise, entry by entry, and the blocks tile the array; so the array the region leaves
  is that function of the arrays it was entered with.
-/
import proofs.«102610_j70265664962762_2_alg».proof.Proof.Sample2
import proofs.«102610_j70265664962762_2_alg».proof.Proof.Spec
import proofs.«102610_j70265664962762_2_alg».proof.Proof.PayValSample
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs

variable (V : (c : Dev nD) → (b : Ref sig .tc) → Buf (Elt Ideal) ((c : Thread nD τ).loc b))

theorem hz2 : (![0, 0] : Fin 2 → Nat) = fun _ => 0 := funext fun a => by fin_cases a <;> rfl

/-- The sampled weight, entry by entry. -/
abbrev G2 (a0 a1 a2 : S4096x4096.Idx → EReal) : S4096x4096.Idx → EReal := fun i => a0 i + Cert.Spec.sp (a1 i) * a2 i

/-- The four windows move together: block `t` of each is rows 256·t … 256·t + 255, all columns. -/
theorem idx_facts2 : ∀ t : Fin cfg2.N, win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) ≤ 15 ∧ win2_3.index t (1 : Fin 2) = 0 :=
  (by decide +kernel : ∀ t : Fin grid2.N, _)

/-- Every block of rows is some point's. -/
theorem idx_onto2 : ∀ q0 : Fin 16, ∃ t : Fin cfg2.N, win2_3.index t = ![q0.val, 0] :=
  (by decide +kernel : ∀ q0 : Fin 16, ∃ t : Fin grid2.N, win2_3.index t = ![q0.val, 0])

/-- What point `t` writes back is block `t` of the sampled weight of the arrays as the region finds them. -/
theorem flushed2_eq (c : Dev nD) (t : Fin cfg2.N) :
    (dat2 V c).flushed 3 t = ((cfg2.win 3).blk t).view.read (Elt Ideal) (G2 (V c main_arg7) (V c main_arg8) (V c main_arg9)) := by
  show (cfg2.win 3).cut (grid2.coords t) ((dat2 V c).after 3 t) = _
  rw [after2_3]
  unfold out2_3
  rw [View.canon_unit_zero hz2]
  simp only [View.ld_unit_zero (S := S256x4096) hz2]
  obtain ⟨e0, e1, e2, e3, e4, e5, e6, e7⟩ := idx_facts2 t
  funext j
  obtain ⟨p, q, rfl⟩ : ∃ (p : Fin 256) (q : Fin 4096), j = ix2 p q := ⟨j 0, j 1, eq_ix2 j⟩
  refine (Cert.KernelIdeal.PayVal.k2_pay1_apply _ _ _ p q).trans ?_
  have h0 : ((cfg2.win 0).blk t).view.emb (ix2 p q) = ((cfg2.win 3).blk t).view.emb (ix2 p q) := by
    funext a; apply Fin.ext
    match a with
    | ⟨0, _⟩ => show win2_0.index t (0 : Fin 2) * 256 + 1 * p.val = win2_3.index t (0 : Fin 2) * 256 + 1 * p.val; omega
    | ⟨1, _⟩ => show win2_0.index t (1 : Fin 2) * 4096 + 1 * q.val = win2_3.index t (1 : Fin 2) * 4096 + 1 * q.val; omega
  have h1 : ((cfg2.win 1).blk t).view.emb (ix2 p q) = ((cfg2.win 3).blk t).view.emb (ix2 p q) := by
    funext a; apply Fin.ext
    match a with
    | ⟨0, _⟩ => show win2_1.index t (0 : Fin 2) * 256 + 1 * p.val = win2_3.index t (0 : Fin 2) * 256 + 1 * p.val; omega
    | ⟨1, _⟩ => show win2_1.index t (1 : Fin 2) * 4096 + 1 * q.val = win2_3.index t (1 : Fin 2) * 4096 + 1 * q.val; omega
  have h2 : ((cfg2.win 2).blk t).view.emb (ix2 p q) = ((cfg2.win 3).blk t).view.emb (ix2 p q) := by
    funext a; apply Fin.ext
    match a with
    | ⟨0, _⟩ => show win2_2.index t (0 : Fin 2) * 256 + 1 * p.val = win2_3.index t (0 : Fin 2) * 256 + 1 * p.val; omega
    | ⟨1, _⟩ => show win2_2.index t (1 : Fin 2) * 4096 + 1 * q.val = win2_3.index t (1 : Fin 2) * 4096 + 1 * q.val; omega
  have e0 : iblk2 V c 0 t (ix2 p q) = V c main_arg7 (((cfg2.win 3).blk t).view.emb (ix2 p q)) := congrArg (V c main_arg7) h0
  have e1 : iblk2 V c 1 t (ix2 p q) = V c main_arg8 (((cfg2.win 3).blk t).view.emb (ix2 p q)) := congrArg (V c main_arg8) h1
  have e2 : iblk2 V c 2 t (ix2 p q) = V c main_arg9 (((cfg2.win 3).blk t).view.emb (ix2 p q)) := congrArg (V c main_arg9) h2
  rw [e0, e1, e2]
  rfl

/-- An index of the array is in point `t`'s block iff each coordinate is in the block's range on its axis. -/
theorem mem_blk2 (t : Fin cfg2.N) (i : S4096x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v6).slice (win2_3.rect t)).set ↔ _
  rw [View.set_slice_whole, Rect.mem_set_unit]
  exact Iff.rfl

/-- The blocks tile the array: the point that covers row `r` is the one of block `r / 256`. -/
theorem cover2 (i : S4096x4096.Idx) : ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := idx_onto2 ⟨(i 0).val / 256, by omega⟩
  have q0 : win2_3.index t (0 : Fin 2) = (i 0).val / 256 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 4096 ≤ (i 1).val ∧ (i 1).val < win2_3.index t (1 : Fin 2) * 4096 + 4096; omega

/-- THE ARRAY the region leaves: the sampled weight of the arrays it was entered with. -/
theorem final2 (c : Dev nD) : (dat2 V c).arrAt 3 cfg2.N = G2 (V c main_arg7) (V c main_arg8) (V c main_arg9) :=
  (dat2 V c).arrAt_eq_of_cover 3 _ (fun t _ => flushed2_eq V c t) (cover2)

end Cert.KernelIdeal.Val

end
-- ==== Proof.ValA4.lean ====
/-
  The sampled weight of region 4 as one function of the three weight arrays: every block the region writes back is the
  block of mean + softplus(spread) · noise, entry by entry, and the blocks tile the array; so the array the region leaves
  is that function of the arrays it was entered with.
-/
import proofs.«102610_j70265664962762_2_alg».proof.Proof.Sample4
import proofs.«102610_j70265664962762_2_alg».proof.Proof.Spec
import proofs.«102610_j70265664962762_2_alg».proof.Proof.PayValSample
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs

variable (V : (c : Dev nD) → (b : Ref sig .tc) → Buf (Elt Ideal) ((c : Thread nD τ).loc b))

theorem hz4 : (![0, 0] : Fin 2 → Nat) = fun _ => 0 := funext fun a => by fin_cases a <;> rfl

/-- The sampled weight, entry by entry. -/
abbrev G4 (a0 a1 a2 : S4096x4096.Idx → EReal) : S4096x4096.Idx → EReal := fun i => a0 i + Cert.Spec.sp (a1 i) * a2 i

/-- The four windows move together: block `t` of each is rows 256·t … 256·t + 255, all columns. -/
theorem idx_facts4 : ∀ t : Fin cfg4.N, win4_0.index t (0 : Fin 2) = win4_3.index t (0 : Fin 2) ∧ win4_0.index t (1 : Fin 2) = win4_3.index t (1 : Fin 2)
    ∧ win4_1.index t (0 : Fin 2) = win4_3.index t (0 : Fin 2) ∧ win4_1.index t (1 : Fin 2) = win4_3.index t (1 : Fin 2)
    ∧ win4_2.index t (0 : Fin 2) = win4_3.index t (0 : Fin 2) ∧ win4_2.index t (1 : Fin 2) = win4_3.index t (1 : Fin 2)
    ∧ win4_3.index t (0 : Fin 2) ≤ 15 ∧ win4_3.index t (1 : Fin 2) = 0 :=
  (by decide +kernel : ∀ t : Fin grid4.N, _)

/-- Every block of rows is some point's. -/
theorem idx_onto4 : ∀ q0 : Fin 16, ∃ t : Fin cfg4.N, win4_3.index t = ![q0.val, 0] :=
  (by decide +kernel : ∀ q0 : Fin 16, ∃ t : Fin grid4.N, win4_3.index t = ![q0.val, 0])

/-- What point `t` writes back is block `t` of the sampled weight of the arrays as the region finds them. -/
theorem flushed4_eq (c : Dev nD) (t : Fin cfg4.N) :
    (dat4 V c).flushed 3 t = ((cfg4.win 3).blk t).view.read (Elt Ideal) (G4 (V c main_arg13) (V c main_arg14) (V c main_arg15)) := by
  show (cfg4.win 3).cut (grid4.coords t) ((dat4 V c).after 3 t) = _
  rw [after4_3]
  unfold out4_3
  rw [View.canon_unit_zero hz4]
  simp only [View.ld_unit_zero (S := S256x4096) hz4]
  obtain ⟨e0, e1, e2, e3, e4, e5, e6, e7⟩ := idx_facts4 t
  funext j
  obtain ⟨p, q, rfl⟩ : ∃ (p : Fin 256) (q : Fin 4096), j = ix2 p q := ⟨j 0, j 1, eq_ix2 j⟩
  refine (Cert.KernelIdeal.PayVal.k4_pay1_apply _ _ _ p q).trans ?_
  have h0 : ((cfg4.win 0).blk t).view.emb (ix2 p q) = ((cfg4.win 3).blk t).view.emb (ix2 p q) := by
    funext a; apply Fin.ext
    match a with
    | ⟨0, _⟩ => show win4_0.index t (0 : Fin 2) * 256 + 1 * p.val = win4_3.index t (0 : Fin 2) * 256 + 1 * p.val; omega
    | ⟨1, _⟩ => show win4_0.index t (1 : Fin 2) * 4096 + 1 * q.val = win4_3.index t (1 : Fin 2) * 4096 + 1 * q.val; omega
  have h1 : ((cfg4.win 1).blk t).view.emb (ix2 p q) = ((cfg4.win 3).blk t).view.emb (ix2 p q) := by
    funext a; apply Fin.ext
    match a with
    | ⟨0, _⟩ => show win4_1.index t (0 : Fin 2) * 256 + 1 * p.val = win4_3.index t (0 : Fin 2) * 256 + 1 * p.val; omega
    | ⟨1, _⟩ => show win4_1.index t (1 : Fin 2) * 4096 + 1 * q.val = win4_3.index t (1 : Fin 2) * 4096 + 1 * q.val; omega
  have h2 : ((cfg4.win 2).blk t).view.emb (ix2 p q) = ((cfg4.win 3).blk t).view.emb (ix2 p q) := by
    funext a; apply Fin.ext
    match a with
    | ⟨0, _⟩ => show win4_2.index t (0 : Fin 2) * 256 + 1 * p.val = win4_3.index t (0 : Fin 2) * 256 + 1 * p.val; omega
    | ⟨1, _⟩ => show win4_2.index t (1 : Fin 2) * 4096 + 1 * q.val = win4_3.index t (1 : Fin 2) * 4096 + 1 * q.val; omega
  have e0 : iblk4 V c 0 t (ix2 p q) = V c main_arg13 (((cfg4.win 3).blk t).view.emb (ix2 p q)) := congrArg (V c main_arg13) h0
  have e1 : iblk4 V c 1 t (ix2 p q) = V c main_arg14 (((cfg4.win 3).blk t).view.emb (ix2 p q)) := congrArg (V c main_arg14) h1
  have e2 : iblk4 V c 2 t (ix2 p q) = V c main_arg15 (((cfg4.win 3).blk t).view.emb (ix2 p q)) := congrArg (V c main_arg15) h2
  rw [e0, e1, e2]
  rfl

/-- An index of the array is in point `t`'s block iff each coordinate is in the block's range on its axis. -/
theorem mem_blk4 (t : Fin cfg4.N) (i : S4096x4096.Idx) :
    i ∈ ((cfg4.win 3).blk t).view.set ↔ ∀ a : Fin 2, win4_3.index t a * S256x4096.size a ≤ (i a).val ∧ (i a).val < win4_3.index t a * S256x4096.size a + S256x4096.size a := by
  show i ∈ ((View.whole main_v11).slice (win4_3.rect t)).set ↔ _
  rw [View.set_slice_whole, Rect.mem_set_unit]
  exact Iff.rfl

/-- The blocks tile the array: the point that covers row `r` is the one of block `r / 256`. -/
theorem cover4 (i : S4096x4096.Idx) : ∃ t : Fin cfg4.N, (cfg4.win 3).flush t = true ∧ i ∈ ((cfg4.win 3).blk t).view.set := by
  have hi0 : (i 0).val < 4096 := (i 0).isLt
  have hi1 : (i 1).val < 4096 := (i 1).isLt
  obtain ⟨t, ht⟩ := idx_onto4 ⟨(i 0).val / 256, by omega⟩
  have q0 : win4_3.index t (0 : Fin 2) = (i 0).val / 256 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 256 ≤ (i 0).val ∧ (i 0).val < win4_3.index t (0 : Fin 2) * 256 + 256; omega
  | ⟨1, _⟩ => show win4_3.index t (1 : Fin 2) * 4096 ≤ (i 1).val ∧ (i 1).val < win4_3.index t (1 : Fin 2) * 4096 + 4096; omega

/-- THE ARRAY the region leaves: the sampled weight of the arrays it was entered with. -/
theorem final4 (c : Dev nD) : (dat4 V c).arrAt 3 cfg4.N = G4 (V c main_arg13) (V c main_arg14) (V c main_arg15) :=
  (dat4 V c).arrAt_eq_of_cover 3 _ (fun t _ => flushed4_eq V c t) (cover4)

end Cert.KernelIdeal.Val

end
-- ==== Proof.ValA6.lean ====
/-
  The sampled weight of region 6 as one function of the three weight arrays: every block the region writes back is the
  block of mean + softplus(spread) · noise, entry by entry, and the blocks tile the array; so the array the region leaves
  is that function of the arrays it was entered with.
-/
import proofs.«102610_j70265664962762_2_alg».proof.Proof.Sample6
import proofs.«102610_j70265664962762_2_alg».proof.Proof.Spec
import proofs.«102610_j70265664962762_2_alg».proof.Proof.PayValSample
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs

variable (V : (c : Dev nD) → (b : Ref sig .tc) → Buf (Elt Ideal) ((c : Thread nD τ).loc b))

theorem hz6 : (![0, 0] : Fin 2 → Nat) = fun _ => 0 := funext fun a => by fin_cases a <;> rfl

/-- The sampled weight, entry by entry. -/
abbrev G6 (a0 a1 a2 : S1024x4096.Idx → EReal) : S1024x4096.Idx → EReal := fun i => a0 i + Cert.Spec.sp (a1 i) * a2 i

/-- The four windows move together: block `t` of each is rows 256·t … 256·t + 255, all columns. -/
theorem idx_facts6 : ∀ t : Fin cfg6.N, win6_0.index t (0 : Fin 2) = win6_3.index t (0 : Fin 2) ∧ win6_0.index t (1 : Fin 2) = win6_3.index t (1 : Fin 2)
    ∧ win6_1.index t (0 : Fin 2) = win6_3.index t (0 : Fin 2) ∧ win6_1.index t (1 : Fin 2) = win6_3.index t (1 : Fin 2)
    ∧ win6_2.index t (0 : Fin 2) = win6_3.index t (0 : Fin 2) ∧ win6_2.index t (1 : Fin 2) = win6_3.index t (1 : Fin 2)
    ∧ win6_3.index t (0 : Fin 2) ≤ 3 ∧ win6_3.index t (1 : Fin 2) = 0 :=
  (by decide +kernel : ∀ t : Fin grid6.N, _)

/-- Every block of rows is some point's. -/
theorem idx_onto6 : ∀ q0 : Fin 4, ∃ t : Fin cfg6.N, win6_3.index t = ![q0.val, 0] :=
  (by decide +kernel : ∀ q0 : Fin 4, ∃ t : Fin grid6.N, win6_3.index t = ![q0.val, 0])

/-- What point `t` writes back is block `t` of the sampled weight of the arrays as the region finds them. -/
theorem flushed6_eq (c : Dev nD) (t : Fin cfg6.N) :
    (dat6 V c).flushed 3 t = ((cfg6.win 3).blk t).view.read (Elt Ideal) (G6 (V c main_arg19) (V c main_arg20) (V c main_arg21)) := by
  show (cfg6.win 3).cut (grid6.coords t) ((dat6 V c).after 3 t) = _
  rw [after6_3]
  unfold out6_3
  rw [View.canon_unit_zero hz6]
  simp only [View.ld_unit_zero (S := S256x4096) hz6]
  obtain ⟨e0, e1, e2, e3, e4, e5, e6, e7⟩ := idx_facts6 t
  funext j
  obtain ⟨p, q, rfl⟩ : ∃ (p : Fin 256) (q : Fin 4096), j = ix2 p q := ⟨j 0, j 1, eq_ix2 j⟩
  refine (Cert.KernelIdeal.PayVal.k6_pay1_apply _ _ _ p q).trans ?_
  have h0 : ((cfg6.win 0).blk t).view.emb (ix2 p q) = ((cfg6.win 3).blk t).view.emb (ix2 p q) := by
    funext a; apply Fin.ext
    match a with
    | ⟨0, _⟩ => show win6_0.index t (0 : Fin 2) * 256 + 1 * p.val = win6_3.index t (0 : Fin 2) * 256 + 1 * p.val; omega
    | ⟨1, _⟩ => show win6_0.index t (1 : Fin 2) * 4096 + 1 * q.val = win6_3.index t (1 : Fin 2) * 4096 + 1 * q.val; omega
  have h1 : ((cfg6.win 1).blk t).view.emb (ix2 p q) = ((cfg6.win 3).blk t).view.emb (ix2 p q) := by
    funext a; apply Fin.ext
    match a with
    | ⟨0, _⟩ => show win6_1.index t (0 : Fin 2) * 256 + 1 * p.val = win6_3.index t (0 : Fin 2) * 256 + 1 * p.val; omega
    | ⟨1, _⟩ => show win6_1.index t (1 : Fin 2) * 4096 + 1 * q.val = win6_3.index t (1 : Fin 2) * 4096 + 1 * q.val; omega
  have h2 : ((cfg6.win 2).blk t).view.emb (ix2 p q) = ((cfg6.win 3).blk t).view.emb (ix2 p q) := by
    funext a; apply Fin.ext
    match a with
    | ⟨0, _⟩ => show win6_2.index t (0 : Fin 2) * 256 + 1 * p.val = win6_3.index t (0 : Fin 2) * 256 + 1 * p.val; omega
    | ⟨1, _⟩ => show win6_2.index t (1 : Fin 2) * 4096 + 1 * q.val = win6_3.index t (1 : Fin 2) * 4096 + 1 * q.val; omega
  have e0 : iblk6 V c 0 t (ix2 p q) = V c main_arg19 (((cfg6.win 3).blk t).view.emb (ix2 p q)) := congrArg (V c main_arg19) h0
  have e1 : iblk6 V c 1 t (ix2 p q) = V c main_arg20 (((cfg6.win 3).blk t).view.emb (ix2 p q)) := congrArg (V c main_arg20) h1
  have e2 : iblk6 V c 2 t (ix2 p q) = V c main_arg21 (((cfg6.win 3).blk t).view.emb (ix2 p q)) := congrArg (V c main_arg21) h2
  rw [e0, e1, e2]
  rfl

/-- An index of the array is in point `t`'s block iff each coordinate is in the block's range on its axis. -/
theorem mem_blk6 (t : Fin cfg6.N) (i : S1024x4096.Idx) :
    i ∈ ((cfg6.win 3).blk t).view.set ↔ ∀ a : Fin 2, win6_3.index t a * S256x4096.size a ≤ (i a).val ∧ (i a).val < win6_3.index t a * S256x4096.size a + S256x4096.size a := by
  show i ∈ ((View.whole main_v16).slice (win6_3.rect t)).set ↔ _
  rw [View.set_slice_whole, Rect.mem_set_unit]
  exact Iff.rfl

/-- The blocks tile the array: the point that covers row `r` is the one of block `r / 256`. -/
theorem cover6 (i : S1024x4096.Idx) : ∃ t : Fin cfg6.N, (cfg6.win 3).flush t = true ∧ i ∈ ((cfg6.win 3).blk t).view.set := by
  have hi0 : (i 0).val < 1024 := (i 0).isLt
  have hi1 : (i 1).val < 4096 := (i 1).isLt
  obtain ⟨t, ht⟩ := idx_onto6 ⟨(i 0).val / 256, by omega⟩
  have q0 : win6_3.index t (0 : Fin 2) = (i 0).val / 256 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 256 ≤ (i 0).val ∧ (i 0).val < win6_3.index t (0 : Fin 2) * 256 + 256; omega
  | ⟨1, _⟩ => show win6_3.index t (1 : Fin 2) * 4096 ≤ (i 1).val ∧ (i 1).val < win6_3.index t (1 : Fin 2) * 4096 + 4096; omega

/-- THE ARRAY the region leaves: the sampled weight of the arrays it was entered with. -/
theorem final6 (c : Dev nD) : (dat6 V c).arrAt 3 cfg6.N = G6 (V c main_arg19) (V c main_arg20) (V c main_arg21) :=
  (dat6 V c).arrAt_eq_of_cover 3 _ (fun t _ => flushed6_eq V c t) (cover6)

end Cert.KernelIdeal.Val

end
-- ==== Proof.DotVal1.lean ====
/-
  The layer product region 1: what each case of the body leaves, in the body's own arithmetic — the accumulator after a
  first contracted block is the cleared accumulator plus the block's partial product; after a later block what the point
  before left plus the block's partial product; the output block is the epilogue of the accumulator and the bias rows.
-/
import proofs.«102610_j70265664962762_2_alg».proof.Proof.Dot1
import Idealize.ShloMosaic.Lib.Pipeline.Value

set_option maxRecDepth 16384

noncomputable section

namespace Cert.KernelIdeal.Regs

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hzD1 : (![0, 0] : Fin 2 → Nat) = fun _ => 0 := funext fun a => by fin_cases a <;> rfl

theorem sout1_D_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) :
    sout1_D (F := F) c i arg3 harg3 arg4 harg4 arg5 harg5 arg6 harg6 arg7 harg7 arg8 harg8 arg9 harg9 hc0 hc1 x0 x1 b0 b1 b2 = k1_pay2 (k1_pay1 (F := F)) x0 x1 := by
  unfold sout1_D
  rw [View.read_writes_eq_canon _ _ _ (scover1_D c i arg3 harg3 arg4 harg4 arg5 harg5 arg6 harg6 arg7 harg7 arg8 harg8 arg9 harg9 hc0 hc1 x0 x1 b0 b1 b2)]
  unfold kernelRun1_D
  dsimp only
  sl_unfold_words
  rw [View.canon_cons_unit_zero hzD1]
  simp only [View.readCov_cons_toLoadRect, View.readCov_unit_zero (S := S2048x1024) _ hzD1, View.readAt_eq_ld, harg3.read_unread, harg4.read_unread, harg5.read_unread, harg6.read_unread, harg7.read_unread, harg9.read_unread,
    View.ld_unit_zero (S := S2048x1024) hzD1, View.ld_unit_zero (S := S1024x1024) hzD1, View.ld_unit_zero (S := S1x1024) hzD1]

theorem out1_D_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond1_0 i) (hc1 : cond1_1 i)
    (x0 : Vec F S2048x1024 .bf16) (x1 : Vec F S1024x1024 .bf16) (b0 b1 b2 : Vec F S1x1024 .f32) :
    out1_D (F := F) c i arg3 harg3 arg4 harg4 arg5 harg5 arg6 harg6 arg7 harg7 arg8 harg8 arg9 harg9 hc0 hc1 x0 x1 b0 b1 b2 = k1_pay3 b0 b1 b2 (k1_pay2 (k1_pay1 (F := F)) x0 x1) := by
  unfold out1_D
  rw [View.read_writes_eq_canon _ _ _ (cover1_D c i arg3 harg3 arg4 harg4 arg5 harg5 arg6 harg6 arg7 harg7 arg8 harg8 arg9 harg9 hc0 hc1 x0 x1 b0 b1 b2)]
  unfold kernelRun1_D
  dsimp only
  sl_unfold_words
  rw [View.canon_cons_unit_zero hzD1]
  simp only [View.readCov_cons_toLoadRect, View.readCov_unit_zero (S := S2048x1024) _ hzD1, View.readAt_eq_ld, harg3.read_unread, harg4.read_unread, harg5.read_unread, harg6.read_unread, harg7.read_unread, harg9.read_unread,
    View.ld_unit_zero (S := S2048x1024) hzD1, View.ld_unit_zero (S := S1024x1024) hzD1, View.ld_unit_zero (S := S1x1024) hzD1]

end Cert.KernelIdeal.Regs

end
-- ==== Proof.PayValDot.lean ====
/-
  The layer product kernels' stored values read at an index, on the extended reals.

  Each of the four product kernels stores three values: the cleared accumulator (zero), one accumulation step (the
  accumulator plus the product of an input block `x : [2048, 1024]` with a sampled-weight block `a : [1024, 1024]`,
  both contracted along their second axis), and the finished block (the accumulator plus the sampled bias
  `μ(o) + sp(σ(o)) · ζ(o)`, through `tanh` in the first three layers). Read at the index `(r, o)`:
      cleared        = 0
      step           = acc(r, o) + ∑ i < 1024, x(r, i) · a(o, i)
      finished       = tanh (acc(r, o) + (μ(0, o) + sp(σ(0, o)) · ζ(0, o)))          (no tanh in the last layer)
  On the extended reals a change of float format is the identity, the guard `t ≠ t` of the softplus is never taken, and
  the zero word is `0`.
-/
import proofs.«102610_j70265664962762_2_alg».proof.Proof.Gen.KernelIdeal.Skeleton
import proofs.«102610_j70265664962762_2_alg».proof.Proof.Spec
import Idealize.ShloMosaic.Lib.ValueLayout
import Idealize.ShloMosaic.PureOps.Ideal.Laws

set_option maxRecDepth 16384

noncomputable section

open scoped BigOperators

namespace Cert.KernelIdeal.PayVal

open Idealize.ShloMosaic Idealize.ShloMosaic.ValueIdx
open Cert.KernelIdeal Cert.KernelIdeal.Gen
open Cert.Spec (sp)

/-! ## The block product's operand indices -/

/-- The left operand's row at output `j` is `j`'s row. -/
theorem lhs_0 (j : S2048x1024.Idx) (q : dot_S2048x1024_S1024x1024_S2048x1024_1_1_0_0_n_n.contr.Idx) : (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
/-- The left operand's column is the contraction position. -/
theorem lhs_1 (j : S2048x1024.Idx) (q : dot_S2048x1024_S1024x1024_S2048x1024_1_1_0_0_n_n.contr.Idx) : (dot_S2048x1024_S1024x1024_S2048x1024_1_1_0_0_n_n.lhsIdx j q 1).val = (q ⟨0, by decide⟩).val :=
  dot_S2048x1024_S1024x1024_S2048x1024_1_1_0_0_n_n.lhsIdx_val_of_single rfl j q
/-- The right operand's row at output `j` is `j`'s column. -/
theorem rhs_0 (j : S2048x1024.Idx) (q : dot_S2048x1024_S1024x1024_S2048x1024_1_1_0_0_n_n.contr.Idx) : (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
/-- The right operand's column is the contraction position. -/
theorem rhs_1 (j : S2048x1024.Idx) (q : dot_S2048x1024_S1024x1024_S2048x1024_1_1_0_0_n_n.contr.Idx) : (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The block product at output `(r, o)`, summed over the contraction index, is `∑ i, a(r, i) · b(o, i)`: both operands
    are contracted along their second axis. -/
theorem dot_sum (a : FVec Ideal S2048x1024 .bf16) (b : FVec Ideal S1024x1024 .bf16) (r : Fin 2048) (o : Fin 1024) :
    (∑ k : dot_S2048x1024_S1024x1024_S2048x1024_1_1_0_0_n_n.contr.Idx, a (dot_S2048x1024_S1024x1024_S2048x1024_1_1_0_0_n_n.lhsIdx (ix2 r o) k) * b (dot_S2048x1024_S1024x1024_S2048x1024_1_1_0_0_n_n.rhsIdx (ix2 r o) k))
      = ∑ i : Fin 1024, a (ix2 r i) * b (ix2 o i) := by
  rw [← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 r o) ((ValueIdx.contrEquiv1 dot_S2048x1024_S1024x1024_S2048x1024_1_1_0_0_n_n 1024 rfl rfl).symm k) = ix2 r k :=
    funext fun ax => Fin.ext (by
      match ax with
      | ⟨0, _⟩ => exact lhs_0 _ _
      | ⟨1, _⟩ => exact (lhs_1 _ _).trans hk)
  have er : dot_S2048x1024_S1024x1024_S2048x1024_1_1_0_0_n_n.rhsIdx (ix2 r o) ((ValueIdx.contrEquiv1 dot_S2048x1024_S1024x1024_S2048x1024_1_1_0_0_n_n 1024 rfl rfl).symm k) = ix2 o k :=
    funext fun ax => Fin.ext (by
      match ax with
      | ⟨0, _⟩ => exact rhs_0 _ _
      | ⟨1, _⟩ => exact (rhs_1 _ _).trans hk)
  rw [el, er]

/-- A product into the zero splat, read at `(r, o)`: the sum `∑ i, a(r, i) · b(o, i)`. -/
theorem matmul_zero_apply (a : FVec Ideal S2048x1024 .bf16) (b : FVec Ideal S1024x1024 .bf16) (r : Fin 2048) (o : Fin 1024) :
    FloatOps.matmul (F := Ideal) dot_S2048x1024_S1024x1024_S2048x1024_1_1_0_0_n_n none a b (constant S2048x1024 .f32 0x00000000#32) (ix2 r o)
      = ∑ i : Fin 1024, a (ix2 r i) * b (ix2 o i) :=
  (Ideal.matmul_constant_zero_apply dot_S2048x1024_S1024x1024_S2048x1024_1_1_0_0_n_n none a b (ix2 r o)).trans (dot_sum a b r o)

/-! ## Layer product kernel 1 -/

/-- The cleared accumulator is zero everywhere. -/
theorem k1_pay1_apply (j : S2048x1024.Idx) : k1_pay1 (F := Ideal) j = (0 : EReal) := by
  unfold k1_pay1
  rw [shapeCast_self]
  exact Ideal.ofBits_zero_f32

/-- One accumulation step: the accumulator plus the block product `∑ i, x(r, i) · a(o, i)` (the casts to the same shape
    are the identity; the product accumulates into a zero splat). -/
theorem k1_pay2_apply (v3 : Vec Ideal S2048x1024 .f32) (v4 : Vec Ideal S2048x1024 .bf16) (v6 : Vec Ideal S1024x1024 .bf16)
    (r : Fin 2048) (o : Fin 1024) :
    k1_pay2 (F := Ideal) v3 v4 v6 (ix2 r o) = v3 (ix2 r o) + ∑ i : Fin 1024, v4 (ix2 r i) * v6 (ix2 o i) := by
  unfold k1_pay2
  simp only [shapeCast_self]
  exact congrArg (v3 (ix2 r o) + ·) (matmul_zero_apply v4 v6 r o)

/-- The finished block: `tanh` of the accumulator plus the sampled bias `μ(o) + sp(σ(o)) · ζ(o)` (its one row broadcast
    over the block's rows); the change of format to bf16 is the identity on the extended reals. -/
theorem k1_pay3_apply (v16 v18 v34 : Vec Ideal S1x1024 .f32) (v38 : Vec Ideal S2048x1024 .f32) (r : Fin 2048) (o : Fin 1024) :
    k1_pay3 (F := Ideal) v16 v18 v34 v38 (ix2 r o)
      = Ideal.tanh (v38 (ix2 r o) + (v16 (ix2 0 o) + sp (v18 (ix2 0 o)) * v34 (ix2 0 o))) := by
  unfold k1_pay3
  simp only [shapeCast_self]
  rw [truncf_apply]
  show Ideal.tanh (v38 (ix2 r o) + broadcastTo S2048x1024 _ broadcasts_S1x1024_S2048x1024 (ix2 r o)) = _
  rw [broadcastTo_1b_ab_apply]
  exact congrArg (fun t => Ideal.tanh (v38 (ix2 r o) + (v16 (ix2 0 o) + t * v34 (ix2 0 o)))) (Cert.Spec.sp_vector (v18 (ix2 0 o)))

/-! ## Layer product kernel 3 -/

/-- The cleared accumulator is zero everywhere. -/
theorem k3_pay1_apply (j : S2048x1024.Idx) : k3_pay1 (F := Ideal) j = (0 : EReal) := by
  unfold k3_pay1
  rw [shapeCast_self]
  exact Ideal.ofBits_zero_f32

/-- One accumulation step: the accumulator plus the block product `∑ i, x(r, i) · a(o, i)` (the casts to the same shape
    are the identity; the product accumulates into a zero splat). -/
theorem k3_pay2_apply (v3 : Vec Ideal S2048x1024 .f32) (v4 : Vec Ideal S2048x1024 .bf16) (v6 : Vec Ideal S1024x1024 .bf16)
    (r : Fin 2048) (o : Fin 1024) :
    k3_pay2 (F := Ideal) v3 v4 v6 (ix2 r o) = v3 (ix2 r o) + ∑ i : Fin 1024, v4 (ix2 r i) * v6 (ix2 o i) := by
  unfold k3_pay2
  simp only [shapeCast_self]
  exact congrArg (v3 (ix2 r o) + ·) (matmul_zero_apply v4 v6 r o)

/-- The finished block: `tanh` of the accumulator plus the sampled bias `μ(o) + sp(σ(o)) · ζ(o)` (its one row broadcast
    over the block's rows); the change of format to bf16 is the identity on the extended reals. -/
theorem k3_pay3_apply (v16 v18 v34 : Vec Ideal S1x1024 .f32) (v38 : Vec Ideal S2048x1024 .f32) (r : Fin 2048) (o : Fin 1024) :
    k3_pay3 (F := Ideal) v16 v18 v34 v38 (ix2 r o)
      = Ideal.tanh (v38 (ix2 r o) + (v16 (ix2 0 o) + sp (v18 (ix2 0 o)) * v34 (ix2 0 o))) := by
  unfold k3_pay3
  simp only [shapeCast_self]
  rw [truncf_apply]
  show Ideal.tanh (v38 (ix2 r o) + broadcastTo S2048x1024 _ broadcasts_S1x1024_S2048x1024 (ix2 r o)) = _
  rw [broadcastTo_1b_ab_apply]
  exact congrArg (fun t => Ideal.tanh (v38 (ix2 r o) + (v16 (ix2 0 o) + t * v34 (ix2 0 o)))) (Cert.Spec.sp_vector (v18 (ix2 0 o)))

/-! ## Layer product kernel 5 -/

/-- The cleared accumulator is zero everywhere. -/
theorem k5_pay1_apply (j : S2048x1024.Idx) : k5_pay1 (F := Ideal) j = (0 : EReal) := by
  unfold k5_pay1
  rw [shapeCast_self]
  exact Ideal.ofBits_zero_f32

/-- One accumulation step: the accumulator plus the block product `∑ i, x(r, i) · a(o, i)` (the casts to the same shape
    are the identity; the product accumulates into a zero splat). -/
theorem k5_pay2_apply (v3 : Vec Ideal S2048x1024 .f32) (v4 : Vec Ideal S2048x1024 .bf16) (v6 : Vec Ideal S1024x1024 .bf16)
    (r : Fin 2048) (o : Fin 1024) :
    k5_pay2 (F := Ideal) v3 v4 v6 (ix2 r o) = v3 (ix2 r o) + ∑ i : Fin 1024, v4 (ix2 r i) * v6 (ix2 o i) := by
  unfold k5_pay2
  simp only [shapeCast_self]
  exact congrArg (v3 (ix2 r o) + ·) (matmul_zero_apply v4 v6 r o)

/-- The finished block: `tanh` of the accumulator plus the sampled bias `μ(o) + sp(σ(o)) · ζ(o)` (its one row broadcast
    over the block's rows); the change of format to bf16 is the identity on the extended reals. -/
theorem k5_pay3_apply (v16 v18 v34 : Vec Ideal S1x1024 .f32) (v38 : Vec Ideal S2048x1024 .f32) (r : Fin 2048) (o : Fin 1024) :
    k5_pay3 (F := Ideal) v16 v18 v34 v38 (ix2 r o)
      = Ideal.tanh (v38 (ix2 r o) + (v16 (ix2 0 o) + sp (v18 (ix2 0 o)) * v34 (ix2 0 o))) := by
  unfold k5_pay3
  simp only [shapeCast_self]
  rw [truncf_apply]
  show Ideal.tanh (v38 (ix2 r o) + broadcastTo S2048x1024 _ broadcasts_S1x1024_S2048x1024 (ix2 r o)) = _
  rw [broadcastTo_1b_ab_apply]
  exact congrArg (fun t => Ideal.tanh (v38 (ix2 r o) + (v16 (ix2 0 o) + t * v34 (ix2 0 o)))) (Cert.Spec.sp_vector (v18 (ix2 0 o)))

/-! ## Layer product kernel 7 -/

/-- The cleared accumulator is zero everywhere. -/
theorem k7_pay1_apply (j : S2048x1024.Idx) : k7_pay1 (F := Ideal) j = (0 : EReal) := by
  unfold k7_pay1
  rw [shapeCast_self]
  exact Ideal.ofBits_zero_f32

/-- One accumulation step: the accumulator plus the block product `∑ i, x(r, i) · a(o, i)` (the casts to the same shape
    are the identity; the product accumulates into a zero splat). -/
theorem k7_pay2_apply (v3 : Vec Ideal S2048x1024 .f32) (v4 : Vec Ideal S2048x1024 .bf16) (v6 : Vec Ideal S1024x1024 .bf16)
    (r : Fin 2048) (o : Fin 1024) :
    k7_pay2 (F := Ideal) v3 v4 v6 (ix2 r o) = v3 (ix2 r o) + ∑ i : Fin 1024, v4 (ix2 r i) * v6 (ix2 o i) := by
  unfold k7_pay2
  simp only [shapeCast_self]
  exact congrArg (v3 (ix2 r o) + ·) (matmul_zero_apply v4 v6 r o)

/-- The finished block of the last layer: the accumulator plus the sampled bias `μ(o) + sp(σ(o)) · ζ(o)` (its one row
    broadcast over the block's rows); no `tanh`. -/
theorem k7_pay3_apply (v16 v18 v34 : Vec Ideal S1x1024 .f32) (v38 : Vec Ideal S2048x1024 .f32) (r : Fin 2048) (o : Fin 1024) :
    k7_pay3 (F := Ideal) v16 v18 v34 v38 (ix2 r o)
      = v38 (ix2 r o) + (v16 (ix2 0 o) + sp (v18 (ix2 0 o)) * v34 (ix2 0 o)) := by
  unfold k7_pay3
  simp only [shapeCast_self]
  show v38 (ix2 r o) + broadcastTo S2048x1024 _ broadcasts_S1x1024_S2048x1024 (ix2 r o) = _
  rw [broadcastTo_1b_ab_apply]
  exact congrArg (fun t => v38 (ix2 r o) + (v16 (ix2 0 o) + t * v34 (ix2 0 o))) (Cert.Spec.sp_vector (v18 (ix2 0 o)))

end Cert.KernelIdeal.PayVal

end
-- ==== Proof.SumBlocks.lean ====
/-
  Splitting a sum over 4096 positions into four consecutive blocks of 1024, in any additive commutative monoid (the
  extended reals in particular: only associativity and the neutral zero are used, no finiteness).

  Block `k` (of four), position `i` (of 1024) is the column `1024 * k + i`. An accumulator that starts at zero and
  receives, block after block, the block's partial sum ends at the whole sum.
-/
import Mathlib.Algebra.BigOperators.Fin
import Mathlib.Data.EReal.Basic

open scoped BigOperators

namespace Cert.KernelIdeal.PayVal

/-- The column of block `k` (of four), position `i` (of 1024): `1024 * k + i`. -/
def col (k : Fin 4) (i : Fin 1024) : Fin 4096 := ⟨1024 * k.val + i.val, by have := k.isLt; have := i.isLt; omega⟩

@[simp] theorem col_val (k : Fin 4) (i : Fin 1024) : (col k i).val = 1024 * k.val + i.val := rfl

/-- A sum over `a + b` positions is the sum over the first `a` plus the sum over the last `b`. -/
theorem sum_split {M : Type*} [AddCommMonoid M] (a b : ℕ) (f : Fin (a + b) → M) :
    ∑ j : Fin (a + b), f j
      = ∑ i : Fin a, f ⟨i.val, by have := i.isLt; omega⟩ + ∑ i : Fin b, f ⟨a + i.val, by have := i.isLt; omega⟩ := by
  rw [Fin.sum_univ_add]
  rfl

/-- Four blocks of 1024, accumulated from zero in order, are the sum over all 4096 positions. -/
theorem sum_four_blocks {M : Type*} [AddCommMonoid M] (f : Fin 4096 → M) :
    (((0 + ∑ i : Fin 1024, f (col 0 i)) + ∑ i : Fin 1024, f (col 1 i)) + ∑ i : Fin 1024, f (col 2 i))
        + ∑ i : Fin 1024, f (col 3 i)
      = ∑ j : Fin 4096, f j := by
  have h3 := sum_split 3072 1024 f
  have h2 := sum_split 2048 1024 (fun i : Fin 3072 => f ⟨i.val, by have := i.isLt; omega⟩)
  have h1 := sum_split 1024 1024 (fun i : Fin 2048 => f ⟨i.val, by have := i.isLt; omega⟩)
  rw [zero_add]
  refine Eq.symm (h3.trans ?_)
  refine congrArg₂ (· + ·) (h2.trans (congrArg₂ (· + ·) (h1.trans ?_) ?_)) ?_
  · exact congrArg₂ (· + ·) (Finset.sum_congr rfl fun i _ => congrArg f (Fin.ext (by simp [col])))
      (Finset.sum_congr rfl fun i _ => congrArg f (Fin.ext (by simp [col])))
  · exact Finset.sum_congr rfl fun i _ => congrArg f (Fin.ext (by simp [col]))
  · exact Finset.sum_congr rfl fun i _ => congrArg f (Fin.ext (by simp [col]))

/-- The same with each block's summand named: whatever the four block sums are known to add up, position by position. -/
theorem sum_four_blocks_of {M : Type*} [AddCommMonoid M] (f : Fin 4096 → M) (g0 g1 g2 g3 : Fin 1024 → M)
    (h0 : ∀ i, g0 i = f (col 0 i)) (h1 : ∀ i, g1 i = f (col 1 i)) (h2 : ∀ i, g2 i = f (col 2 i))
    (h3 : ∀ i, g3 i = f (col 3 i)) :
    (((0 + ∑ i : Fin 1024, g0 i) + ∑ i : Fin 1024, g1 i) + ∑ i : Fin 1024, g2 i) + ∑ i : Fin 1024, g3 i
      = ∑ j : Fin 4096, f j := by
  rw [← sum_four_blocks f]
  simp only [h0, h1, h2, h3]

/-- One block: an accumulator that starts at zero and receives the one block's sum holds that sum. -/
theorem sum_one_block {M : Type*} [AddCommMonoid M] (f : Fin 1024 → M) :
    0 + ∑ i : Fin 1024, f i = ∑ i : Fin 1024, f i := zero_add _

/-- The four-block form on the extended reals. -/
theorem ereal_sum_four_blocks (f : Fin 4096 → EReal) :
    (((0 + ∑ i : Fin 1024, f (col 0 i)) + ∑ i : Fin 1024, f (col 1 i)) + ∑ i : Fin 1024, f (col 2 i))
        + ∑ i : Fin 1024, f (col 3 i)
      = ∑ j : Fin 4096, f j := sum_four_blocks f

/-- The one-block form on the extended reals. -/
theorem ereal_sum_one_block (f : Fin 1024 → EReal) : 0 + ∑ i : Fin 1024, f i = ∑ i : Fin 1024, f i := zero_add _

end Cert.KernelIdeal.PayVal
-- ==== Proof.ValD1.lean ====
/-
  The layer product region 1 as one function of the arrays it is entered with. The contracted axis is one block: at every grid point
  the accumulator ends at 0 + S, S the product over the block, which is the whole sum (0 is neutral for the addition of
  extended reals); the output block is that sum plus the sampled bias row, under tanh. The output blocks tile the array.
-/
import proofs.«102610_j70265664962762_2_alg».proof.Proof.DotVal1
import proofs.«102610_j70265664962762_2_alg».proof.Proof.Spec
import proofs.«102610_j70265664962762_2_alg».proof.Proof.PayValDot
import proofs.«102610_j70265664962762_2_alg».proof.Proof.SumBlocks
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs Cert.KernelIdeal.PayVal

variable (V : (c : Dev nD) → (b : Ref sig .tc) → Buf (Elt Ideal) ((c : Thread nD τ).loc b))

/-- The sampled bias row as a vector of the output axis, from the three bias arrays (one row each). -/
def bvec1 (B0 B1 B2 : Cert.Spec.Arr2 1 4096) : Cert.Spec.Arr1 4096 :=
  fun o1 => B0 (ix2 (0 : Fin 1) ⟨(o1 0).val, (o1 0).isLt⟩) + Cert.Spec.sp (B1 (ix2 (0 : Fin 1) ⟨(o1 0).val, (o1 0).isLt⟩)) * B2 (ix2 (0 : Fin 1) ⟨(o1 0).val, (o1 0).isLt⟩)

theorem bvec1_apply (B0 B1 B2 : Cert.Spec.Arr2 1 4096) (O : Fin 4096) :
    bvec1 B0 B1 B2 (ix1 O) = B0 (ix2 (0 : Fin 1) O) + Cert.Spec.sp (B1 (ix2 (0 : Fin 1) O)) * B2 (ix2 (0 : Fin 1) O) := rfl

/-- The layer: the whole product with the sampled weight, plus the sampled bias, under tanh. -/
abbrev G1 (X : Cert.Spec.Arr2 8192 1024) (A : Cert.Spec.Arr2 4096 1024) (B0 B1 B2 : Cert.Spec.Arr2 1 4096) : Cert.Spec.Arr2 8192 4096 :=
  Cert.Spec.denseTanh X A (bvec1 B0 B1 B2)

/-- The printed index maps, decided over the grid: the first operand's rows and the sampled weight's rows are the output
    block's rows and columns; the contracted block is the only one. -/
theorem idx_facts1 : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = 0 ∧ win1_2.index t (1 : Fin 2) = win1_5.index t (1 : Fin 2)
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2)
    ∧ win1_5.index t (0 : Fin 2) ≤ 3 ∧ win1_5.index t (1 : Fin 2) ≤ 3 :=
  (by decide +kernel : ∀ t : Fin grid1.N, _)

/-- Every output block is some point's. -/
theorem idx_onto1 : ∀ (q0 : Fin 4) (q1 : Fin 4), ∃ t : Fin cfg1.N, win1_5.index t = ![q0.val, q1.val] :=
  (by decide +kernel : ∀ (q0 : Fin 4) (q1 : Fin 4), ∃ t : Fin grid1.N, win1_5.index t = ![q0.val, q1.val])

/-- An entry of a block of the first operand is the entry of the whole array at the block's rows and the contracted
    block's columns. -/
theorem xblk1 (c : Dev nD) (q : Fin cfg1.N) (I : ℕ) (hI : win1_0.index q (0 : Fin 2) = I) (hk : win1_0.index q (1 : Fin 2) = 0)
    (r : Fin 2048) (u : Fin 1024) (hR : I * 2048 + r.val < 8192) :
    iblk1 V c 0 q (ix2 r u) = V c main_v0 (ix2 (⟨I * 2048 + r.val, hR⟩ : Fin 8192) u) :=
  congrArg (V c main_v0) (by
    funext a; apply Fin.ext
    match a with
    | ⟨0, _⟩ => show win1_0.index q (0 : Fin 2) * 2048 + 1 * r.val = I * 2048 + r.val; omega
    | ⟨1, _⟩ => show win1_0.index q (1 : Fin 2) * 1024 + 1 * u.val = u.val; omega)

/-- The same for the sampled weight: its rows are the output block's columns. -/
theorem ablk1 (c : Dev nD) (q : Fin cfg1.N) (J : ℕ) (hJ : win1_1.index q (0 : Fin 2) = J) (hk : win1_1.index q (1 : Fin 2) = 0)
    (o : Fin 1024) (u : Fin 1024) (hO : J * 1024 + o.val < 4096) :
    iblk1 V c 1 q (ix2 o u) = V c main_v1 (ix2 (⟨J * 1024 + o.val, hO⟩ : Fin 4096) u) :=
  congrArg (V c main_v1) (by
    funext a; apply Fin.ext
    match a with
    | ⟨0, _⟩ => show win1_1.index q (0 : Fin 2) * 1024 + 1 * o.val = J * 1024 + o.val; omega
    | ⟨1, _⟩ => show win1_1.index q (1 : Fin 2) * 1024 + 1 * u.val = u.val; omega)

theorem bblk1_2 (c : Dev nD) (t : Fin cfg1.N) (J : ℕ) (h0 : win1_2.index t (0 : Fin 2) = 0) (hJ : win1_2.index t (1 : Fin 2) = J)
    (o : Fin 1024) (hO : J * 1024 + o.val < 4096) :
    iblk1 V c 2 t (ix2 (0 : Fin 1) o) = V c main_v2 (ix2 (0 : Fin 1) (⟨J * 1024 + o.val, hO⟩ : Fin 4096)) :=
  congrArg (V c main_v2) (by
    funext a; apply Fin.ext
    match a with
    | ⟨0, _⟩ => show win1_2.index t (0 : Fin 2) * 1 + 1 * 0 = 0; omega
    | ⟨1, _⟩ => show win1_2.index t (1 : Fin 2) * 1024 + 1 * o.val = J * 1024 + o.val; omega)

theorem bblk1_3 (c : Dev nD) (t : Fin cfg1.N) (J : ℕ) (h0 : win1_3.index t (0 : Fin 2) = 0) (hJ : win1_3.index t (1 : Fin 2) = J)
    (o : Fin 1024) (hO : J * 1024 + o.val < 4096) :
    iblk1 V c 3 t (ix2 (0 : Fin 1) o) = V c main_v3 (ix2 (0 : Fin 1) (⟨J * 1024 + o.val, hO⟩ : Fin 4096)) :=
  congrArg (V c main_v3) (by
    funext a; apply Fin.ext
    match a with
    | ⟨0, _⟩ => show win1_3.index t (0 : Fin 2) * 1 + 1 * 0 = 0; omega
    | ⟨1, _⟩ => show win1_3.index t (1 : Fin 2) * 1024 + 1 * o.val = J * 1024 + o.val; omega)

theorem bblk1_4 (c : Dev nD) (t : Fin cfg1.N) (J : ℕ) (h0 : win1_4.index t (0 : Fin 2) = 0) (hJ : win1_4.index t (1 : Fin 2) = J)
    (o : Fin 1024) (hO : J * 1024 + o.val < 4096) :
    iblk1 V c 4 t (ix2 (0 : Fin 1) o) = V c main_v4 (ix2 (0 : Fin 1) (⟨J * 1024 + o.val, hO⟩ : Fin 4096)) :=
  congrArg (V c main_v4) (by
    funext a; apply Fin.ext
    match a with
    | ⟨0, _⟩ => show win1_4.index t (0 : Fin 2) * 1 + 1 * 0 = 0; omega
    | ⟨1, _⟩ => show win1_4.index t (1 : Fin 2) * 1024 + 1 * o.val = J * 1024 + o.val; omega)

set_option maxHeartbeats 1000000 in
/-- What a point writes back is its block of the layer of the arrays as the region finds them. -/
theorem flushed1_eq (c : Dev nD) (t : Fin cfg1.N) :
    (dat1 V c).flushed 5 t = ((cfg1.win 5).blk t).view.read (Elt Ideal) (G1 (V c main_v0) (V c main_v1) (V c main_v2) (V c main_v3) (V c main_v4)) := by
  show (cfg1.win 5).cut (grid1.coords t) ((dat1 V c).after 5 t) = _
  rw [after1_5]
  unfold outAt1
  rw [out1_D_eq]
  obtain ⟨a00, a01, a02, a03, e20, e21, e30, e31, e40, e41, bi, bj⟩ := idx_facts1 t
  funext j
  obtain ⟨r, o, rfl⟩ : ∃ (r : Fin 2048) (o : Fin 1024), j = ix2 r o := ⟨j 0, j 1, eq_ix2 j⟩
  have hR : win1_5.index t (0 : Fin 2) * 2048 + r.val < 8192 := by have := r.isLt; omega
  have hO : win1_5.index t (1 : Fin 2) * 1024 + o.val < 4096 := by have := o.isLt; omega
  have hemb5 : ((cfg1.win 5).blk t).view.emb (ix2 r o) = ix2 (⟨win1_5.index t (0 : Fin 2) * 2048 + r.val, hR⟩ : Fin 8192) (⟨win1_5.index t (1 : Fin 2) * 1024 + o.val, hO⟩ : Fin 4096) := by
    funext a; apply Fin.ext
    match a with
    | ⟨0, _⟩ => show win1_5.index t (0 : Fin 2) * 2048 + 1 * r.val = win1_5.index t (0 : Fin 2) * 2048 + r.val; omega
    | ⟨1, _⟩ => show win1_5.index t (1 : Fin 2) * 1024 + 1 * o.val = win1_5.index t (1 : Fin 2) * 1024 + o.val; omega
  refine (k1_pay3_apply _ _ _ _ r o).trans ?_
  rw [k1_pay2_apply, k1_pay1_apply]
  show _ = Cert.Spec.denseTanh (V c main_v0) (V c main_v1) (bvec1 (V c main_v2) (V c main_v3) (V c main_v4)) (((cfg1.win 5).blk t).view.emb (ix2 r o))
  rw [hemb5, Cert.Spec.denseTanh_apply, bvec1_apply,
    bblk1_2 V c t _ e20 e21 o hO, bblk1_3 V c t _ e30 e31 o hO, bblk1_4 V c t _ e40 e41 o hO]
  refine congrArg (fun z => Ideal.tanh (z + _)) ?_
  refine (sum_one_block _).trans (Finset.sum_congr rfl fun u _ => ?_)
  rw [xblk1 V c _ _ a00 a01 r u hR, ablk1 V c _ _ a02 a03 o u hO]

/-- An index of the array is in point `t`'s block iff each coordinate is in the block's range on its axis. -/
theorem mem_blk1 (t : Fin cfg1.N) (i : S8192x4096.Idx) :
    i ∈ ((cfg1.win 5).blk t).view.set ↔ ∀ a : Fin 2, win1_5.index t a * S2048x1024.size a ≤ (i a).val ∧ (i a).val < win1_5.index t a * S2048x1024.size a + S2048x1024.size a := by
  show i ∈ ((View.whole main_v5).slice (win1_5.rect t)).set ↔ _
  rw [View.set_slice_whole, Rect.mem_set_unit]
  exact Iff.rfl

/-- The output blocks tile the array: the point that covers entry (R, O) is the one of block (R / 2048, O / 1024). -/
theorem cover1 (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  obtain ⟨t, ht⟩ := idx_onto1 ⟨(i 0).val / 2048, by omega⟩ ⟨(i 1).val / 1024, by omega⟩
  have q0 : win1_5.index t (0 : Fin 2) = (i 0).val / 2048 := congrFun ht 0
  have q1 : win1_5.index t (1 : Fin 2) = (i 1).val / 1024 := congrFun ht 1
  refine ⟨t, flush1_5 t, ?_⟩
  rw [mem_blk1]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 1024 ≤ (i 1).val ∧ (i 1).val < win1_5.index t (1 : Fin 2) * 1024 + 1024; omega

/-- THE ARRAY the region leaves: the layer of the arrays it was entered with. -/
theorem final1 (c : Dev nD) : (dat1 V c).arrAt 5 cfg1.N = G1 (V c main_v0) (V c main_v1) (V c main_v2) (V c main_v3) (V c main_v4) :=
  (dat1 V c).arrAt_eq_of_cover 5 _ (fun t _ => flushed1_eq V c t) (cover1)

end Cert.KernelIdeal.Val

end
-- ==== Proof.DotVal3.lean ====
/-
  The layer product region 3: what each case of the body leaves, in the body's own arithmetic — the accumulator after a
  first contracted block is the cleared accumulator plus the block's partial product; after a later block what the point
  before left plus the block's partial product; the output block is the epilogue of the accumulator and the bias rows.
-/
import proofs.«102610_j70265664962762_2_alg».proof.Proof.Dot3
import Idealize.ShloMosaic.Lib.Pipeline.Value

set_option maxRecDepth 16384

noncomputable section

namespace Cert.KernelIdeal.Regs

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hzD3 : (![0, 0] : Fin 2 → Nat) = fun _ => 0 := funext fun a => by fin_cases a <;> rfl

theorem sout3_A_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond3_0 i) (hc1 : ¬cond3_1 i)
    (x0 : Vec F S2048x1024 .bf16) (x1 : Vec F S1024x1024 .bf16) :
    sout3_A (F := F) c i arg3 harg3 arg4 harg4 arg5 harg5 arg6 harg6 arg7 harg7 arg8 harg8 arg9 harg9 hc0 hc1 x0 x1 = k3_pay2 (k3_pay1 (F := F)) x0 x1 := by
  unfold sout3_A
  rw [View.read_writes_eq_canon _ _ _ (scover3_A c i arg3 harg3 arg4 harg4 arg5 harg5 arg6 harg6 arg7 harg7 arg8 harg8 arg9 harg9 hc0 hc1 x0 x1)]
  unfold kernelRun3_A
  dsimp only
  sl_unfold_words
  rw [View.canon_cons_unit_zero hzD3]
  simp only [View.readCov_unit_zero (S := S2048x1024) _ hzD3, View.readAt_eq_ld, harg3.read_unread, harg4.read_unread, harg5.read_unread, harg6.read_unread, harg7.read_unread, harg9.read_unread,
    View.ld_unit_zero (S := S2048x1024) hzD3, View.ld_unit_zero (S := S1024x1024) hzD3, View.ld_unit_zero (S := S1x1024) hzD3]

theorem sout3_B_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : ¬cond3_1 i)
    (x0 : Vec F S2048x1024 .bf16) (x1 : Vec F S1024x1024 .bf16) (xs : Vec F S2048x1024 .f32) :
    sout3_B (F := F) c i arg3 harg3 arg4 harg4 arg5 harg5 arg6 harg6 arg7 harg7 arg8 harg8 arg9 harg9 hc0 hc1 x0 x1 xs = k3_pay2 xs x0 x1 := by
  unfold sout3_B
  rw [View.read_writes_eq_canon _ _ _ (scover3_B c i arg3 harg3 arg4 harg4 arg5 harg5 arg6 harg6 arg7 harg7 arg8 harg8 arg9 harg9 hc0 hc1 x0 x1 xs)]
  unfold kernelRun3_B
  dsimp only
  sl_unfold_words
  rw [View.canon_cons_unit_zero hzD3]
  simp only [View.readCov_unit_zero (S := S2048x1024) _ hzD3, View.readAt_eq_ld, harg3.read_unread, harg4.read_unread, harg5.read_unread, harg6.read_unread, harg7.read_unread, harg9.read_unread,
    View.ld_unit_zero (S := S2048x1024) hzD3, View.ld_unit_zero (S := S1024x1024) hzD3, View.ld_unit_zero (S := S1x1024) hzD3]

theorem sout3_C_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) :
    sout3_C (F := F) c i arg3 harg3 arg4 harg4 arg5 harg5 arg6 harg6 arg7 harg7 arg8 harg8 arg9 harg9 hc0 hc1 x0 x1 b0 b1 b2 xs = k3_pay2 xs x0 x1 := by
  unfold sout3_C
  rw [View.read_writes_eq_canon _ _ _ (scover3_C c i arg3 harg3 arg4 harg4 arg5 harg5 arg6 harg6 arg7 harg7 arg8 harg8 arg9 harg9 hc0 hc1 x0 x1 b0 b1 b2 xs)]
  unfold kernelRun3_C
  dsimp only
  sl_unfold_words
  rw [View.canon_cons_unit_zero hzD3]
  simp only [View.readCov_unit_zero (S := S2048x1024) _ hzD3, View.readAt_eq_ld, harg3.read_unread, harg4.read_unread, harg5.read_unread, harg6.read_unread, harg7.read_unread, harg9.read_unread,
    View.ld_unit_zero (S := S2048x1024) hzD3, View.ld_unit_zero (S := S1024x1024) hzD3, View.ld_unit_zero (S := S1x1024) hzD3]

theorem out3_C_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond3_0 i) (hc1 : cond3_1 i)
    (x0 : Vec F S2048x1024 .bf16) (x1 : Vec F S1024x1024 .bf16) (b0 b1 b2 : Vec F S1x1024 .f32) (xs : Vec F S2048x1024 .f32) :
    out3_C (F := F) c i arg3 harg3 arg4 harg4 arg5 harg5 arg6 harg6 arg7 harg7 arg8 harg8 arg9 harg9 hc0 hc1 x0 x1 b0 b1 b2 xs = k3_pay3 b0 b1 b2 (k3_pay2 xs x0 x1) := by
  unfold out3_C
  rw [View.read_writes_eq_canon _ _ _ (cover3_C c i arg3 harg3 arg4 harg4 arg5 harg5 arg6 harg6 arg7 harg7 arg8 harg8 arg9 harg9 hc0 hc1 x0 x1 b0 b1 b2 xs)]
  unfold kernelRun3_C
  dsimp only
  sl_unfold_words
  rw [View.canon_cons_unit_zero hzD3]
  simp only [View.readCov_unit_zero (S := S2048x1024) _ hzD3, View.readAt_eq_ld, harg3.read_unread, harg4.read_unread, harg5.read_unread, harg6.read_unread, harg7.read_unread, harg9.read_unread,
    View.ld_unit_zero (S := S2048x1024) hzD3, View.ld_unit_zero (S := S1024x1024) hzD3, View.ld_unit_zero (S := S1x1024) hzD3]

end Cert.KernelIdeal.Regs

end
-- ==== Proof.ValD3.lean ====
/-
  The layer product region 3 as one function of the arrays it is entered with. The four grid points that share an output
  block run through the four blocks of the contracted axis: the accumulator ends at ((((0 + S₀) + S₁) + S₂) + S₃), Sₖ the
  partial product over block k, which is the whole sum over the contracted axis (addition of extended reals is
  associative and 0 is neutral: no finiteness is needed); the output block is that sum plus the sampled bias row, under tanh.
  The output blocks tile the array.
-/
import proofs.«102610_j70265664962762_2_alg».proof.Proof.DotVal3
import proofs.«102610_j70265664962762_2_alg».proof.Proof.Spec
import proofs.«102610_j70265664962762_2_alg».proof.Proof.PayValDot
import proofs.«102610_j70265664962762_2_alg».proof.Proof.SumBlocks
import Idealize.ShloMosaic.Lib.Pipeline.Value
import Idealize.ShloMosaic.Lib.ValueIdx

set_option maxRecDepth 16384

noncomputable section

namespace Cert.KernelIdeal.Regs

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-- The point before `t` (the first point for `t` the first). -/
def pp3 (t : Fin cfg3.N) : Fin cfg3.N := ⟨t.val - 1, lt_of_le_of_lt (Nat.sub_le _ _) t.isLt⟩

/-- THE CONTRACTION, in the body's arithmetic: at a point of the last contracted block the accumulator holds the cleared
    accumulator plus the four partial products of the four points that share the output block, in order. -/
theorem accAt3_last (V : (c : Dev nD) → (b : Ref sig .tc) → Buf (Elt F) ((c : Thread nD τ).loc b)) (c : Dev nD) (t : Fin cfg3.N) (h3 : t.val % 4 = 3) :
    accAt3 V c t.val t.isLt
      = k3_pay2 (k3_pay2 (k3_pay2 (k3_pay2 (k3_pay1 (F := F)) (iblk3 V c 0 (pp3 (pp3 (pp3 t)))) (iblk3 V c 1 (pp3 (pp3 (pp3 t)))))
          (iblk3 V c 0 (pp3 (pp3 t))) (iblk3 V c 1 (pp3 (pp3 t)))) (iblk3 V c 0 (pp3 t)) (iblk3 V c 1 (pp3 t))) (iblk3 V c 0 t) (iblk3 V c 1 t) := by
  rw [accAt3_C V c t (by omega) h3, sout3_C_eq]
  rw [show prev3 V c t = accAt3 V c (pp3 t).val (Fin.isLt _) from rfl,
    accAt3_B V c (pp3 t) (by show ¬(t.val - 1) % 4 = 0; omega) (by show ¬(t.val - 1) % 4 = 3; omega), sout3_B_eq]
  rw [show prev3 V c (pp3 t) = accAt3 V c (pp3 (pp3 t)).val (Fin.isLt _) from rfl,
    accAt3_B V c (pp3 (pp3 t)) (by show ¬(t.val - 1 - 1) % 4 = 0; omega) (by show ¬(t.val - 1 - 1) % 4 = 3; omega), sout3_B_eq]
  rw [show prev3 V c (pp3 (pp3 t)) = accAt3 V c (pp3 (pp3 (pp3 t))).val (Fin.isLt _) from rfl,
    accAt3_A V c (pp3 (pp3 (pp3 t))) (by show (t.val - 1 - 1 - 1) % 4 = 0; omega), sout3_A_eq]

end Cert.KernelIdeal.Regs

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs Cert.KernelIdeal.PayVal

variable (V : (c : Dev nD) → (b : Ref sig .tc) → Buf (Elt Ideal) ((c : Thread nD τ).loc b))

/-- The sampled bias row as a vector of the output axis, from the three bias arrays (one row each). -/
def bvec3 (B0 B1 B2 : Cert.Spec.Arr2 1 4096) : Cert.Spec.Arr1 4096 :=
  fun o1 => B0 (ix2 (0 : Fin 1) ⟨(o1 0).val, (o1 0).isLt⟩) + Cert.Spec.sp (B1 (ix2 (0 : Fin 1) ⟨(o1 0).val, (o1 0).isLt⟩)) * B2 (ix2 (0 : Fin 1) ⟨(o1 0).val, (o1 0).isLt⟩)

theorem bvec3_apply (B0 B1 B2 : Cert.Spec.Arr2 1 4096) (O : Fin 4096) :
    bvec3 B0 B1 B2 (ix1 O) = B0 (ix2 (0 : Fin 1) O) + Cert.Spec.sp (B1 (ix2 (0 : Fin 1) O)) * B2 (ix2 (0 : Fin 1) O) := rfl

/-- The layer: the whole product with the sampled weight, plus the sampled bias, under tanh. -/
abbrev G3 (X : Cert.Spec.Arr2 8192 4096) (A : Cert.Spec.Arr2 4096 4096) (B0 B1 B2 : Cert.Spec.Arr2 1 4096) : Cert.Spec.Arr2 8192 4096 :=
  Cert.Spec.denseTanh X A (bvec3 B0 B1 B2)

/-- The printed index maps at the four points that share point `t`'s output block, decided over the grid. -/
theorem idx_facts3 : ∀ t : Fin cfg3.N, t.val % 4 = 3 →
    (win3_0.index (pp3 (pp3 (pp3 t))) (0 : Fin 2) = win3_5.index t (0 : Fin 2) ∧ win3_0.index (pp3 (pp3 (pp3 t))) (1 : Fin 2) = 0
    ∧ win3_1.index (pp3 (pp3 (pp3 t))) (0 : Fin 2) = win3_5.index t (1 : Fin 2) ∧ win3_1.index (pp3 (pp3 (pp3 t))) (1 : Fin 2) = 0)
    ∧ (win3_0.index (pp3 (pp3 t)) (0 : Fin 2) = win3_5.index t (0 : Fin 2) ∧ win3_0.index (pp3 (pp3 t)) (1 : Fin 2) = 1
    ∧ win3_1.index (pp3 (pp3 t)) (0 : Fin 2) = win3_5.index t (1 : Fin 2) ∧ win3_1.index (pp3 (pp3 t)) (1 : Fin 2) = 1)
    ∧ (win3_0.index (pp3 t) (0 : Fin 2) = win3_5.index t (0 : Fin 2) ∧ win3_0.index (pp3 t) (1 : Fin 2) = 2
    ∧ win3_1.index (pp3 t) (0 : Fin 2) = win3_5.index t (1 : Fin 2) ∧ win3_1.index (pp3 t) (1 : Fin 2) = 2)
    ∧ (win3_0.index t (0 : Fin 2) = win3_5.index t (0 : Fin 2) ∧ win3_0.index t (1 : Fin 2) = 3
    ∧ win3_1.index t (0 : Fin 2) = win3_5.index t (1 : Fin 2) ∧ win3_1.index t (1 : Fin 2) = 3)
    ∧ win3_2.index t (0 : Fin 2) = 0 ∧ win3_2.index t (1 : Fin 2) = win3_5.index t (1 : Fin 2)
    ∧ win3_3.index t (0 : Fin 2) = 0 ∧ win3_3.index t (1 : Fin 2) = win3_5.index t (1 : Fin 2)
    ∧ win3_4.index t (0 : Fin 2) = 0 ∧ win3_4.index t (1 : Fin 2) = win3_5.index t (1 : Fin 2)
    ∧ win3_5.index t (0 : Fin 2) ≤ 3 ∧ win3_5.index t (1 : Fin 2) ≤ 3 :=
  (by decide +kernel : ∀ t : Fin grid3.N, t.val % 4 = 3 → _)

/-- Every output block is written back at some point of the last contracted block. -/
theorem idx_onto3 : ∀ (q0 : Fin 4) (q1 : Fin 4), ∃ t : Fin cfg3.N, t.val % 4 = 3 ∧ win3_5.index t = ![q0.val, q1.val] :=
  (by decide +kernel : ∀ (q0 : Fin 4) (q1 : Fin 4), ∃ t : Fin grid3.N, t.val % 4 = 3 ∧ win3_5.index t = ![q0.val, q1.val])

/-- An entry of a block of the first operand is the entry of the whole array at the block's rows and the contracted
    block's columns. -/
theorem xblk3 (c : Dev nD) (q : Fin cfg3.N) (I : ℕ) (k : Fin 4) (hI : win3_0.index q (0 : Fin 2) = I) (hk : win3_0.index q (1 : Fin 2) = k.val)
    (r : Fin 2048) (u : Fin 1024) (hR : I * 2048 + r.val < 8192) :
    iblk3 V c 0 q (ix2 r u) = V c main_v5 (ix2 (⟨I * 2048 + r.val, hR⟩ : Fin 8192) (col k u)) :=
  congrArg (V c main_v5) (by
    funext a; apply Fin.ext
    match a with
    | ⟨0, _⟩ => show win3_0.index q (0 : Fin 2) * 2048 + 1 * r.val = I * 2048 + r.val; omega
    | ⟨1, _⟩ => show win3_0.index q (1 : Fin 2) * 1024 + 1 * u.val = (col k u).val; rw [col_val]; omega)

/-- The same for the sampled weight: its rows are the output block's columns. -/
theorem ablk3 (c : Dev nD) (q : Fin cfg3.N) (J : ℕ) (k : Fin 4) (hJ : win3_1.index q (0 : Fin 2) = J) (hk : win3_1.index q (1 : Fin 2) = k.val)
    (o : Fin 1024) (u : Fin 1024) (hO : J * 1024 + o.val < 4096) :
    iblk3 V c 1 q (ix2 o u) = V c main_v6 (ix2 (⟨J * 1024 + o.val, hO⟩ : Fin 4096) (col k u)) :=
  congrArg (V c main_v6) (by
    funext a; apply Fin.ext
    match a with
    | ⟨0, _⟩ => show win3_1.index q (0 : Fin 2) * 1024 + 1 * o.val = J * 1024 + o.val; omega
    | ⟨1, _⟩ => show win3_1.index q (1 : Fin 2) * 1024 + 1 * u.val = (col k u).val; rw [col_val]; omega)

theorem bblk3_2 (c : Dev nD) (t : Fin cfg3.N) (J : ℕ) (h0 : win3_2.index t (0 : Fin 2) = 0) (hJ : win3_2.index t (1 : Fin 2) = J)
    (o : Fin 1024) (hO : J * 1024 + o.val < 4096) :
    iblk3 V c 2 t (ix2 (0 : Fin 1) o) = V c main_v7 (ix2 (0 : Fin 1) (⟨J * 1024 + o.val, hO⟩ : Fin 4096)) :=
  congrArg (V c main_v7) (by
    funext a; apply Fin.ext
    match a with
    | ⟨0, _⟩ => show win3_2.index t (0 : Fin 2) * 1 + 1 * 0 = 0; omega
    | ⟨1, _⟩ => show win3_2.index t (1 : Fin 2) * 1024 + 1 * o.val = J * 1024 + o.val; omega)

theorem bblk3_3 (c : Dev nD) (t : Fin cfg3.N) (J : ℕ) (h0 : win3_3.index t (0 : Fin 2) = 0) (hJ : win3_3.index t (1 : Fin 2) = J)
    (o : Fin 1024) (hO : J * 1024 + o.val < 4096) :
    iblk3 V c 3 t (ix2 (0 : Fin 1) o) = V c main_v8 (ix2 (0 : Fin 1) (⟨J * 1024 + o.val, hO⟩ : Fin 4096)) :=
  congrArg (V c main_v8) (by
    funext a; apply Fin.ext
    match a with
    | ⟨0, _⟩ => show win3_3.index t (0 : Fin 2) * 1 + 1 * 0 = 0; omega
    | ⟨1, _⟩ => show win3_3.index t (1 : Fin 2) * 1024 + 1 * o.val = J * 1024 + o.val; omega)

theorem bblk3_4 (c : Dev nD) (t : Fin cfg3.N) (J : ℕ) (h0 : win3_4.index t (0 : Fin 2) = 0) (hJ : win3_4.index t (1 : Fin 2) = J)
    (o : Fin 1024) (hO : J * 1024 + o.val < 4096) :
    iblk3 V c 4 t (ix2 (0 : Fin 1) o) = V c main_v9 (ix2 (0 : Fin 1) (⟨J * 1024 + o.val, hO⟩ : Fin 4096)) :=
  congrArg (V c main_v9) (by
    funext a; apply Fin.ext
    match a with
    | ⟨0, _⟩ => show win3_4.index t (0 : Fin 2) * 1 + 1 * 0 = 0; omega
    | ⟨1, _⟩ => show win3_4.index t (1 : Fin 2) * 1024 + 1 * o.val = J * 1024 + o.val; omega)

set_option maxHeartbeats 1000000 in
/-- What a point of the last contracted block writes back is its block of the layer of the arrays as the region finds them. -/
theorem flushed3_eq (c : Dev nD) (t : Fin cfg3.N) (h3 : t.val % 4 = 3) :
    (dat3 V c).flushed 5 t = ((cfg3.win 5).blk t).view.read (Elt Ideal) (G3 (V c main_v5) (V c main_v6) (V c main_v7) (V c main_v8) (V c main_v9)) := by
  show (cfg3.win 5).cut (grid3.coords t) ((dat3 V c).after 5 t) = _
  rw [after3_5, outAt3_C V c t (by omega) h3, out3_C_eq]
  have hacc := accAt3_last V c t h3
  rw [accAt3_C V c t (by omega) h3, sout3_C_eq] at hacc
  rw [hacc]
  obtain ⟨⟨a00, a01, a02, a03⟩, ⟨a10, a11, a12, a13⟩, ⟨a20, a21, a22, a23⟩, ⟨a30, a31, a32, a33⟩, e20, e21, e30, e31, e40, e41, bi, bj⟩ := idx_facts3 t h3
  funext j
  obtain ⟨r, o, rfl⟩ : ∃ (r : Fin 2048) (o : Fin 1024), j = ix2 r o := ⟨j 0, j 1, eq_ix2 j⟩
  -- the row and the column of the whole arrays this entry is
  have hR : win3_5.index t (0 : Fin 2) * 2048 + r.val < 8192 := by have := r.isLt; omega
  have hO : win3_5.index t (1 : Fin 2) * 1024 + o.val < 4096 := by have := o.isLt; omega
  have hemb5 : ((cfg3.win 5).blk t).view.emb (ix2 r o) = ix2 (⟨win3_5.index t (0 : Fin 2) * 2048 + r.val, hR⟩ : Fin 8192) (⟨win3_5.index t (1 : Fin 2) * 1024 + o.val, hO⟩ : Fin 4096) := by
    funext a; apply Fin.ext
    match a with
    | ⟨0, _⟩ => show win3_5.index t (0 : Fin 2) * 2048 + 1 * r.val = win3_5.index t (0 : Fin 2) * 2048 + r.val; omega
    | ⟨1, _⟩ => show win3_5.index t (1 : Fin 2) * 1024 + 1 * o.val = win3_5.index t (1 : Fin 2) * 1024 + o.val; omega
  refine (k3_pay3_apply _ _ _ _ r o).trans ?_
  rw [k3_pay2_apply, k3_pay2_apply, k3_pay2_apply, k3_pay2_apply, k3_pay1_apply]
  show _ = Cert.Spec.denseTanh (V c main_v5) (V c main_v6) (bvec3 (V c main_v7) (V c main_v8) (V c main_v9)) (((cfg3.win 5).blk t).view.emb (ix2 r o))
  rw [hemb5, Cert.Spec.denseTanh_apply, bvec3_apply,
    bblk3_2 V c t _ e20 e21 o hO, bblk3_3 V c t _ e30 e31 o hO, bblk3_4 V c t _ e40 e41 o hO]
  refine congrArg (fun z => Ideal.tanh (z + _)) ?_
  refine sum_four_blocks_of _ _ _ _ _
    (fun u => by rw [xblk3 V c _ _ (0 : Fin 4) a00 a01 r u hR, ablk3 V c _ _ (0 : Fin 4) a02 a03 o u hO])
    (fun u => by rw [xblk3 V c _ _ (1 : Fin 4) a10 a11 r u hR, ablk3 V c _ _ (1 : Fin 4) a12 a13 o u hO])
    (fun u => by rw [xblk3 V c _ _ (2 : Fin 4) a20 a21 r u hR, ablk3 V c _ _ (2 : Fin 4) a22 a23 o u hO])
    (fun u => by rw [xblk3 V c _ _ (3 : Fin 4) a30 a31 r u hR, ablk3 V c _ _ (3 : Fin 4) a32 a33 o u hO])

/-- An index of the array is in point `t`'s block iff each coordinate is in the block's range on its axis. -/
theorem mem_blk3 (t : Fin cfg3.N) (i : S8192x4096.Idx) :
    i ∈ ((cfg3.win 5).blk t).view.set ↔ ∀ a : Fin 2, win3_5.index t a * S2048x1024.size a ≤ (i a).val ∧ (i a).val < win3_5.index t a * S2048x1024.size a + S2048x1024.size a := by
  show i ∈ ((View.whole main_v10).slice (win3_5.rect t)).set ↔ _
  rw [View.set_slice_whole, Rect.mem_set_unit]
  exact Iff.rfl

/-- The output blocks tile the array: the point that covers entry (R, O) is the last contracted block's of block
    (R / 2048, O / 1024). -/
theorem cover3 (i : S8192x4096.Idx) : ∃ t : Fin cfg3.N, (cfg3.win 5).flush t = true ∧ i ∈ ((cfg3.win 5).blk t).view.set := by
  have hi0 : (i 0).val < 8192 := (i 0).isLt
  have hi1 : (i 1).val < 4096 := (i 1).isLt
  obtain ⟨t, h3, ht⟩ := idx_onto3 ⟨(i 0).val / 2048, by omega⟩ ⟨(i 1).val / 1024, by omega⟩
  have q0 : win3_5.index t (0 : Fin 2) = (i 0).val / 2048 := congrFun ht 0
  have q1 : win3_5.index t (1 : Fin 2) = (i 1).val / 1024 := congrFun ht 1
  refine ⟨t, (flush3_5 t).mpr h3, ?_⟩
  rw [mem_blk3]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 1024 ≤ (i 1).val ∧ (i 1).val < win3_5.index t (1 : Fin 2) * 1024 + 1024; omega

/-- THE ARRAY the region leaves: the layer of the arrays it was entered with. -/
theorem final3 (c : Dev nD) : (dat3 V c).arrAt 5 cfg3.N = G3 (V c main_v5) (V c main_v6) (V c main_v7) (V c main_v8) (V c main_v9) :=
  (dat3 V c).arrAt_eq_of_cover 5 _ (fun t ht => flushed3_eq V c t ((flush3_5 t).mp ht)) (cover3)

end Cert.KernelIdeal.Val

end
-- ==== Proof.DotVal5.lean ====
/-
  The layer product region 5: what each case of the body leaves, in the body's own arithmetic — the accumulator after a
  first contracted block is the cleared accumulator plus the block's partial product; after a later block what the point
  before left plus the block's partial product; the output block is the epilogue of the accumulator and the bias rows.
-/
import proofs.«102610_j70265664962762_2_alg».proof.Proof.Dot5
import Idealize.ShloMosaic.Lib.Pipeline.Value

set_option maxRecDepth 16384

noncomputable section

namespace Cert.KernelIdeal.Regs

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hzD5 : (![0, 0] : Fin 2 → Nat) = fun _ => 0 := funext fun a => by fin_cases a <;> rfl

theorem sout5_A_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : cond5_0 i) (hc1 : ¬cond5_1 i)
    (x0 : Vec F S2048x1024 .bf16) (x1 : Vec F S1024x1024 .bf16) :
    sout5_A (F := F) c i arg3 harg3 arg4 harg4 arg5 harg5 arg6 harg6 arg7 harg7 arg8 harg8 arg9 harg9 hc0 hc1 x0 x1 = k5_pay2 (k5_pay1 (F := F)) x0 x1 := by
  unfold sout5_A
  rw [View.read_writes_eq_canon _ _ _ (scover5_A c i arg3 harg3 arg4 harg4 arg5 harg5 arg6 harg6 arg7 harg7 arg8 harg8 arg9 harg9 hc0 hc1 x0 x1)]
  unfold kernelRun5_A
  dsimp only
  sl_unfold_words
  rw [View.canon_cons_unit_zero hzD5]
  simp only [View.readCov_unit_zero (S := S2048x1024) _ hzD5, View.readAt_eq_ld, harg3.read_unread, harg4.read_unread, harg5.read_unread, harg6.read_unread, harg7.read_unread, harg9.read_unread,
    View.ld_unit_zero (S := S2048x1024) hzD5, View.ld_unit_zero (S := S1024x1024) hzD5, View.ld_unit_zero (S := S1x1024) hzD5]

theorem sout5_B_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : ¬cond5_1 i)
    (x0 : Vec F S2048x1024 .bf16) (x1 : Vec F S1024x1024 .bf16) (xs : Vec F S2048x1024 .f32) :
    sout5_B (F := F) c i arg3 harg3 arg4 harg4 arg5 harg5 arg6 harg6 arg7 harg7 arg8 harg8 arg9 harg9 hc0 hc1 x0 x1 xs = k5_pay2 xs x0 x1 := by
  unfold sout5_B
  rw [View.read_writes_eq_canon _ _ _ (scover5_B c i arg3 harg3 arg4 harg4 arg5 harg5 arg6 harg6 arg7 harg7 arg8 harg8 arg9 harg9 hc0 hc1 x0 x1 xs)]
  unfold kernelRun5_B
  dsimp only
  sl_unfold_words
  rw [View.canon_cons_unit_zero hzD5]
  simp only [View.readCov_unit_zero (S := S2048x1024) _ hzD5, View.readAt_eq_ld, harg3.read_unread, harg4.read_unread, harg5.read_unread, harg6.read_unread, harg7.read_unread, harg9.read_unread,
    View.ld_unit_zero (S := S2048x1024) hzD5, View.ld_unit_zero (S := S1024x1024) hzD5, View.ld_unit_zero (S := S1x1024) hzD5]

theorem sout5_C_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) :
    sout5_C (F := F) c i arg3 harg3 arg4 harg4 arg5 harg5 arg6 harg6 arg7 harg7 arg8 harg8 arg9 harg9 hc0 hc1 x0 x1 b0 b1 b2 xs = k5_pay2 xs x0 x1 := by
  unfold sout5_C
  rw [View.read_writes_eq_canon _ _ _ (scover5_C c i arg3 harg3 arg4 harg4 arg5 harg5 arg6 harg6 arg7 harg7 arg8 harg8 arg9 harg9 hc0 hc1 x0 x1 b0 b1 b2 xs)]
  unfold kernelRun5_C
  dsimp only
  sl_unfold_words
  rw [View.canon_cons_unit_zero hzD5]
  simp only [View.readCov_unit_zero (S := S2048x1024) _ hzD5, View.readAt_eq_ld, harg3.read_unread, harg4.read_unread, harg5.read_unread, harg6.read_unread, harg7.read_unread, harg9.read_unread,
    View.ld_unit_zero (S := S2048x1024) hzD5, View.ld_unit_zero (S := S1024x1024) hzD5, View.ld_unit_zero (S := S1x1024) hzD5]

theorem out5_C_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S2048x1024 .f32) (harg9 : arg9.IsWhole) (hc0 : ¬cond5_0 i) (hc1 : cond5_1 i)
    (x0 : Vec F S2048x1024 .bf16) (x1 : Vec F S1024x1024 .bf16) (b0 b1 b2 : Vec F S1x1024 .f32) (xs : Vec F S2048x1024 .f32) :
    out5_C (F := F) c i arg3 harg3 arg4 harg4 arg5 harg5 arg6 harg6 arg7 harg7 arg8 harg8 arg9 harg9 hc0 hc1 x0 x1 b0 b1 b2 xs = k5_pay3 b0 b1 b2 (k5_pay2 xs x0 x1) := by
  unfold out5_C
  rw [View.read_writes_eq_canon _ _ _ (cover5_C c i arg3 harg3 arg4 harg4 arg5 harg5 arg6 harg6 arg7 harg7 arg8 harg8 arg9 harg9 hc0 hc1 x0 x1 b0 b1 b2 xs)]
  unfold kernelRun5_C
  dsimp only
  sl_unfold_words
  rw [View.canon_cons_unit_zero hzD5]
  simp only [View.readCov_unit_zero (S := S2048x1024) _ hzD5, View.readAt_eq_ld, harg3.read_unread, harg4.read_unread, harg5.read_unread, harg6.read_unread, harg7.read_unread, harg9.read_unread,
    View.ld_unit_zero (S := S2048x1024) hzD5, View.ld_unit_zero (S := S1024x1024) hzD5, View.ld_unit_zero (S := S1x1024) hzD5]

end Cert.KernelIdeal.Regs

end
-- ==== Proof.ValD5.lean ====
/-
  The layer product region 5 as one function of the arrays it is entered with. The four grid points that share an output
  block run through the four blocks of the contracted axis: the accumulator ends at ((((0 + S₀) + S₁) + S₂) + S₃), Sₖ the
  partial product over block k, which is the whole sum over the contracted axis (addition of extended reals is
  associative and 0 is neutral: no finiteness is needed); the output block is that sum plus the sampled bias row, under tanh.
  The output blocks tile the array.
-/
import proofs.«102610_j70265664962762_2_alg».proof.Proof.DotVal5
import proofs.«102610_j70265664962762_2_alg».proof.Proof.Spec
import proofs.«102610_j70265664962762_2_alg».proof.Proof.PayValDot
import proofs.«102610_j70265664962762_2_alg».proof.Proof.SumBlocks
import Idealize.ShloMosaic.Lib.Pipeline.Value
import Idealize.ShloMosaic.Lib.ValueIdx

set_option maxRecDepth 16384

noncomputable section

namespace Cert.KernelIdeal.Regs

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-- The point before `t` (the first point for `t` the first). -/
def pp5 (t : Fin cfg5.N) : Fin cfg5.N := ⟨t.val - 1, lt_of_le_of_lt (Nat.sub_le _ _) t.isLt⟩

/-- THE CONTRACTION, in the body's arithmetic: at a point of the last contracted block the accumulator holds the cleared
    accumulator plus the four partial products of the four points that share the output block, in order. -/
theorem accAt5_last (V : (c : Dev nD) → (b : Ref sig .tc) → Buf (Elt F) ((c : Thread nD τ).loc b)) (c : Dev nD) (t : Fin cfg5.N) (h3 : t.val % 4 = 3) :
    accAt5 V c t.val t.isLt
      = k5_pay2 (k5_pay2 (k5_pay2 (k5_pay2 (k5_pay1 (F := F)) (iblk5 V c 0 (pp5 (pp5 (pp5 t)))) (iblk5 V c 1 (pp5 (pp5 (pp5 t)))))
          (iblk5 V c 0 (pp5 (pp5 t))) (iblk5 V c 1 (pp5 (pp5 t)))) (iblk5 V c 0 (pp5 t)) (iblk5 V c 1 (pp5 t))) (iblk5 V c 0 t) (iblk5 V c 1 t) := by
  rw [accAt5_C V c t (by omega) h3, sout5_C_eq]
  rw [show prev5 V c t = accAt5 V c (pp5 t).val (Fin.isLt _) from rfl,
    accAt5_B V c (pp5 t) (by show ¬(t.val - 1) % 4 = 0; omega) (by show ¬(t.val - 1) % 4 = 3; omega), sout5_B_eq]
  rw [show prev5 V c (pp5 t) = accAt5 V c (pp5 (pp5 t)).val (Fin.isLt _) from rfl,
    accAt5_B V c (pp5 (pp5 t)) (by show ¬(t.val - 1 - 1) % 4 = 0; omega) (by show ¬(t.val - 1 - 1) % 4 = 3; omega), sout5_B_eq]
  rw [show prev5 V c (pp5 (pp5 t)) = accAt5 V c (pp5 (pp5 (pp5 t))).val (Fin.isLt _) from rfl,
    accAt5_A V c (pp5 (pp5 (pp5 t))) (by show (t.val - 1 - 1 - 1) % 4 = 0; omega), sout5_A_eq]

end Cert.KernelIdeal.Regs

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs Cert.KernelIdeal.PayVal

variable (V : (c : Dev nD) → (b : Ref sig .tc) → Buf (Elt Ideal) ((c : Thread nD τ).loc b))

/-- The sampled bias row as a vector of the output axis, from the three bias arrays (one row each). -/
def bvec5 (B0 B1 B2 : Cert.Spec.Arr2 1 4096) : Cert.Spec.Arr1 4096 :=
  fun o1 => B0 (ix2 (0 : Fin 1) ⟨(o1 0).val, (o1 0).isLt⟩) + Cert.Spec.sp (B1 (ix2 (0 : Fin 1) ⟨(o1 0).val, (o1 0).isLt⟩)) * B2 (ix2 (0 : Fin 1) ⟨(o1 0).val, (o1 0).isLt⟩)

theorem bvec5_apply (B0 B1 B2 : Cert.Spec.Arr2 1 4096) (O : Fin 4096) :
    bvec5 B0 B1 B2 (ix1 O) = B0 (ix2 (0 : Fin 1) O) + Cert.Spec.sp (B1 (ix2 (0 : Fin 1) O)) * B2 (ix2 (0 : Fin 1) O) := rfl

/-- The layer: the whole product with the sampled weight, plus the sampled bias, under tanh. -/
abbrev G5 (X : Cert.Spec.Arr2 8192 4096) (A : Cert.Spec.Arr2 4096 4096) (B0 B1 B2 : Cert.Spec.Arr2 1 4096) : Cert.Spec.Arr2 8192 4096 :=
  Cert.Spec.denseTanh X A (bvec5 B0 B1 B2)

/-- The printed index maps at the four points that share point `t`'s output block, decided over the grid. -/
theorem idx_facts5 : ∀ t : Fin cfg5.N, t.val % 4 = 3 →
    (win5_0.index (pp5 (pp5 (pp5 t))) (0 : Fin 2) = win5_5.index t (0 : Fin 2) ∧ win5_0.index (pp5 (pp5 (pp5 t))) (1 : Fin 2) = 0
    ∧ win5_1.index (pp5 (pp5 (pp5 t))) (0 : Fin 2) = win5_5.index t (1 : Fin 2) ∧ win5_1.index (pp5 (pp5 (pp5 t))) (1 : Fin 2) = 0)
    ∧ (win5_0.index (pp5 (pp5 t)) (0 : Fin 2) = win5_5.index t (0 : Fin 2) ∧ win5_0.index (pp5 (pp5 t)) (1 : Fin 2) = 1
    ∧ win5_1.index (pp5 (pp5 t)) (0 : Fin 2) = win5_5.index t (1 : Fin 2) ∧ win5_1.index (pp5 (pp5 t)) (1 : Fin 2) = 1)
    ∧ (win5_0.index (pp5 t) (0 : Fin 2) = win5_5.index t (0 : Fin 2) ∧ win5_0.index (pp5 t) (1 : Fin 2) = 2
    ∧ win5_1.index (pp5 t) (0 : Fin 2) = win5_5.index t (1 : Fin 2) ∧ win5_1.index (pp5 t) (1 : Fin 2) = 2)
    ∧ (win5_0.index t (0 : Fin 2) = win5_5.index t (0 : Fin 2) ∧ win5_0.index t (1 : Fin 2) = 3
    ∧ win5_1.index t (0 : Fin 2) = win5_5.index t (1 : Fin 2) ∧ win5_1.index t (1 : Fin 2) = 3)
    ∧ win5_2.index t (0 : Fin 2) = 0 ∧ win5_2.index t (1 : Fin 2) = win5_5.index t (1 : Fin 2)
    ∧ win5_3.index t (0 : Fin 2) = 0 ∧ win5_3.index t (1 : Fin 2) = win5_5.index t (1 : Fin 2)
    ∧ win5_4.index t (0 : Fin 2) = 0 ∧ win5_4.index t (1 : Fin 2) = win5_5.index t (1 : Fin 2)
    ∧ win5_5.index t (0 : Fin 2) ≤ 3 ∧ win5_5.index t (1 : Fin 2) ≤ 3 :=
  (by decide +kernel : ∀ t : Fin grid5.N, t.val % 4 = 3 → _)

/-- Every output block is written back at some point of the last contracted block. -/
theorem idx_onto5 : ∀ (q0 : Fin 4) (q1 : Fin 4), ∃ t : Fin cfg5.N, t.val % 4 = 3 ∧ win5_5.index t = ![q0.val, q1.val] :=
  (by decide +kernel : ∀ (q0 : Fin 4) (q1 : Fin 4), ∃ t : Fin grid5.N, t.val % 4 = 3 ∧ win5_5.index t = ![q0.val, q1.val])

/-- An entry of a block of the first operand is the entry of the whole array at the block's rows and the contracted
    block's columns. -/
theorem xblk5 (c : Dev nD) (q : Fin cfg5.N) (I : ℕ) (k : Fin 4) (hI : win5_0.index q (0 : Fin 2) = I) (hk : win5_0.index q (1 : Fin 2) = k.val)
    (r : Fin 2048) (u : Fin 1024) (hR : I * 2048 + r.val < 8192) :
    iblk5 V c 0 q (ix2 r u) = V c main_v10 (ix2 (⟨I * 2048 + r.val, hR⟩ : Fin 8192) (col k u)) :=
  congrArg (V c main_v10) (by
    funext a; apply Fin.ext
    match a with
    | ⟨0, _⟩ => show win5_0.index q (0 : Fin 2) * 2048 + 1 * r.val = I * 2048 + r.val; omega
    | ⟨1, _⟩ => show win5_0.index q (1 : Fin 2) * 1024 + 1 * u.val = (col k u).val; rw [col_val]; omega)

/-- The same for the sampled weight: its rows are the output block's columns. -/
theorem ablk5 (c : Dev nD) (q : Fin cfg5.N) (J : ℕ) (k : Fin 4) (hJ : win5_1.index q (0 : Fin 2) = J) (hk : win5_1.index q (1 : Fin 2) = k.val)
    (o : Fin 1024) (u : Fin 1024) (hO : J * 1024 + o.val < 4096) :
    iblk5 V c 1 q (ix2 o u) = V c main_v11 (ix2 (⟨J * 1024 + o.val, hO⟩ : Fin 4096) (col k u)) :=
  congrArg (V c main_v11) (by
    funext a; apply Fin.ext
    match a with
    | ⟨0, _⟩ => show win5_1.index q (0 : Fin 2) * 1024 + 1 * o.val = J * 1024 + o.val; omega
    | ⟨1, _⟩ => show win5_1.index q (1 : Fin 2) * 1024 + 1 * u.val = (col k u).val; rw [col_val]; omega)

theorem bblk5_2 (c : Dev nD) (t : Fin cfg5.N) (J : ℕ) (h0 : win5_2.index t (0 : Fin 2) = 0) (hJ : win5_2.index t (1 : Fin 2) = J)
    (o : Fin 1024) (hO : J * 1024 + o.val < 4096) :
    iblk5 V c 2 t (ix2 (0 : Fin 1) o) = V c main_v12 (ix2 (0 : Fin 1) (⟨J * 1024 + o.val, hO⟩ : Fin 4096)) :=
  congrArg (V c main_v12) (by
    funext a; apply Fin.ext
    match a with
    | ⟨0, _⟩ => show win5_2.index t (0 : Fin 2) * 1 + 1 * 0 = 0; omega
    | ⟨1, _⟩ => show win5_2.index t (1 : Fin 2) * 1024 + 1 * o.val = J * 1024 + o.val; omega)

theorem bblk5_3 (c : Dev nD) (t : Fin cfg5.N) (J : ℕ) (h0 : win5_3.index t (0 : Fin 2) = 0) (hJ : win5_3.index t (1 : Fin 2) = J)
    (o : Fin 1024) (hO : J * 1024 + o.val < 4096) :
    iblk5 V c 3 t (ix2 (0 : Fin 1) o) = V c main_v13 (ix2 (0 : Fin 1) (⟨J * 1024 + o.val, hO⟩ : Fin 4096)) :=
  congrArg (V c main_v13) (by
    funext a; apply Fin.ext
    match a with
    | ⟨0, _⟩ => show win5_3.index t (0 : Fin 2) * 1 + 1 * 0 = 0; omega
    | ⟨1, _⟩ => show win5_3.index t (1 : Fin 2) * 1024 + 1 * o.val = J * 1024 + o.val; omega)

theorem bblk5_4 (c : Dev nD) (t : Fin cfg5.N) (J : ℕ) (h0 : win5_4.index t (0 : Fin 2) = 0) (hJ : win5_4.index t (1 : Fin 2) = J)
    (o : Fin 1024) (hO : J * 1024 + o.val < 4096) :
    iblk5 V c 4 t (ix2 (0 : Fin 1) o) = V c main_v14 (ix2 (0 : Fin 1) (⟨J * 1024 + o.val, hO⟩ : Fin 4096)) :=
  congrArg (V c main_v14) (by
    funext a; apply Fin.ext
    match a with
    | ⟨0, _⟩ => show win5_4.index t (0 : Fin 2) * 1 + 1 * 0 = 0; omega
    | ⟨1, _⟩ => show win5_4.index t (1 : Fin 2) * 1024 + 1 * o.val = J * 1024 + o.val; omega)

set_option maxHeartbeats 1000000 in
/-- What a point of the last contracted block writes back is its block of the layer of the arrays as the region finds them. -/
theorem flushed5_eq (c : Dev nD) (t : Fin cfg5.N) (h3 : t.val % 4 = 3) :
    (dat5 V c).flushed 5 t = ((cfg5.win 5).blk t).view.read (Elt Ideal) (G5 (V c main_v10) (V c main_v11) (V c main_v12) (V c main_v13) (V c main_v14)) := by
  show (cfg5.win 5).cut (grid5.coords t) ((dat5 V c).after 5 t) = _
  rw [after5_5, outAt5_C V c t (by omega) h3, out5_C_eq]
  have hacc := accAt5_last V c t h3
  rw [accAt5_C V c t (by omega) h3, sout5_C_eq] at hacc
  rw [hacc]
  obtain ⟨⟨a00, a01, a02, a03⟩, ⟨a10, a11, a12, a13⟩, ⟨a20, a21, a22, a23⟩, ⟨a30, a31, a32, a33⟩, e20, e21, e30, e31, e40, e41, bi, bj⟩ := idx_facts5 t h3
  funext j
  obtain ⟨r, o, rfl⟩ : ∃ (r : Fin 2048) (o : Fin 1024), j = ix2 r o := ⟨j 0, j 1, eq_ix2 j⟩
  -- the row and the column of the whole arrays this entry is
  have hR : win5_5.index t (0 : Fin 2) * 2048 + r.val < 8192 := by have := r.isLt; omega
  have hO : win5_5.index t (1 : Fin 2) * 1024 + o.val < 4096 := by have := o.isLt; omega
  have hemb5 : ((cfg5.win 5).blk t).view.emb (ix2 r o) = ix2 (⟨win5_5.index t (0 : Fin 2) * 2048 + r.val, hR⟩ : Fin 8192) (⟨win5_5.index t (1 : Fin 2) * 1024 + o.val, hO⟩ : Fin 4096) := by
    funext a; apply Fin.ext
    match a with
    | ⟨0, _⟩ => show win5_5.index t (0 : Fin 2) * 2048 + 1 * r.val = win5_5.index t (0 : Fin 2) * 2048 + r.val; omega
    | ⟨1, _⟩ => show win5_5.index t (1 : Fin 2) * 1024 + 1 * o.val = win5_5.index t (1 : Fin 2) * 1024 + o.val; omega
  refine (k5_pay3_apply _ _ _ _ r o).trans ?_
  rw [k5_pay2_apply, k5_pay2_apply, k5_pay2_apply, k5_pay2_apply, k5_pay1_apply]
  show _ = Cert.Spec.denseTanh (V c main_v10) (V c main_v11) (bvec5 (V c main_v12) (V c main_v13) (V c main_v14)) (((cfg5.win 5).blk t).view.emb (ix2 r o))
  rw [hemb5, Cert.Spec.denseTanh_apply, bvec5_apply,
    bblk5_2 V c t _ e20 e21 o hO, bblk5_3 V c t _ e30 e31 o hO, bblk5_4 V c t _ e40 e41 o hO]
  refine congrArg (fun z => Ideal.tanh (z + _)) ?_
  refine sum_four_blocks_of _ _ _ _ _
    (fun u => by rw [xblk5 V c _ _ (0 : Fin 4) a00 a01 r u hR, ablk5 V c _ _ (0 : Fin 4) a02 a03 o u hO])
    (fun u => by rw [xblk5 V c _ _ (1 : Fin 4) a10 a11 r u hR, ablk5 V c _ _ (1 : Fin 4) a12 a13 o u hO])
    (fun u => by rw [xblk5 V c _ _ (2 : Fin 4) a20 a21 r u hR, ablk5 V c _ _ (2 : Fin 4) a22 a23 o u hO])
    (fun u => by rw [xblk5 V c _ _ (3 : Fin 4) a30 a31 r u hR, ablk5 V c _ _ (3 : Fin 4) a32 a33 o u hO])

/-- An index of the array is in point `t`'s block iff each coordinate is in the block's range on its axis. -/
theorem mem_blk5 (t : Fin cfg5.N) (i : S8192x4096.Idx) :
    i ∈ ((cfg5.win 5).blk t).view.set ↔ ∀ a : Fin 2, win5_5.index t a * S2048x1024.size a ≤ (i a).val ∧ (i a).val < win5_5.index t a * S2048x1024.size a + S2048x1024.size a := by
  show i ∈ ((View.whole main_v15).slice (win5_5.rect t)).set ↔ _
  rw [View.set_slice_whole, Rect.mem_set_unit]
  exact Iff.rfl

/-- The output blocks tile the array: the point that covers entry (R, O) is the last contracted block's of block
    (R / 2048, O / 1024). -/
theorem cover5 (i : S8192x4096.Idx) : ∃ t : Fin cfg5.N, (cfg5.win 5).flush t = true ∧ i ∈ ((cfg5.win 5).blk t).view.set := by
  have hi0 : (i 0).val < 8192 := (i 0).isLt
  have hi1 : (i 1).val < 4096 := (i 1).isLt
  obtain ⟨t, h3, ht⟩ := idx_onto5 ⟨(i 0).val / 2048, by omega⟩ ⟨(i 1).val / 1024, by omega⟩
  have q0 : win5_5.index t (0 : Fin 2) = (i 0).val / 2048 := congrFun ht 0
  have q1 : win5_5.index t (1 : Fin 2) = (i 1).val / 1024 := congrFun ht 1
  refine ⟨t, (flush5_5 t).mpr h3, ?_⟩
  rw [mem_blk5]
  intro a
  match a with
  | ⟨0, _⟩ => show win5_5.index t (0 : Fin 2) * 2048 ≤ (i 0).val ∧ (i 0).val < win5_5.index t (0 : Fin 2) * 2048 + 2048; omega
  | ⟨1, _⟩ => show win5_5.index t (1 : Fin 2) * 1024 ≤ (i 1).val ∧ (i 1).val < win5_5.index t (1 : Fin 2) * 1024 + 1024; omega

/-- THE ARRAY the region leaves: the layer of the arrays it was entered with. -/
theorem final5 (c : Dev nD) : (dat5 V c).arrAt 5 cfg5.N = G5 (V c main_v10) (V c main_v11) (V c main_v12) (V c main_v13) (V c main_v14) :=
  (dat5 V c).arrAt_eq_of_cover 5 _ (fun t ht => flushed5_eq V c t ((flush5_5 t).mp ht)) (cover5)

end Cert.KernelIdeal.Val

end
-- ==== Proof.DotVal7.lean ====
/-
  The layer product region 7: what each case of the body leaves, in the body's own arithmetic — the accumulator after a
  first contracted block is the cleared accumulator plus the block's partial product; after a later block what the point
  before left plus the block's partial product; the output block is the epilogue of the accumulator and the bias rows.
-/
import proofs.«102610_j70265664962762_2_alg».proof.Proof.Dot7
import Idealize.ShloMosaic.Lib.Pipeline.Value

set_option maxRecDepth 16384

noncomputable section

namespace Cert.KernelIdeal.Regs

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hzD7 : (![0, 0] : Fin 2 → Nat) = fun _ => 0 := funext fun a => by fin_cases a <;> rfl

theorem sout7_A_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond7_0 i) (hc1 : ¬cond7_1 i)
    (x0 : Vec F S2048x1024 .bf16) (x1 : Vec F S1024x1024 .bf16) :
    sout7_A (F := F) c i arg3 harg3 arg4 harg4 arg5 harg5 arg6 harg6 arg7 harg7 arg8 harg8 arg9 harg9 hc0 hc1 x0 x1 = k7_pay2 (k7_pay1 (F := F)) x0 x1 := by
  unfold sout7_A
  rw [View.read_writes_eq_canon _ _ _ (scover7_A c i arg3 harg3 arg4 harg4 arg5 harg5 arg6 harg6 arg7 harg7 arg8 harg8 arg9 harg9 hc0 hc1 x0 x1)]
  unfold kernelRun7_A
  dsimp only
  sl_unfold_words
  rw [View.canon_cons_unit_zero hzD7]
  simp only [View.readCov_unit_zero (S := S2048x1024) _ hzD7, View.readAt_eq_ld, harg3.read_unread, harg4.read_unread, harg5.read_unread, harg6.read_unread, harg7.read_unread, harg9.read_unread,
    View.ld_unit_zero (S := S2048x1024) hzD7, View.ld_unit_zero (S := S1024x1024) hzD7, View.ld_unit_zero (S := S1x1024) hzD7]

theorem sout7_B_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : ¬cond7_1 i)
    (x0 : Vec F S2048x1024 .bf16) (x1 : Vec F S1024x1024 .bf16) (xs : Vec F S2048x1024 .f32) :
    sout7_B (F := F) c i arg3 harg3 arg4 harg4 arg5 harg5 arg6 harg6 arg7 harg7 arg8 harg8 arg9 harg9 hc0 hc1 x0 x1 xs = k7_pay2 xs x0 x1 := by
  unfold sout7_B
  rw [View.read_writes_eq_canon _ _ _ (scover7_B c i arg3 harg3 arg4 harg4 arg5 harg5 arg6 harg6 arg7 harg7 arg8 harg8 arg9 harg9 hc0 hc1 x0 x1 xs)]
  unfold kernelRun7_B
  dsimp only
  sl_unfold_words
  rw [View.canon_cons_unit_zero hzD7]
  simp only [View.readCov_unit_zero (S := S2048x1024) _ hzD7, View.readAt_eq_ld, harg3.read_unread, harg4.read_unread, harg5.read_unread, harg6.read_unread, harg7.read_unread, harg9.read_unread,
    View.ld_unit_zero (S := S2048x1024) hzD7, View.ld_unit_zero (S := S1024x1024) hzD7, View.ld_unit_zero (S := S1x1024) hzD7]

theorem sout7_C_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) :
    sout7_C (F := F) c i arg3 harg3 arg4 harg4 arg5 harg5 arg6 harg6 arg7 harg7 arg8 harg8 arg9 harg9 hc0 hc1 x0 x1 b0 b1 b2 xs = k7_pay2 xs x0 x1 := by
  unfold sout7_C
  rw [View.read_writes_eq_canon _ _ _ (scover7_C c i arg3 harg3 arg4 harg4 arg5 harg5 arg6 harg6 arg7 harg7 arg8 harg8 arg9 harg9 hc0 hc1 x0 x1 b0 b1 b2 xs)]
  unfold kernelRun7_C
  dsimp only
  sl_unfold_words
  rw [View.canon_cons_unit_zero hzD7]
  simp only [View.readCov_unit_zero (S := S2048x1024) _ hzD7, View.readAt_eq_ld, harg3.read_unread, harg4.read_unread, harg5.read_unread, harg6.read_unread, harg7.read_unread, harg9.read_unread,
    View.ld_unit_zero (S := S2048x1024) hzD7, View.ld_unit_zero (S := S1024x1024) hzD7, View.ld_unit_zero (S := S1x1024) hzD7]

theorem out7_C_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond7_0 i) (hc1 : cond7_1 i)
    (x0 : Vec F S2048x1024 .bf16) (x1 : Vec F S1024x1024 .bf16) (b0 b1 b2 : Vec F S1x1024 .f32) (xs : Vec F S2048x1024 .f32) :
    out7_C (F := F) c i arg3 harg3 arg4 harg4 arg5 harg5 arg6 harg6 arg7 harg7 arg8 harg8 arg9 harg9 hc0 hc1 x0 x1 b0 b1 b2 xs = k7_pay3 b0 b1 b2 (k7_pay2 xs x0 x1) := by
  unfold out7_C
  rw [View.read_writes_eq_canon _ _ _ (cover7_C c i arg3 harg3 arg4 harg4 arg5 harg5 arg6 harg6 arg7 harg7 arg8 harg8 arg9 harg9 hc0 hc1 x0 x1 b0 b1 b2 xs)]
  unfold kernelRun7_C
  dsimp only
  sl_unfold_words
  rw [View.canon_cons_unit_zero hzD7]
  simp only [View.readCov_unit_zero (S := S2048x1024) _ hzD7, View.readAt_eq_ld, harg3.read_unread, harg4.read_unread, harg5.read_unread, harg6.read_unread, harg7.read_unread, harg9.read_unread,
    View.ld_unit_zero (S := S2048x1024) hzD7, View.ld_unit_zero (S := S1024x1024) hzD7, View.ld_unit_zero (S := S1x1024) hzD7]

end Cert.KernelIdeal.Regs

end
-- ==== Proof.ValD7.lean ====
/-
  The layer product region 7 as one function of the arrays it is entered with. The four grid points that share an output
  block run through the four blocks of the contracted axis: the accumulator ends at ((((0 + S₀) + S₁) + S₂) + S₃), Sₖ the
  partial product over block k, which is the whole sum over the contracted axis (addition of extended reals is
  associative and 0 is neutral: no finiteness is needed); the output block is that sum plus the sampled bias row.
  The output blocks tile the array.
-/
import proofs.«102610_j70265664962762_2_alg».proof.Proof.DotVal7
import proofs.«102610_j70265664962762_2_alg».proof.Proof.Spec
import proofs.«102610_j70265664962762_2_alg».proof.Proof.PayValDot
import proofs.«102610_j70265664962762_2_alg».proof.Proof.SumBlocks
import Idealize.ShloMosaic.Lib.Pipeline.Value
import Idealize.ShloMosaic.Lib.ValueIdx

set_option maxRecDepth 16384

noncomputable section

namespace Cert.KernelIdeal.Regs

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-- The point before `t` (the first point for `t` the first). -/
def pp7 (t : Fin cfg7.N) : Fin cfg7.N := ⟨t.val - 1, lt_of_le_of_lt (Nat.sub_le _ _) t.isLt⟩

/-- THE CONTRACTION, in the body's arithmetic: at a point of the last contracted block the accumulator holds the cleared
    accumulator plus the four partial products of the four points that share the output block, in order. -/
theorem accAt7_last (V : (c : Dev nD) → (b : Ref sig .tc) → Buf (Elt F) ((c : Thread nD τ).loc b)) (c : Dev nD) (t : Fin cfg7.N) (h3 : t.val % 4 = 3) :
    accAt7 V c t.val t.isLt
      = k7_pay2 (k7_pay2 (k7_pay2 (k7_pay2 (k7_pay1 (F := F)) (iblk7 V c 0 (pp7 (pp7 (pp7 t)))) (iblk7 V c 1 (pp7 (pp7 (pp7 t)))))
          (iblk7 V c 0 (pp7 (pp7 t))) (iblk7 V c 1 (pp7 (pp7 t)))) (iblk7 V c 0 (pp7 t)) (iblk7 V c 1 (pp7 t))) (iblk7 V c 0 t) (iblk7 V c 1 t) := by
  rw [accAt7_C V c t (by omega) h3, sout7_C_eq]
  rw [show prev7 V c t = accAt7 V c (pp7 t).val (Fin.isLt _) from rfl,
    accAt7_B V c (pp7 t) (by show ¬(t.val - 1) % 4 = 0; omega) (by show ¬(t.val - 1) % 4 = 3; omega), sout7_B_eq]
  rw [show prev7 V c (pp7 t) = accAt7 V c (pp7 (pp7 t)).val (Fin.isLt _) from rfl,
    accAt7_B V c (pp7 (pp7 t)) (by show ¬(t.val - 1 - 1) % 4 = 0; omega) (by show ¬(t.val - 1 - 1) % 4 = 3; omega), sout7_B_eq]
  rw [show prev7 V c (pp7 (pp7 t)) = accAt7 V c (pp7 (pp7 (pp7 t))).val (Fin.isLt _) from rfl,
    accAt7_A V c (pp7 (pp7 (pp7 t))) (by show (t.val - 1 - 1 - 1) % 4 = 0; omega), sout7_A_eq]

end Cert.KernelIdeal.Regs

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs Cert.KernelIdeal.PayVal

variable (V : (c : Dev nD) → (b : Ref sig .tc) → Buf (Elt Ideal) ((c : Thread nD τ).loc b))

/-- The sampled bias row as a vector of the output axis, from the three bias arrays (one row each). -/
def bvec7 (B0 B1 B2 : Cert.Spec.Arr2 1 1024) : Cert.Spec.Arr1 1024 :=
  fun o1 => B0 (ix2 (0 : Fin 1) ⟨(o1 0).val, (o1 0).isLt⟩) + Cert.Spec.sp (B1 (ix2 (0 : Fin 1) ⟨(o1 0).val, (o1 0).isLt⟩)) * B2 (ix2 (0 : Fin 1) ⟨(o1 0).val, (o1 0).isLt⟩)

theorem bvec7_apply (B0 B1 B2 : Cert.Spec.Arr2 1 1024) (O : Fin 1024) :
    bvec7 B0 B1 B2 (ix1 O) = B0 (ix2 (0 : Fin 1) O) + Cert.Spec.sp (B1 (ix2 (0 : Fin 1) O)) * B2 (ix2 (0 : Fin 1) O) := rfl

/-- The layer: the whole product with the sampled weight, plus the sampled bias. -/
abbrev G7 (X : Cert.Spec.Arr2 8192 4096) (A : Cert.Spec.Arr2 1024 4096) (B0 B1 B2 : Cert.Spec.Arr2 1 1024) : Cert.Spec.Arr2 8192 1024 :=
  Cert.Spec.dense X A (bvec7 B0 B1 B2)

/-- The printed index maps at the four points that share point `t`'s output block, decided over the grid. -/
theorem idx_facts7 : ∀ t : Fin cfg7.N, t.val % 4 = 3 →
    (win7_0.index (pp7 (pp7 (pp7 t))) (0 : Fin 2) = win7_5.index t (0 : Fin 2) ∧ win7_0.index (pp7 (pp7 (pp7 t))) (1 : Fin 2) = 0
    ∧ win7_1.index (pp7 (pp7 (pp7 t))) (0 : Fin 2) = win7_5.index t (1 : Fin 2) ∧ win7_1.index (pp7 (pp7 (pp7 t))) (1 : Fin 2) = 0)
    ∧ (win7_0.index (pp7 (pp7 t)) (0 : Fin 2) = win7_5.index t (0 : Fin 2) ∧ win7_0.index (pp7 (pp7 t)) (1 : Fin 2) = 1
    ∧ win7_1.index (pp7 (pp7 t)) (0 : Fin 2) = win7_5.index t (1 : Fin 2) ∧ win7_1.index (pp7 (pp7 t)) (1 : Fin 2) = 1)
    ∧ (win7_0.index (pp7 t) (0 : Fin 2) = win7_5.index t (0 : Fin 2) ∧ win7_0.index (pp7 t) (1 : Fin 2) = 2
    ∧ win7_1.index (pp7 t) (0 : Fin 2) = win7_5.index t (1 : Fin 2) ∧ win7_1.index (pp7 t) (1 : Fin 2) = 2)
    ∧ (win7_0.index t (0 : Fin 2) = win7_5.index t (0 : Fin 2) ∧ win7_0.index t (1 : Fin 2) = 3
    ∧ win7_1.index t (0 : Fin 2) = win7_5.index t (1 : Fin 2) ∧ win7_1.index t (1 : Fin 2) = 3)
    ∧ win7_2.index t (0 : Fin 2) = 0 ∧ win7_2.index t (1 : Fin 2) = win7_5.index t (1 : Fin 2)
    ∧ win7_3.index t (0 : Fin 2) = 0 ∧ win7_3.index t (1 : Fin 2) = win7_5.index t (1 : Fin 2)
    ∧ win7_4.index t (0 : Fin 2) = 0 ∧ win7_4.index t (1 : Fin 2) = win7_5.index t (1 : Fin 2)
    ∧ win7_5.index t (0 : Fin 2) ≤ 3 ∧ win7_5.index t (1 : Fin 2) ≤ 0 :=
  (by decide +kernel : ∀ t : Fin grid7.N, t.val % 4 = 3 → _)

/-- Every output block is written back at some point of the last contracted block. -/
theorem idx_onto7 : ∀ (q0 : Fin 4) (q1 : Fin 1), ∃ t : Fin cfg7.N, t.val % 4 = 3 ∧ win7_5.index t = ![q0.val, q1.val] :=
  (by decide +kernel : ∀ (q0 : Fin 4) (q1 : Fin 1), ∃ t : Fin grid7.N, t.val % 4 = 3 ∧ win7_5.index t = ![q0.val, q1.val])

/-- An entry of a block of the first operand is the entry of the whole array at the block's rows and the contracted
    block's columns. -/
theorem xblk7 (c : Dev nD) (q : Fin cfg7.N) (I : ℕ) (k : Fin 4) (hI : win7_0.index q (0 : Fin 2) = I) (hk : win7_0.index q (1 : Fin 2) = k.val)
    (r : Fin 2048) (u : Fin 1024) (hR : I * 2048 + r.val < 8192) :
    iblk7 V c 0 q (ix2 r u) = V c main_v15 (ix2 (⟨I * 2048 + r.val, hR⟩ : Fin 8192) (col k u)) :=
  congrArg (V c main_v15) (by
    funext a; apply Fin.ext
    match a with
    | ⟨0, _⟩ => show win7_0.index q (0 : Fin 2) * 2048 + 1 * r.val = I * 2048 + r.val; omega
    | ⟨1, _⟩ => show win7_0.index q (1 : Fin 2) * 1024 + 1 * u.val = (col k u).val; rw [col_val]; omega)

/-- The same for the sampled weight: its rows are the output block's columns. -/
theorem ablk7 (c : Dev nD) (q : Fin cfg7.N) (J : ℕ) (k : Fin 4) (hJ : win7_1.index q (0 : Fin 2) = J) (hk : win7_1.index q (1 : Fin 2) = k.val)
    (o : Fin 1024) (u : Fin 1024) (hO : J * 1024 + o.val < 1024) :
    iblk7 V c 1 q (ix2 o u) = V c main_v16 (ix2 (⟨J * 1024 + o.val, hO⟩ : Fin 1024) (col k u)) :=
  congrArg (V c main_v16) (by
    funext a; apply Fin.ext
    match a with
    | ⟨0, _⟩ => show win7_1.index q (0 : Fin 2) * 1024 + 1 * o.val = J * 1024 + o.val; omega
    | ⟨1, _⟩ => show win7_1.index q (1 : Fin 2) * 1024 + 1 * u.val = (col k u).val; rw [col_val]; omega)

theorem bblk7_2 (c : Dev nD) (t : Fin cfg7.N) (J : ℕ) (h0 : win7_2.index t (0 : Fin 2) = 0) (hJ : win7_2.index t (1 : Fin 2) = J)
    (o : Fin 1024) (hO : J * 1024 + o.val < 1024) :
    iblk7 V c 2 t (ix2 (0 : Fin 1) o) = V c main_v17 (ix2 (0 : Fin 1) (⟨J * 1024 + o.val, hO⟩ : Fin 1024)) :=
  congrArg (V c main_v17) (by
    funext a; apply Fin.ext
    match a with
    | ⟨0, _⟩ => show win7_2.index t (0 : Fin 2) * 1 + 1 * 0 = 0; omega
    | ⟨1, _⟩ => show win7_2.index t (1 : Fin 2) * 1024 + 1 * o.val = J * 1024 + o.val; omega)

theorem bblk7_3 (c : Dev nD) (t : Fin cfg7.N) (J : ℕ) (h0 : win7_3.index t (0 : Fin 2) = 0) (hJ : win7_3.index t (1 : Fin 2) = J)
    (o : Fin 1024) (hO : J * 1024 + o.val < 1024) :
    iblk7 V c 3 t (ix2 (0 : Fin 1) o) = V c main_v18 (ix2 (0 : Fin 1) (⟨J * 1024 + o.val, hO⟩ : Fin 1024)) :=
  congrArg (V c main_v18) (by
    funext a; apply Fin.ext
    match a with
    | ⟨0, _⟩ => show win7_3.index t (0 : Fin 2) * 1 + 1 * 0 = 0; omega
    | ⟨1, _⟩ => show win7_3.index t (1 : Fin 2) * 1024 + 1 * o.val = J * 1024 + o.val; omega)

theorem bblk7_4 (c : Dev nD) (t : Fin cfg7.N) (J : ℕ) (h0 : win7_4.index t (0 : Fin 2) = 0) (hJ : win7_4.index t (1 : Fin 2) = J)
    (o : Fin 1024) (hO : J * 1024 + o.val < 1024) :
    iblk7 V c 4 t (ix2 (0 : Fin 1) o) = V c main_v19 (ix2 (0 : Fin 1) (⟨J * 1024 + o.val, hO⟩ : Fin 1024)) :=
  congrArg (V c main_v19) (by
    funext a; apply Fin.ext
    match a with
    | ⟨0, _⟩ => show win7_4.index t (0 : Fin 2) * 1 + 1 * 0 = 0; omega
    | ⟨1, _⟩ => show win7_4.index t (1 : Fin 2) * 1024 + 1 * o.val = J * 1024 + o.val; omega)

set_option maxHeartbeats 1000000 in
/-- What a point of the last contracted block writes back is its block of the layer of the arrays as the region finds them. -/
theorem flushed7_eq (c : Dev nD) (t : Fin cfg7.N) (h3 : t.val % 4 = 3) :
    (dat7 V c).flushed 5 t = ((cfg7.win 5).blk t).view.read (Elt Ideal) (G7 (V c main_v15) (V c main_v16) (V c main_v17) (V c main_v18) (V c main_v19)) := by
  show (cfg7.win 5).cut (grid7.coords t) ((dat7 V c).after 5 t) = _
  rw [after7_5, outAt7_C V c t (by omega) h3, out7_C_eq]
  have hacc := accAt7_last V c t h3
  rw [accAt7_C V c t (by omega) h3, sout7_C_eq] at hacc
  rw [hacc]
  obtain ⟨⟨a00, a01, a02, a03⟩, ⟨a10, a11, a12, a13⟩, ⟨a20, a21, a22, a23⟩, ⟨a30, a31, a32, a33⟩, e20, e21, e30, e31, e40, e41, bi, bj⟩ := idx_facts7 t h3
  funext j
  obtain ⟨r, o, rfl⟩ : ∃ (r : Fin 2048) (o : Fin 1024), j = ix2 r o := ⟨j 0, j 1, eq_ix2 j⟩
  -- the row and the column of the whole arrays this entry is
  have hR : win7_5.index t (0 : Fin 2) * 2048 + r.val < 8192 := by have := r.isLt; omega
  have hO : win7_5.index t (1 : Fin 2) * 1024 + o.val < 1024 := by have := o.isLt; omega
  have hemb5 : ((cfg7.win 5).blk t).view.emb (ix2 r o) = ix2 (⟨win7_5.index t (0 : Fin 2) * 2048 + r.val, hR⟩ : Fin 8192) (⟨win7_5.index t (1 : Fin 2) * 1024 + o.val, hO⟩ : Fin 1024) := by
    funext a; apply Fin.ext
    match a with
    | ⟨0, _⟩ => show win7_5.index t (0 : Fin 2) * 2048 + 1 * r.val = win7_5.index t (0 : Fin 2) * 2048 + r.val; omega
    | ⟨1, _⟩ => show win7_5.index t (1 : Fin 2) * 1024 + 1 * o.val = win7_5.index t (1 : Fin 2) * 1024 + o.val; omega
  refine (k7_pay3_apply _ _ _ _ r o).trans ?_
  rw [k7_pay2_apply, k7_pay2_apply, k7_pay2_apply, k7_pay2_apply, k7_pay1_apply]
  show _ = Cert.Spec.dense (V c main_v15) (V c main_v16) (bvec7 (V c main_v17) (V c main_v18) (V c main_v19)) (((cfg7.win 5).blk t).view.emb (ix2 r o))
  rw [hemb5, Cert.Spec.dense_apply, bvec7_apply,
    bblk7_2 V c t _ e20 e21 o hO, bblk7_3 V c t _ e30 e31 o hO, bblk7_4 V c t _ e40 e41 o hO]
  refine congrArg (fun z => (z + _)) ?_
  refine sum_four_blocks_of _ _ _ _ _
    (fun u => by rw [xblk7 V c _ _ (0 : Fin 4) a00 a01 r u hR, ablk7 V c _ _ (0 : Fin 4) a02 a03 o u hO])
    (fun u => by rw [xblk7 V c _ _ (1 : Fin 4) a10 a11 r u hR, ablk7 V c _ _ (1 : Fin 4) a12 a13 o u hO])
    (fun u => by rw [xblk7 V c _ _ (2 : Fin 4) a20 a21 r u hR, ablk7 V c _ _ (2 : Fin 4) a22 a23 o u hO])
    (fun u => by rw [xblk7 V c _ _ (3 : Fin 4) a30 a31 r u hR, ablk7 V c _ _ (3 : Fin 4) a32 a33 o u hO])

/-- An index of the array is in point `t`'s block iff each coordinate is in the block's range on its axis. -/
theorem mem_blk7 (t : Fin cfg7.N) (i : S8192x1024.Idx) :
    i ∈ ((cfg7.win 5).blk t).view.set ↔ ∀ a : Fin 2, win7_5.index t a * S2048x1024.size a ≤ (i a).val ∧ (i a).val < win7_5.index t a * S2048x1024.size a + S2048x1024.size a := by
  show i ∈ ((View.whole main_v20).slice (win7_5.rect t)).set ↔ _
  rw [View.set_slice_whole, Rect.mem_set_unit]
  exact Iff.rfl

/-- The output blocks tile the array: the point that covers entry (R, O) is the last contracted block's of block
    (R / 2048, O / 1024). -/
theorem cover7 (i : S8192x1024.Idx) : ∃ t : Fin cfg7.N, (cfg7.win 5).flush t = true ∧ i ∈ ((cfg7.win 5).blk t).view.set := by
  have hi0 : (i 0).val < 8192 := (i 0).isLt
  have hi1 : (i 1).val < 1024 := (i 1).isLt
  obtain ⟨t, h3, ht⟩ := idx_onto7 ⟨(i 0).val / 2048, by omega⟩ ⟨(i 1).val / 1024, by omega⟩
  have q0 : win7_5.index t (0 : Fin 2) = (i 0).val / 2048 := congrFun ht 0
  have q1 : win7_5.index t (1 : Fin 2) = (i 1).val / 1024 := congrFun ht 1
  refine ⟨t, (flush7_5 t).mpr h3, ?_⟩
  rw [mem_blk7]
  intro a
  match a with
  | ⟨0, _⟩ => show win7_5.index t (0 : Fin 2) * 2048 ≤ (i 0).val ∧ (i 0).val < win7_5.index t (0 : Fin 2) * 2048 + 2048; omega
  | ⟨1, _⟩ => show win7_5.index t (1 : Fin 2) * 1024 ≤ (i 1).val ∧ (i 1).val < win7_5.index t (1 : Fin 2) * 1024 + 1024; omega

/-- THE ARRAY the region leaves: the layer of the arrays it was entered with. -/
theorem final7 (c : Dev nD) : (dat7 V c).arrAt 5 cfg7.N = G7 (V c main_v15) (V c main_v16) (V c main_v17) (V c main_v18) (V c main_v19) :=
  (dat7 V c).arrAt_eq_of_cover 5 _ (fun t ht => flushed7_eq V c t ((flush7_5 t).mp ht)) (cover7)

end Cert.KernelIdeal.Val

end
-- ==== Proof.Compose.lean ====
/-
  The kernel's result as the network of the specification. Region by region, the array each region leaves is a layer of
  the arrays it was entered with (the sampled weight; the product with the sampled weight plus the sampled bias, under tanh
  between layers); between regions the host only converts the input's format (the identity on extended reals) and
  re-reads each bias vector as a one-row matrix. Composing the eight regions gives the four-layer network of the 25
  argument arrays.
-/
import proofs.«102610_j70265664962762_2_alg».proof.Proof.Run
import proofs.«102610_j70265664962762_2_alg».proof.Proof.ValA0
import proofs.«102610_j70265664962762_2_alg».proof.Proof.ValA2
import proofs.«102610_j70265664962762_2_alg».proof.Proof.ValA4
import proofs.«102610_j70265664962762_2_alg».proof.Proof.ValA6
import proofs.«102610_j70265664962762_2_alg».proof.Proof.ValD1
import proofs.«102610_j70265664962762_2_alg».proof.Proof.ValD3
import proofs.«102610_j70265664962762_2_alg».proof.Proof.ValD5
import proofs.«102610_j70265664962762_2_alg».proof.Proof.ValD7
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Regs

variable (m : (ℓ : Loc nD τ sig) → Buf (Elt Ideal) ℓ) (c : Dev nD)

/-- A vector re-read as a one-row matrix: the entry (0, o) is the vector's entry o. -/
theorem row4096_apply (x : S4096.Idx → EReal) (o : Fin 4096) : shapeCast S1x4096 x shapeCasts_S4096_S1x4096 (ix2 (0 : Fin 1) o) = x (ix1 o) :=
  shapeCast_apply x _ _ _ (by rw [Shape.rowMajor_val_one, Shape.rowMajor_val_two]; simp)
theorem row1024_apply (x : S1024.Idx → EReal) (o : Fin 1024) : shapeCast S1x1024 x shapeCasts_S1024_S1x1024 (ix2 (0 : Fin 1) o) = x (ix1 o) :=
  shapeCast_apply x _ _ _ (by rw [Shape.rowMajor_val_one, Shape.rowMajor_val_two]; simp)

/-- The sampled bias row of the three re-read bias vectors is the specification's sampled bias. -/
theorem bvec1_rows (a b d : Cert.Spec.Arr1 4096) :
    bvec1 (shapeCast S1x4096 a shapeCasts_S4096_S1x4096) (shapeCast S1x4096 b shapeCasts_S4096_S1x4096) (shapeCast S1x4096 d shapeCasts_S4096_S1x4096) = Cert.Spec.bias a b d := by
  funext o1
  obtain ⟨O, rfl⟩ : ∃ O : Fin 4096, o1 = ix1 O := ⟨o1 0, eq_ix1 o1⟩
  rw [bvec1_apply, row4096_apply, row4096_apply, row4096_apply, Cert.Spec.bias_apply]

/-- The sampled bias row of the three re-read bias vectors is the specification's sampled bias. -/
theorem bvec3_rows (a b d : Cert.Spec.Arr1 4096) :
    bvec3 (shapeCast S1x4096 a shapeCasts_S4096_S1x4096) (shapeCast S1x4096 b shapeCasts_S4096_S1x4096) (shapeCast S1x4096 d shapeCasts_S4096_S1x4096) = Cert.Spec.bias a b d := by
  funext o1
  obtain ⟨O, rfl⟩ : ∃ O : Fin 4096, o1 = ix1 O := ⟨o1 0, eq_ix1 o1⟩
  rw [bvec3_apply, row4096_apply, row4096_apply, row4096_apply, Cert.Spec.bias_apply]

/-- The sampled bias row of the three re-read bias vectors is the specification's sampled bias. -/
theorem bvec5_rows (a b d : Cert.Spec.Arr1 4096) :
    bvec5 (shapeCast S1x4096 a shapeCasts_S4096_S1x4096) (shapeCast S1x4096 b shapeCasts_S4096_S1x4096) (shapeCast S1x4096 d shapeCasts_S4096_S1x4096) = Cert.Spec.bias a b d := by
  funext o1
  obtain ⟨O, rfl⟩ : ∃ O : Fin 4096, o1 = ix1 O := ⟨o1 0, eq_ix1 o1⟩
  rw [bvec5_apply, row4096_apply, row4096_apply, row4096_apply, Cert.Spec.bias_apply]

/-- The sampled bias row of the three re-read bias vectors is the specification's sampled bias. -/
theorem bvec7_rows (a b d : Cert.Spec.Arr1 1024) :
    bvec7 (shapeCast S1x1024 a shapeCasts_S1024_S1x1024) (shapeCast S1x1024 b shapeCasts_S1024_S1x1024) (shapeCast S1x1024 d shapeCasts_S1024_S1x1024) = Cert.Spec.bias a b d := by
  funext o1
  obtain ⟨O, rfl⟩ : ∃ O : Fin 1024, o1 = ix1 O := ⟨o1 0, eq_ix1 o1⟩
  rw [bvec7_apply, row1024_apply, row1024_apply, row1024_apply, Cert.Spec.bias_apply]

/-- Region 0 leaves the sampled weight of layer 0. -/
theorem o0_eq : (o0 m c : _) = Cert.Spec.wt (m ((c : Thread nD τ).loc main_arg1) : Cert.Spec.Arr2 4096 1024) (m ((c : Thread nD τ).loc main_arg2) : Cert.Spec.Arr2 4096 1024) (m ((c : Thread nD τ).loc main_arg3) : Cert.Spec.Arr2 4096 1024) := by
  unfold o0
  rw [final0 (UV1 m) c]
  have ea : UV1 m c main_arg1 = m ((c : Thread nD τ).loc main_arg1) := (rfl : UV1 m c main_arg1 = V1 m c main_arg1).trans ((V1_of m c main_arg1 (by decide)).trans rfl)
  have eb : UV1 m c main_arg2 = m ((c : Thread nD τ).loc main_arg2) := (rfl : UV1 m c main_arg2 = V1 m c main_arg2).trans ((V1_of m c main_arg2 (by decide)).trans rfl)
  have ed : UV1 m c main_arg3 = m ((c : Thread nD τ).loc main_arg3) := (rfl : UV1 m c main_arg3 = V1 m c main_arg3).trans ((V1_of m c main_arg3 (by decide)).trans rfl)
  rw [ea, eb, ed]
  rfl

/-- Region 2 leaves the sampled weight of layer 1. -/
theorem o2_eq : (o2 m c : _) = Cert.Spec.wt (m ((c : Thread nD τ).loc main_arg7) : Cert.Spec.Arr2 4096 4096) (m ((c : Thread nD τ).loc main_arg8) : Cert.Spec.Arr2 4096 4096) (m ((c : Thread nD τ).loc main_arg9) : Cert.Spec.Arr2 4096 4096) := by
  unfold o2
  rw [final2 (UV4 m) c]
  have ea : UV4 m c main_arg7 = m ((c : Thread nD τ).loc main_arg7) := (congrFun (V4_eq m c) main_arg7).symm.trans ((V4_of m (outs m) c main_arg7 (by decide)).trans <| (V3_of m (outs m) c main_arg7 (by decide)).trans <| (V2_of m (outs m) c main_arg7 (by decide)).trans <| (V1_of m c main_arg7 (by decide)).trans rfl)
  have eb : UV4 m c main_arg8 = m ((c : Thread nD τ).loc main_arg8) := (congrFun (V4_eq m c) main_arg8).symm.trans ((V4_of m (outs m) c main_arg8 (by decide)).trans <| (V3_of m (outs m) c main_arg8 (by decide)).trans <| (V2_of m (outs m) c main_arg8 (by decide)).trans <| (V1_of m c main_arg8 (by decide)).trans rfl)
  have ed : UV4 m c main_arg9 = m ((c : Thread nD τ).loc main_arg9) := (congrFun (V4_eq m c) main_arg9).symm.trans ((V4_of m (outs m) c main_arg9 (by decide)).trans <| (V3_of m (outs m) c main_arg9 (by decide)).trans <| (V2_of m (outs m) c main_arg9 (by decide)).trans <| (V1_of m c main_arg9 (by decide)).trans rfl)
  rw [ea, eb, ed]
  rfl

/-- Region 4 leaves the sampled weight of layer 2. -/
theorem o4_eq : (o4 m c : _) = Cert.Spec.wt (m ((c : Thread nD τ).loc main_arg13) : Cert.Spec.Arr2 4096 4096) (m ((c : Thread nD τ).loc main_arg14) : Cert.Spec.Arr2 4096 4096) (m ((c : Thread nD τ).loc main_arg15) : Cert.Spec.Arr2 4096 4096) := by
  unfold o4
  rw [final4 (UV7 m) c]
  have ea : UV7 m c main_arg13 = m ((c : Thread nD τ).loc main_arg13) := (congrFun (V7_eq m c) main_arg13).symm.trans ((V7_of m (outs m) c main_arg13 (by decide)).trans <| (V6_of m (outs m) c main_arg13 (by decide)).trans <| (V5_of m (outs m) c main_arg13 (by decide)).trans <| (V4_of m (outs m) c main_arg13 (by decide)).trans <| (V3_of m (outs m) c main_arg13 (by decide)).trans <| (V2_of m (outs m) c main_arg13 (by decide)).trans <| (V1_of m c main_arg13 (by decide)).trans rfl)
  have eb : UV7 m c main_arg14 = m ((c : Thread nD τ).loc main_arg14) := (congrFun (V7_eq m c) main_arg14).symm.trans ((V7_of m (outs m) c main_arg14 (by decide)).trans <| (V6_of m (outs m) c main_arg14 (by decide)).trans <| (V5_of m (outs m) c main_arg14 (by decide)).trans <| (V4_of m (outs m) c main_arg14 (by decide)).trans <| (V3_of m (outs m) c main_arg14 (by decide)).trans <| (V2_of m (outs m) c main_arg14 (by decide)).trans <| (V1_of m c main_arg14 (by decide)).trans rfl)
  have ed : UV7 m c main_arg15 = m ((c : Thread nD τ).loc main_arg15) := (congrFun (V7_eq m c) main_arg15).symm.trans ((V7_of m (outs m) c main_arg15 (by decide)).trans <| (V6_of m (outs m) c main_arg15 (by decide)).trans <| (V5_of m (outs m) c main_arg15 (by decide)).trans <| (V4_of m (outs m) c main_arg15 (by decide)).trans <| (V3_of m (outs m) c main_arg15 (by decide)).trans <| (V2_of m (outs m) c main_arg15 (by decide)).trans <| (V1_of m c main_arg15 (by decide)).trans rfl)
  rw [ea, eb, ed]
  rfl

/-- Region 6 leaves the sampled weight of layer 3. -/
theorem o6_eq : (o6 m c : _) = Cert.Spec.wt (m ((c : Thread nD τ).loc main_arg19) : Cert.Spec.Arr2 1024 4096) (m ((c : Thread nD τ).loc main_arg20) : Cert.Spec.Arr2 1024 4096) (m ((c : Thread nD τ).loc main_arg21) : Cert.Spec.Arr2 1024 4096) := by
  unfold o6
  rw [final6 (UV10 m) c]
  have ea : UV10 m c main_arg19 = m ((c : Thread nD τ).loc main_arg19) := (congrFun (V10_eq m c) main_arg19).symm.trans ((V10_of m (outs m) c main_arg19 (by decide)).trans <| (V9_of m (outs m) c main_arg19 (by decide)).trans <| (V8_of m (outs m) c main_arg19 (by decide)).trans <| (V7_of m (outs m) c main_arg19 (by decide)).trans <| (V6_of m (outs m) c main_arg19 (by decide)).trans <| (V5_of m (outs m) c main_arg19 (by decide)).trans <| (V4_of m (outs m) c main_arg19 (by decide)).trans <| (V3_of m (outs m) c main_arg19 (by decide)).trans <| (V2_of m (outs m) c main_arg19 (by decide)).trans <| (V1_of m c main_arg19 (by decide)).trans rfl)
  have eb : UV10 m c main_arg20 = m ((c : Thread nD τ).loc main_arg20) := (congrFun (V10_eq m c) main_arg20).symm.trans ((V10_of m (outs m) c main_arg20 (by decide)).trans <| (V9_of m (outs m) c main_arg20 (by decide)).trans <| (V8_of m (outs m) c main_arg20 (by decide)).trans <| (V7_of m (outs m) c main_arg20 (by decide)).trans <| (V6_of m (outs m) c main_arg20 (by decide)).trans <| (V5_of m (outs m) c main_arg20 (by decide)).trans <| (V4_of m (outs m) c main_arg20 (by decide)).trans <| (V3_of m (outs m) c main_arg20 (by decide)).trans <| (V2_of m (outs m) c main_arg20 (by decide)).trans <| (V1_of m c main_arg20 (by decide)).trans rfl)
  have ed : UV10 m c main_arg21 = m ((c : Thread nD τ).loc main_arg21) := (congrFun (V10_eq m c) main_arg21).symm.trans ((V10_of m (outs m) c main_arg21 (by decide)).trans <| (V9_of m (outs m) c main_arg21 (by decide)).trans <| (V8_of m (outs m) c main_arg21 (by decide)).trans <| (V7_of m (outs m) c main_arg21 (by decide)).trans <| (V6_of m (outs m) c main_arg21 (by decide)).trans <| (V5_of m (outs m) c main_arg21 (by decide)).trans <| (V4_of m (outs m) c main_arg21 (by decide)).trans <| (V3_of m (outs m) c main_arg21 (by decide)).trans <| (V2_of m (outs m) c main_arg21 (by decide)).trans <| (V1_of m c main_arg21 (by decide)).trans rfl)
  rw [ea, eb, ed]
  rfl

/-- Region 1 leaves layer 0 of what it is entered with: the input, the sampled weight, the sampled bias. -/
theorem o1_eq : (o1 m c : _) = Cert.Spec.denseTanh (m ((c : Thread nD τ).loc main_arg0) : Cert.Spec.Arr2 8192 1024) (o0 m c) (Cert.Spec.bias (m ((c : Thread nD τ).loc main_arg4) : Cert.Spec.Arr1 4096) (m ((c : Thread nD τ).loc main_arg5) : Cert.Spec.Arr1 4096) (m ((c : Thread nD τ).loc main_arg6) : Cert.Spec.Arr1 4096)) := by
  unfold o1
  rw [final1 (UV3 m) c]
  have ex : (UV3 m c main_v0 : Cert.Spec.Arr2 8192 1024) = m ((c : Thread nD τ).loc main_arg0) :=
    (congrFun (V3_eq m c) main_v0).symm.trans ((V3_of m (outs m) c main_v0 (by decide)).trans <| (V2_of m (outs m) c main_v0 (by decide)).trans <| (by dsimp only [V1, hostOps0]; after_results; rfl))
  have ea : UV3 m c main_v1 = o0 m c := (congrFun (V3_eq m c) main_v1).symm.trans ((V3_of m (outs m) c main_v1 (by decide)).trans <| ((Function.update_self _ _ _ : V2 m (outs m) c main_v1 = outs m 2 main_v1 c).trans (show outs m 2 main_v1 c = o0 m c from (show U2 m c main_v1 = o0 m c from Function.update_self _ _ _))))
  have eb0 : (UV3 m c main_v2 : S1x4096.Idx → EReal) = shapeCast S1x4096 (m ((c : Thread nD τ).loc main_arg4) : S4096.Idx → EReal) shapeCasts_S4096_S1x4096 := by
    refine (congrFun (V3_eq m c) main_v2).symm.trans ?_
    have hv : (V3 m (outs m) c main_v2 : S1x4096.Idx → EReal) = shapeCast S1x4096 (V2 m (outs m) c main_arg4 : S4096.Idx → EReal) shapeCasts_S4096_S1x4096 := by
      dsimp only [V3, hostOps1]; after_results; rfl
    rw [hv, show V2 m (outs m) c main_arg4 = m ((c : Thread nD τ).loc main_arg4) from (V2_of m (outs m) c main_arg4 (by decide)).trans <| (V1_of m c main_arg4 (by decide)).trans rfl]
  have eb1 : (UV3 m c main_v3 : S1x4096.Idx → EReal) = shapeCast S1x4096 (m ((c : Thread nD τ).loc main_arg5) : S4096.Idx → EReal) shapeCasts_S4096_S1x4096 := by
    refine (congrFun (V3_eq m c) main_v3).symm.trans ?_
    have hv : (V3 m (outs m) c main_v3 : S1x4096.Idx → EReal) = shapeCast S1x4096 (V2 m (outs m) c main_arg5 : S4096.Idx → EReal) shapeCasts_S4096_S1x4096 := by
      dsimp only [V3, hostOps1]; after_results; rfl
    rw [hv, show V2 m (outs m) c main_arg5 = m ((c : Thread nD τ).loc main_arg5) from (V2_of m (outs m) c main_arg5 (by decide)).trans <| (V1_of m c main_arg5 (by decide)).trans rfl]
  have eb2 : (UV3 m c main_v4 : S1x4096.Idx → EReal) = shapeCast S1x4096 (m ((c : Thread nD τ).loc main_arg6) : S4096.Idx → EReal) shapeCasts_S4096_S1x4096 := by
    refine (congrFun (V3_eq m c) main_v4).symm.trans ?_
    have hv : (V3 m (outs m) c main_v4 : S1x4096.Idx → EReal) = shapeCast S1x4096 (V2 m (outs m) c main_arg6 : S4096.Idx → EReal) shapeCasts_S4096_S1x4096 := by
      dsimp only [V3, hostOps1]; after_results; rfl
    rw [hv, show V2 m (outs m) c main_arg6 = m ((c : Thread nD τ).loc main_arg6) from (V2_of m (outs m) c main_arg6 (by decide)).trans <| (V1_of m c main_arg6 (by decide)).trans rfl]
  rw [ex, ea, eb0, eb1, eb2]
  show Cert.Spec.denseTanh _ _ (bvec1 _ _ _) = _
  rw [bvec1_rows]

/-- Region 3 leaves layer 1 of what it is entered with: the layer before, the sampled weight, the sampled bias. -/
theorem o3_eq : (o3 m c : _) = Cert.Spec.denseTanh (o1 m c) (o2 m c) (Cert.Spec.bias (m ((c : Thread nD τ).loc main_arg10) : Cert.Spec.Arr1 4096) (m ((c : Thread nD τ).loc main_arg11) : Cert.Spec.Arr1 4096) (m ((c : Thread nD τ).loc main_arg12) : Cert.Spec.Arr1 4096)) := by
  unfold o3
  rw [final3 (UV6 m) c]
  have ex : UV6 m c main_v5 = o1 m c := (congrFun (V6_eq m c) main_v5).symm.trans ((V6_of m (outs m) c main_v5 (by decide)).trans <| (V5_of m (outs m) c main_v5 (by decide)).trans <| ((Function.update_self _ _ _ : V4 m (outs m) c main_v5 = outs m 4 main_v5 c).trans (show outs m 4 main_v5 c = o1 m c from (show U4 m c main_v5 = o1 m c from Function.update_self _ _ _))))
  have ea : UV6 m c main_v6 = o2 m c := (congrFun (V6_eq m c) main_v6).symm.trans ((V6_of m (outs m) c main_v6 (by decide)).trans <| ((Function.update_self _ _ _ : V5 m (outs m) c main_v6 = outs m 5 main_v6 c).trans (show outs m 5 main_v6 c = o2 m c from (show U5 m c main_v6 = o2 m c from Function.update_self _ _ _))))
  have eb0 : (UV6 m c main_v7 : S1x4096.Idx → EReal) = shapeCast S1x4096 (m ((c : Thread nD τ).loc main_arg10) : S4096.Idx → EReal) shapeCasts_S4096_S1x4096 := by
    refine (congrFun (V6_eq m c) main_v7).symm.trans ?_
    have hv : (V6 m (outs m) c main_v7 : S1x4096.Idx → EReal) = shapeCast S1x4096 (V5 m (outs m) c main_arg10 : S4096.Idx → EReal) shapeCasts_S4096_S1x4096 := by
      dsimp only [V6, hostOps3]; after_results; rfl
    rw [hv, show V5 m (outs m) c main_arg10 = m ((c : Thread nD τ).loc main_arg10) from (V5_of m (outs m) c main_arg10 (by decide)).trans <| (V4_of m (outs m) c main_arg10 (by decide)).trans <| (V3_of m (outs m) c main_arg10 (by decide)).trans <| (V2_of m (outs m) c main_arg10 (by decide)).trans <| (V1_of m c main_arg10 (by decide)).trans rfl]
  have eb1 : (UV6 m c main_v8 : S1x4096.Idx → EReal) = shapeCast S1x4096 (m ((c : Thread nD τ).loc main_arg11) : S4096.Idx → EReal) shapeCasts_S4096_S1x4096 := by
    refine (congrFun (V6_eq m c) main_v8).symm.trans ?_
    have hv : (V6 m (outs m) c main_v8 : S1x4096.Idx → EReal) = shapeCast S1x4096 (V5 m (outs m) c main_arg11 : S4096.Idx → EReal) shapeCasts_S4096_S1x4096 := by
      dsimp only [V6, hostOps3]; after_results; rfl
    rw [hv, show V5 m (outs m) c main_arg11 = m ((c : Thread nD τ).loc main_arg11) from (V5_of m (outs m) c main_arg11 (by decide)).trans <| (V4_of m (outs m) c main_arg11 (by decide)).trans <| (V3_of m (outs m) c main_arg11 (by decide)).trans <| (V2_of m (outs m) c main_arg11 (by decide)).trans <| (V1_of m c main_arg11 (by decide)).trans rfl]
  have eb2 : (UV6 m c main_v9 : S1x4096.Idx → EReal) = shapeCast S1x4096 (m ((c : Thread nD τ).loc main_arg12) : S4096.Idx → EReal) shapeCasts_S4096_S1x4096 := by
    refine (congrFun (V6_eq m c) main_v9).symm.trans ?_
    have hv : (V6 m (outs m) c main_v9 : S1x4096.Idx → EReal) = shapeCast S1x4096 (V5 m (outs m) c main_arg12 : S4096.Idx → EReal) shapeCasts_S4096_S1x4096 := by
      dsimp only [V6, hostOps3]; after_results; rfl
    rw [hv, show V5 m (outs m) c main_arg12 = m ((c : Thread nD τ).loc main_arg12) from (V5_of m (outs m) c main_arg12 (by decide)).trans <| (V4_of m (outs m) c main_arg12 (by decide)).trans <| (V3_of m (outs m) c main_arg12 (by decide)).trans <| (V2_of m (outs m) c main_arg12 (by decide)).trans <| (V1_of m c main_arg12 (by decide)).trans rfl]
  rw [ex, ea, eb0, eb1, eb2]
  show Cert.Spec.denseTanh _ _ (bvec3 _ _ _) = _
  rw [bvec3_rows]

/-- Region 5 leaves layer 2 of what it is entered with: the layer before, the sampled weight, the sampled bias. -/
theorem o5_eq : (o5 m c : _) = Cert.Spec.denseTanh (o3 m c) (o4 m c) (Cert.Spec.bias (m ((c : Thread nD τ).loc main_arg16) : Cert.Spec.Arr1 4096) (m ((c : Thread nD τ).loc main_arg17) : Cert.Spec.Arr1 4096) (m ((c : Thread nD τ).loc main_arg18) : Cert.Spec.Arr1 4096)) := by
  unfold o5
  rw [final5 (UV9 m) c]
  have ex : UV9 m c main_v10 = o3 m c := (congrFun (V9_eq m c) main_v10).symm.trans ((V9_of m (outs m) c main_v10 (by decide)).trans <| (V8_of m (outs m) c main_v10 (by decide)).trans <| ((Function.update_self _ _ _ : V7 m (outs m) c main_v10 = outs m 7 main_v10 c).trans (show outs m 7 main_v10 c = o3 m c from (show U7 m c main_v10 = o3 m c from Function.update_self _ _ _))))
  have ea : UV9 m c main_v11 = o4 m c := (congrFun (V9_eq m c) main_v11).symm.trans ((V9_of m (outs m) c main_v11 (by decide)).trans <| ((Function.update_self _ _ _ : V8 m (outs m) c main_v11 = outs m 8 main_v11 c).trans (show outs m 8 main_v11 c = o4 m c from (show U8 m c main_v11 = o4 m c from Function.update_self _ _ _))))
  have eb0 : (UV9 m c main_v12 : S1x4096.Idx → EReal) = shapeCast S1x4096 (m ((c : Thread nD τ).loc main_arg16) : S4096.Idx → EReal) shapeCasts_S4096_S1x4096 := by
    refine (congrFun (V9_eq m c) main_v12).symm.trans ?_
    have hv : (V9 m (outs m) c main_v12 : S1x4096.Idx → EReal) = shapeCast S1x4096 (V8 m (outs m) c main_arg16 : S4096.Idx → EReal) shapeCasts_S4096_S1x4096 := by
      dsimp only [V9, hostOps5]; after_results; rfl
    rw [hv, show V8 m (outs m) c main_arg16 = m ((c : Thread nD τ).loc main_arg16) from (V8_of m (outs m) c main_arg16 (by decide)).trans <| (V7_of m (outs m) c main_arg16 (by decide)).trans <| (V6_of m (outs m) c main_arg16 (by decide)).trans <| (V5_of m (outs m) c main_arg16 (by decide)).trans <| (V4_of m (outs m) c main_arg16 (by decide)).trans <| (V3_of m (outs m) c main_arg16 (by decide)).trans <| (V2_of m (outs m) c main_arg16 (by decide)).trans <| (V1_of m c main_arg16 (by decide)).trans rfl]
  have eb1 : (UV9 m c main_v13 : S1x4096.Idx → EReal) = shapeCast S1x4096 (m ((c : Thread nD τ).loc main_arg17) : S4096.Idx → EReal) shapeCasts_S4096_S1x4096 := by
    refine (congrFun (V9_eq m c) main_v13).symm.trans ?_
    have hv : (V9 m (outs m) c main_v13 : S1x4096.Idx → EReal) = shapeCast S1x4096 (V8 m (outs m) c main_arg17 : S4096.Idx → EReal) shapeCasts_S4096_S1x4096 := by
      dsimp only [V9, hostOps5]; after_results; rfl
    rw [hv, show V8 m (outs m) c main_arg17 = m ((c : Thread nD τ).loc main_arg17) from (V8_of m (outs m) c main_arg17 (by decide)).trans <| (V7_of m (outs m) c main_arg17 (by decide)).trans <| (V6_of m (outs m) c main_arg17 (by decide)).trans <| (V5_of m (outs m) c main_arg17 (by decide)).trans <| (V4_of m (outs m) c main_arg17 (by decide)).trans <| (V3_of m (outs m) c main_arg17 (by decide)).trans <| (V2_of m (outs m) c main_arg17 (by decide)).trans <| (V1_of m c main_arg17 (by decide)).trans rfl]
  have eb2 : (UV9 m c main_v14 : S1x4096.Idx → EReal) = shapeCast S1x4096 (m ((c : Thread nD τ).loc main_arg18) : S4096.Idx → EReal) shapeCasts_S4096_S1x4096 := by
    refine (congrFun (V9_eq m c) main_v14).symm.trans ?_
    have hv : (V9 m (outs m) c main_v14 : S1x4096.Idx → EReal) = shapeCast S1x4096 (V8 m (outs m) c main_arg18 : S4096.Idx → EReal) shapeCasts_S4096_S1x4096 := by
      dsimp only [V9, hostOps5]; after_results; rfl
    rw [hv, show V8 m (outs m) c main_arg18 = m ((c : Thread nD τ).loc main_arg18) from (V8_of m (outs m) c main_arg18 (by decide)).trans <| (V7_of m (outs m) c main_arg18 (by decide)).trans <| (V6_of m (outs m) c main_arg18 (by decide)).trans <| (V5_of m (outs m) c main_arg18 (by decide)).trans <| (V4_of m (outs m) c main_arg18 (by decide)).trans <| (V3_of m (outs m) c main_arg18 (by decide)).trans <| (V2_of m (outs m) c main_arg18 (by decide)).trans <| (V1_of m c main_arg18 (by decide)).trans rfl]
  rw [ex, ea, eb0, eb1, eb2]
  show Cert.Spec.denseTanh _ _ (bvec5 _ _ _) = _
  rw [bvec5_rows]

/-- Region 7 leaves layer 3 of what it is entered with: the layer before, the sampled weight, the sampled bias. -/
theorem o7_eq : (o7 m c : _) = Cert.Spec.dense (o5 m c) (o6 m c) (Cert.Spec.bias (m ((c : Thread nD τ).loc main_arg22) : Cert.Spec.Arr1 1024) (m ((c : Thread nD τ).loc main_arg23) : Cert.Spec.Arr1 1024) (m ((c : Thread nD τ).loc main_arg24) : Cert.Spec.Arr1 1024)) := by
  unfold o7
  rw [final7 (UV12 m) c]
  have ex : UV12 m c main_v15 = o5 m c := (congrFun (V12_eq m c) main_v15).symm.trans ((V12_of m (outs m) c main_v15 (by decide)).trans <| (V11_of m (outs m) c main_v15 (by decide)).trans <| ((Function.update_self _ _ _ : V10 m (outs m) c main_v15 = outs m 10 main_v15 c).trans (show outs m 10 main_v15 c = o5 m c from (show U10 m c main_v15 = o5 m c from Function.update_self _ _ _))))
  have ea : UV12 m c main_v16 = o6 m c := (congrFun (V12_eq m c) main_v16).symm.trans ((V12_of m (outs m) c main_v16 (by decide)).trans <| ((Function.update_self _ _ _ : V11 m (outs m) c main_v16 = outs m 11 main_v16 c).trans (show outs m 11 main_v16 c = o6 m c from (show U11 m c main_v16 = o6 m c from Function.update_self _ _ _))))
  have eb0 : (UV12 m c main_v17 : S1x1024.Idx → EReal) = shapeCast S1x1024 (m ((c : Thread nD τ).loc main_arg22) : S1024.Idx → EReal) shapeCasts_S1024_S1x1024 := by
    refine (congrFun (V12_eq m c) main_v17).symm.trans ?_
    have hv : (V12 m (outs m) c main_v17 : S1x1024.Idx → EReal) = shapeCast S1x1024 (V11 m (outs m) c main_arg22 : S1024.Idx → EReal) shapeCasts_S1024_S1x1024 := by
      dsimp only [V12, hostOps7]; after_results; rfl
    rw [hv, show V11 m (outs m) c main_arg22 = m ((c : Thread nD τ).loc main_arg22) from (V11_of m (outs m) c main_arg22 (by decide)).trans <| (V10_of m (outs m) c main_arg22 (by decide)).trans <| (V9_of m (outs m) c main_arg22 (by decide)).trans <| (V8_of m (outs m) c main_arg22 (by decide)).trans <| (V7_of m (outs m) c main_arg22 (by decide)).trans <| (V6_of m (outs m) c main_arg22 (by decide)).trans <| (V5_of m (outs m) c main_arg22 (by decide)).trans <| (V4_of m (outs m) c main_arg22 (by decide)).trans <| (V3_of m (outs m) c main_arg22 (by decide)).trans <| (V2_of m (outs m) c main_arg22 (by decide)).trans <| (V1_of m c main_arg22 (by decide)).trans rfl]
  have eb1 : (UV12 m c main_v18 : S1x1024.Idx → EReal) = shapeCast S1x1024 (m ((c : Thread nD τ).loc main_arg23) : S1024.Idx → EReal) shapeCasts_S1024_S1x1024 := by
    refine (congrFun (V12_eq m c) main_v18).symm.trans ?_
    have hv : (V12 m (outs m) c main_v18 : S1x1024.Idx → EReal) = shapeCast S1x1024 (V11 m (outs m) c main_arg23 : S1024.Idx → EReal) shapeCasts_S1024_S1x1024 := by
      dsimp only [V12, hostOps7]; after_results; rfl
    rw [hv, show V11 m (outs m) c main_arg23 = m ((c : Thread nD τ).loc main_arg23) from (V11_of m (outs m) c main_arg23 (by decide)).trans <| (V10_of m (outs m) c main_arg23 (by decide)).trans <| (V9_of m (outs m) c main_arg23 (by decide)).trans <| (V8_of m (outs m) c main_arg23 (by decide)).trans <| (V7_of m (outs m) c main_arg23 (by decide)).trans <| (V6_of m (outs m) c main_arg23 (by decide)).trans <| (V5_of m (outs m) c main_arg23 (by decide)).trans <| (V4_of m (outs m) c main_arg23 (by decide)).trans <| (V3_of m (outs m) c main_arg23 (by decide)).trans <| (V2_of m (outs m) c main_arg23 (by decide)).trans <| (V1_of m c main_arg23 (by decide)).trans rfl]
  have eb2 : (UV12 m c main_v19 : S1x1024.Idx → EReal) = shapeCast S1x1024 (m ((c : Thread nD τ).loc main_arg24) : S1024.Idx → EReal) shapeCasts_S1024_S1x1024 := by
    refine (congrFun (V12_eq m c) main_v19).symm.trans ?_
    have hv : (V12 m (outs m) c main_v19 : S1x1024.Idx → EReal) = shapeCast S1x1024 (V11 m (outs m) c main_arg24 : S1024.Idx → EReal) shapeCasts_S1024_S1x1024 := by
      dsimp only [V12, hostOps7]; after_results; rfl
    rw [hv, show V11 m (outs m) c main_arg24 = m ((c : Thread nD τ).loc main_arg24) from (V11_of m (outs m) c main_arg24 (by decide)).trans <| (V10_of m (outs m) c main_arg24 (by decide)).trans <| (V9_of m (outs m) c main_arg24 (by decide)).trans <| (V8_of m (outs m) c main_arg24 (by decide)).trans <| (V7_of m (outs m) c main_arg24 (by decide)).trans <| (V6_of m (outs m) c main_arg24 (by decide)).trans <| (V5_of m (outs m) c main_arg24 (by decide)).trans <| (V4_of m (outs m) c main_arg24 (by decide)).trans <| (V3_of m (outs m) c main_arg24 (by decide)).trans <| (V2_of m (outs m) c main_arg24 (by decide)).trans <| (V1_of m c main_arg24 (by decide)).trans rfl]
  rw [ex, ea, eb0, eb1, eb2]
  show Cert.Spec.dense _ _ (bvec7 _ _ _) = _
  rw [bvec7_rows]

/-- THE RESULT ARRAY: the network of the 25 argument arrays. -/
theorem o7_mlp : (o7 m c : Cert.Spec.Arr2 8192 1024) = Cert.Spec.mlp (m ((c : Thread nD τ).loc main_arg0) : Cert.Spec.Arr2 8192 1024) (m ((c : Thread nD τ).loc main_arg1) : Cert.Spec.Arr2 4096 1024) (m ((c : Thread nD τ).loc main_arg2) : Cert.Spec.Arr2 4096 1024) (m ((c : Thread nD τ).loc main_arg3) : Cert.Spec.Arr2 4096 1024) (m ((c : Thread nD τ).loc main_arg4) : Cert.Spec.Arr1 4096) (m ((c : Thread nD τ).loc main_arg5) : Cert.Spec.Arr1 4096) (m ((c : Thread nD τ).loc main_arg6) : Cert.Spec.Arr1 4096) (m ((c : Thread nD τ).loc main_arg7) : Cert.Spec.Arr2 4096 4096) (m ((c : Thread nD τ).loc main_arg8) : Cert.Spec.Arr2 4096 4096) (m ((c : Thread nD τ).loc main_arg9) : Cert.Spec.Arr2 4096 4096) (m ((c : Thread nD τ).loc main_arg10) : Cert.Spec.Arr1 4096) (m ((c : Thread nD τ).loc main_arg11) : Cert.Spec.Arr1 4096) (m ((c : Thread nD τ).loc main_arg12) : Cert.Spec.Arr1 4096) (m ((c : Thread nD τ).loc main_arg13) : Cert.Spec.Arr2 4096 4096) (m ((c : Thread nD τ).loc main_arg14) : Cert.Spec.Arr2 4096 4096) (m ((c : Thread nD τ).loc main_arg15) : Cert.Spec.Arr2 4096 4096) (m ((c : Thread nD τ).loc main_arg16) : Cert.Spec.Arr1 4096) (m ((c : Thread nD τ).loc main_arg17) : Cert.Spec.Arr1 4096) (m ((c : Thread nD τ).loc main_arg18) : Cert.Spec.Arr1 4096) (m ((c : Thread nD τ).loc main_arg19) : Cert.Spec.Arr2 1024 4096) (m ((c : Thread nD τ).loc main_arg20) : Cert.Spec.Arr2 1024 4096) (m ((c : Thread nD τ).loc main_arg21) : Cert.Spec.Arr2 1024 4096) (m ((c : Thread nD τ).loc main_arg22) : Cert.Spec.Arr1 1024) (m ((c : Thread nD τ).loc main_arg23) : Cert.Spec.Arr1 1024) (m ((c : Thread nD τ).loc main_arg24) : Cert.Spec.Arr1 1024) := by
  rw [o7_eq, o5_eq, o3_eq, o1_eq, o0_eq, o2_eq, o4_eq, o6_eq]
  rfl

/-- THE KERNEL'S RUN, read: every weakly fair execution terminates with the result array at the network of the argument
    arrays, the arguments unchanged. -/
theorem kernel_run (ρ : Dev nD → PrngReg) : θ_run defs (onTc (τ := τ) (main (F := Ideal))) ⟨m, fun _ => 0, ρ⟩ (fun r => ∀ c : Dev nD,
      r.2.mem ((c.tc : Thread nD τ).loc main_v20) = Cert.Spec.mlp (m ((c : Thread nD τ).loc main_arg0) : Cert.Spec.Arr2 8192 1024) (m ((c : Thread nD τ).loc main_arg1) : Cert.Spec.Arr2 4096 1024) (m ((c : Thread nD τ).loc main_arg2) : Cert.Spec.Arr2 4096 1024) (m ((c : Thread nD τ).loc main_arg3) : Cert.Spec.Arr2 4096 1024) (m ((c : Thread nD τ).loc main_arg4) : Cert.Spec.Arr1 4096) (m ((c : Thread nD τ).loc main_arg5) : Cert.Spec.Arr1 4096) (m ((c : Thread nD τ).loc main_arg6) : Cert.Spec.Arr1 4096) (m ((c : Thread nD τ).loc main_arg7) : Cert.Spec.Arr2 4096 4096) (m ((c : Thread nD τ).loc main_arg8) : Cert.Spec.Arr2 4096 4096) (m ((c : Thread nD τ).loc main_arg9) : Cert.Spec.Arr2 4096 4096) (m ((c : Thread nD τ).loc main_arg10) : Cert.Spec.Arr1 4096) (m ((c : Thread nD τ).loc main_arg11) : Cert.Spec.Arr1 4096) (m ((c : Thread nD τ).loc main_arg12) : Cert.Spec.Arr1 4096) (m ((c : Thread nD τ).loc main_arg13) : Cert.Spec.Arr2 4096 4096) (m ((c : Thread nD τ).loc main_arg14) : Cert.Spec.Arr2 4096 4096) (m ((c : Thread nD τ).loc main_arg15) : Cert.Spec.Arr2 4096 4096) (m ((c : Thread nD τ).loc main_arg16) : Cert.Spec.Arr1 4096) (m ((c : Thread nD τ).loc main_arg17) : Cert.Spec.Arr1 4096) (m ((c : Thread nD τ).loc main_arg18) : Cert.Spec.Arr1 4096) (m ((c : Thread nD τ).loc main_arg19) : Cert.Spec.Arr2 1024 4096) (m ((c : Thread nD τ).loc main_arg20) : Cert.Spec.Arr2 1024 4096) (m ((c : Thread nD τ).loc main_arg21) : Cert.Spec.Arr2 1024 4096) (m ((c : Thread nD τ).loc main_arg22) : Cert.Spec.Arr1 1024) (m ((c : Thread nD τ).loc main_arg23) : Cert.Spec.Arr1 1024) (m ((c : Thread nD τ).loc main_arg24) : Cert.Spec.Arr1 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c).1.trans (o7_mlp m c), (h c).2⟩) (result m ρ)

end Cert.KernelIdeal.Val

end
-- ==== Proof.RefValue.lean ====
/-
  The reference program computes the specification.

  Each call of the softplus function, read at an element, is `sp` of that element (its guard `x - 0 ≠ x - 0` is
  never taken on the extended reals). Each weight stage `μ + softplus(σ) · ζ` is the specification's sampled weight,
  each bias stage its sampled bias. Each layer — transpose the weight, contract the input's second axis with the
  transposed weight's first, add the bias broadcast along the rows, and for the first three layers take `tanh` — is
  the specification's layer: at the index `(r, o)` the contraction is `∑ k, h(r, k) · W(o, k)`, the transposed
  weight at `(k, o)` being the weight at `(o, k)`, and the broadcast bias at `(r, o)` is the bias at `o`. Composing
  the four layers gives the whole network.
-/
import proofs.«102610_j70265664962762_2_alg».proof.Proof.Gen.ReferenceIdeal.Read
import proofs.«102610_j70265664962762_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## The softplus calls, read at an element -/

/-- The softplus call on argument 2, at an element, is `sp` of that element. -/
theorem softplus0 (x2 : (⟨S4096x1024, .f32⟩ : BufTy).Contents (Elt Ideal)) (i : S4096x1024.Idx) :
    val_main_v0 (F := Ideal) x2 i = sp (x2 i) := by
  simp only [val_main_v0_apply, val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply, val_main_call0_v2_apply, val_main_call0_v5_apply,
    val_main_call0_cst_apply]
  exact sp_host _

/-- The softplus call on argument 5, at an element, is `sp` of that element. -/
theorem softplus1 (x5 : (⟨S4096, .f32⟩ : BufTy).Contents (Elt Ideal)) (i : S4096.Idx) :
    val_main_v3 (F := Ideal) x5 i = sp (x5 i) := by
  simp only [val_main_v3_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply, val_main_call1_v2_apply, val_main_call1_v5_apply,
    val_main_call1_cst_apply]
  exact sp_host _

/-- The softplus call on argument 8, at an element, is `sp` of that element. -/
theorem softplus2 (x8 : (⟨S4096x4096, .f32⟩ : BufTy).Contents (Elt Ideal)) (i : S4096x4096.Idx) :
    val_main_v12 (F := Ideal) x8 i = sp (x8 i) := by
  simp only [val_main_v12_apply, val_main_call2_v4_apply, val_main_call2_v6_apply, val_main_call2_v11_apply, val_main_call2_v1_apply, val_main_call2_v10_apply,
    val_main_call2_v9_apply, val_main_call2_v8_apply, val_main_call2_v7_apply, val_main_call2_v3_apply, val_main_call2_v0_apply, val_main_call2_v2_apply, val_main_call2_v5_apply,
    val_main_call2_cst_apply]
  exact sp_host _

/-- The softplus call on argument 11, at an element, is `sp` of that element. -/
theorem softplus3 (x11 : (⟨S4096, .f32⟩ : BufTy).Contents (Elt Ideal)) (i : S4096.Idx) :
    val_main_v15 (F := Ideal) x11 i = sp (x11 i) := by
  simp only [val_main_v15_apply, val_main_call3_v4_apply, val_main_call3_v6_apply, val_main_call3_v11_apply, val_main_call3_v1_apply, val_main_call3_v10_apply,
    val_main_call3_v9_apply, val_main_call3_v8_apply, val_main_call3_v7_apply, val_main_call3_v3_apply, val_main_call3_v0_apply, val_main_call3_v2_apply, val_main_call3_v5_apply,
    val_main_call3_cst_apply]
  exact sp_host _

/-- The softplus call on argument 14, at an element, is `sp` of that element. -/
theorem softplus4 (x14 : (⟨S4096x4096, .f32⟩ : BufTy).Contents (Elt Ideal)) (i : S4096x4096.Idx) :
    val_main_v24 (F := Ideal) x14 i = sp (x14 i) := by
  simp only [val_main_v24_apply, val_main_call4_v4_apply, val_main_call4_v6_apply, val_main_call4_v11_apply, val_main_call4_v1_apply, val_main_call4_v10_apply,
    val_main_call4_v9_apply, val_main_call4_v8_apply, val_main_call4_v7_apply, val_main_call4_v3_apply, val_main_call4_v0_apply, val_main_call4_v2_apply, val_main_call4_v5_apply,
    val_main_call4_cst_apply]
  exact sp_host _

/-- The softplus call on argument 17, at an element, is `sp` of that element. -/
theorem softplus5 (x17 : (⟨S4096, .f32⟩ : BufTy).Contents (Elt Ideal)) (i : S4096.Idx) :
    val_main_v27 (F := Ideal) x17 i = sp (x17 i) := by
  simp only [val_main_v27_apply, val_main_call5_v4_apply, val_main_call5_v6_apply, val_main_call5_v11_apply, val_main_call5_v1_apply, val_main_call5_v10_apply,
    val_main_call5_v9_apply, val_main_call5_v8_apply, val_main_call5_v7_apply, val_main_call5_v3_apply, val_main_call5_v0_apply, val_main_call5_v2_apply, val_main_call5_v5_apply,
    val_main_call5_cst_apply]
  exact sp_host _

/-- The softplus call on argument 20, at an element, is `sp` of that element. -/
theorem softplus6 (x20 : (⟨S1024x4096, .f32⟩ : BufTy).Contents (Elt Ideal)) (i : S1024x4096.Idx) :
    val_main_v36 (F := Ideal) x20 i = sp (x20 i) := by
  simp only [val_main_v36_apply, val_main_call6_v4_apply, val_main_call6_v6_apply, val_main_call6_v11_apply, val_main_call6_v1_apply, val_main_call6_v10_apply,
    val_main_call6_v9_apply, val_main_call6_v8_apply, val_main_call6_v7_apply, val_main_call6_v3_apply, val_main_call6_v0_apply, val_main_call6_v2_apply, val_main_call6_v5_apply,
    val_main_call6_cst_apply]
  exact sp_host _

/-- The softplus call on argument 23, at an element, is `sp` of that element. -/
theorem softplus7 (x23 : (⟨S1024, .f32⟩ : BufTy).Contents (Elt Ideal)) (i : S1024.Idx) :
    val_main_v39 (F := Ideal) x23 i = sp (x23 i) := by
  simp only [val_main_v39_apply, val_main_call7_v4_apply, val_main_call7_v6_apply, val_main_call7_v11_apply, val_main_call7_v1_apply, val_main_call7_v10_apply,
    val_main_call7_v9_apply, val_main_call7_v8_apply, val_main_call7_v7_apply, val_main_call7_v3_apply, val_main_call7_v0_apply, val_main_call7_v2_apply, val_main_call7_v5_apply,
    val_main_call7_cst_apply]
  exact sp_host _

/-! ## The sampled weights and biases -/

/-- Layer 0's weight stage is the sampled weight. -/
theorem weight0 (x1 x2 x3 : (⟨S4096x1024, .f32⟩ : BufTy).Contents (Elt Ideal)) :
    val_main_v2 (F := Ideal) x1 x2 x3 = wt x1 x2 x3 := by
  funext i
  rw [val_main_v2_apply, val_main_v1_apply, softplus0]
  rfl

/-- Layer 1's weight stage is the sampled weight. -/
theorem weight1 (x7 x8 x9 : (⟨S4096x4096, .f32⟩ : BufTy).Contents (Elt Ideal)) :
    val_main_v14 (F := Ideal) x7 x8 x9 = wt x7 x8 x9 := by
  funext i
  rw [val_main_v14_apply, val_main_v13_apply, softplus2]
  rfl

/-- Layer 2's weight stage is the sampled weight. -/
theorem weight2 (x13 x14 x15 : (⟨S4096x4096, .f32⟩ : BufTy).Contents (Elt Ideal)) :
    val_main_v26 (F := Ideal) x13 x14 x15 = wt x13 x14 x15 := by
  funext i
  rw [val_main_v26_apply, val_main_v25_apply, softplus4]
  rfl

/-- Layer 3's weight stage is the sampled weight. -/
theorem weight3 (x19 x20 x21 : (⟨S1024x4096, .f32⟩ : BufTy).Contents (Elt Ideal)) :
    val_main_v38 (F := Ideal) x19 x20 x21 = wt x19 x20 x21 := by
  funext i
  rw [val_main_v38_apply, val_main_v37_apply, softplus6]
  rfl

/-- Layer 0's bias stage is the sampled bias. -/
theorem bias0 (x4 x5 x6 : (⟨S4096, .f32⟩ : BufTy).Contents (Elt Ideal)) :
    val_main_v5 (F := Ideal) x4 x5 x6 = bias x4 x5 x6 := by
  funext i
  rw [val_main_v5_apply, val_main_v4_apply, softplus1]
  rfl

/-- Layer 1's bias stage is the sampled bias. -/
theorem bias1 (x10 x11 x12 : (⟨S4096, .f32⟩ : BufTy).Contents (Elt Ideal)) :
    val_main_v17 (F := Ideal) x10 x11 x12 = bias x10 x11 x12 := by
  funext i
  rw [val_main_v17_apply, val_main_v16_apply, softplus3]
  rfl

/-- Layer 2's bias stage is the sampled bias. -/
theorem bias2 (x16 x17 x18 : (⟨S4096, .f32⟩ : BufTy).Contents (Elt Ideal)) :
    val_main_v29 (F := Ideal) x16 x17 x18 = bias x16 x17 x18 := by
  funext i
  rw [val_main_v29_apply, val_main_v28_apply, softplus5]
  rfl

/-- Layer 3's bias stage is the sampled bias. -/
theorem bias3 (x22 x23 x24 : (⟨S1024, .f32⟩ : BufTy).Contents (Elt Ideal)) :
    val_main_v41 (F := Ideal) x22 x23 x24 = bias x22 x23 x24 := by
  funext i
  rw [val_main_v41_apply, val_main_v40_apply, softplus7]
  rfl

/-! ## The layers -/

/-- Layer 0 of the reference — the contraction of its input with the transposed sampled weight, plus the bias
    broadcast along the rows, then `tanh` — is the specification's layer on the same input. -/
theorem layer0 (x0 : (⟨S8192x1024, .f32⟩ : BufTy).Contents (Elt Ideal)) (x1 x2 x3 : (⟨S4096x1024, .f32⟩ : BufTy).Contents (Elt Ideal)) (x4 x5 x6 : (⟨S4096, .f32⟩ : BufTy).Contents (Elt Ideal)) :
    val_main_v11 (F := Ideal) x0 x1 x2 x3 x4 x5 x6
      = denseTanh (B := 8192) (K := 1024) (N := 4096) x0 (wt x1 x2 x3) (bias x4 x5 x6) := by
  funext j
  obtain ⟨r, o, rfl⟩ : ∃ (r : Fin 8192) (o : Fin 4096), j = ix2 r o := ⟨j 0, j 1, eq_ix2 j⟩
  have hl : ∀ k : Fin 1024, lidx_main_v7 (ix2 r o) k = ix2 r k := fun k =>
    funext fun a => Fin.ext (by match a with | ⟨0, _⟩ => rfl | ⟨1, _⟩ => rfl)
  have hr : ∀ k : Fin 1024, idx_main_v6 (ridx_main_v7 (ix2 r o) k) = ix2 o k := fun k =>
    funext fun a => Fin.ext (by match a with | ⟨0, _⟩ => rfl | ⟨1, _⟩ => rfl)
  have hb : idx_main_v8 (idx_main_v9 (ix2 r o)) = ix1 o :=
    funext fun a => Fin.ext (by match a with | ⟨0, _⟩ => rfl)
  rw [val_main_v11_apply, val_main_v10_apply, val_main_v7_apply, val_main_v9_apply, val_main_v8_apply, denseTanh_apply, hb, bias0]
  simp only [val_main_v6_apply, hl, hr, weight0]
  rfl

/-- Layer 1 of the reference — the contraction of its input with the transposed sampled weight, plus the bias
    broadcast along the rows, then `tanh` — is the specification's layer on the same input. -/
theorem layer1 (x0 : (⟨S8192x1024, .f32⟩ : BufTy).Contents (Elt Ideal)) (x1 x2 x3 : (⟨S4096x1024, .f32⟩ : BufTy).Contents (Elt Ideal)) (x4 x5 x6 : (⟨S4096, .f32⟩ : BufTy).Contents (Elt Ideal)) (x7 x8 x9 : (⟨S4096x4096, .f32⟩ : BufTy).Contents (Elt Ideal)) (x10 x11 x12 : (⟨S4096, .f32⟩ : BufTy).Contents (Elt Ideal)) :
    val_main_v23 (F := Ideal) x0 x1 x2 x3 x4 x5 x6 x7 x8 x9 x10 x11 x12
      = denseTanh (B := 8192) (K := 4096) (N := 4096) (val_main_v11 (F := Ideal) x0 x1 x2 x3 x4 x5 x6) (wt x7 x8 x9) (bias x10 x11 x12) := by
  funext j
  obtain ⟨r, o, rfl⟩ : ∃ (r : Fin 8192) (o : Fin 4096), j = ix2 r o := ⟨j 0, j 1, eq_ix2 j⟩
  have hl : ∀ k : Fin 4096, lidx_main_v19 (ix2 r o) k = ix2 r k := fun k =>
    funext fun a => Fin.ext (by match a with | ⟨0, _⟩ => rfl | ⟨1, _⟩ => rfl)
  have hr : ∀ k : Fin 4096, idx_main_v18 (ridx_main_v19 (ix2 r o) k) = ix2 o k := fun k =>
    funext fun a => Fin.ext (by match a with | ⟨0, _⟩ => rfl | ⟨1, _⟩ => rfl)
  have hb : idx_main_v20 (idx_main_v21 (ix2 r o)) = ix1 o :=
    funext fun a => Fin.ext (by match a with | ⟨0, _⟩ => rfl)
  rw [val_main_v23_apply, val_main_v22_apply, val_main_v19_apply, val_main_v21_apply, val_main_v20_apply, denseTanh_apply, hb, bias1]
  simp only [val_main_v18_apply, hl, hr, weight1]
  rfl

/-- Layer 2 of the reference — the contraction of its input with the transposed sampled weight, plus the bias
    broadcast along the rows, then `tanh` — is the specification's layer on the same input. -/
theorem layer2 (x0 : (⟨S8192x1024, .f32⟩ : BufTy).Contents (Elt Ideal)) (x1 x2 x3 : (⟨S4096x1024, .f32⟩ : BufTy).Contents (Elt Ideal)) (x4 x5 x6 : (⟨S4096, .f32⟩ : BufTy).Contents (Elt Ideal)) (x7 x8 x9 : (⟨S4096x4096, .f32⟩ : BufTy).Contents (Elt Ideal)) (x10 x11 x12 : (⟨S4096, .f32⟩ : BufTy).Contents (Elt Ideal)) (x13 x14 x15 : (⟨S4096x4096, .f32⟩ : BufTy).Contents (Elt Ideal)) (x16 x17 x18 : (⟨S4096, .f32⟩ : BufTy).Contents (Elt Ideal)) :
    val_main_v35 (F := Ideal) x0 x1 x2 x3 x4 x5 x6 x7 x8 x9 x10 x11 x12 x13 x14 x15 x16 x17 x18
      = denseTanh (B := 8192) (K := 4096) (N := 4096) (val_main_v23 (F := Ideal) x0 x1 x2 x3 x4 x5 x6 x7 x8 x9 x10 x11 x12) (wt x13 x14 x15) (bias x16 x17 x18) := by
  funext j
  obtain ⟨r, o, rfl⟩ : ∃ (r : Fin 8192) (o : Fin 4096), j = ix2 r o := ⟨j 0, j 1, eq_ix2 j⟩
  have hl : ∀ k : Fin 4096, lidx_main_v31 (ix2 r o) k = ix2 r k := fun k =>
    funext fun a => Fin.ext (by match a with | ⟨0, _⟩ => rfl | ⟨1, _⟩ => rfl)
  have hr : ∀ k : Fin 4096, idx_main_v30 (ridx_main_v31 (ix2 r o) k) = ix2 o k := fun k =>
    funext fun a => Fin.ext (by match a with | ⟨0, _⟩ => rfl | ⟨1, _⟩ => rfl)
  have hb : idx_main_v32 (idx_main_v33 (ix2 r o)) = ix1 o :=
    funext fun a => Fin.ext (by match a with | ⟨0, _⟩ => rfl)
  rw [val_main_v35_apply, val_main_v34_apply, val_main_v31_apply, val_main_v33_apply, val_main_v32_apply, denseTanh_apply, hb, bias2]
  simp only [val_main_v30_apply, hl, hr, weight2]
  rfl

/-- Layer 3 of the reference — the contraction of its input with the transposed sampled weight, plus the bias
    broadcast along the rows — is the specification's layer on the same input. -/
theorem layer3 (x0 : (⟨S8192x1024, .f32⟩ : BufTy).Contents (Elt Ideal)) (x1 x2 x3 : (⟨S4096x1024, .f32⟩ : BufTy).Contents (Elt Ideal)) (x4 x5 x6 : (⟨S4096, .f32⟩ : BufTy).Contents (Elt Ideal)) (x7 x8 x9 : (⟨S4096x4096, .f32⟩ : BufTy).Contents (Elt Ideal)) (x10 x11 x12 : (⟨S4096, .f32⟩ : BufTy).Contents (Elt Ideal)) (x13 x14 x15 : (⟨S4096x4096, .f32⟩ : BufTy).Contents (Elt Ideal)) (x16 x17 x18 : (⟨S4096, .f32⟩ : BufTy).Contents (Elt Ideal)) (x19 x20 x21 : (⟨S1024x4096, .f32⟩ : BufTy).Contents (Elt Ideal)) (x22 x23 x24 : (⟨S1024, .f32⟩ : BufTy).Contents (Elt Ideal)) :
    val_main_v46 (F := Ideal) x0 x1 x2 x3 x4 x5 x6 x7 x8 x9 x10 x11 x12 x13 x14 x15 x16 x17 x18 x19 x20 x21 x22 x23 x24
      = dense (B := 8192) (K := 4096) (N := 1024) (val_main_v35 (F := Ideal) x0 x1 x2 x3 x4 x5 x6 x7 x8 x9 x10 x11 x12 x13 x14 x15 x16 x17 x18) (wt x19 x20 x21) (bias x22 x23 x24) := by
  funext j
  obtain ⟨r, o, rfl⟩ : ∃ (r : Fin 8192) (o : Fin 1024), j = ix2 r o := ⟨j 0, j 1, eq_ix2 j⟩
  have hl : ∀ k : Fin 4096, lidx_main_v43 (ix2 r o) k = ix2 r k := fun k =>
    funext fun a => Fin.ext (by match a with | ⟨0, _⟩ => rfl | ⟨1, _⟩ => rfl)
  have hr : ∀ k : Fin 4096, idx_main_v42 (ridx_main_v43 (ix2 r o) k) = ix2 o k := fun k =>
    funext fun a => Fin.ext (by match a with | ⟨0, _⟩ => rfl | ⟨1, _⟩ => rfl)
  have hb : idx_main_v44 (idx_main_v45 (ix2 r o)) = ix1 o :=
    funext fun a => Fin.ext (by match a with | ⟨0, _⟩ => rfl)
  rw [val_main_v46_apply, val_main_v43_apply, val_main_v45_apply, val_main_v44_apply, dense_apply, hb, bias3]
  simp only [val_main_v42_apply, hl, hr, weight3]
  rfl

/-! ## The network -/

/-- The reference's result stage is the specification's network of the twenty-five argument arrays. -/
theorem result_eq (x0 : (⟨S8192x1024, .f32⟩ : BufTy).Contents (Elt Ideal)) (x1 x2 x3 : (⟨S4096x1024, .f32⟩ : BufTy).Contents (Elt Ideal)) (x4 x5 x6 : (⟨S4096, .f32⟩ : BufTy).Contents (Elt Ideal)) (x7 x8 x9 : (⟨S4096x4096, .f32⟩ : BufTy).Contents (Elt Ideal)) (x10 x11 x12 : (⟨S4096, .f32⟩ : BufTy).Contents (Elt Ideal)) (x13 x14 x15 : (⟨S4096x4096, .f32⟩ : BufTy).Contents (Elt Ideal)) (x16 x17 x18 : (⟨S4096, .f32⟩ : BufTy).Contents (Elt Ideal)) (x19 x20 x21 : (⟨S1024x4096, .f32⟩ : BufTy).Contents (Elt Ideal)) (x22 x23 x24 : (⟨S1024, .f32⟩ : BufTy).Contents (Elt Ideal)) :
    val_main_v46 (F := Ideal) x0 x1 x2 x3 x4 x5 x6 x7 x8 x9 x10 x11 x12 x13 x14 x15 x16 x17 x18 x19 x20 x21 x22 x23 x24
      = mlp x0 x1 x2 x3 x4 x5 x6 x7 x8 x9 x10 x11 x12 x13 x14 x15 x16 x17 x18 x19 x20 x21 x22 x23 x24 := by
  rw [layer3, layer2, layer1, layer0]
  rfl

end Cert.ReferenceIdeal.RefValue

end
-- ==== Proof.RefClaims.lean ====
/-
  The reference program's two claims.

  Its frame: every weakly fair execution terminates without a fault and leaves the twenty-five argument arrays
  unchanged — the generated run with the result's conjunct dropped.

  Its value: every weakly fair execution ends with the result array equal to the specification's network
  `Cert.Spec.mlp` of the argument arrays it started from, and those arrays unchanged — the generated run, whose
  result term is the last stage, which is the specification (`RefValue.result_eq`). The same statement is given once
  more for a memory that agrees, argument by argument, with another program's memory: the result is then the network
  of that other memory's argument arrays, equal arrays having equal networks.
-/
import proofs.«102610_j70265664962762_2_alg».proof.Defs
import proofs.«102610_j70265664962762_2_alg».proof.Proof.Gen.ReferenceIdeal
import proofs.«102610_j70265664962762_2_alg».proof.Proof.Gen.Pre_finite_inputs
import proofs.«102610_j70265664962762_2_alg».proof.Proof.Gen.ReferenceIdeal.Run
import proofs.«102610_j70265664962762_2_alg».proof.Proof.Gen.ReferenceIdeal.Read
import proofs.«102610_j70265664962762_2_alg».proof.Proof.Spec
import proofs.«102610_j70265664962762_2_alg».proof.Proof.RefValue

noncomputable section

open Idealize.ShloMosaic Idealize.ShloMosaic.TcCoe Idealize.SL.Sem

namespace Cert.Proof.RefClaims

/-- The reference runs to the end, faults nowhere, and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

/-- From any memory, the reference ends with its result array equal to the specification's network of the argument
    arrays it started from, and with those arrays unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v46) =
        Cert.Spec.mlp
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22))
          (m' ((c.tc : Thread Cert.ReferenceIdeal.nD Cert.ReferenceIdeal.τ).loc Cert.ReferenceIdeal.main_arg23))
          (m' ((c.tc : Thread Cert.ReferenceIdeal.nD Cert.ReferenceIdeal.τ).loc Cert.ReferenceIdeal.main_arg24))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)) :=
  (θ_run Cert.ReferenceIdeal.defs _ _).mono
    (fun _ h c => ⟨(h c).1.trans ((Cert.ReferenceIdeal.Read.val_main_v46_eq (F := Ideal) m' c).trans
      (Cert.ReferenceIdeal.RefValue.result_eq _ _ _ _ _ _ _ _ _ _ _ _ _ _ _ _ _ _ _ _ _ _ _ _ _)), (h c).2⟩)
    (Cert.ReferenceIdeal.Value.run (F := Ideal) m' g')

/-- The network of equal argument arrays is the same array. -/
theorem mlp_congr {x0 y0 : Cert.Spec.Arr2 8192 1024} {x1 y1 : Cert.Spec.Arr2 4096 1024} {x2 y2 : Cert.Spec.Arr2 4096 1024} {x3 y3 : Cert.Spec.Arr2 4096 1024} {x4 y4 : Cert.Spec.Arr1 4096} {x5 y5 : Cert.Spec.Arr1 4096} {x6 y6 : Cert.Spec.Arr1 4096} {x7 y7 : Cert.Spec.Arr2 4096 4096} {x8 y8 : Cert.Spec.Arr2 4096 4096} {x9 y9 : Cert.Spec.Arr2 4096 4096} {x10 y10 : Cert.Spec.Arr1 4096} {x11 y11 : Cert.Spec.Arr1 4096} {x12 y12 : Cert.Spec.Arr1 4096} {x13 y13 : Cert.Spec.Arr2 4096 4096} {x14 y14 : Cert.Spec.Arr2 4096 4096} {x15 y15 : Cert.Spec.Arr2 4096 4096} {x16 y16 : Cert.Spec.Arr1 4096} {x17 y17 : Cert.Spec.Arr1 4096} {x18 y18 : Cert.Spec.Arr1 4096} {x19 y19 : Cert.Spec.Arr2 1024 4096} {x20 y20 : Cert.Spec.Arr2 1024 4096} {x21 y21 : Cert.Spec.Arr2 1024 4096} {x22 y22 : Cert.Spec.Arr1 1024} {x23 y23 : Cert.Spec.Arr1 1024} {x24 y24 : Cert.Spec.Arr1 1024}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) (e24 : x24 = y24) :
    Cert.Spec.mlp x0 x1 x2 x3 x4 x5 x6 x7 x8 x9 x10 x11 x12 x13 x14 x15 x16 x17 x18 x19 x20 x21 x22 x23 x24 = Cert.Spec.mlp y0 y1 y2 y3 y4 y5 y6 y7 y8 y9 y10 y11 y12 y13 y14 y15 y16 y17 y18 y19 y20 y21 y22 y23 y24 := by
  subst e0 e1 e2 e3 e4 e5 e6 e7 e8 e9 e10 e11 e12 e13 e14 e15 e16 e17 e18 e19 e20 e21 e22 e23 e24
  rfl

/-- From a memory that agrees on the twenty-five arguments with another program's memory `m`, the reference ends
    with its result array equal to the specification's network of `m`'s argument arrays, and with its own argument
    arrays unchanged. -/
theorem ref_run_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v46) =
        Cert.Spec.mlp
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21))
          (m ((c.tc : Thread Cert.KernelIdeal.nD Cert.KernelIdeal.τ).loc Cert.KernelIdeal.main_arg22))
          (m ((c.tc : Thread Cert.KernelIdeal.nD Cert.KernelIdeal.τ).loc Cert.KernelIdeal.main_arg23))
          (m ((c.tc : Thread Cert.KernelIdeal.nD Cert.KernelIdeal.τ).loc Cert.KernelIdeal.main_arg24))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)) :=
  (θ_run Cert.ReferenceIdeal.defs _ _).mono
    (fun _ h c => ⟨(h c).1.trans (by
      obtain ⟨h0, h1, h2, h3, h4, h5, h6, h7, h8, h9, h10, h11, h12, h13, h14, h15, h16, h17, h18, h19, h20, h21, h22, h23, h24⟩ := hagree c
      exact mlp_congr h0 h1 h2 h3 h4 h5 h6 h7 h8 h9 h10 h11 h12 h13 h14 h15 h16 h17 h18 h19 h20 h21 h22 h23 h24), (h c).2⟩)
    (ref_run m' g')

end Cert.Proof.RefClaims

end
-- ==== Proof.lean ====
/-
  A four-layer network with sampled weights and biases: per layer the weight is mean + softplus(spread) · noise entry by
  entry, the bias likewise, and the layer is h · Wᵀ + b, under tanh between layers. The kernel program runs it as eight
  grid regions — per layer a region that samples the weight block by block and a region that forms the product block by
  block, accumulating over the blocks of the contracted axis in a scratch accumulator and adding the sampled bias at the
  last block; the reference program as whole-array host operations.

  The claims. Each program runs to the end, faults nowhere and leaves its argument arrays unchanged: for the two kernel
  programs (the word-level one and its idealization, the same text read at two instances) by the library's several-regions launch theorem over
  one segment record per region (Proof/Segs.lean, Proof/Run.lean and their word-level twins); for the reference by its
  run. The idealization rewrote nothing, so it is preserved trivially. At the extended reals both programs end with the
  same result, element by element: the kernel's result array is the network of the argument arrays (Proof/Compose.lean:
  each region's final array is a layer of the arrays it is entered with; the blockwise accumulation
  ((((0 + S₀) + S₁) + S₂) + S₃) is the whole sum over the contracted axis because addition of extended reals is
  associative with 0 neutral — no finiteness of the inputs is used), and so is the reference's (Proof/RefValue.lean).
-/
import proofs.«102610_j70265664962762_2_alg».proof.Defs
import proofs.«102610_j70265664962762_2_alg».proof.Proof.Gen.Kernel
import proofs.«102610_j70265664962762_2_alg».proof.Proof.Gen.KernelIdeal
import proofs.«102610_j70265664962762_2_alg».proof.Proof.Gen.ReferenceIdeal
import proofs.«102610_j70265664962762_2_alg».proof.Proof.Gen.Pre_finite_inputs
import proofs.«102610_j70265664962762_2_alg».proof.Proof.KRun
import proofs.«102610_j70265664962762_2_alg».proof.Proof.Run
import proofs.«102610_j70265664962762_2_alg».proof.Proof.Compose
import proofs.«102610_j70265664962762_2_alg».proof.Proof.RefClaims
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Regs.frame (F := Bits) m ρ

/-- So does its idealization. -/
theorem frame_ki : Cert.frame_KernelIdeal := fun m ρ _ => Cert.KernelIdeal.Regs.frame (F := Ideal) m ρ

/-- At the extended reals, from memories agreeing on the arguments, both programs end at the network of the argument
    arrays. -/
theorem algebraic : Cert.algebraic_KernelIdeal_ReferenceIdeal := fun m g m' g' _ hagree =>
  ⟨fun c => Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    Cert.KernelIdeal.Val.kernel_run m g,
    Cert.Proof.RefClaims.ref_run_of_agree m m' g' hagree⟩

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
